-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S1024x256x256 : Shape := ⟨3, ![1024, 256, 256]⟩
abbrev S1024 : Shape := ⟨1, ![1024]⟩
abbrev S10000x64 : Shape := ⟨2, ![10000, 64]⟩
abbrev S256x64 : Shape := ⟨2, ![256, 64]⟩
abbrev S64 : Shape := ⟨1, ![64]⟩
abbrev S3x64x64 : Shape := ⟨3, ![3, 64, 64]⟩
abbrev S3x64 : Shape := ⟨2, ![3, 64]⟩
abbrev S_ : Shape := ⟨0, ![]⟩

class Facts : Prop where
  bcast_S_S1024x256x256 : S_.BroadcastsInDim S1024x256x256 (![] : Fin 0 → Fin S1024x256x256.rank)
  reducesTo_S1024x256x256_S_d0_1_2 : S1024x256x256.ReducesTo [0, 1, 2] S_
  h_S_ : 0 < S_.numel
  bcast_S_S10000x64 : S_.BroadcastsInDim S10000x64 (![] : Fin 0 → Fin S10000x64.rank)
  reducesTo_S10000x64_S_d0_1 : S10000x64.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part3 {F : FTy → Type} [FloatOps F] (main_arg13 : FVec F S64 .f32) (main_arg14 : FVec F S64 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg9 : FVec F S3x64x64 .f32) (main_arg10 : FVec F S3x64 .f32) (main_arg11 : FVec F S3x64x64 .f32) (main_arg12 : FVec F S3x64 .f32) (main_arg13 : FVec F S64 .f32) (main_arg14 : FVec F S64 .f32) (main_v33 : IVec S_ 1) : IVec S_ 1 :=
  let main_v34 : FVec F S3x64x64 .f32 := Host.absf main_arg9
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64 .f32 := Host.absf main_arg10
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x64x64 .f32 := Host.absf main_arg11
  let main_cst_16 : FVec F S_ .f32 := constant S_ .f32 0x7F800000#32
  let main_v45 : FVec F S3x64x64 .f32 := broadcastInDim S3x64x64 ![] bcast_S_S3x64x64 main_cst_16
  let main_v46 : IVec S3x64x64 1 := cmpf .olt main_v44 main_v45
  let main_c_17 : IVec S_ 1 := constantI S_ 1 1#1
  let main_v47 : IVec S_ 1 := (fun x v => Host.reduce IntOp.andi x v reducesTo_S3x64x64_S_d0_1_2 h_S_) main_v46 main_c_17
  let main_v48 : IVec S_ 1 := andi main_v43 main_v47
  let main_v49 : FVec F S3x64 .f32 := Host.absf main_arg12
  let main_cst_18 : FVec F S_ .f32 := constant S_ .f32 0x7F800000#32
  let main_v50 : FVec F S3x64 .f32 := broadcastInDim S3x64 ![] bcast_S_S3x64 main_cst_18
  fn_part3 (F := F) main_arg13 main_arg14 main_v48 main_v49 main_v50

def fn_part1 {F : FTy → Type} [FloatOps F] (main_arg6 : FVec F S64 .f32) (main_arg7 : FVec F S3x64x64 .f32) (main_arg8 : FVec F S3x64 .f32) (main_arg9 : FVec F S3x64x64 .f32) (main_arg10 : FVec F S3x64 .f32) (main_arg11 : FVec F S3x64x64 .f32) (main_arg12 : FVec F S3x64 .f32) (main_arg13 : FVec F S64 .f32) (main_arg14 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S3x64x64 .f32 := Host.absf main_arg7
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : IVec S1024x256 32) (main_arg1 : FVec F S1024x256x256 .f32) (main_arg2 : IVec S1024 32) (main_arg3 : FVec F S10000x64 .f32) (main_arg4 : FVec F S256x64 .f32) (main_arg5 : FVec F S64 .f32) (main_arg6 : FVec F S64 .f32) (main_arg7 : FVec F S3x64x64 .f32) (main_arg8 : FVec F S3x64 .f32) (main_arg9 : FVec F S3x64x64 .f32) (main_arg10 : FVec F S3x64 .f32) (main_arg11 : FVec F S3x64x64 .f32) (main_arg12 : FVec F S3x64 .f32) (main_arg13 : FVec F S64 .f32) (main_arg14 : FVec F S64 .f32) : IVec S_ 1 :=
  let main_v0 : FVec F S1024x256x256 .f32 := Host.absf main_arg1
  let main_cst : FVec F S_ .f32 := constant S_ .f32 0x7F800000#32
  let main_v1 : FVec F S1024x256x256 .f32 := broadcastInDim S1024x256x256 ![] bcast_S_S1024x256x256 main_cst
  let main_v2 : IVec S1024x256x256 1 := cmpf .olt main_v0 main_v1
  let main_c : IVec S_ 1 := constantI S_ 1 1#1
  let main_v3 : IVec S_ 1 := (fun x v => Host.reduce IntOp.andi x v reducesTo_S1024x256x256_S_d0_1_2 h_S_) main_v2 main_c
  let main_v4 : FVec F S10000x64 .f32 := Host.absf main_arg3
  let main_cst_0 : FVec F S_ .f32 := constant S_ .f32 0x7F800000#32
  let main_v5 : FVec F S10000x64 .f32 := broadcastInDim S10000x64 ![] bcast_S_S10000x64 main_cst_0
  let main_v6 : IVec S10000x64 1 := cmpf .olt main_v4 main_v5
  let main_c_1 : IVec S_ 1 := constantI S_ 1 1#1
  let main_v7 : IVec S_ 1 := (fun x v => Host.reduce IntOp.andi x v reducesTo_S10000x64_S_d0_1 h_S_) main_v6 main_c_1
  let main_v8 : IVec S_ 1 := andi main_v3 main_v7
  let main_v9 : FVec F S256x64 .f32 := Host.absf main_arg4
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_v13 main_v16
-- ==== Kernel.lean ====
abbrev S1024x256 : Shape := ⟨2, ![1024, 256]⟩
abbrev S1024x256x256 : Shape := ⟨3, ![1024, 256, 256]⟩
abbrev S1024 : Shape := ⟨1, ![1024]⟩
abbrev S10000x64 : Shape := ⟨2, ![10000, 64]⟩
abbrev S256x64 : Shape := ⟨2, ![256, 64]⟩
abbrev S64 : Shape := ⟨1, ![64]⟩
abbrev S3x64x64 : Shape := ⟨3, ![3, 64, 64]⟩
abbrev S3x64 : Shape := ⟨2, ![3, 64]⟩
abbrev S_ : Shape := ⟨0, ![]⟩
abbrev S1024x256x1 : Shape := ⟨3, ![1024, 256, 1]⟩
abbrev S1024x256x64 : Shape := ⟨3, ![1024, 256, 64]⟩
abbrev S1x256x64 : Shape := ⟨3, ![1, 256, 64]⟩
abbrev S3x64x384 : Shape := ⟨3, ![3, 64, 384]⟩
abbrev S3x384 : Shape := ⟨2, ![3, 384]⟩
abbrev S16x256x64 : Shape := ⟨3, ![16, 256, 64]⟩
abbrev S16x256x256 : Shape := ⟨3, ![16, 256, 256]⟩
abbrev S16x256 : Shape := ⟨2, ![16, 256]⟩
abbrev S16x256x1 : Shape := ⟨3, ![16, 256, 1]⟩
abbrev S1x1x64 : Shape := ⟨3, ![1, 1, 64]⟩
abbrev S1x64x384 : Shape := ⟨3, ![1, 64, 384]⟩
abbrev S64x384 : Shape := ⟨2, ![64, 384]⟩
abbrev S1x384 : Shape := ⟨2, ![1, 384]⟩
abbrev S384 : Shape := ⟨1, ![384]⟩
abbrev S4096x64 : Shape := ⟨2, ![4096, 64]⟩
abbrev S4096x384 : Shape := ⟨2, ![4096, 384]⟩
abbrev S16x256x384 : Shape := ⟨3, ![16, 256, 384]⟩
abbrev S1x1x384 : Shape := ⟨3, ![1, 1, 384]⟩

abbrev nBuf : Space → Nat
  | .hbm => 38
  | .vmem => 12
  | .smem => 0
  | _ => 0

abbrev bufTy : (tb : Table) → Fin (tcTables nBuf tb) → BufTy
  | .hbm, ⟨0, _⟩ => ⟨S1024x256, .i32⟩
  | .hbm, ⟨1, _⟩ => ⟨S1024x256x256, .f32⟩
  | .hbm, ⟨2, _⟩ => ⟨S1024, .i32⟩
  | .hbm, ⟨3, _⟩ => ⟨S10000x64, .f32⟩
  | .hbm, ⟨4, _⟩ => ⟨S256x64, .f32⟩
  | .hbm, ⟨5, _⟩ => ⟨S64, .f32⟩
  | .hbm, ⟨6, _⟩ => ⟨S64, .f32⟩
  | .hbm, ⟨7, _⟩ => ⟨S3x64x64, .f32⟩
  | .hbm, ⟨8, _⟩ => ⟨S3x64, .f32⟩
  | .hbm, ⟨9, _⟩ => ⟨S3x64x64, .f32⟩
  | .hbm, ⟨10, _⟩ => ⟨S3x64, .f32⟩
  | .hbm, ⟨11, _⟩ => ⟨S3x64x64, .f32⟩
  | .hbm, ⟨12, _⟩ => ⟨S3x64, .f32⟩
  | .hbm, ⟨13, _⟩ => ⟨S64, .f32⟩
  | .hbm, ⟨14, _⟩ => ⟨S64, .f32⟩
  | .hbm, ⟨15, _⟩ => ⟨S_, .i32⟩
  | .hbm, ⟨16, _⟩ => ⟨S1024x256, .i32⟩
  | .hbm, ⟨17, _⟩ => ⟨S1024x256, .i1⟩
  | .hbm, ⟨18, _⟩ => ⟨S_, .i32⟩
  | .hbm, ⟨19, _⟩ => ⟨S1024x256, .i32⟩
  | .hbm, ⟨20, _⟩ => ⟨S1024x256, .i32⟩
  | .hbm, ⟨21, _⟩ => ⟨S1024x256, .i32⟩
  | .hbm, ⟨22, _⟩ => ⟨S1024x256x1, .i32⟩
  | .hbm, ⟨23, _⟩ => ⟨S1024x256x64, .f32⟩
  | .hbm, ⟨24, _⟩ => ⟨S1x256x64, .f32⟩
  | .hbm, ⟨25, _⟩ => ⟨S1024x256x64, .f32⟩
  | .hbm, ⟨26, _⟩ => ⟨S1024x256x64, .f32⟩
  | .hbm, ⟨27, _⟩ => ⟨S1024x256x64, .bf16⟩
  | .hbm, ⟨28, _⟩ => ⟨S3x64x64, .f32⟩
  | .hbm, ⟨29, _⟩ => ⟨S3x64x64, .f32⟩
  | .hbm, ⟨30, _⟩ => ⟨S3x64x64, .f32⟩
  | .hbm, ⟨31, _⟩ => ⟨S_, .f32⟩
  | .hbm, ⟨32, _⟩ => ⟨S3x64x64, .f32⟩
  | .hbm, ⟨33, _⟩ => ⟨S3x64x384, .f32⟩
  | .hbm, ⟨34, _⟩ => ⟨S_, .f32⟩
  | .hbm, ⟨35, _⟩ => ⟨S3x64, .f32⟩
  | .hbm, ⟨36, _⟩ => ⟨S3x384, .f32⟩
  | .hbm, ⟨37, _⟩ => ⟨S1024x256x64, .f32⟩
  | .local _ .vmem, ⟨0, _⟩ => ⟨S16x256x64, .bf16⟩
  | .local _ .vmem, ⟨1, _⟩ => ⟨S16x256x64, .bf16⟩
  | .local _ .vmem, ⟨2, _⟩ => ⟨S16x256x256, .f32⟩
  | .local _ .vmem, ⟨3, _⟩ => ⟨S16x256x256, .f32⟩
  | .local _ .vmem, ⟨4, _⟩ => ⟨S64, .f32⟩
  | .local _ .vmem, ⟨5, _⟩ => ⟨S64, .f32⟩
  | .local _ .vmem, ⟨6, _⟩ => ⟨S3x64x384, .f32⟩
  | .local _ .vmem, ⟨7, _⟩ => ⟨S3x384, .f32⟩
  | .local _ .vmem, ⟨8, _⟩ => ⟨S64, .f32⟩
  | .local _ .vmem, ⟨9, _⟩ => ⟨S64, .f32⟩
  | .local _ .vmem, ⟨10, _⟩ => ⟨S16x256x64, .f32⟩
  | .local _ .vmem, ⟨11, _⟩ => ⟨S16x256x64, .f32⟩
  | _, _ => ⟨S1024x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S1024x256 : S_.BroadcastsInDim S1024x256 (![] : Fin 0 → Fin S1024x256.rank)
  bcast_S1024x256_S1024x256x1_0_1 : S1024x256.BroadcastsInDim S1024x256x1 (![0, 1] : Fin 2 → Fin S1024x256x1.rank)
  bcast_S256x64_S1x256x64_1_2 : S256x64.BroadcastsInDim S1x256x64 (![1, 2] : Fin 2 → Fin S1x256x64.rank)
  bcast_S1x256x64_S1024x256x64_0_1_2 : S1x256x64.BroadcastsInDim S1024x256x64 (![0, 1, 2] : Fin 3 → Fin S1024x256x64.rank)
  bitsLt_bf16_f32 : FTy.bits .bf16 < FTy.bits .f32
  transposes_S3x64x64_S3x64x64_0_2_1 : S3x64x64.Transposes [0, 2, 1] S3x64x64
  bcast_S_S3x64x64 : S_.BroadcastsInDim S3x64x64 (![] : Fin 0 → Fin S3x64x64.rank)
  concatenates_S3x64x64_S3x64x64_S3x64x64_S3x64x64_S3x64x64_S3x64x64_S3x64x384_d2 : Shape.Concatenates [S3x64x64, S3x64x64, S3x64x64, S3x64x64, S3x64x64, S3x64x64] S3x64x384 2
  bcast_S_S3x64 : S_.BroadcastsInDim S3x64 (![] : Fin 0 → Fin S3x64.rank)
  concatenates_S3x64_S3x64_S3x64_S3x64_S3x64_S3x64_S3x384_d1 : Shape.Concatenates [S3x64, S3x64, S3x64, S3x64, S3x64, S3x64] S3x384 1
  inb_S16x256x64_S16x256x64_0_0_0 : ∀ a, (![0, 0, 0] : Fin 3 → Nat) a + S16x256x64.size a ≤ S16x256x64.size a
  h_S16x256x64 : 0 < S16x256x64.numel
  shapeCasts_S16x256x64_S16x256x64 : S16x256x64.ShapeCasts S16x256x64
  inb_S64_S64_0 : ∀ a, (![0] : Fin 1 → Nat) a + S64.size a ≤ S64.size a
  h_S64 : 0 < S64.numel
  reduces_S16x256x64_S16x256 : S16x256x64.Reduces [2] S16x256
  shapeCasts_S16x256_S16x256x1 : S16x256.ShapeCasts S16x256x1
  broadcasts_S16x256x1_S16x256x64 : S16x256x1.Broadcasts S16x256x64
  shapeCasts_S64_S1x1x64 : S64.ShapeCasts S1x1x64
  broadcasts_S1x1x64_S16x256x64 : S1x1x64.Broadcasts S16x256x64
  inb_S3x64x384_S1x64x384_0_0_0 : ∀ a, (![0, 0, 0] : Fin 3 → Nat) a + S1x64x384.size a ≤ S3x64x384.size a
  h_S1x64x384 : 0 < S1x64x384.numel
  shapeCasts_S1x64x384_S64x384 : S1x64x384.ShapeCasts S64x384
  inb_S3x384_S1x384_0_0 : ∀ a, (![0, 0] : Fin 2 → Nat) a + S1x384.size a ≤ S3x384.size a
  h_S1x384 : 0 < S1x384.numel
  shapeCasts_S1x384_S384 : S1x384.ShapeCasts S384
  shapeCasts_S16x256x64_S4096x64 : S16x256x64.ShapeCasts S4096x64
  shapeCasts_S4096x384_S16x256x384 : S4096x384.ShapeCasts S16x256x384
  shapeCasts_S384_S1x1x384 : S384.ShapeCasts S1x1x384
  broadcasts_S1x1x384_S16x256x384 : S1x1x384.Broadcasts S16x256x384
  slices_S16x256x384_o0_0_0_S16x256x64 : S16x256x384.Slices ![0, 0, 0] S16x256x64
  slices_S16x256x384_o0_0_128_S16x256x64 : S16x256x384.Slices ![0, 0, 128] S16x256x64
  slices_S16x256x384_o0_0_256_S16x256x64 : S16x256x384.Slices ![0, 0, 256] S16x256x64
  inb_S16x256x256_S16x256x256_0_0_0 : ∀ a, (![0, 0, 0] : Fin 3 → Nat) a + S16x256x256.size a ≤ S16x256x256.size a
  h_S16x256x256 : 0 < S16x256x256.numel
  inb_S3x64x384_S1x64x384_1_0_0 : ∀ a, (![1, 0, 0] : Fin 3 → Nat) a + S1x64x384.size a ≤ S3x64x384.size a
  inb_S3x384_S1x384_1_0 : ∀ a, (![1, 0] : Fin 2 → Nat) a + S1x384.size a ≤ S3x384.size a
  inb_S3x64x384_S1x64x384_2_0_0 : ∀ a, (![2, 0, 0] : Fin 3 → Nat) a + S1x64x384.size a ≤ S3x64x384.size a
  inb_S3x384_S1x384_2_0 : ∀ a, (![2, 0] : Fin 2 → Nat) a + S1x384.size a ≤ S3x384.size a
  gather_S10000x64_S1024x256x1_S1024x256x64_2_0_n_n_0_2_164_wf : GatherDims.WF S10000x64 S1024x256x1 S1024x256x64 [2] [0] [] [0] [] 2 ![1, 64]
  dot_S4096x64_S64x384_S4096x384_1_0_0_1_n_n_wf : DotDims.WF S4096x64 S64x384 S4096x384 [1] [0] [0] [1] [] []
  dot_S16x256x64_S16x256x64_S16x256x256_2_2_1_1_0_0_wf : DotDims.WF S16x256x64 S16x256x64 S16x256x256 [2] [2] [1] [1] [0] [0]
  dot_S16x256x256_S16x256x64_S16x256x64_2_1_1_2_0_0_wf : DotDims.WF S16x256x256 S16x256x64 S16x256x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x64.size a ≤ S1024x256x64.size a
  hwx0_0 : ∀ i : grid0.Coords, EltTy.bits .bf16 = 32 ∨ (Rect.block (s := S1024x256x64) S16x256x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x256.size a ≤ S1024x256x256.size a
  hwx0_1 : ∀ i : grid0.Coords, EltTy.bits .f32 = 32 ∨ (Rect.block (s := S1024x256x256) S16x256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x64x384.size a ≤ S3x64x384.size a
  hwx0_4 : ∀ i : grid0.Coords, EltTy.bits .f32 = 32 ∨ (Rect.block (s := S3x64x384) S3x64x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x384.size a ≤ S3x384.size a
  hwx0_5 : ∀ i : grid0.Coords, EltTy.bits .f32 = 32 ∨ (Rect.block (s := S3x384) S3x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x256x64.size a ≤ S1024x256x64.size a
  hwx0_8 : ∀ i : grid0.Coords, EltTy.bits .f32 = 32 ∨ (Rect.block (s := S1024x256x64) S16x256x64.size (cc0_transform_8 i) (hinb0_8 i)).WholeWords (EltTy.packing .f32)

variable [Facts₀]

def gather_S10000x64_S1024x256x1_S1024x256x64_2_0_n_n_0_2_164 : GatherDims S10000x64 S1024x256x1 S1024x256x64 where
  offsetDims := [2]
  collapsedSliceDims := [0]
  operandBatchingDims := []
  startIndicesBatchingDims := []
  startIndexMap := [0]
  indexVectorDim := 2
  sliceSizes := ![1, 64]
  wf := gather_S10000x64_S1024x256x1_S1024x256x64_2_0_n_n_0_2_164_wf
def dot_S4096x64_S64x384_S4096x384_1_0_0_1_n_n : DotDims S4096x64 S64x384 S4096x384 where
  lhsContracting := [1]
  rhsContracting := [0]
  lhsNonContracting := [0]
  rhsNonContracting := [1]
  lhsBatch := []
  rhsBatch := []
  wf := dot_S4096x64_S64x384_S4096x384_1_0_0_1_n_n_wf
def dot_S16x256x64_S16x256x64_S16x256x256_2_2_1_1_0_0 : DotDims S16x256x64 S16x256x64 S16x256x256 where
  lhsContracting := [2]
  rhsContracting := [2]
  lhsNonContracting := [1]
  rhsNonContracting := [1]
  lhsBatch := [0]
  rhsBatch := [0]
  wf := dot_S16x256x64_S16x256x64_S16x256x256_2_2_1_1_0_0_wf
def dot_S16x256x256_S16x256x64_S16x256x64_2_1_1_2_0_0 : DotDims S16x256x256 S16x256x64 S16x256x64 where
  lhsContracting := [2]
  rhsContracting := [1]
  lhsNonContracting := [1]
  rhsNonContracting := [2]
  lhsBatch := [0]
  rhsBatch := [0]
  wf := dot_S16x256x256_S16x256x64_S16x256x64_2_1_1_2_0_0_wf

abbrev win0_0 : Pipeline.Window sig grid0 :=
  Pipeline.Window.ofSpec (Memref.whole main_v10) S16x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S3x64x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S3x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg13) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg14) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S16x256x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1024x256 : Shape := ⟨2, ![1024, 256]⟩
abbrev S1024x256x256 : Shape := ⟨3, ![1024, 256, 256]⟩
abbrev S1024 : Shape := ⟨1, ![1024]⟩
abbrev S10000x64 : Shape := ⟨2, ![10000, 64]⟩
abbrev S256x64 : Shape := ⟨2, ![256, 64]⟩
abbrev S64 : Shape := ⟨1, ![64]⟩
abbrev S3x64x64 : Shape := ⟨3, ![3, 64, 64]⟩
abbrev S3x64 : Shape := ⟨2, ![3, 64]⟩
abbrev S_ : Shape := ⟨0, ![]⟩
abbrev S1024x256x1 : Shape := ⟨3, ![1024, 256, 1]⟩
abbrev S1024x256x64 : Shape := ⟨3, ![1024, 256, 64]⟩
abbrev S1x256x64 : Shape := ⟨3, ![1, 256, 64]⟩
abbrev S1x1x64 : Shape := ⟨3, ![1, 1, 64]⟩
abbrev S1x64x64 : Shape := ⟨3, ![1, 64, 64]⟩
abbrev S64x64 : Shape := ⟨2, ![64, 64]⟩
abbrev S1x64 : Shape := ⟨2, ![1, 64]⟩

abbrev nBuf : Space → Nat
  | .hbm => 254
  | .vmem => 0
  | .smem => 0
  | _ => 0

abbrev hbmTy0_0 (i : Nat) : BufTy := match i % 128 with
  | 0 => ⟨S1024x256, .i32⟩
  | 1 => ⟨S1024x256x256, .f32⟩
  | 2 => ⟨S1024, .i32⟩
  | 3 => ⟨S10000x64, .f32⟩
  | 4 => ⟨S256x64, .f32⟩
  | 5 => ⟨S64, .f32⟩
  | 6 => ⟨S64, .f32⟩
  | 7 => ⟨S3x64x64, .f32⟩
  | 8 => ⟨S3x64, .f32⟩
  | 9 => ⟨S3x64x64, .f32⟩
  | 10 => ⟨S3x64, .f32⟩
  | 11 => ⟨S3x64x64, .f32⟩
  | 12 => ⟨S3x64, .f32⟩
  | 13 => ⟨S64, .f32⟩
  | 14 => ⟨S64, .f32⟩
  | 15 => ⟨S_, .i32⟩
  | 16 => ⟨S1024x256, .i32⟩
  | 17 => ⟨S1024x256, .i1⟩
  | 18 => ⟨S_, .i32⟩
  | 19 => ⟨S1024x256, .i32⟩
  | 20 => ⟨S1024x256, .i32⟩
  | 21 => ⟨S1024x256, .i32⟩
  | 22 => ⟨S1024x256x1, .i32⟩
  | 23 => ⟨S1024x256x64, .f32⟩
  | 24 => ⟨S1x256x64, .f32⟩
  | 25 => ⟨S1024x256x64, .f32⟩
  | 26 => ⟨S1024x256x64, .f32⟩
  | 27 => ⟨S_, .f32⟩
  | 28 => ⟨S1024x256, .f32⟩
  | 29 => ⟨S1024x256x1, .f32⟩
  | 30 => ⟨S_, .f32⟩
  | 31 => ⟨S1024x256x1, .f32⟩
  | 32 => ⟨S1024x256x1, .f32⟩
  | 33 => ⟨S1024x256x64, .f32⟩
  | 34 => ⟨S1024x256x64, .f32⟩
  | 35 => ⟨S1024x256x64, .f32⟩
  | 36 => ⟨S_, .f32⟩
  | 37 => ⟨S1024x256, .f32⟩
  | 38 => ⟨S1024x256x1, .f32⟩
  | 39 => ⟨S_, .f32⟩
  | 40 => ⟨S1024x256x1, .f32⟩
  | 41 => ⟨S1024x256x1, .f32⟩
  | 42 => ⟨S1024x256x64, .f32⟩
  | 43 => ⟨S1024x256x64, .f32⟩
  | 44 => ⟨S_, .f32⟩
  | 45 => ⟨S1024x256x1, .f32⟩
  | 46 => ⟨S1024x256x1, .f32⟩
  | 47 => ⟨S1024x256x1, .f32⟩
  | 48 => ⟨S1024x256x64, .f32⟩
  | 49 => ⟨S1024x256x64, .f32⟩
  | 50 => ⟨S1x1x64, .f32⟩
  | 51 => ⟨S1024x256x64, .f32⟩
  | 52 => ⟨S1024x256x64, .f32⟩
  | 53 => ⟨S1x1x64, .f32⟩
  | 54 => ⟨S1024x256x64, .f32⟩
  | 55 => ⟨S1024x256x64, .f32⟩
  | 56 => ⟨S1x64x64, .f32⟩
  | 57 => ⟨S64x64, .f32⟩
  | 58 => ⟨S1024x256x64, .f32⟩
  | 59 => ⟨S1x64, .f32⟩
  | 60 => ⟨S64, .f32⟩
  | 61 => ⟨S1x1x64, .f32⟩
  | 62 => ⟨S1024x256x64, .f32⟩
  | 63 => ⟨S1024x256x64, .f32⟩
  | 64 => ⟨S_, .f32⟩
  | 65 => ⟨S1024x256x64, .f32⟩
  | 66 => ⟨S1024x256x64, .f32⟩
  | 67 => ⟨S1x64x64, .f32⟩
  | 68 => ⟨S64x64, .f32⟩
  | 69 => ⟨S1024x256x64, .f32⟩
  | 70 => ⟨S1x64, .f32⟩
  | 71 => ⟨S64, .f32⟩
  | 72 => ⟨S1x1x64, .f32⟩
  | 73 => ⟨S1024x256x64, .f32⟩
  | 74 => ⟨S1024x256x64, .f32⟩
  | 75 => ⟨S_, .f32⟩
  | 76 => ⟨S1024x256x64, .f32⟩
  | 77 => ⟨S1024x256x64, .f32⟩
  | 78 => ⟨S1024x256x256, .f32⟩
  | 79 => ⟨S1024x256x256, .f32⟩
  | 80 => ⟨S1x64x64, .f32⟩
  | 81 => ⟨S64x64, .f32⟩
  | 82 => ⟨S1024x256x64, .f32⟩
  | 83 => ⟨S1x64, .f32⟩
  | 84 => ⟨S64, .f32⟩
  | 85 => ⟨S1x1x64, .f32⟩
  | 86 => ⟨S1024x256x64, .f32⟩
  | 87 => ⟨S1024x256x64, .f32⟩
  | 88 => ⟨S_, .f32⟩
  | 89 => ⟨S1024x256x64, .f32⟩
  | 90 => ⟨S1024x256x64, .f32⟩
  | 91 => ⟨S1024x256x64, .f32⟩
  | 92 => ⟨S_, .f32⟩
  | 93 => ⟨S1024x256, .f32⟩
  | 94 => ⟨S1024x256x1, .f32⟩
  | 95 => ⟨S_, .f32⟩
  | 96 => ⟨S1024x256x1, .f32⟩
  | 97 => ⟨S1024x256x1, .f32⟩
  | 98 => ⟨S1024x256x64, .f32⟩
  | 99 => ⟨S1024x256x64, .f32⟩
  | 100 => ⟨S1024x256x64, .f32⟩
  | 101 => ⟨S_, .f32⟩
  | 102 => ⟨S1024x256, .f32⟩
  | 103 => ⟨S1024x256x1, .f32⟩
  | 104 => ⟨S_, .f32⟩
  | 105 => ⟨S1024x256x1, .f32⟩
  | 106 => ⟨S1024x256x1, .f32⟩
  | 107 => ⟨S1024x256x64, .f32⟩
  | 108 => ⟨S1024x256x64, .f32⟩
  | 109 => ⟨S_, .f32⟩
  | 110 => ⟨S1024x256x1, .f32⟩
  | 111 => ⟨S1024x256x1, .f32⟩
  | 112 => ⟨S1024x256x1, .f32⟩
  | 113 => ⟨S1024x256x64, .f32⟩
  | 114 => ⟨S1024x256x64, .f32⟩
  | 115 => ⟨S1x1x64, .f32⟩
  | 116 => ⟨S1024x256x64, .f32⟩
  | 117 => ⟨S1024x256x64, .f32⟩
  | 118 => ⟨S1x1x64, .f32⟩
  | 119 => ⟨S1024x256x64, .f32⟩
  | 120 => ⟨S1024x256x64, .f32⟩
  | 121 => ⟨S1024x256x64, .f32⟩
  | 122 => ⟨S1x64x64, .f32⟩
  | 123 => ⟨S64x64, .f32⟩
  | 124 => ⟨S1024x256x64, .f32⟩
  | 125 => ⟨S1x64, .f32⟩
  | 126 => ⟨S64, .f32⟩
  | 127 => ⟨S1x1x64, .f32⟩
  | _ => ⟨S1024x256, .i32⟩

abbrev hbmTy0_1 (i : Nat) : BufTy := match i % 128 with
  | 0 => ⟨S1024x256x64, .f32⟩
  | 1 => ⟨S1024x256x64, .f32⟩
  | 2 => ⟨S_, .f32⟩
  | 3 => ⟨S1024x256x64, .f32⟩
  | 4 => ⟨S1024x256x64, .f32⟩
  | 5 => ⟨S1x64x64, .f32⟩
  | 6 => ⟨S64x64, .f32⟩
  | 7 => ⟨S1024x256x64, .f32⟩
  | 8 => ⟨S1x64, .f32⟩
  | 9 => ⟨S64, .f32⟩
  | 10 => ⟨S1x1x64, .f32⟩
  | 11 => ⟨S1024x256x64, .f32⟩
  | 12 => ⟨S1024x256x64, .f32⟩
  | 13 => ⟨S_, .f32⟩
  | 14 => ⟨S1024x256x64, .f32⟩
  | 15 => ⟨S1024x256x64, .f32⟩
  | 16 => ⟨S1024x256x256, .f32⟩
  | 17 => ⟨S1024x256x256, .f32⟩
  | 18 => ⟨S1x64x64, .f32⟩
  | 19 => ⟨S64x64, .f32⟩
  | 20 => ⟨S1024x256x64, .f32⟩
  | 21 => ⟨S1x64, .f32⟩
  | 22 => ⟨S64, .f32⟩
  | 23 => ⟨S1x1x64, .f32⟩
  | 24 => ⟨S1024x256x64, .f32⟩
  | 25 => ⟨S1024x256x64, .f32⟩
  | 26 => ⟨S_, .f32⟩
  | 27 => ⟨S1024x256x64, .f32⟩
  | 28 => ⟨S1024x256x64, .f32⟩
  | 29 => ⟨S1024x256x64, .f32⟩
  | 30 => ⟨S_, .f32⟩
  | 31 => ⟨S1024x256, .f32⟩
  | 32 => ⟨S1024x256x1, .f32⟩
  | 33 => ⟨S_, .f32⟩
  | 34 => ⟨S1024x256x1, .f32⟩
  | 35 => ⟨S1024x256x1, .f32⟩
  | 36 => ⟨S1024x256x64, .f32⟩
  | 37 => ⟨S1024x256x64, .f32⟩
  | 38 => ⟨S1024x256x64, .f32⟩
  | 39 => ⟨S_, .f32⟩
  | 40 => ⟨S1024x256, .f32⟩
  | 41 => ⟨S1024x256x1, .f32⟩
  | 42 => ⟨S_, .f32⟩
  | 43 => ⟨S1024x256x1, .f32⟩
  | 44 => ⟨S1024x256x1, .f32⟩
  | 45 => ⟨S1024x256x64, .f32⟩
  | 46 => ⟨S1024x256x64, .f32⟩
  | 47 => ⟨S_, .f32⟩
  | 48 => ⟨S1024x256x1, .f32⟩
  | 49 => ⟨S1024x256x1, .f32⟩
  | 50 => ⟨S1024x256x1, .f32⟩
  | 51 => ⟨S1024x256x64, .f32⟩
  | 52 => ⟨S1024x256x64, .f32⟩
  | 53 => ⟨S1x1x64, .f32⟩
  | 54 => ⟨S1024x256x64, .f32⟩
  | 55 => ⟨S1024x256x64, .f32⟩
  | 56 => ⟨S1x1x64, .f32⟩
  | 57 => ⟨S1024x256x64, .f32⟩
  | 58 => ⟨S1024x256x64, .f32⟩
  | 59 => ⟨S1024x256x64, .f32⟩
  | 60 => ⟨S1x64x64, .f32⟩
  | 61 => ⟨S64x64, .f32⟩
  | 62 => ⟨S1024x256x64, .f32⟩
  | 63 => ⟨S1x64, .f32⟩
  | 64 => ⟨S64, .f32⟩
  | 65 => ⟨S1x1x64, .f32⟩
  | 66 => ⟨S1024x256x64, .f32⟩
  | 67 => ⟨S1024x256x64, .f32⟩
  | 68 => ⟨S_, .f32⟩
  | 69 => ⟨S1024x256x64, .f32⟩
  | 70 => ⟨S1024x256x64, .f32⟩
  | 71 => ⟨S1x64x64, .f32⟩
  | 72 => ⟨S64x64, .f32⟩
  | 73 => ⟨S1024x256x64, .f32⟩
  | 74 => ⟨S1x64, .f32⟩
  | 75 => ⟨S64, .f32⟩
  | 76 => ⟨S1x1x64, .f32⟩
  | 77 => ⟨S1024x256x64, .f32⟩
  | 78 => ⟨S1024x256x64, .f32⟩
  | 79 => ⟨S_, .f32⟩
  | 80 => ⟨S1024x256x64, .f32⟩
  | 81 => ⟨S1024x256x64, .f32⟩
  | 82 => ⟨S1024x256x256, .f32⟩
  | 83 => ⟨S1024x256x256, .f32⟩
  | 84 => ⟨S1x64x64, .f32⟩
  | 85 => ⟨S64x64, .f32⟩
  | 86 => ⟨S1024x256x64, .f32⟩
  | 87 => ⟨S1x64, .f32⟩
  | 88 => ⟨S64, .f32⟩
  | 89 => ⟨S1x1x64, .f32⟩
  | 90 => ⟨S1024x256x64, .f32⟩
  | 91 => ⟨S1024x256x64, .f32⟩
  | 92 => ⟨S_, .f32⟩
  | 93 => ⟨S1024x256x64, .f32⟩
  | 94 => ⟨S1024x256x64, .f32⟩
  | 95 => ⟨S1024x256x64, .f32⟩
  | 96 => ⟨S_, .f32⟩
  | 97 => ⟨S1024x256, .f32⟩
  | 98 => ⟨S1024x256x1, .f32⟩
  | 99 => ⟨S_, .f32⟩
  | 100 => ⟨S1024x256x1, .f32⟩
  | 101 => ⟨S1024x256x1, .f32⟩
  | 102 => ⟨S1024x256x64, .f32⟩
  | 103 => ⟨S1024x256x64, .f32⟩
  | 104 => ⟨S1024x256x64, .f32⟩
  | 105 => ⟨S_, .f32⟩
  | 106 => ⟨S1024x256, .f32⟩
  | 107 => ⟨S1024x256x1, .f32⟩
  | 108 => ⟨S_, .f32⟩
  | 109 => ⟨S1024x256x1, .f32⟩
  | 110 => ⟨S1024x256x1, .f32⟩
  | 111 => ⟨S1024x256x64, .f32⟩
  | 112 => ⟨S1024x256x64, .f32⟩
  | 113 => ⟨S_, .f32⟩
  | 114 => ⟨S1024x256x1, .f32⟩
  | 115 => ⟨S1024x256x1, .f32⟩
  | 116 => ⟨S1024x256x1, .f32⟩
  | 117 => ⟨S1024x256x64, .f32⟩
  | 118 => ⟨S1024x256x64, .f32⟩
  | 119 => ⟨S1x1x64, .f32⟩
  | 120 => ⟨S1024x256x64, .f32⟩
  | 121 => ⟨S1024x256x64, .f32⟩
  | 122 => ⟨S1x1x64, .f32⟩
  | 123 => ⟨S1024x256x64, .f32⟩
  | 124 => ⟨S1024x256x64, .f32⟩
  | 125 => ⟨S1024x256x64, .f32⟩
  | _ => ⟨S1024x256, .i32⟩

abbrev hbmTy (i : Nat) : BufTy := match i / 128 with
  | 0 => hbmTy0_0 i
  | 1 => hbmTy0_1 i
  | _ => ⟨S1024x256, .i32⟩

abbrev bufTy : (tb : Table) → Fin (tcTables nBuf tb) → BufTy
  | .hbm, ⟨i, _⟩ => hbmTy i
  | _, _ => ⟨S1024x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_call0_cst : Ref sig .tc := ⟨.hbm, 64, rfl⟩
abbrev main_call0_v0 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call1_cst : Ref sig .tc := ⟨.hbm, 75, rfl⟩
abbrev main_call1_v0 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_call2_cst : Ref sig .tc := ⟨.hbm, 88, rfl⟩
abbrev main_call2_v0 : Ref sig .tc := ⟨.hbm, 89, rfl⟩
abbrev main_v62 : Ref sig .tc := ⟨.hbm, 90, rfl⟩
abbrev main_v63 : Ref sig .tc := ⟨.hbm, 91, rfl⟩
abbrev main_cst_5 : Ref sig .tc := ⟨.hbm, 92, rfl⟩
abbrev main_v64 : Ref sig .tc := ⟨.hbm, 93, rfl⟩
abbrev main_v65 : Ref sig .tc := ⟨.hbm, 94, rfl⟩
abbrev main_cst_6 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_7 : Ref sig .tc := ⟨.hbm, 101, rfl⟩
abbrev main_v71 : Ref sig .tc := ⟨.hbm, 102, rfl⟩
abbrev main_v72 : Ref sig .tc := ⟨.hbm, 103, rfl⟩
abbrev main_cst_8 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_9 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_call3_cst : Ref sig .tc := ⟨.hbm, 130, rfl⟩
abbrev main_call3_v0 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_call4_cst : Ref sig .tc := ⟨.hbm, 141, rfl⟩
abbrev main_call4_v0 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_call5_cst : Ref sig .tc := ⟨.hbm, 154, rfl⟩
abbrev main_call5_v0 : Ref sig .tc := ⟨.hbm, 155, rfl⟩
abbrev main_v117 : Ref sig .tc := ⟨.hbm, 156, rfl⟩
abbrev main_v118 : Ref sig .tc := ⟨.hbm, 157, rfl⟩
abbrev main_cst_10 : Ref sig .tc := ⟨.hbm, 158, rfl⟩
abbrev main_v119 : Ref sig .tc := ⟨.hbm, 159, rfl⟩
abbrev main_v120 : Ref sig .tc := ⟨.hbm, 160, rfl⟩
abbrev main_cst_11 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_cst_12 : Ref sig .tc := ⟨.hbm, 167, rfl⟩
abbrev main_v126 : Ref sig .tc := ⟨.hbm, 168, rfl⟩
abbrev main_v127 : Ref sig .tc := ⟨.hbm, 169, rfl⟩
abbrev main_cst_13 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_cst_14 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_call6_cst : Ref sig .tc := ⟨.hbm, 196, rfl⟩
abbrev main_call6_v0 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_call7_cst : Ref sig .tc := ⟨.hbm, 207, rfl⟩
abbrev main_call7_v0 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_call8_cst : Ref sig .tc := ⟨.hbm, 220, rfl⟩
abbrev main_call8_v0 : Ref sig .tc := ⟨.hbm, 221, rfl⟩
abbrev main_v172 : Ref sig .tc := ⟨.hbm, 222, rfl⟩
abbrev main_v173 : Ref sig .tc := ⟨.hbm, 223, rfl⟩
abbrev main_cst_15 : Ref sig .tc := ⟨.hbm, 224, rfl⟩
abbrev main_v174 : Ref sig .tc := ⟨.hbm, 225, rfl⟩
abbrev main_v175 : Ref sig .tc := ⟨.hbm, 226, rfl⟩
abbrev main_cst_16 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_cst_17 : Ref sig .tc := ⟨.hbm, 233, rfl⟩
abbrev main_v181 : Ref sig .tc := ⟨.hbm, 234, rfl⟩
abbrev main_v182 : Ref sig .tc := ⟨.hbm, 235, rfl⟩
abbrev main_cst_18 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_cst_19 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩

abbrev nD : Nat := 1
abbrev τ : Topo := Topo.v7x

variable {F : FTy → Type} [FloatOps F]

class Facts₀ : Prop where
  bcast_S_S1024x256 : S_.BroadcastsInDim S1024x256 (![] : Fin 0 → Fin S1024x256.rank)
  bcast_S1024x256_S1024x256x1_0_1 : S1024x256.BroadcastsInDim S1024x256x1 (![0, 1] : Fin 2 → Fin S1024x256x1.rank)
  bcast_S256x64_S1x256x64_1_2 : S256x64.BroadcastsInDim S1x256x64 (![1, 2] : Fin 2 → Fin S1x256x64.rank)
  bcast_S1x256x64_S1024x256x64_0_1_2 : S1x256x64.BroadcastsInDim S1024x256x64 (![0, 1, 2] : Fin 3 → Fin S1024x256x64.rank)
  reducesTo_S1024x256x64_S1024x256_d2 : S1024x256x64.ReducesTo [2] S1024x256
  h_S_ : 0 < S_.numel
  bcast_S_S1024x256x1 : S_.BroadcastsInDim S1024x256x1 (![] : Fin 0 → Fin S1024x256x1.rank)
  bcast_S1024x256x1_S1024x256x64_0_1_2 : S1024x256x1.BroadcastsInDim S1024x256x64 (![0, 1, 2] : Fin 3 → Fin S1024x256x64.rank)
  bcast_S64_S1x1x64_2 : S64.BroadcastsInDim S1x1x64 (![2] : Fin 1 → Fin S1x1x64.rank)
  bcast_S1x1x64_S1024x256x64_0_1_2 : S1x1x64.BroadcastsInDim S1024x256x64 (![0, 1, 2] : Fin 3 → Fin S1024x256x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S_S1024x256x64 : S_.BroadcastsInDim S1024x256x64 (![] : Fin 0 → Fin S1024x256x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  gather_S10000x64_S1024x256x1_S1024x256x64_2_0_n_n_0_2_164_wf : GatherDims.WF S10000x64 S1024x256x1 S1024x256x64 [2] [0] [] [0] [] 2 ![1, 64]
  dot_S1024x256x64_S64x64_S1024x256x64_2_1_01_0_n_n_wf : DotDims.WF S1024x256x64 S64x64 S1024x256x64 [2] [1] [0, 1] [0] [] []
  dot_S1024x256x64_S1024x256x64_S1024x256x256_2_2_1_1_0_0_wf : DotDims.WF S1024x256x64 S1024x256x64 S1024x256x256 [2] [2] [1] [1] [0] [0]
  dot_S1024x256x256_S1024x256x64_S1024x256x64_2_1_1_2_0_0_wf : DotDims.WF S1024x256x256 S1024x256x64 S1024x256x64 [2] [1] [1] [2] [0] [0]

variable [Facts₀]

def gather_S10000x64_S1024x256x1_S1024x256x64_2_0_n_n_0_2_164 : GatherDims S10000x64 S1024x256x1 S1024x256x64 where
  offsetDims := [2]
  collapsedSliceDims := [0]
  operandBatchingDims := []
  startIndicesBatchingDims := []
  startIndexMap := [0]
  indexVectorDim := 2
  sliceSizes := ![1, 64]
  wf := gather_S10000x64_S1024x256x1_S1024x256x64_2_0_n_n_0_2_164_wf
def dot_S1024x256x64_S64x64_S1024x256x64_2_1_01_0_n_n : DotDims S1024x256x64 S64x64 S1024x256x64 where
  lhsContracting := [2]
  rhsContracting := [1]
  lhsNonContracting := [0, 1]
  rhsNonContracting := [0]
  lhsBatch := []
  rhsBatch := []
  wf := dot_S1024x256x64_S64x64_S1024x256x64_2_1_01_0_n_n_wf
def dot_S1024x256x64_S1024x256x64_S1024x256x256_2_2_1_1_0_0 : DotDims S1024x256x64 S1024x256x64 S1024x256x256 where
  lhsContracting := [2]
  rhsContracting := [2]
  lhsNonContracting := [1]
  rhsNonContracting := [1]
  lhsBatch := [0]
  rhsBatch := [0]
  wf := dot_S1024x256x64_S1024x256x64_S1024x256x256_2_2_1_1_0_0_wf
def dot_S1024x256x256_S1024x256x64_S1024x256x64_2_1_1_2_0_0 : DotDims S1024x256x256 S1024x256x64 S1024x256x64 where
  lhsContracting := [2]
  rhsContracting := [1]
  lhsNonContracting := [1]
  rhsNonContracting := [2]
  lhsBatch := [0]
  rhsBatch := [0]
  wf := dot_S1024x256x256_S1024x256x64_S1024x256x64_2_1_1_2_0_0_wf

class Facts : Prop extends Facts₀ where

variable [Facts]
-- ==== Proof.RefRun.lean ====
/-
  The reference's run, its result read stage by stage.

  @main of the reference is 239 host operations in a straight line: the embedding stage (41 operations, ending in the
  normalised embeddings), then three layers of 66 operations each, every layer reading the stream the stage before it
  left and writing the next. The library's run of a straight line ends every execution with each buffer at the fold of
  the operations' results over the launch contents. That fold keeps each intermediate buffer ONCE. Read window by window
  — the embedding stage from the launch contents, each layer from buffers that hold the stream before it and the
  arguments — each window's last buffer is the next named stage of the reference (the stage definitions of the
  operation-by-operation reading), and no operation writes an argument. So every execution ends with the result buffer
  at the last stage of the arguments' launch contents, the arguments unchanged. (Expanding the fold into one term
  instead repeats each layer's input at every use, three layers deep; that term does not fit.)
  The operation list is @main's operations in order (`main_eq`).
-/
import proofs.«161215_j83726092468549_2_alg».proof.Proof.Gen.ReferenceIdeal
import proofs.«161215_j83726092468549_2_alg».proof.Proof.RefReadPatched
import Idealize.ShloMosaic.Lib.StableHlo.Run

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! ## @main's operations, in four windows -/

/-- The embedding stage: operations 1–41. -/
abbrev opsEmbed : List (HloOp τ sig (Elt F)) :=
  [ nullary main_c (constantI S_ 32 0#32),
    unary main_c main_v0 (broadcastInDim S1024x256 ![] bcast_S_S1024x256 : (⟨S_, .i32⟩ : BufTy).Contents (Elt F) → (⟨S1024x256, .i32⟩ : BufTy).Contents (Elt F)),
    binary main_arg0 main_v0 main_v1 (cmpi .slt : (⟨S1024x256, .i32⟩ : BufTy).Contents (Elt F) → (⟨S1024x256, .i32⟩ : BufTy).Contents (Elt F) → (⟨S1024x256, .i1⟩ : BufTy).Contents (Elt F)),
    nullary main_c_0 (constantI S_ 32 10000#32),
    unary main_c_0 main_v2 (broadcastInDim S1024x256 ![] bcast_S_S1024x256 : (⟨S_, .i32⟩ : BufTy).Contents (Elt F) → (⟨S1024x256, .i32⟩ : BufTy).Contents (Elt F)),
    binary main_arg0 main_v2 main_v3 (addi : (⟨S1024x256, .i32⟩ : BufTy).Contents (Elt F) → (⟨S1024x256, .i32⟩ : BufTy).Contents (Elt F) → (⟨S1024x256, .i32⟩ : BufTy).Contents (Elt F)),
    ternary main_v1 main_v3 main_arg0 main_v4 (select : (⟨S1024x256, .i1⟩ : BufTy).Contents (Elt F) → (⟨S1024x256, .i32⟩ : BufTy).Contents (Elt F) → (⟨S1024x256, .i32⟩ : BufTy).Contents (Elt F) → (⟨S1024x256, .i32⟩ : BufTy).Contents (Elt F)),
    unary main_v4 main_v5 (broadcastInDim S1024x256x1 ![0, 1] bcast_S1024x256_S1024x256x1_0_1 : (⟨S1024x256, .i32⟩ : BufTy).Contents (Elt F) → (⟨S1024x256x1, .i32⟩ : BufTy).Contents (Elt F)),
    binary main_arg3 main_v5 main_v6 ((fun x i => Host.gather gather_S10000x64_S1024x256x1_S1024x256x64_2_0_n_n_0_2_164 x i) : (⟨S10000x64, .f32⟩ : BufTy).Contents (Elt F) → (⟨S1024x256x1, .i32⟩ : BufTy).Contents (Elt F) → (⟨S1024x256x64, .f32⟩ : BufTy).Contents (Elt F)),
    unary main_arg4 main_v7 (broadcastInDim S1x256x64 ![1, 2] bcast_S256x64_S1x256x64_1_2 : (⟨S256x64, .f32⟩ : BufTy).Contents (Elt F) → (⟨S1x256x64, .f32⟩ : BufTy).Contents (Elt F)),
    unary main_v7 main_v8 (broadcastInDim S1024x256x64 ![0, 1, 2] bcast_S1x256x64_S1024x256x64_0_1_2 : (⟨S1x256x64, .f32⟩ : BufTy).Contents (Elt F) → (⟨S1024x256x64, .f32⟩ : BufTy).Contents (Elt F)),
    binary main_v6 main_v8 main_v9 (addf : (⟨S1024x256x64, .f32⟩ : BufTy).Contents (Elt F) → (⟨S1024x256x64, .f32⟩ : BufTy).Contents (Elt F) → (⟨S1024x256x64, .f32⟩ : BufTy).Contents (Elt F)),
    nullary main_cst (constant S_ .f32 0x00000000#32),
    binary main_v9 main_cst main_v10 ((fun x v => Host.reduceAdd x v reducesTo_S1024x256x64_S1024x256_d2 h_S_) : (⟨S1024x256x64, .f32⟩ : BufTy).Contents (Elt F) → (⟨S_, .f32⟩ : BufTy).Contents (Elt F) → (⟨S1024x256, .f32⟩ : BufTy).Contents (Elt F)),
    unary main_v10 main_v11 (broadcastInDim S1024x256x1 ![0, 1] bcast_S1024x256_S1024x256x1_0_1 : (⟨S1024x256, .f32⟩ : BufTy).Contents (Elt F) → (⟨S1024x256x1, .f32⟩ : BufTy).Contents (Elt F)),
    nullary main_cst_1 (constant S_ .f32 0x42800000#32),
    unary main_cst_1 main_v12 (broadcastInDim S1024x256x1 ![] bcast_S_S1024x256x1 : (⟨S_, .f32⟩ : BufTy).Contents (Elt F) → (⟨S1024x256x1, .f32⟩ : BufTy).Contents (Elt F)),
    binary main_v11 main_v12 main_v13 (Host.divf : (⟨S1024x256x1, .f32⟩ : BufTy).Contents (Elt F) → (⟨S1024x256x1, .f32⟩ : BufTy).Contents (Elt F) → (⟨S1024x256x1, .f32⟩ : BufTy).Contents (Elt F)),
    unary main_v13 main_v14 (broadcastInDim S1024x256x64 ![0, 1, 2] bcast_S1024x256x1_S1024x256x64_0_1_2 : (⟨S1024x256x1, .f32⟩ : BufTy).Contents (Elt F) → (⟨S1024x256x64, .f32⟩ : BufTy).Contents (Elt F)),
    binary main_v9 main_v14 main_v15 (subf : (⟨S1024x256x64, .f32⟩ : BufTy).Contents (Elt F) → (⟨S1024x256x64, .f32⟩ : BufTy).Contents (Elt F) → (⟨S1024x256x64, .f32⟩ : BufTy).Contents (Elt F)),
    binary main_v15 main_v15 main_v16 (mulf : (⟨S1024x256x64, .f32⟩ : BufTy).Contents (Elt F) → (⟨S1024x256x64, .f32⟩ : BufTy).Contents (Elt F) → (⟨S1024x256x64, .f32⟩ : BufTy).Contents (Elt F)),
    nullary main_cst_2 (constant S_ .f32 0x00000000#32),
    binary main_v16 main_cst_2 main_v17 ((fun x v => Host.reduceAdd x v reducesTo_S1024x256x64_S1024x256_d2 h_S_) : (⟨S1024x256x64, .f32⟩ : BufTy).Contents (Elt F) → (⟨S_, .f32⟩ : BufTy).Contents (Elt F) → (⟨S1024x256, .f32⟩ : BufTy).Contents (Elt F)),
    unary main_v17 main_v18 (broadcastInDim S1024x256x1 ![0, 1] bcast_S1024x256_S1024x256x1_0_1 : (⟨S1024x256, .f32⟩ : BufTy).Contents (Elt F) → (⟨S1024x256x1, .f32⟩ : BufTy).Contents (Elt F)),
    nullary main_cst_3 (constant S_ .f32 0x42800000#32),
    unary main_cst_3 main_v19 (broadcastInDim S1024x256x1 ![] bcast_S_S1024x256x1 : (⟨S_, .f32⟩ : BufTy).Contents (Elt F) → (⟨S1024x256x1, .f32⟩ : BufTy).Contents (Elt F)),
    binary main_v18 main_v19 main_v20 (Host.divf : (⟨S1024x256x1, .f32⟩ : BufTy).Contents (Elt F) → (⟨S1024x256x1, .f32⟩ : BufTy).Contents (Elt F) → (⟨S1024x256x1, .f32⟩ : BufTy).Contents (Elt F)),
    unary main_v13 main_v21 (broadcastInDim S1024x256x64 ![0, 1, 2] bcast_S1024x256x1_S1024x256x64_0_1_2 : (⟨S1024x256x1, .f32⟩ : BufTy).Contents (Elt F) → (⟨S1024x256x64, .f32⟩ : BufTy).Contents (Elt F)),
    binary main_v9 main_v21 main_v22 (subf : (⟨S1024x256x64, .f32⟩ : BufTy).Contents (Elt F) → (⟨S1024x256x64, .f32⟩ : BufTy).Contents (Elt F) → (⟨S1024x256x64, .f32⟩ : BufTy).Contents (Elt F)),
    nullary main_cst_4 (constant S_ .f32 0x358637BD#32),
    unary main_cst_4 main_v23 (broadcastInDim S1024x256x1 ![] bcast_S_S1024x256x1 : (⟨S_, .f32⟩ : BufTy).Contents (Elt F) → (⟨S1024x256x1, .f32⟩ : BufTy).Contents (Elt F)),
    binary main_v20 main_v23 main_v24 (addf : (⟨S1024x256x1, .f32⟩ : BufTy).Contents (Elt F) → (⟨S1024x256x1, .f32⟩ : BufTy).Contents (Elt F) → (⟨S1024x256x1, .f32⟩ : BufTy).Contents (Elt F)),
    unary main_v24 main_v25 (Host.rsqrt : (⟨S1024x256x1, .f32⟩ : BufTy).Contents (Elt F) → (⟨S1024x256x1, .f32⟩ : BufTy).Contents (Elt F)),
    unary main_v25 main_v26 (broadcastInDim S1024x256x64 ![0, 1, 2] bcast_S1024x256x1_S1024x256x64_0_1_2 : (⟨S1024x256x1, .f32⟩ : BufTy).Contents (Elt F) → (⟨S1024x256x64, .f32⟩ : BufTy).Contents (Elt F)),
    binary main_v22 main_v26 main_v27 (mulf : (⟨S1024x256x64, .f32⟩ : BufTy).Contents (Elt F) → (⟨S1024x256x64, .f32⟩ : BufTy).Contents (Elt F) → (⟨S1024x256x64, .f32⟩ : BufTy).Contents (Elt F)),
    unary main_arg5 main_v28 (broadcastInDim S1x1x64 ![2] bcast_S64_S1x1x64_2 : (⟨S64, .f32⟩ : BufTy).Contents (Elt F) → (⟨S1x1x64, .f32⟩ : BufTy).Contents (Elt F)),
    unary main_v28 main_v29 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v27 main_v29 main_v30 (mulf : (⟨S1024x256x64, .f32⟩ : BufTy).Contents (Elt F) → (⟨S1024x256x64, .f32⟩ : BufTy).Contents (Elt F) → (⟨S1024x256x64, .f32⟩ : BufTy).Contents (Elt F)),
    unary main_arg6 main_v31 (broadcastInDim S1x1x64 ![2] bcast_S64_S1x1x64_2 : (⟨S64, .f32⟩ : BufTy).Contents (Elt F) → (⟨S1x1x64, .f32⟩ : BufTy).Contents (Elt F)),
    unary main_v31 main_v32 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v30 main_v32 main_v33 (addf : (⟨S1024x256x64, .f32⟩ : BufTy).Contents (Elt F) → (⟨S1024x256x64, .f32⟩ : BufTy).Contents (Elt F) → (⟨S1024x256x64, .f32⟩ : BufTy).Contents (Elt F)) ]

/-- Layer 0: operations 42–107. -/
abbrev opsLayer0 : List (HloOp τ sig (Elt F)) :=
  [ unary main_arg7 main_v34 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v34 main_v35 rfl shapeCasts_S1x64x64_S64x64,
    binary main_v33 main_v35 main_v36 ((fun l r => Host.dotGeneral dot_S1024x256x64_S64x64_S1024x256x64_2_1_01_0_n_n none l r) : (⟨S1024x256x64, .f32⟩ : BufTy).Contents (Elt F) → (⟨S64x64, .f32⟩ : BufTy).Contents (Elt F) → (⟨S1024x256x64, .f32⟩ : BufTy).Contents (Elt F)),
    unary main_arg8 main_v37 ((extractStridedSlice S1x64 ![0, 0] · slices_S3x64_S1x64_0_0) : (⟨S3x64, .f32⟩ : BufTy).Contents (Elt F) → (⟨S1x64, .f32⟩ : BufTy).Contents (Elt F)),
    reshape main_v37 main_v38 rfl shapeCasts_S1x64_S64,
    unary main_v38 main_v39 (broadcastInDim S1x1x64 ![2] bcast_S64_S1x1x64_2 : (⟨S64, .f32⟩ : BufTy).Contents (Elt F) → (⟨S1x1x64, .f32⟩ : BufTy).Contents (Elt F)),
    unary main_v39 main_v40 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v36 main_v40 main_v41 (addf : (⟨S1024x256x64, .f32⟩ : BufTy).Contents (Elt F) → (⟨S1024x256x64, .f32⟩ : BufTy).Contents (Elt F) → (⟨S1024x256x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1024x256x64, .f32⟩) main_call0_v0) (broadcastInDim S1024x256x64 ![] bcast_S_S1024x256x64),
    TRef.binary (TRef.of (T := ⟨S1024x256x64, .f32⟩) main_v41) (TRef.of (T := ⟨S1024x256x64, .f32⟩) main_call0_v0) (TRef.of (T := ⟨S1024x256x64, .f32⟩) main_v42) maximumf,
    unary main_arg9 main_v43 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v43 main_v44 rfl shapeCasts_S1x64x64_S64x64,
    binary main_v33 main_v44 main_v45 ((fun l r => Host.dotGeneral dot_S1024x256x64_S64x64_S1024x256x64_2_1_01_0_n_n none l r) : (⟨S1024x256x64, .f32⟩ : BufTy).Contents (Elt F) → (⟨S64x64, .f32⟩ : BufTy).Contents (Elt F) → (⟨S1024x256x64, .f32⟩ : BufTy).Contents (Elt F)),
    unary main_arg10 main_v46 ((extractStridedSlice S1x64 ![0, 0] · slices_S3x64_S1x64_0_0) : (⟨S3x64, .f32⟩ : BufTy).Contents (Elt F) → (⟨S1x64, .f32⟩ : BufTy).Contents (Elt F)),
    reshape main_v46 main_v47 rfl shapeCasts_S1x64_S64,
    unary main_v47 main_v48 (broadcastInDim S1x1x64 ![2] bcast_S64_S1x1x64_2 : (⟨S64, .f32⟩ : BufTy).Contents (Elt F) → (⟨S1x1x64, .f32⟩ : BufTy).Contents (Elt F)),
    unary main_v48 main_v49 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v45 main_v49 main_v50 (addf : (⟨S1024x256x64, .f32⟩ : BufTy).Contents (Elt F) → (⟨S1024x256x64, .f32⟩ : BufTy).Contents (Elt F) → (⟨S1024x256x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1024x256x64, .f32⟩) main_call1_v0) (broadcastInDim S1024x256x64 ![] bcast_S_S1024x256x64),
    TRef.binary (TRef.of (T := ⟨S1024x256x64, .f32⟩) main_v50) (TRef.of (T := ⟨S1024x256x64, .f32⟩) main_call1_v0) (TRef.of (T := ⟨S1024x256x64, .f32⟩) main_v51) maximumf,
    binary main_v42 main_v51 main_v52 ((fun l r => Host.dotGeneral dot_S1024x256x64_S1024x256x64_S1024x256x256_2_2_1_1_0_0 none l r) : (⟨S1024x256x64, .f32⟩ : BufTy).Contents (Elt F) → (⟨S1024x256x64, .f32⟩ : BufTy).Contents (Elt F) → (⟨S1024x256x256, .f32⟩ : BufTy).Contents (Elt F)),
    binary main_v52 main_arg1 main_v53 (mulf : (⟨S1024x256x256, .f32⟩ : BufTy).Contents (Elt F) → (⟨S1024x256x256, .f32⟩ : BufTy).Contents (Elt F) → (⟨S1024x256x256, .f32⟩ : BufTy).Contents (Elt F)),
    unary main_arg11 main_v54 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v54 main_v55 rfl shapeCasts_S1x64x64_S64x64,
    binary main_v33 main_v55 main_v56 ((fun l r => Host.dotGeneral dot_S1024x256x64_S64x64_S1024x256x64_2_1_01_0_n_n none l r) : (⟨S1024x256x64, .f32⟩ : BufTy).Contents (Elt F) → (⟨S64x64, .f32⟩ : BufTy).Contents (Elt F) → (⟨S1024x256x64, .f32⟩ : BufTy).Contents (Elt F)),
    unary main_arg12 main_v57 ((extractStridedSlice S1x64 ![0, 0] · slices_S3x64_S1x64_0_0) : (⟨S3x64, .f32⟩ : BufTy).Contents (Elt F) → (⟨S1x64, .f32⟩ : BufTy).Contents (Elt F)),
    reshape main_v57 main_v58 rfl shapeCasts_S1x64_S64,
    unary main_v58 main_v59 (broadcastInDim S1x1x64 ![2] bcast_S64_S1x1x64_2 : (⟨S64, .f32⟩ : BufTy).Contents (Elt F) → (⟨S1x1x64, .f32⟩ : BufTy).Contents (Elt F)),
    unary main_v59 main_v60 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v56 main_v60 main_v61 (addf : (⟨S1024x256x64, .f32⟩ : BufTy).Contents (Elt F) → (⟨S1024x256x64, .f32⟩ : BufTy).Contents (Elt F) → (⟨S1024x256x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1024x256x64, .f32⟩) main_call2_v0) (broadcastInDim S1024x256x64 ![] bcast_S_S1024x256x64),
    TRef.binary (TRef.of (T := ⟨S1024x256x64, .f32⟩) main_v61) (TRef.of (T := ⟨S1024x256x64, .f32⟩) main_call2_v0) (TRef.of (T := ⟨S1024x256x64, .f32⟩) main_v62) maximumf,
    binary main_v53 main_v62 main_v63 ((fun l r => Host.dotGeneral dot_S1024x256x256_S1024x256x64_S1024x256x64_2_1_1_2_0_0 none l r) : (⟨S1024x256x256, .f32⟩ : BufTy).Contents (Elt F) → (⟨S1024x256x64, .f32⟩ : BufTy).Contents (Elt F) → (⟨S1024x256x64, .f32⟩ : BufTy).Contents (Elt F)),
    nullary main_cst_5 (constant S_ .f32 0x00000000#32),
    binary main_v63 main_cst_5 main_v64 ((fun x v => Host.reduceAdd x v reducesTo_S1024x256x64_S1024x256_d2 h_S_) : (⟨S1024x256x64, .f32⟩ : BufTy).Contents (Elt F) → (⟨S_, .f32⟩ : BufTy).Contents (Elt F) → (⟨S1024x256, .f32⟩ : BufTy).Contents (Elt F)),
    unary main_v64 main_v65 (broadcastInDim S1024x256x1 ![0, 1] bcast_S1024x256_S1024x256x1_0_1 : (⟨S1024x256, .f32⟩ : BufTy).Contents (Elt F) → (⟨S1024x256x1, .f32⟩ : BufTy).Contents (Elt F)),
    nullary main_cst_6 (constant S_ .f32 0x42800000#32),
    unary main_cst_6 main_v66 (broadcastInDim S1024x256x1 ![] bcast_S_S1024x256x1 : (⟨S_, .f32⟩ : BufTy).Contents (Elt F) → (⟨S1024x256x1, .f32⟩ : BufTy).Contents (Elt F)),
    binary main_v65 main_v66 main_v67 (Host.divf : (⟨S1024x256x1, .f32⟩ : BufTy).Contents (Elt F) → (⟨S1024x256x1, .f32⟩ : BufTy).Contents (Elt F) → (⟨S1024x256x1, .f32⟩ : BufTy).Contents (Elt F)),
    unary main_v67 main_v68 (broadcastInDim S1024x256x64 ![0, 1, 2] bcast_S1024x256x1_S1024x256x64_0_1_2 : (⟨S1024x256x1, .f32⟩ : BufTy).Contents (Elt F) → (⟨S1024x256x64, .f32⟩ : BufTy).Contents (Elt F)),
    binary main_v63 main_v68 main_v69 (subf : (⟨S1024x256x64, .f32⟩ : BufTy).Contents (Elt F) → (⟨S1024x256x64, .f32⟩ : BufTy).Contents (Elt F) → (⟨S1024x256x64, .f32⟩ : BufTy).Contents (Elt F)),
    binary main_v69 main_v69 main_v70 (mulf : (⟨S1024x256x64, .f32⟩ : BufTy).Contents (Elt F) → (⟨S1024x256x64, .f32⟩ : BufTy).Contents (Elt F) → (⟨S1024x256x64, .f32⟩ : BufTy).Contents (Elt F)),
    nullary main_cst_7 (constant S_ .f32 0x00000000#32),
    binary main_v70 main_cst_7 main_v71 ((fun x v => Host.reduceAdd x v reducesTo_S1024x256x64_S1024x256_d2 h_S_) : (⟨S1024x256x64, .f32⟩ : BufTy).Contents (Elt F) → (⟨S_, .f32⟩ : BufTy).Contents (Elt F) → (⟨S1024x256, .f32⟩ : BufTy).Contents (Elt F)),
    unary main_v71 main_v72 (broadcastInDim S1024x256x1 ![0, 1] bcast_S1024x256_S1024x256x1_0_1 : (⟨S1024x256, .f32⟩ : BufTy).Contents (Elt F) → (⟨S1024x256x1, .f32⟩ : BufTy).Contents (Elt F)),
    nullary main_cst_8 (constant S_ .f32 0x42800000#32),
    unary main_cst_8 main_v73 (broadcastInDim S1024x256x1 ![] bcast_S_S1024x256x1 : (⟨S_, .f32⟩ : BufTy).Contents (Elt F) → (⟨S1024x256x1, .f32⟩ : BufTy).Contents (Elt F)),
    binary main_v72 main_v73 main_v74 (Host.divf : (⟨S1024x256x1, .f32⟩ : BufTy).Contents (Elt F) → (⟨S1024x256x1, .f32⟩ : BufTy).Contents (Elt F) → (⟨S1024x256x1, .f32⟩ : BufTy).Contents (Elt F)),
    unary main_v67 main_v75 (broadcastInDim S1024x256x64 ![0, 1, 2] bcast_S1024x256x1_S1024x256x64_0_1_2 : (⟨S1024x256x1, .f32⟩ : BufTy).Contents (Elt F) → (⟨S1024x256x64, .f32⟩ : BufTy).Contents (Elt F)),
    binary main_v63 main_v75 main_v76 (subf : (⟨S1024x256x64, .f32⟩ : BufTy).Contents (Elt F) → (⟨S1024x256x64, .f32⟩ : BufTy).Contents (Elt F) → (⟨S1024x256x64, .f32⟩ : BufTy).Contents (Elt F)),
    nullary main_cst_9 (constant S_ .f32 0x358637BD#32),
    unary main_cst_9 main_v77 (broadcastInDim S1024x256x1 ![] bcast_S_S1024x256x1 : (⟨S_, .f32⟩ : BufTy).Contents (Elt F) → (⟨S1024x256x1, .f32⟩ : BufTy).Contents (Elt F)),
    binary main_v74 main_v77 main_v78 (addf : (⟨S1024x256x1, .f32⟩ : BufTy).Contents (Elt F) → (⟨S1024x256x1, .f32⟩ : BufTy).Contents (Elt F) → (⟨S1024x256x1, .f32⟩ : BufTy).Contents (Elt F)),
    unary main_v78 main_v79 (Host.rsqrt : (⟨S1024x256x1, .f32⟩ : BufTy).Contents (Elt F) → (⟨S1024x256x1, .f32⟩ : BufTy).Contents (Elt F)),
    unary main_v79 main_v80 (broadcastInDim S1024x256x64 ![0, 1, 2] bcast_S1024x256x1_S1024x256x64_0_1_2 : (⟨S1024x256x1, .f32⟩ : BufTy).Contents (Elt F) → (⟨S1024x256x64, .f32⟩ : BufTy).Contents (Elt F)),
    binary main_v76 main_v80 main_v81 (mulf : (⟨S1024x256x64, .f32⟩ : BufTy).Contents (Elt F) → (⟨S1024x256x64, .f32⟩ : BufTy).Contents (Elt F) → (⟨S1024x256x64, .f32⟩ : BufTy).Contents (Elt F)),
    unary main_arg13 main_v82 (broadcastInDim S1x1x64 ![2] bcast_S64_S1x1x64_2 : (⟨S64, .f32⟩ : BufTy).Contents (Elt F) → (⟨S1x1x64, .f32⟩ : BufTy).Contents (Elt F)),
    unary main_v82 main_v83 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v81 main_v83 main_v84 (mulf : (⟨S1024x256x64, .f32⟩ : BufTy).Contents (Elt F) → (⟨S1024x256x64, .f32⟩ : BufTy).Contents (Elt F) → (⟨S1024x256x64, .f32⟩ : BufTy).Contents (Elt F)),
    unary main_arg14 main_v85 (broadcastInDim S1x1x64 ![2] bcast_S64_S1x1x64_2 : (⟨S64, .f32⟩ : BufTy).Contents (Elt F) → (⟨S1x1x64, .f32⟩ : BufTy).Contents (Elt F)),
    unary main_v85 main_v86 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v84 main_v86 main_v87 (addf : (⟨S1024x256x64, .f32⟩ : BufTy).Contents (Elt F) → (⟨S1024x256x64, .f32⟩ : BufTy).Contents (Elt F) → (⟨S1024x256x64, .f32⟩ : BufTy).Contents (Elt F)),
    binary main_v33 main_v87 main_v88 (addf : (⟨S1024x256x64, .f32⟩ : BufTy).Contents (Elt F) → (⟨S1024x256x64, .f32⟩ : BufTy).Contents (Elt F) → (⟨S1024x256x64, .f32⟩ : BufTy).Contents (Elt F)) ]

/-- Layer 1: operations 108–173. -/
abbrev opsLayer1 : List (HloOp τ sig (Elt F)) :=
  [ unary main_arg7 main_v89 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v89 main_v90 rfl shapeCasts_S1x64x64_S64x64,
    binary main_v88 main_v90 main_v91 ((fun l r => Host.dotGeneral dot_S1024x256x64_S64x64_S1024x256x64_2_1_01_0_n_n none l r) : (⟨S1024x256x64, .f32⟩ : BufTy).Contents (Elt F) → (⟨S64x64, .f32⟩ : BufTy).Contents (Elt F) → (⟨S1024x256x64, .f32⟩ : BufTy).Contents (Elt F)),
    unary main_arg8 main_v92 ((extractStridedSlice S1x64 ![1, 0] · slices_S3x64_S1x64_1_0) : (⟨S3x64, .f32⟩ : BufTy).Contents (Elt F) → (⟨S1x64, .f32⟩ : BufTy).Contents (Elt F)),
    reshape main_v92 main_v93 rfl shapeCasts_S1x64_S64,
    unary main_v93 main_v94 (broadcastInDim S1x1x64 ![2] bcast_S64_S1x1x64_2 : (⟨S64, .f32⟩ : BufTy).Contents (Elt F) → (⟨S1x1x64, .f32⟩ : BufTy).Contents (Elt F)),
    unary main_v94 main_v95 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v91 main_v95 main_v96 (addf : (⟨S1024x256x64, .f32⟩ : BufTy).Contents (Elt F) → (⟨S1024x256x64, .f32⟩ : BufTy).Contents (Elt F) → (⟨S1024x256x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S1024x256x64, .f32⟩) main_call3_v0) (broadcastInDim S1024x256x64 ![] bcast_S_S1024x256x64),
    TRef.binary (TRef.of (T := ⟨S1024x256x64, .f32⟩) main_v96) (TRef.of (T := ⟨S1024x256x64, .f32⟩) main_call3_v0) (TRef.of (T := ⟨S1024x256x64, .f32⟩) main_v97) maximumf,
    unary main_arg9 main_v98 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v98 main_v99 rfl shapeCasts_S1x64x64_S64x64,
    binary main_v88 main_v99 main_v100 ((fun l r => Host.dotGeneral dot_S1024x256x64_S64x64_S1024x256x64_2_1_01_0_n_n none l r) : (⟨S1024x256x64, .f32⟩ : BufTy).Contents (Elt F) → (⟨S64x64, .f32⟩ : BufTy).Contents (Elt F) → (⟨S1024x256x64, .f32⟩ : BufTy).Contents (Elt F)),
    unary main_arg10 main_v101 ((extractStridedSlice S1x64 ![1, 0] · slices_S3x64_S1x64_1_0) : (⟨S3x64, .f32⟩ : BufTy).Contents (Elt F) → (⟨S1x64, .f32⟩ : BufTy).Contents (Elt F)),
    reshape main_v101 main_v102 rfl shapeCasts_S1x64_S64,
    unary main_v102 main_v103 (broadcastInDim S1x1x64 ![2] bcast_S64_S1x1x64_2 : (⟨S64, .f32⟩ : BufTy).Contents (Elt F) → (⟨S1x1x64, .f32⟩ : BufTy).Contents (Elt F)),
    unary main_v103 main_v104 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v100 main_v104 main_v105 (addf : (⟨S1024x256x64, .f32⟩ : BufTy).Contents (Elt F) → (⟨S1024x256x64, .f32⟩ : BufTy).Contents (Elt F) → (⟨S1024x256x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S1024x256x64, .f32⟩) main_call4_v0) (broadcastInDim S1024x256x64 ![] bcast_S_S1024x256x64),
    TRef.binary (TRef.of (T := ⟨S1024x256x64, .f32⟩) main_v105) (TRef.of (T := ⟨S1024x256x64, .f32⟩) main_call4_v0) (TRef.of (T := ⟨S1024x256x64, .f32⟩) main_v106) maximumf,
    binary main_v97 main_v106 main_v107 ((fun l r => Host.dotGeneral dot_S1024x256x64_S1024x256x64_S1024x256x256_2_2_1_1_0_0 none l r) : (⟨S1024x256x64, .f32⟩ : BufTy).Contents (Elt F) → (⟨S1024x256x64, .f32⟩ : BufTy).Contents (Elt F) → (⟨S1024x256x256, .f32⟩ : BufTy).Contents (Elt F)),
    binary main_v107 main_arg1 main_v108 (mulf : (⟨S1024x256x256, .f32⟩ : BufTy).Contents (Elt F) → (⟨S1024x256x256, .f32⟩ : BufTy).Contents (Elt F) → (⟨S1024x256x256, .f32⟩ : BufTy).Contents (Elt F)),
    unary main_arg11 main_v109 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v109 main_v110 rfl shapeCasts_S1x64x64_S64x64,
    binary main_v88 main_v110 main_v111 ((fun l r => Host.dotGeneral dot_S1024x256x64_S64x64_S1024x256x64_2_1_01_0_n_n none l r) : (⟨S1024x256x64, .f32⟩ : BufTy).Contents (Elt F) → (⟨S64x64, .f32⟩ : BufTy).Contents (Elt F) → (⟨S1024x256x64, .f32⟩ : BufTy).Contents (Elt F)),
    unary main_arg12 main_v112 ((extractStridedSlice S1x64 ![1, 0] · slices_S3x64_S1x64_1_0) : (⟨S3x64, .f32⟩ : BufTy).Contents (Elt F) → (⟨S1x64, .f32⟩ : BufTy).Contents (Elt F)),
    reshape main_v112 main_v113 rfl shapeCasts_S1x64_S64,
    unary main_v113 main_v114 (broadcastInDim S1x1x64 ![2] bcast_S64_S1x1x64_2 : (⟨S64, .f32⟩ : BufTy).Contents (Elt F) → (⟨S1x1x64, .f32⟩ : BufTy).Contents (Elt F)),
    unary main_v114 main_v115 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v111 main_v115 main_v116 (addf : (⟨S1024x256x64, .f32⟩ : BufTy).Contents (Elt F) → (⟨S1024x256x64, .f32⟩ : BufTy).Contents (Elt F) → (⟨S1024x256x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S1024x256x64, .f32⟩) main_call5_v0) (broadcastInDim S1024x256x64 ![] bcast_S_S1024x256x64),
    TRef.binary (TRef.of (T := ⟨S1024x256x64, .f32⟩) main_v116) (TRef.of (T := ⟨S1024x256x64, .f32⟩) main_call5_v0) (TRef.of (T := ⟨S1024x256x64, .f32⟩) main_v117) maximumf,
    binary main_v108 main_v117 main_v118 ((fun l r => Host.dotGeneral dot_S1024x256x256_S1024x256x64_S1024x256x64_2_1_1_2_0_0 none l r) : (⟨S1024x256x256, .f32⟩ : BufTy).Contents (Elt F) → (⟨S1024x256x64, .f32⟩ : BufTy).Contents (Elt F) → (⟨S1024x256x64, .f32⟩ : BufTy).Contents (Elt F)),
    nullary main_cst_10 (constant S_ .f32 0x00000000#32),
    binary main_v118 main_cst_10 main_v119 ((fun x v => Host.reduceAdd x v reducesTo_S1024x256x64_S1024x256_d2 h_S_) : (⟨S1024x256x64, .f32⟩ : BufTy).Contents (Elt F) → (⟨S_, .f32⟩ : BufTy).Contents (Elt F) → (⟨S1024x256, .f32⟩ : BufTy).Contents (Elt F)),
    unary main_v119 main_v120 (broadcastInDim S1024x256x1 ![0, 1] bcast_S1024x256_S1024x256x1_0_1 : (⟨S1024x256, .f32⟩ : BufTy).Contents (Elt F) → (⟨S1024x256x1, .f32⟩ : BufTy).Contents (Elt F)),
    nullary main_cst_11 (constant S_ .f32 0x42800000#32),
    unary main_cst_11 main_v121 (broadcastInDim S1024x256x1 ![] bcast_S_S1024x256x1 : (⟨S_, .f32⟩ : BufTy).Contents (Elt F) → (⟨S1024x256x1, .f32⟩ : BufTy).Contents (Elt F)),
    binary main_v120 main_v121 main_v122 (Host.divf : (⟨S1024x256x1, .f32⟩ : BufTy).Contents (Elt F) → (⟨S1024x256x1, .f32⟩ : BufTy).Contents (Elt F) → (⟨S1024x256x1, .f32⟩ : BufTy).Contents (Elt F)),
    unary main_v122 main_v123 (broadcastInDim S1024x256x64 ![0, 1, 2] bcast_S1024x256x1_S1024x256x64_0_1_2 : (⟨S1024x256x1, .f32⟩ : BufTy).Contents (Elt F) → (⟨S1024x256x64, .f32⟩ : BufTy).Contents (Elt F)),
    binary main_v118 main_v123 main_v124 (subf : (⟨S1024x256x64, .f32⟩ : BufTy).Contents (Elt F) → (⟨S1024x256x64, .f32⟩ : BufTy).Contents (Elt F) → (⟨S1024x256x64, .f32⟩ : BufTy).Contents (Elt F)),
    binary main_v124 main_v124 main_v125 (mulf : (⟨S1024x256x64, .f32⟩ : BufTy).Contents (Elt F) → (⟨S1024x256x64, .f32⟩ : BufTy).Contents (Elt F) → (⟨S1024x256x64, .f32⟩ : BufTy).Contents (Elt F)),
    nullary main_cst_12 (constant S_ .f32 0x00000000#32),
    binary main_v125 main_cst_12 main_v126 ((fun x v => Host.reduceAdd x v reducesTo_S1024x256x64_S1024x256_d2 h_S_) : (⟨S1024x256x64, .f32⟩ : BufTy).Contents (Elt F) → (⟨S_, .f32⟩ : BufTy).Contents (Elt F) → (⟨S1024x256, .f32⟩ : BufTy).Contents (Elt F)),
    unary main_v126 main_v127 (broadcastInDim S1024x256x1 ![0, 1] bcast_S1024x256_S1024x256x1_0_1 : (⟨S1024x256, .f32⟩ : BufTy).Contents (Elt F) → (⟨S1024x256x1, .f32⟩ : BufTy).Contents (Elt F)),
    nullary main_cst_13 (constant S_ .f32 0x42800000#32),
    unary main_cst_13 main_v128 (broadcastInDim S1024x256x1 ![] bcast_S_S1024x256x1 : (⟨S_, .f32⟩ : BufTy).Contents (Elt F) → (⟨S1024x256x1, .f32⟩ : BufTy).Contents (Elt F)),
    binary main_v127 main_v128 main_v129 (Host.divf : (⟨S1024x256x1, .f32⟩ : BufTy).Contents (Elt F) → (⟨S1024x256x1, .f32⟩ : BufTy).Contents (Elt F) → (⟨S1024x256x1, .f32⟩ : BufTy).Contents (Elt F)),
    unary main_v122 main_v130 (broadcastInDim S1024x256x64 ![0, 1, 2] bcast_S1024x256x1_S1024x256x64_0_1_2 : (⟨S1024x256x1, .f32⟩ : BufTy).Contents (Elt F) → (⟨S1024x256x64, .f32⟩ : BufTy).Contents (Elt F)),
    binary main_v118 main_v130 main_v131 (subf : (⟨S1024x256x64, .f32⟩ : BufTy).Contents (Elt F) → (⟨S1024x256x64, .f32⟩ : BufTy).Contents (Elt F) → (⟨S1024x256x64, .f32⟩ : BufTy).Contents (Elt F)),
    nullary main_cst_14 (constant S_ .f32 0x358637BD#32),
    unary main_cst_14 main_v132 (broadcastInDim S1024x256x1 ![] bcast_S_S1024x256x1 : (⟨S_, .f32⟩ : BufTy).Contents (Elt F) → (⟨S1024x256x1, .f32⟩ : BufTy).Contents (Elt F)),
    binary main_v129 main_v132 main_v133 (addf : (⟨S1024x256x1, .f32⟩ : BufTy).Contents (Elt F) → (⟨S1024x256x1, .f32⟩ : BufTy).Contents (Elt F) → (⟨S1024x256x1, .f32⟩ : BufTy).Contents (Elt F)),
    unary main_v133 main_v134 (Host.rsqrt : (⟨S1024x256x1, .f32⟩ : BufTy).Contents (Elt F) → (⟨S1024x256x1, .f32⟩ : BufTy).Contents (Elt F)),
    unary main_v134 main_v135 (broadcastInDim S1024x256x64 ![0, 1, 2] bcast_S1024x256x1_S1024x256x64_0_1_2 : (⟨S1024x256x1, .f32⟩ : BufTy).Contents (Elt F) → (⟨S1024x256x64, .f32⟩ : BufTy).Contents (Elt F)),
    binary main_v131 main_v135 main_v136 (mulf : (⟨S1024x256x64, .f32⟩ : BufTy).Contents (Elt F) → (⟨S1024x256x64, .f32⟩ : BufTy).Contents (Elt F) → (⟨S1024x256x64, .f32⟩ : BufTy).Contents (Elt F)),
    unary main_arg13 main_v137 (broadcastInDim S1x1x64 ![2] bcast_S64_S1x1x64_2 : (⟨S64, .f32⟩ : BufTy).Contents (Elt F) → (⟨S1x1x64, .f32⟩ : BufTy).Contents (Elt F)),
    unary main_v137 main_v138 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v136 main_v138 main_v139 (mulf : (⟨S1024x256x64, .f32⟩ : BufTy).Contents (Elt F) → (⟨S1024x256x64, .f32⟩ : BufTy).Contents (Elt F) → (⟨S1024x256x64, .f32⟩ : BufTy).Contents (Elt F)),
    unary main_arg14 main_v140 (broadcastInDim S1x1x64 ![2] bcast_S64_S1x1x64_2 : (⟨S64, .f32⟩ : BufTy).Contents (Elt F) → (⟨S1x1x64, .f32⟩ : BufTy).Contents (Elt F)),
    unary main_v140 main_v141 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v139 main_v141 main_v142 (addf : (⟨S1024x256x64, .f32⟩ : BufTy).Contents (Elt F) → (⟨S1024x256x64, .f32⟩ : BufTy).Contents (Elt F) → (⟨S1024x256x64, .f32⟩ : BufTy).Contents (Elt F)),
    binary main_v88 main_v142 main_v143 (addf : (⟨S1024x256x64, .f32⟩ : BufTy).Contents (Elt F) → (⟨S1024x256x64, .f32⟩ : BufTy).Contents (Elt F) → (⟨S1024x256x64, .f32⟩ : BufTy).Contents (Elt F)) ]

/-- Layer 2: operations 174–239. -/
abbrev opsLayer2 : List (HloOp τ sig (Elt F)) :=
  [ unary main_arg7 main_v144 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v144 main_v145 rfl shapeCasts_S1x64x64_S64x64,
    binary main_v143 main_v145 main_v146 ((fun l r => Host.dotGeneral dot_S1024x256x64_S64x64_S1024x256x64_2_1_01_0_n_n none l r) : (⟨S1024x256x64, .f32⟩ : BufTy).Contents (Elt F) → (⟨S64x64, .f32⟩ : BufTy).Contents (Elt F) → (⟨S1024x256x64, .f32⟩ : BufTy).Contents (Elt F)),
    unary main_arg8 main_v147 ((extractStridedSlice S1x64 ![2, 0] · slices_S3x64_S1x64_2_0) : (⟨S3x64, .f32⟩ : BufTy).Contents (Elt F) → (⟨S1x64, .f32⟩ : BufTy).Contents (Elt F)),
    reshape main_v147 main_v148 rfl shapeCasts_S1x64_S64,
    unary main_v148 main_v149 (broadcastInDim S1x1x64 ![2] bcast_S64_S1x1x64_2 : (⟨S64, .f32⟩ : BufTy).Contents (Elt F) → (⟨S1x1x64, .f32⟩ : BufTy).Contents (Elt F)),
    unary main_v149 main_v150 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v146 main_v150 main_v151 (addf : (⟨S1024x256x64, .f32⟩ : BufTy).Contents (Elt F) → (⟨S1024x256x64, .f32⟩ : BufTy).Contents (Elt F) → (⟨S1024x256x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S1024x256x64, .f32⟩) main_call6_v0) (broadcastInDim S1024x256x64 ![] bcast_S_S1024x256x64),
    TRef.binary (TRef.of (T := ⟨S1024x256x64, .f32⟩) main_v151) (TRef.of (T := ⟨S1024x256x64, .f32⟩) main_call6_v0) (TRef.of (T := ⟨S1024x256x64, .f32⟩) main_v152) maximumf,
    unary main_arg9 main_v153 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v153 main_v154 rfl shapeCasts_S1x64x64_S64x64,
    binary main_v143 main_v154 main_v155 ((fun l r => Host.dotGeneral dot_S1024x256x64_S64x64_S1024x256x64_2_1_01_0_n_n none l r) : (⟨S1024x256x64, .f32⟩ : BufTy).Contents (Elt F) → (⟨S64x64, .f32⟩ : BufTy).Contents (Elt F) → (⟨S1024x256x64, .f32⟩ : BufTy).Contents (Elt F)),
    unary main_arg10 main_v156 ((extractStridedSlice S1x64 ![2, 0] · slices_S3x64_S1x64_2_0) : (⟨S3x64, .f32⟩ : BufTy).Contents (Elt F) → (⟨S1x64, .f32⟩ : BufTy).Contents (Elt F)),
    reshape main_v156 main_v157 rfl shapeCasts_S1x64_S64,
    unary main_v157 main_v158 (broadcastInDim S1x1x64 ![2] bcast_S64_S1x1x64_2 : (⟨S64, .f32⟩ : BufTy).Contents (Elt F) → (⟨S1x1x64, .f32⟩ : BufTy).Contents (Elt F)),
    unary main_v158 main_v159 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v155 main_v159 main_v160 (addf : (⟨S1024x256x64, .f32⟩ : BufTy).Contents (Elt F) → (⟨S1024x256x64, .f32⟩ : BufTy).Contents (Elt F) → (⟨S1024x256x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S1024x256x64, .f32⟩) main_call7_v0) (broadcastInDim S1024x256x64 ![] bcast_S_S1024x256x64),
    TRef.binary (TRef.of (T := ⟨S1024x256x64, .f32⟩) main_v160) (TRef.of (T := ⟨S1024x256x64, .f32⟩) main_call7_v0) (TRef.of (T := ⟨S1024x256x64, .f32⟩) main_v161) maximumf,
    binary main_v152 main_v161 main_v162 ((fun l r => Host.dotGeneral dot_S1024x256x64_S1024x256x64_S1024x256x256_2_2_1_1_0_0 none l r) : (⟨S1024x256x64, .f32⟩ : BufTy).Contents (Elt F) → (⟨S1024x256x64, .f32⟩ : BufTy).Contents (Elt F) → (⟨S1024x256x256, .f32⟩ : BufTy).Contents (Elt F)),
    binary main_v162 main_arg1 main_v163 (mulf : (⟨S1024x256x256, .f32⟩ : BufTy).Contents (Elt F) → (⟨S1024x256x256, .f32⟩ : BufTy).Contents (Elt F) → (⟨S1024x256x256, .f32⟩ : BufTy).Contents (Elt F)),
    unary main_arg11 main_v164 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v164 main_v165 rfl shapeCasts_S1x64x64_S64x64,
    binary main_v143 main_v165 main_v166 ((fun l r => Host.dotGeneral dot_S1024x256x64_S64x64_S1024x256x64_2_1_01_0_n_n none l r) : (⟨S1024x256x64, .f32⟩ : BufTy).Contents (Elt F) → (⟨S64x64, .f32⟩ : BufTy).Contents (Elt F) → (⟨S1024x256x64, .f32⟩ : BufTy).Contents (Elt F)),
    unary main_arg12 main_v167 ((extractStridedSlice S1x64 ![2, 0] · slices_S3x64_S1x64_2_0) : (⟨S3x64, .f32⟩ : BufTy).Contents (Elt F) → (⟨S1x64, .f32⟩ : BufTy).Contents (Elt F)),
    reshape main_v167 main_v168 rfl shapeCasts_S1x64_S64,
    unary main_v168 main_v169 (broadcastInDim S1x1x64 ![2] bcast_S64_S1x1x64_2 : (⟨S64, .f32⟩ : BufTy).Contents (Elt F) → (⟨S1x1x64, .f32⟩ : BufTy).Contents (Elt F)),
    unary main_v169 main_v170 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v166 main_v170 main_v171 (addf : (⟨S1024x256x64, .f32⟩ : BufTy).Contents (Elt F) → (⟨S1024x256x64, .f32⟩ : BufTy).Contents (Elt F) → (⟨S1024x256x64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S1024x256x64, .f32⟩) main_call8_v0) (broadcastInDim S1024x256x64 ![] bcast_S_S1024x256x64),
    TRef.binary (TRef.of (T := ⟨S1024x256x64, .f32⟩) main_v171) (TRef.of (T := ⟨S1024x256x64, .f32⟩) main_call8_v0) (TRef.of (T := ⟨S1024x256x64, .f32⟩) main_v172) maximumf,
    binary main_v163 main_v172 main_v173 ((fun l r => Host.dotGeneral dot_S1024x256x256_S1024x256x64_S1024x256x64_2_1_1_2_0_0 none l r) : (⟨S1024x256x256, .f32⟩ : BufTy).Contents (Elt F) → (⟨S1024x256x64, .f32⟩ : BufTy).Contents (Elt F) → (⟨S1024x256x64, .f32⟩ : BufTy).Contents (Elt F)),
    nullary main_cst_15 (constant S_ .f32 0x00000000#32),
    binary main_v173 main_cst_15 main_v174 ((fun x v => Host.reduceAdd x v reducesTo_S1024x256x64_S1024x256_d2 h_S_) : (⟨S1024x256x64, .f32⟩ : BufTy).Contents (Elt F) → (⟨S_, .f32⟩ : BufTy).Contents (Elt F) → (⟨S1024x256, .f32⟩ : BufTy).Contents (Elt F)),
    unary main_v174 main_v175 (broadcastInDim S1024x256x1 ![0, 1] bcast_S1024x256_S1024x256x1_0_1 : (⟨S1024x256, .f32⟩ : BufTy).Contents (Elt F) → (⟨S1024x256x1, .f32⟩ : BufTy).Contents (Elt F)),
    nullary main_cst_16 (constant S_ .f32 0x42800000#32),
    unary main_cst_16 main_v176 (broadcastInDim S1024x256x1 ![] bcast_S_S1024x256x1 : (⟨S_, .f32⟩ : BufTy).Contents (Elt F) → (⟨S1024x256x1, .f32⟩ : BufTy).Contents (Elt F)),
    binary main_v175 main_v176 main_v177 (Host.divf : (⟨S1024x256x1, .f32⟩ : BufTy).Contents (Elt F) → (⟨S1024x256x1, .f32⟩ : BufTy).Contents (Elt F) → (⟨S1024x256x1, .f32⟩ : BufTy).Contents (Elt F)),
    unary main_v177 main_v178 (broadcastInDim S1024x256x64 ![0, 1, 2] bcast_S1024x256x1_S1024x256x64_0_1_2 : (⟨S1024x256x1, .f32⟩ : BufTy).Contents (Elt F) → (⟨S1024x256x64, .f32⟩ : BufTy).Contents (Elt F)),
    binary main_v173 main_v178 main_v179 (subf : (⟨S1024x256x64, .f32⟩ : BufTy).Contents (Elt F) → (⟨S1024x256x64, .f32⟩ : BufTy).Contents (Elt F) → (⟨S1024x256x64, .f32⟩ : BufTy).Contents (Elt F)),
    binary main_v179 main_v179 main_v180 (mulf : (⟨S1024x256x64, .f32⟩ : BufTy).Contents (Elt F) → (⟨S1024x256x64, .f32⟩ : BufTy).Contents (Elt F) → (⟨S1024x256x64, .f32⟩ : BufTy).Contents (Elt F)),
    nullary main_cst_17 (constant S_ .f32 0x00000000#32),
    binary main_v180 main_cst_17 main_v181 ((fun x v => Host.reduceAdd x v reducesTo_S1024x256x64_S1024x256_d2 h_S_) : (⟨S1024x256x64, .f32⟩ : BufTy).Contents (Elt F) → (⟨S_, .f32⟩ : BufTy).Contents (Elt F) → (⟨S1024x256, .f32⟩ : BufTy).Contents (Elt F)),
    unary main_v181 main_v182 (broadcastInDim S1024x256x1 ![0, 1] bcast_S1024x256_S1024x256x1_0_1 : (⟨S1024x256, .f32⟩ : BufTy).Contents (Elt F) → (⟨S1024x256x1, .f32⟩ : BufTy).Contents (Elt F)),
    nullary main_cst_18 (constant S_ .f32 0x42800000#32),
    unary main_cst_18 main_v183 (broadcastInDim S1024x256x1 ![] bcast_S_S1024x256x1 : (⟨S_, .f32⟩ : BufTy).Contents (Elt F) → (⟨S1024x256x1, .f32⟩ : BufTy).Contents (Elt F)),
    binary main_v182 main_v183 main_v184 (Host.divf : (⟨S1024x256x1, .f32⟩ : BufTy).Contents (Elt F) → (⟨S1024x256x1, .f32⟩ : BufTy).Contents (Elt F) → (⟨S1024x256x1, .f32⟩ : BufTy).Contents (Elt F)),
    unary main_v177 main_v185 (broadcastInDim S1024x256x64 ![0, 1, 2] bcast_S1024x256x1_S1024x256x64_0_1_2 : (⟨S1024x256x1, .f32⟩ : BufTy).Contents (Elt F) → (⟨S1024x256x64, .f32⟩ : BufTy).Contents (Elt F)),
    binary main_v173 main_v185 main_v186 (subf : (⟨S1024x256x64, .f32⟩ : BufTy).Contents (Elt F) → (⟨S1024x256x64, .f32⟩ : BufTy).Contents (Elt F) → (⟨S1024x256x64, .f32⟩ : BufTy).Contents (Elt F)),
    nullary main_cst_19 (constant S_ .f32 0x358637BD#32),
    unary main_cst_19 main_v187 (broadcastInDim S1024x256x1 ![] bcast_S_S1024x256x1 : (⟨S_, .f32⟩ : BufTy).Contents (Elt F) → (⟨S1024x256x1, .f32⟩ : BufTy).Contents (Elt F)),
    binary main_v184 main_v187 main_v188 (addf : (⟨S1024x256x1, .f32⟩ : BufTy).Contents (Elt F) → (⟨S1024x256x1, .f32⟩ : BufTy).Contents (Elt F) → (⟨S1024x256x1, .f32⟩ : BufTy).Contents (Elt F)),
    unary main_v188 main_v189 (Host.rsqrt : (⟨S1024x256x1, .f32⟩ : BufTy).Contents (Elt F) → (⟨S1024x256x1, .f32⟩ : BufTy).Contents (Elt F)),
    unary main_v189 main_v190 (broadcastInDim S1024x256x64 ![0, 1, 2] bcast_S1024x256x1_S1024x256x64_0_1_2 : (⟨S1024x256x1, .f32⟩ : BufTy).Contents (Elt F) → (⟨S1024x256x64, .f32⟩ : BufTy).Contents (Elt F)),
    binary main_v186 main_v190 main_v191 (mulf : (⟨S1024x256x64, .f32⟩ : BufTy).Contents (Elt F) → (⟨S1024x256x64, .f32⟩ : BufTy).Contents (Elt F) → (⟨S1024x256x64, .f32⟩ : BufTy).Contents (Elt F)),
    unary main_arg13 main_v192 (broadcastInDim S1x1x64 ![2] bcast_S64_S1x1x64_2 : (⟨S64, .f32⟩ : BufTy).Contents (Elt F) → (⟨S1x1x64, .f32⟩ : BufTy).Contents (Elt F)),
    unary main_v192 main_v193 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v191 main_v193 main_v194 (mulf : (⟨S1024x256x64, .f32⟩ : BufTy).Contents (Elt F) → (⟨S1024x256x64, .f32⟩ : BufTy).Contents (Elt F) → (⟨S1024x256x64, .f32⟩ : BufTy).Contents (Elt F)),
    unary main_arg14 main_v195 (broadcastInDim S1x1x64 ![2] bcast_S64_S1x1x64_2 : (⟨S64, .f32⟩ : BufTy).Contents (Elt F) → (⟨S1x1x64, .f32⟩ : BufTy).Contents (Elt F)),
    unary main_v195 main_v196 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v194 main_v196 main_v197 (addf : (⟨S1024x256x64, .f32⟩ : BufTy).Contents (Elt F) → (⟨S1024x256x64, .f32⟩ : BufTy).Contents (Elt F) → (⟨S1024x256x64, .f32⟩ : BufTy).Contents (Elt F)),
    binary main_v143 main_v197 main_v198 (addf : (⟨S1024x256x64, .f32⟩ : BufTy).Contents (Elt F) → (⟨S1024x256x64, .f32⟩ : BufTy).Contents (Elt F) → (⟨S1024x256x64, .f32⟩ : BufTy).Contents (Elt F)) ]

/-- All 239 operations, in order. -/
abbrev ops : List (HloOp τ sig (Elt F)) :=
  [ nullary main_c (constantI S_ 32 0#32),
    unary main_c main_v0 (broadcastInDim S1024x256 ![] bcast_S_S1024x256 : (⟨S_, .i32⟩ : BufTy).Contents (Elt F) → (⟨S1024x256, .i32⟩ : BufTy).Contents (Elt F)),
    binary main_arg0 main_v0 main_v1 (cmpi .slt : (⟨S1024x256, .i32⟩ : BufTy).Contents (Elt F) → (⟨S1024x256, .i32⟩ : BufTy).Contents (Elt F) → (⟨S1024x256, .i1⟩ : BufTy).Contents (Elt F)),
    nullary main_c_0 (constantI S_ 32 10000#32),
    unary main_c_0 main_v2 (broadcastInDim S1024x256 ![] bcast_S_S1024x256 : (⟨S_, .i32⟩ : BufTy).Contents (Elt F) → (⟨S1024x256, .i32⟩ : BufTy).Contents (Elt F)),
    binary main_arg0 main_v2 main_v3 (addi : (⟨S1024x256, .i32⟩ : BufTy).Contents (Elt F) → (⟨S1024x256, .i32⟩ : BufTy).Contents (Elt F) → (⟨S1024x256, .i32⟩ : BufTy).Contents (Elt F)),
    ternary main_v1 main_v3 main_arg0 main_v4 (select : (⟨S1024x256, .i1⟩ : BufTy).Contents (Elt F) → (⟨S1024x256, .i32⟩ : BufTy).Contents (Elt F) → (⟨S1024x256, .i32⟩ : BufTy).Contents (Elt F) → (⟨S1024x256, .i32⟩ : BufTy).Contents (Elt F)),
    unary main_v4 main_v5 (broadcastInDim S1024x256x1 ![0, 1] bcast_S1024x256_S1024x256x1_0_1 : (⟨S1024x256, .i32⟩ : BufTy).Contents (Elt F) → (⟨S1024x256x1, .i32⟩ : BufTy).Contents (Elt F)),
    binary main_arg3 main_v5 main_v6 ((fun x i => Host.gather gather_S10000x64_S1024x256x1_S1024x256x64_2_0_n_n_0_2_164 x i) : (⟨S10000x64, .f32⟩ : BufTy).Contents (Elt F) → (⟨S1024x256x1, .i32⟩ : BufTy).Contents (Elt F) → (⟨S1024x256x64, .f32⟩ : BufTy).Contents (Elt F)),
    unary main_arg4 main_v7 (broadcastInDim S1x256x64 ![1, 2] bcast_S256x64_S1x256x64_1_2 : (⟨S256x64, .f32⟩ : BufTy).Contents (Elt F) → (⟨S1x256x64, .f32⟩ : BufTy).Contents (Elt F)),
    unary main_v7 main_v8 (broadcastInDim S1024x256x64 ![0, 1, 2] bcast_S1x256x64_S1024x256x64_0_1_2 : (⟨S1x256x64, .f32⟩ : BufTy).Contents (Elt F) → (⟨S1024x256x64, .f32⟩ : BufTy).Contents (Elt F)),
    binary main_v6 main_v8 main_v9 (addf : (⟨S1024x256x64, .f32⟩ : BufTy).Contents (Elt F) → (⟨S1024x256x64, .f32⟩ : BufTy).Contents (Elt F) → (⟨S1024x256x64, .f32⟩ : BufTy).Contents (Elt F)),
    nullary main_cst (constant S_ .f32 0x00000000#32),
    binary main_v9 main_cst main_v10 ((fun x v => Host.reduceAdd x v reducesTo_S1024x256x64_S1024x256_d2 h_S_) : (⟨S1024x256x64, .f32⟩ : BufTy).Contents (Elt F) → (⟨S_, .f32⟩ : BufTy).Contents (Elt F) → (⟨S1024x256, .f32⟩ : BufTy).Contents (Elt F)),
    unary main_v10 main_v11 (broadcastInDim S1024x256x1 ![0, 1] bcast_S1024x256_S1024x256x1_0_1 : (⟨S1024x256, .f32⟩ : BufTy).Contents (Elt F) → (⟨S1024x256x1, .f32⟩ : BufTy).Contents (Elt F)),
    nullary main_cst_1 (constant S_ .f32 0x42800000#32),
    unary main_cst_1 main_v12 (broadcastInDim S1024x256x1 ![] bcast_S_S1024x256x1 : (⟨S_, .f32⟩ : BufTy).Contents (Elt F) → (⟨S1024x256x1, .f32⟩ : BufTy).Contents (Elt F)),
    binary main_v11 main_v12 main_v13 (Host.divf : (⟨S1024x256x1, .f32⟩ : BufTy).Contents (Elt F) → (⟨S1024x256x1, .f32⟩ : BufTy).Contents (Elt F) → (⟨S1024x256x1, .f32⟩ : BufTy).Contents (Elt F)),
    unary main_v13 main_v14 (broadcastInDim S1024x256x64 ![0, 1, 2] bcast_S1024x256x1_S1024x256x64_0_1_2 : (⟨S1024x256x1, .f32⟩ : BufTy).Contents (Elt F) → (⟨S1024x256x64, .f32⟩ : BufTy).Contents (Elt F)),
    binary main_v9 main_v14 main_v15 (subf : (⟨S1024x256x64, .f32⟩ : BufTy).Contents (Elt F) → (⟨S1024x256x64, .f32⟩ : BufTy).Contents (Elt F) → (⟨S1024x256x64, .f32⟩ : BufTy).Contents (Elt F)),
    binary main_v15 main_v15 main_v16 (mulf : (⟨S1024x256x64, .f32⟩ : BufTy).Contents (Elt F) → (⟨S1024x256x64, .f32⟩ : BufTy).Contents (Elt F) → (⟨S1024x256x64, .f32⟩ : BufTy).Contents (Elt F)),
    nullary main_cst_2 (constant S_ .f32 0x00000000#32),
    binary main_v16 main_cst_2 main_v17 ((fun x v => Host.reduceAdd x v reducesTo_S1024x256x64_S1024x256_d2 h_S_) : (⟨S1024x256x64, .f32⟩ : BufTy).Contents (Elt F) → (⟨S_, .f32⟩ : BufTy).Contents (Elt F) → (⟨S1024x256, .f32⟩ : BufTy).Contents (Elt F)),
    unary main_v17 main_v18 (broadcastInDim S1024x256x1 ![0, 1] bcast_S1024x256_S1024x256x1_0_1 : (⟨S1024x256, .f32⟩ : BufTy).Contents (Elt F) → (⟨S1024x256x1, .f32⟩ : BufTy).Contents (Elt F)),
    nullary main_cst_3 (constant S_ .f32 0x42800000#32),
    unary main_cst_3 main_v19 (broadcastInDim S1024x256x1 ![] bcast_S_S1024x256x1 : (⟨S_, .f32⟩ : BufTy).Contents (Elt F) → (⟨S1024x256x1, .f32⟩ : BufTy).Contents (Elt F)),
    binary main_v18 main_v19 main_v20 (Host.divf : (⟨S1024x256x1, .f32⟩ : BufTy).Contents (Elt F) → (⟨S1024x256x1, .f32⟩ : BufTy).Contents (Elt F) → (⟨S1024x256x1, .f32⟩ : BufTy).Contents (Elt F)),
    unary main_v13 main_v21 (broadcastInDim S1024x256x64 ![0, 1, 2] bcast_S1024x256x1_S1024x256x64_0_1_2 : (⟨S1024x256x1, .f32⟩ : BufTy).Contents (Elt F) → (⟨S1024x256x64, .f32⟩ : BufTy).Contents (Elt F)),
    binary main_v9 main_v21 main_v22 (subf : (⟨S1024x256x64, .f32⟩ : BufTy).Contents (Elt F) → (⟨S1024x256x64, .f32⟩ : BufTy).Contents (Elt F) → (⟨S1024x256x64, .f32⟩ : BufTy).Contents (Elt F)),
    nullary main_cst_4 (constant S_ .f32 0x358637BD#32),
    unary main_cst_4 main_v23 (broadcastInDim S1024x256x1 ![] bcast_S_S1024x256x1 : (⟨S_, .f32⟩ : BufTy).Contents (Elt F) → (⟨S1024x256x1, .f32⟩ : BufTy).Contents (Elt F)),
    binary main_v20 main_v23 main_v24 (addf : (⟨S1024x256x1, .f32⟩ : BufTy).Contents (Elt F) → (⟨S1024x256x1, .f32⟩ : BufTy).Contents (Elt F) → (⟨S1024x256x1, .f32⟩ : BufTy).Contents (Elt F)),
    unary main_v24 main_v25 (Host.rsqrt : (⟨S1024x256x1, .f32⟩ : BufTy).Contents (Elt F) → (⟨S1024x256x1, .f32⟩ : BufTy).Contents (Elt F)),
    unary main_v25 main_v26 (broadcastInDim S1024x256x64 ![0, 1, 2] bcast_S1024x256x1_S1024x256x64_0_1_2 : (⟨S1024x256x1, .f32⟩ : BufTy).Contents (Elt F) → (⟨S1024x256x64, .f32⟩ : BufTy).Contents (Elt F)),
    binary main_v22 main_v26 main_v27 (mulf : (⟨S1024x256x64, .f32⟩ : BufTy).Contents (Elt F) → (⟨S1024x256x64, .f32⟩ : BufTy).Contents (Elt F) → (⟨S1024x256x64, .f32⟩ : BufTy).Contents (Elt F)),
    unary main_arg5 main_v28 (broadcastInDim S1x1x64 ![2] bcast_S64_S1x1x64_2 : (⟨S64, .f32⟩ : BufTy).Contents (Elt F) → (⟨S1x1x64, .f32⟩ : BufTy).Contents (Elt F)),
    unary main_v28 main_v29 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v27 main_v29 main_v30 (mulf : (⟨S1024x256x64, .f32⟩ : BufTy).Contents (Elt F) → (⟨S1024x256x64, .f32⟩ : BufTy).Contents (Elt F) → (⟨S1024x256x64, .f32⟩ : BufTy).Contents (Elt F)),
    unary main_arg6 main_v31 (broadcastInDim S1x1x64 ![2] bcast_S64_S1x1x64_2 : (⟨S64, .f32⟩ : BufTy).Contents (Elt F) → (⟨S1x1x64, .f32⟩ : BufTy).Contents (Elt F)),
    unary main_v31 main_v32 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v30 main_v32 main_v33 (addf : (⟨S1024x256x64, .f32⟩ : BufTy).Contents (Elt F) → (⟨S1024x256x64, .f32⟩ : BufTy).Contents (Elt F) → (⟨S1024x256x64, .f32⟩ : BufTy).Contents (Elt F)),
    unary main_arg7 main_v34 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v34 main_v35 rfl shapeCasts_S1x64x64_S64x64,
    binary main_v33 main_v35 main_v36 ((fun l r => Host.dotGeneral dot_S1024x256x64_S64x64_S1024x256x64_2_1_01_0_n_n none l r) : (⟨S1024x256x64, .f32⟩ : BufTy).Contents (Elt F) → (⟨S64x64, .f32⟩ : BufTy).Contents (Elt F) → (⟨S1024x256x64, .f32⟩ : BufTy).Contents (Elt F)),
    unary main_arg8 main_v37 ((extractStridedSlice S1x64 ![0, 0] · slices_S3x64_S1x64_0_0) : (⟨S3x64, .f32⟩ : BufTy).Contents (Elt F) → (⟨S1x64, .f32⟩ : BufTy).Contents (Elt F)),
    reshape main_v37 main_v38 rfl shapeCasts_S1x64_S64,
    unary main_v38 main_v39 (broadcastInDim S1x1x64 ![2] bcast_S64_S1x1x64_2 : (⟨S64, .f32⟩ : BufTy).Contents (Elt F) → (⟨S1x1x64, .f32⟩ : BufTy).Contents (Elt F)),
    unary main_v39 main_v40 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v36 main_v40 main_v41 (addf : (⟨S1024x256x64, .f32⟩ : BufTy).Contents (Elt F) → (⟨S1024x256x64, .f32⟩ : BufTy).Contents (Elt F) → (⟨S1024x256x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1024x256x64, .f32⟩) main_call0_v0) (broadcastInDim S1024x256x64 ![] bcast_S_S1024x256x64),
    TRef.binary (TRef.of (T := ⟨S1024x256x64, .f32⟩) main_v41) (TRef.of (T := ⟨S1024x256x64, .f32⟩) main_call0_v0) (TRef.of (T := ⟨S1024x256x64, .f32⟩) main_v42) maximumf,
    unary main_arg9 main_v43 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v43 main_v44 rfl shapeCasts_S1x64x64_S64x64,
    binary main_v33 main_v44 main_v45 ((fun l r => Host.dotGeneral dot_S1024x256x64_S64x64_S1024x256x64_2_1_01_0_n_n none l r) : (⟨S1024x256x64, .f32⟩ : BufTy).Contents (Elt F) → (⟨S64x64, .f32⟩ : BufTy).Contents (Elt F) → (⟨S1024x256x64, .f32⟩ : BufTy).Contents (Elt F)),
    unary main_arg10 main_v46 ((extractStridedSlice S1x64 ![0, 0] · slices_S3x64_S1x64_0_0) : (⟨S3x64, .f32⟩ : BufTy).Contents (Elt F) → (⟨S1x64, .f32⟩ : BufTy).Contents (Elt F)),
    reshape main_v46 main_v47 rfl shapeCasts_S1x64_S64,
    unary main_v47 main_v48 (broadcastInDim S1x1x64 ![2] bcast_S64_S1x1x64_2 : (⟨S64, .f32⟩ : BufTy).Contents (Elt F) → (⟨S1x1x64, .f32⟩ : BufTy).Contents (Elt F)),
    unary main_v48 main_v49 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v45 main_v49 main_v50 (addf : (⟨S1024x256x64, .f32⟩ : BufTy).Contents (Elt F) → (⟨S1024x256x64, .f32⟩ : BufTy).Contents (Elt F) → (⟨S1024x256x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1024x256x64, .f32⟩) main_call1_v0) (broadcastInDim S1024x256x64 ![] bcast_S_S1024x256x64),
    TRef.binary (TRef.of (T := ⟨S1024x256x64, .f32⟩) main_v50) (TRef.of (T := ⟨S1024x256x64, .f32⟩) main_call1_v0) (TRef.of (T := ⟨S1024x256x64, .f32⟩) main_v51) maximumf,
    binary main_v42 main_v51 main_v52 ((fun l r => Host.dotGeneral dot_S1024x256x64_S1024x256x64_S1024x256x256_2_2_1_1_0_0 none l r) : (⟨S1024x256x64, .f32⟩ : BufTy).Contents (Elt F) → (⟨S1024x256x64, .f32⟩ : BufTy).Contents (Elt F) → (⟨S1024x256x256, .f32⟩ : BufTy).Contents (Elt F)),
    binary main_v52 main_arg1 main_v53 (mulf : (⟨S1024x256x256, .f32⟩ : BufTy).Contents (Elt F) → (⟨S1024x256x256, .f32⟩ : BufTy).Contents (Elt F) → (⟨S1024x256x256, .f32⟩ : BufTy).Contents (Elt F)),
    unary main_arg11 main_v54 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v54 main_v55 rfl shapeCasts_S1x64x64_S64x64,
    binary main_v33 main_v55 main_v56 ((fun l r => Host.dotGeneral dot_S1024x256x64_S64x64_S1024x256x64_2_1_01_0_n_n none l r) : (⟨S1024x256x64, .f32⟩ : BufTy).Contents (Elt F) → (⟨S64x64, .f32⟩ : BufTy).Contents (Elt F) → (⟨S1024x256x64, .f32⟩ : BufTy).Contents (Elt F)),
    unary main_arg12 main_v57 ((extractStridedSlice S1x64 ![0, 0] · slices_S3x64_S1x64_0_0) : (⟨S3x64, .f32⟩ : BufTy).Contents (Elt F) → (⟨S1x64, .f32⟩ : BufTy).Contents (Elt F)),
    reshape main_v57 main_v58 rfl shapeCasts_S1x64_S64,
    unary main_v58 main_v59 (broadcastInDim S1x1x64 ![2] bcast_S64_S1x1x64_2 : (⟨S64, .f32⟩ : BufTy).Contents (Elt F) → (⟨S1x1x64, .f32⟩ : BufTy).Contents (Elt F)),
    unary main_v59 main_v60 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v56 main_v60 main_v61 (addf : (⟨S1024x256x64, .f32⟩ : BufTy).Contents (Elt F) → (⟨S1024x256x64, .f32⟩ : BufTy).Contents (Elt F) → (⟨S1024x256x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1024x256x64, .f32⟩) main_call2_v0) (broadcastInDim S1024x256x64 ![] bcast_S_S1024x256x64),
    TRef.binary (TRef.of (T := ⟨S1024x256x64, .f32⟩) main_v61) (TRef.of (T := ⟨S1024x256x64, .f32⟩) main_call2_v0) (TRef.of (T := ⟨S1024x256x64, .f32⟩) main_v62) maximumf,
    binary main_v53 main_v62 main_v63 ((fun l r => Host.dotGeneral dot_S1024x256x256_S1024x256x64_S1024x256x64_2_1_1_2_0_0 none l r) : (⟨S1024x256x256, .f32⟩ : BufTy).Contents (Elt F) → (⟨S1024x256x64, .f32⟩ : BufTy).Contents (Elt F) → (⟨S1024x256x64, .f32⟩ : BufTy).Contents (Elt F)),
    nullary main_cst_5 (constant S_ .f32 0x00000000#32),
    binary main_v63 main_cst_5 main_v64 ((fun x v => Host.reduceAdd x v reducesTo_S1024x256x64_S1024x256_d2 h_S_) : (⟨S1024x256x64, .f32⟩ : BufTy).Contents (Elt F) → (⟨S_, .f32⟩ : BufTy).Contents (Elt F) → (⟨S1024x256, .f32⟩ : BufTy).Contents (Elt F)),
    unary main_v64 main_v65 (broadcastInDim S1024x256x1 ![0, 1] bcast_S1024x256_S1024x256x1_0_1 : (⟨S1024x256, .f32⟩ : BufTy).Contents (Elt F) → (⟨S1024x256x1, .f32⟩ : BufTy).Contents (Elt F)),
    nullary main_cst_6 (constant S_ .f32 0x42800000#32),
    unary main_cst_6 main_v66 (broadcastInDim S1024x256x1 ![] bcast_S_S1024x256x1 : (⟨S_, .f32⟩ : BufTy).Contents (Elt F) → (⟨S1024x256x1, .f32⟩ : BufTy).Contents (Elt F)),
    binary main_v65 main_v66 main_v67 (Host.divf : (⟨S1024x256x1, .f32⟩ : BufTy).Contents (Elt F) → (⟨S1024x256x1, .f32⟩ : BufTy).Contents (Elt F) → (⟨S1024x256x1, .f32⟩ : BufTy).Contents (Elt F)),
    unary main_v67 main_v68 (broadcastInDim S1024x256x64 ![0, 1, 2] bcast_S1024x256x1_S1024x256x64_0_1_2 : (⟨S1024x256x1, .f32⟩ : BufTy).Contents (Elt F) → (⟨S1024x256x64, .f32⟩ : BufTy).Contents (Elt F)),
    binary main_v63 main_v68 main_v69 (subf : (⟨S1024x256x64, .f32⟩ : BufTy).Contents (Elt F) → (⟨S1024x256x64, .f32⟩ : BufTy).Contents (Elt F) → (⟨S1024x256x64, .f32⟩ : BufTy).Contents (Elt F)),
    binary main_v69 main_v69 main_v70 (mulf : (⟨S1024x256x64, .f32⟩ : BufTy).Contents (Elt F) → (⟨S1024x256x64, .f32⟩ : BufTy).Contents (Elt F) → (⟨S1024x256x64, .f32⟩ : BufTy).Contents (Elt F)),
    nullary main_cst_7 (constant S_ .f32 0x00000000#32),
    binary main_v70 main_cst_7 main_v71 ((fun x v => Host.reduceAdd x v reducesTo_S1024x256x64_S1024x256_d2 h_S_) : (⟨S1024x256x64, .f32⟩ : BufTy).Contents (Elt F) → (⟨S_, .f32⟩ : BufTy).Contents (Elt F) → (⟨S1024x256, .f32⟩ : BufTy).Contents (Elt F)),
    unary main_v71 main_v72 (broadcastInDim S1024x256x1 ![0, 1] bcast_S1024x256_S1024x256x1_0_1 : (⟨S1024x256, .f32⟩ : BufTy).Contents (Elt F) → (⟨S1024x256x1, .f32⟩ : BufTy).Contents (Elt F)),
    nullary main_cst_8 (constant S_ .f32 0x42800000#32),
    unary main_cst_8 main_v73 (broadcastInDim S1024x256x1 ![] bcast_S_S1024x256x1 : (⟨S_, .f32⟩ : BufTy).Contents (Elt F) → (⟨S1024x256x1, .f32⟩ : BufTy).Contents (Elt F)),
    binary main_v72 main_v73 main_v74 (Host.divf : (⟨S1024x256x1, .f32⟩ : BufTy).Contents (Elt F) → (⟨S1024x256x1, .f32⟩ : BufTy).Contents (Elt F) → (⟨S1024x256x1, .f32⟩ : BufTy).Contents (Elt F)),
    unary main_v67 main_v75 (broadcastInDim S1024x256x64 ![0, 1, 2] bcast_S1024x256x1_S1024x256x64_0_1_2 : (⟨S1024x256x1, .f32⟩ : BufTy).Contents (Elt F) → (⟨S1024x256x64, .f32⟩ : BufTy).Contents (Elt F)),
    binary main_v63 main_v75 main_v76 (subf : (⟨S1024x256x64, .f32⟩ : BufTy).Contents (Elt F) → (⟨S1024x256x64, .f32⟩ : BufTy).Contents (Elt F) → (⟨S1024x256x64, .f32⟩ : BufTy).Contents (Elt F)),
    nullary main_cst_9 (constant S_ .f32 0x358637BD#32),
    unary main_cst_9 main_v77 (broadcastInDim S1024x256x1 ![] bcast_S_S1024x256x1 : (⟨S_, .f32⟩ : BufTy).Contents (Elt F) → (⟨S1024x256x1, .f32⟩ : BufTy).Contents (Elt F)),
    binary main_v74 main_v77 main_v78 (addf : (⟨S1024x256x1, .f32⟩ : BufTy).Contents (Elt F) → (⟨S1024x256x1, .f32⟩ : BufTy).Contents (Elt F) → (⟨S1024x256x1, .f32⟩ : BufTy).Contents (Elt F)),
    unary main_v78 main_v79 (Host.rsqrt : (⟨S1024x256x1, .f32⟩ : BufTy).Contents (Elt F) → (⟨S1024x256x1, .f32⟩ : BufTy).Contents (Elt F)),
    unary main_v79 main_v80 (broadcastInDim S1024x256x64 ![0, 1, 2] bcast_S1024x256x1_S1024x256x64_0_1_2 : (⟨S1024x256x1, .f32⟩ : BufTy).Contents (Elt F) → (⟨S1024x256x64, .f32⟩ : BufTy).Contents (Elt F)),
    binary main_v76 main_v80 main_v81 (mulf : (⟨S1024x256x64, .f32⟩ : BufTy).Contents (Elt F) → (⟨S1024x256x64, .f32⟩ : BufTy).Contents (Elt F) → (⟨S1024x256x64, .f32⟩ : BufTy).Contents (Elt F)),
    unary main_arg13 main_v82 (broadcastInDim S1x1x64 ![2] bcast_S64_S1x1x64_2 : (⟨S64, .f32⟩ : BufTy).Contents (Elt F) → (⟨S1x1x64, .f32⟩ : BufTy).Contents (Elt F)),
    unary main_v82 main_v83 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v81 main_v83 main_v84 (mulf : (⟨S1024x256x64, .f32⟩ : BufTy).Contents (Elt F) → (⟨S1024x256x64, .f32⟩ : BufTy).Contents (Elt F) → (⟨S1024x256x64, .f32⟩ : BufTy).Contents (Elt F)),
    unary main_arg14 main_v85 (broadcastInDim S1x1x64 ![2] bcast_S64_S1x1x64_2 : (⟨S64, .f32⟩ : BufTy).Contents (Elt F) → (⟨S1x1x64, .f32⟩ : BufTy).Contents (Elt F)),
    unary main_v85 main_v86 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v84 main_v86 main_v87 (addf : (⟨S1024x256x64, .f32⟩ : BufTy).Contents (Elt F) → (⟨S1024x256x64, .f32⟩ : BufTy).Contents (Elt F) → (⟨S1024x256x64, .f32⟩ : BufTy).Contents (Elt F)),
    binary main_v33 main_v87 main_v88 (addf : (⟨S1024x256x64, .f32⟩ : BufTy).Contents (Elt F) → (⟨S1024x256x64, .f32⟩ : BufTy).Contents (Elt F) → (⟨S1024x256x64, .f32⟩ : BufTy).Contents (Elt F)),
    unary main_arg7 main_v89 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v89 main_v90 rfl shapeCasts_S1x64x64_S64x64,
    binary main_v88 main_v90 main_v91 ((fun l r => Host.dotGeneral dot_S1024x256x64_S64x64_S1024x256x64_2_1_01_0_n_n none l r) : (⟨S1024x256x64, .f32⟩ : BufTy).Contents (Elt F) → (⟨S64x64, .f32⟩ : BufTy).Contents (Elt F) → (⟨S1024x256x64, .f32⟩ : BufTy).Contents (Elt F)),
    unary main_arg8 main_v92 ((extractStridedSlice S1x64 ![1, 0] · slices_S3x64_S1x64_1_0) : (⟨S3x64, .f32⟩ : BufTy).Contents (Elt F) → (⟨S1x64, .f32⟩ : BufTy).Contents (Elt F)),
    reshape main_v92 main_v93 rfl shapeCasts_S1x64_S64,
    unary main_v93 main_v94 (broadcastInDim S1x1x64 ![2] bcast_S64_S1x1x64_2 : (⟨S64, .f32⟩ : BufTy).Contents (Elt F) → (⟨S1x1x64, .f32⟩ : BufTy).Contents (Elt F)),
    unary main_v94 main_v95 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v91 main_v95 main_v96 (addf : (⟨S1024x256x64, .f32⟩ : BufTy).Contents (Elt F) → (⟨S1024x256x64, .f32⟩ : BufTy).Contents (Elt F) → (⟨S1024x256x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S1024x256x64, .f32⟩) main_call3_v0) (broadcastInDim S1024x256x64 ![] bcast_S_S1024x256x64),
    TRef.binary (TRef.of (T := ⟨S1024x256x64, .f32⟩) main_v96) (TRef.of (T := ⟨S1024x256x64, .f32⟩) main_call3_v0) (TRef.of (T := ⟨S1024x256x64, .f32⟩) main_v97) maximumf,
    unary main_arg9 main_v98 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v98 main_v99 rfl shapeCasts_S1x64x64_S64x64,
    binary main_v88 main_v99 main_v100 ((fun l r => Host.dotGeneral dot_S1024x256x64_S64x64_S1024x256x64_2_1_01_0_n_n none l r) : (⟨S1024x256x64, .f32⟩ : BufTy).Contents (Elt F) → (⟨S64x64, .f32⟩ : BufTy).Contents (Elt F) → (⟨S1024x256x64, .f32⟩ : BufTy).Contents (Elt F)),
    unary main_arg10 main_v101 ((extractStridedSlice S1x64 ![1, 0] · slices_S3x64_S1x64_1_0) : (⟨S3x64, .f32⟩ : BufTy).Contents (Elt F) → (⟨S1x64, .f32⟩ : BufTy).Contents (Elt F)),
    reshape main_v101 main_v102 rfl shapeCasts_S1x64_S64,
    unary main_v102 main_v103 (broadcastInDim S1x1x64 ![2] bcast_S64_S1x1x64_2 : (⟨S64, .f32⟩ : BufTy).Contents (Elt F) → (⟨S1x1x64, .f32⟩ : BufTy).Contents (Elt F)),
    unary main_v103 main_v104 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v100 main_v104 main_v105 (addf : (⟨S1024x256x64, .f32⟩ : BufTy).Contents (Elt F) → (⟨S1024x256x64, .f32⟩ : BufTy).Contents (Elt F) → (⟨S1024x256x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S1024x256x64, .f32⟩) main_call4_v0) (broadcastInDim S1024x256x64 ![] bcast_S_S1024x256x64),
    TRef.binary (TRef.of (T := ⟨S1024x256x64, .f32⟩) main_v105) (TRef.of (T := ⟨S1024x256x64, .f32⟩) main_call4_v0) (TRef.of (T := ⟨S1024x256x64, .f32⟩) main_v106) maximumf,
    binary main_v97 main_v106 main_v107 ((fun l r => Host.dotGeneral dot_S1024x256x64_S1024x256x64_S1024x256x256_2_2_1_1_0_0 none l r) : (⟨S1024x256x64, .f32⟩ : BufTy).Contents (Elt F) → (⟨S1024x256x64, .f32⟩ : BufTy).Contents (Elt F) → (⟨S1024x256x256, .f32⟩ : BufTy).Contents (Elt F)),
    binary main_v107 main_arg1 main_v108 (mulf : (⟨S1024x256x256, .f32⟩ : BufTy).Contents (Elt F) → (⟨S1024x256x256, .f32⟩ : BufTy).Contents (Elt F) → (⟨S1024x256x256, .f32⟩ : BufTy).Contents (Elt F)),
    unary main_arg11 main_v109 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v109 main_v110 rfl shapeCasts_S1x64x64_S64x64,
    binary main_v88 main_v110 main_v111 ((fun l r => Host.dotGeneral dot_S1024x256x64_S64x64_S1024x256x64_2_1_01_0_n_n none l r) : (⟨S1024x256x64, .f32⟩ : BufTy).Contents (Elt F) → (⟨S64x64, .f32⟩ : BufTy).Contents (Elt F) → (⟨S1024x256x64, .f32⟩ : BufTy).Contents (Elt F)),
    unary main_arg12 main_v112 ((extractStridedSlice S1x64 ![1, 0] · slices_S3x64_S1x64_1_0) : (⟨S3x64, .f32⟩ : BufTy).Contents (Elt F) → (⟨S1x64, .f32⟩ : BufTy).Contents (Elt F)),
    reshape main_v112 main_v113 rfl shapeCasts_S1x64_S64,
    unary main_v113 main_v114 (broadcastInDim S1x1x64 ![2] bcast_S64_S1x1x64_2 : (⟨S64, .f32⟩ : BufTy).Contents (Elt F) → (⟨S1x1x64, .f32⟩ : BufTy).Contents (Elt F)),
    unary main_v114 main_v115 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v111 main_v115 main_v116 (addf : (⟨S1024x256x64, .f32⟩ : BufTy).Contents (Elt F) → (⟨S1024x256x64, .f32⟩ : BufTy).Contents (Elt F) → (⟨S1024x256x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S1024x256x64, .f32⟩) main_call5_v0) (broadcastInDim S1024x256x64 ![] bcast_S_S1024x256x64),
    TRef.binary (TRef.of (T := ⟨S1024x256x64, .f32⟩) main_v116) (TRef.of (T := ⟨S1024x256x64, .f32⟩) main_call5_v0) (TRef.of (T := ⟨S1024x256x64, .f32⟩) main_v117) maximumf,
    binary main_v108 main_v117 main_v118 ((fun l r => Host.dotGeneral dot_S1024x256x256_S1024x256x64_S1024x256x64_2_1_1_2_0_0 none l r) : (⟨S1024x256x256, .f32⟩ : BufTy).Contents (Elt F) → (⟨S1024x256x64, .f32⟩ : BufTy).Contents (Elt F) → (⟨S1024x256x64, .f32⟩ : BufTy).Contents (Elt F)),
    nullary main_cst_10 (constant S_ .f32 0x00000000#32),
    binary main_v118 main_cst_10 main_v119 ((fun x v => Host.reduceAdd x v reducesTo_S1024x256x64_S1024x256_d2 h_S_) : (⟨S1024x256x64, .f32⟩ : BufTy).Contents (Elt F) → (⟨S_, .f32⟩ : BufTy).Contents (Elt F) → (⟨S1024x256, .f32⟩ : BufTy).Contents (Elt F)),
    unary main_v119 main_v120 (broadcastInDim S1024x256x1 ![0, 1] bcast_S1024x256_S1024x256x1_0_1 : (⟨S1024x256, .f32⟩ : BufTy).Contents (Elt F) → (⟨S1024x256x1, .f32⟩ : BufTy).Contents (Elt F)),
    nullary main_cst_11 (constant S_ .f32 0x42800000#32),
    unary main_cst_11 main_v121 (broadcastInDim S1024x256x1 ![] bcast_S_S1024x256x1 : (⟨S_, .f32⟩ : BufTy).Contents (Elt F) → (⟨S1024x256x1, .f32⟩ : BufTy).Contents (Elt F)),
    binary main_v120 main_v121 main_v122 (Host.divf : (⟨S1024x256x1, .f32⟩ : BufTy).Contents (Elt F) → (⟨S1024x256x1, .f32⟩ : BufTy).Contents (Elt F) → (⟨S1024x256x1, .f32⟩ : BufTy).Contents (Elt F)),
    unary main_v122 main_v123 (broadcastInDim S1024x256x64 ![0, 1, 2] bcast_S1024x256x1_S1024x256x64_0_1_2 : (⟨S1024x256x1, .f32⟩ : BufTy).Contents (Elt F) → (⟨S1024x256x64, .f32⟩ : BufTy).Contents (Elt F)),
    binary main_v118 main_v123 main_v124 (subf : (⟨S1024x256x64, .f32⟩ : BufTy).Contents (Elt F) → (⟨S1024x256x64, .f32⟩ : BufTy).Contents (Elt F) → (⟨S1024x256x64, .f32⟩ : BufTy).Contents (Elt F)),
    binary main_v124 main_v124 main_v125 (mulf : (⟨S1024x256x64, .f32⟩ : BufTy).Contents (Elt F) → (⟨S1024x256x64, .f32⟩ : BufTy).Contents (Elt F) → (⟨S1024x256x64, .f32⟩ : BufTy).Contents (Elt F)),
    nullary main_cst_12 (constant S_ .f32 0x00000000#32),
    binary main_v125 main_cst_12 main_v126 ((fun x v => Host.reduceAdd x v reducesTo_S1024x256x64_S1024x256_d2 h_S_) : (⟨S1024x256x64, .f32⟩ : BufTy).Contents (Elt F) → (⟨S_, .f32⟩ : BufTy).Contents (Elt F) → (⟨S1024x256, .f32⟩ : BufTy).Contents (Elt F)),
    unary main_v126 main_v127 (broadcastInDim S1024x256x1 ![0, 1] bcast_S1024x256_S1024x256x1_0_1 : (⟨S1024x256, .f32⟩ : BufTy).Contents (Elt F) → (⟨S1024x256x1, .f32⟩ : BufTy).Contents (Elt F)),
    nullary main_cst_13 (constant S_ .f32 0x42800000#32),
    unary main_cst_13 main_v128 (broadcastInDim S1024x256x1 ![] bcast_S_S1024x256x1 : (⟨S_, .f32⟩ : BufTy).Contents (Elt F) → (⟨S1024x256x1, .f32⟩ : BufTy).Contents (Elt F)),
    binary main_v127 main_v128 main_v129 (Host.divf : (⟨S1024x256x1, .f32⟩ : BufTy).Contents (Elt F) → (⟨S1024x256x1, .f32⟩ : BufTy).Contents (Elt F) → (⟨S1024x256x1, .f32⟩ : BufTy).Contents (Elt F)),
    unary main_v122 main_v130 (broadcastInDim S1024x256x64 ![0, 1, 2] bcast_S1024x256x1_S1024x256x64_0_1_2 : (⟨S1024x256x1, .f32⟩ : BufTy).Contents (Elt F) → (⟨S1024x256x64, .f32⟩ : BufTy).Contents (Elt F)),
    binary main_v118 main_v130 main_v131 (subf : (⟨S1024x256x64, .f32⟩ : BufTy).Contents (Elt F) → (⟨S1024x256x64, .f32⟩ : BufTy).Contents (Elt F) → (⟨S1024x256x64, .f32⟩ : BufTy).Contents (Elt F)),
    nullary main_cst_14 (constant S_ .f32 0x358637BD#32),
    unary main_cst_14 main_v132 (broadcastInDim S1024x256x1 ![] bcast_S_S1024x256x1 : (⟨S_, .f32⟩ : BufTy).Contents (Elt F) → (⟨S1024x256x1, .f32⟩ : BufTy).Contents (Elt F)),
    binary main_v129 main_v132 main_v133 (addf : (⟨S1024x256x1, .f32⟩ : BufTy).Contents (Elt F) → (⟨S1024x256x1, .f32⟩ : BufTy).Contents (Elt F) → (⟨S1024x256x1, .f32⟩ : BufTy).Contents (Elt F)),
    unary main_v133 main_v134 (Host.rsqrt : (⟨S1024x256x1, .f32⟩ : BufTy).Contents (Elt F) → (⟨S1024x256x1, .f32⟩ : BufTy).Contents (Elt F)),
    unary main_v134 main_v135 (broadcastInDim S1024x256x64 ![0, 1, 2] bcast_S1024x256x1_S1024x256x64_0_1_2 : (⟨S1024x256x1, .f32⟩ : BufTy).Contents (Elt F) → (⟨S1024x256x64, .f32⟩ : BufTy).Contents (Elt F)),
    binary main_v131 main_v135 main_v136 (mulf : (⟨S1024x256x64, .f32⟩ : BufTy).Contents (Elt F) → (⟨S1024x256x64, .f32⟩ : BufTy).Contents (Elt F) → (⟨S1024x256x64, .f32⟩ : BufTy).Contents (Elt F)),
    unary main_arg13 main_v137 (broadcastInDim S1x1x64 ![2] bcast_S64_S1x1x64_2 : (⟨S64, .f32⟩ : BufTy).Contents (Elt F) → (⟨S1x1x64, .f32⟩ : BufTy).Contents (Elt F)),
    unary main_v137 main_v138 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v136 main_v138 main_v139 (mulf : (⟨S1024x256x64, .f32⟩ : BufTy).Contents (Elt F) → (⟨S1024x256x64, .f32⟩ : BufTy).Contents (Elt F) → (⟨S1024x256x64, .f32⟩ : BufTy).Contents (Elt F)),
    unary main_arg14 main_v140 (broadcastInDim S1x1x64 ![2] bcast_S64_S1x1x64_2 : (⟨S64, .f32⟩ : BufTy).Contents (Elt F) → (⟨S1x1x64, .f32⟩ : BufTy).Contents (Elt F)),
    unary main_v140 main_v141 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v139 main_v141 main_v142 (addf : (⟨S1024x256x64, .f32⟩ : BufTy).Contents (Elt F) → (⟨S1024x256x64, .f32⟩ : BufTy).Contents (Elt F) → (⟨S1024x256x64, .f32⟩ : BufTy).Contents (Elt F)),
    binary main_v88 main_v142 main_v143 (addf : (⟨S1024x256x64, .f32⟩ : BufTy).Contents (Elt F) → (⟨S1024x256x64, .f32⟩ : BufTy).Contents (Elt F) → (⟨S1024x256x64, .f32⟩ : BufTy).Contents (Elt F)),
    unary main_arg7 main_v144 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v144 main_v145 rfl shapeCasts_S1x64x64_S64x64,
    binary main_v143 main_v145 main_v146 ((fun l r => Host.dotGeneral dot_S1024x256x64_S64x64_S1024x256x64_2_1_01_0_n_n none l r) : (⟨S1024x256x64, .f32⟩ : BufTy).Contents (Elt F) → (⟨S64x64, .f32⟩ : BufTy).Contents (Elt F) → (⟨S1024x256x64, .f32⟩ : BufTy).Contents (Elt F)),
    unary main_arg8 main_v147 ((extractStridedSlice S1x64 ![2, 0] · slices_S3x64_S1x64_2_0) : (⟨S3x64, .f32⟩ : BufTy).Contents (Elt F) → (⟨S1x64, .f32⟩ : BufTy).Contents (Elt F)),
    reshape main_v147 main_v148 rfl shapeCasts_S1x64_S64,
    unary main_v148 main_v149 (broadcastInDim S1x1x64 ![2] bcast_S64_S1x1x64_2 : (⟨S64, .f32⟩ : BufTy).Contents (Elt F) → (⟨S1x1x64, .f32⟩ : BufTy).Contents (Elt F)),
    unary main_v149 main_v150 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v146 main_v150 main_v151 (addf : (⟨S1024x256x64, .f32⟩ : BufTy).Contents (Elt F) → (⟨S1024x256x64, .f32⟩ : BufTy).Contents (Elt F) → (⟨S1024x256x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S1024x256x64, .f32⟩) main_call6_v0) (broadcastInDim S1024x256x64 ![] bcast_S_S1024x256x64),
    TRef.binary (TRef.of (T := ⟨S1024x256x64, .f32⟩) main_v151) (TRef.of (T := ⟨S1024x256x64, .f32⟩) main_call6_v0) (TRef.of (T := ⟨S1024x256x64, .f32⟩) main_v152) maximumf,
    unary main_arg9 main_v153 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v153 main_v154 rfl shapeCasts_S1x64x64_S64x64,
    binary main_v143 main_v154 main_v155 ((fun l r => Host.dotGeneral dot_S1024x256x64_S64x64_S1024x256x64_2_1_01_0_n_n none l r) : (⟨S1024x256x64, .f32⟩ : BufTy).Contents (Elt F) → (⟨S64x64, .f32⟩ : BufTy).Contents (Elt F) → (⟨S1024x256x64, .f32⟩ : BufTy).Contents (Elt F)),
    unary main_arg10 main_v156 ((extractStridedSlice S1x64 ![2, 0] · slices_S3x64_S1x64_2_0) : (⟨S3x64, .f32⟩ : BufTy).Contents (Elt F) → (⟨S1x64, .f32⟩ : BufTy).Contents (Elt F)),
    reshape main_v156 main_v157 rfl shapeCasts_S1x64_S64,
    unary main_v157 main_v158 (broadcastInDim S1x1x64 ![2] bcast_S64_S1x1x64_2 : (⟨S64, .f32⟩ : BufTy).Contents (Elt F) → (⟨S1x1x64, .f32⟩ : BufTy).Contents (Elt F)),
    unary main_v158 main_v159 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v155 main_v159 main_v160 (addf : (⟨S1024x256x64, .f32⟩ : BufTy).Contents (Elt F) → (⟨S1024x256x64, .f32⟩ : BufTy).Contents (Elt F) → (⟨S1024x256x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S1024x256x64, .f32⟩) main_call7_v0) (broadcastInDim S1024x256x64 ![] bcast_S_S1024x256x64),
    TRef.binary (TRef.of (T := ⟨S1024x256x64, .f32⟩) main_v160) (TRef.of (T := ⟨S1024x256x64, .f32⟩) main_call7_v0) (TRef.of (T := ⟨S1024x256x64, .f32⟩) main_v161) maximumf,
    binary main_v152 main_v161 main_v162 ((fun l r => Host.dotGeneral dot_S1024x256x64_S1024x256x64_S1024x256x256_2_2_1_1_0_0 none l r) : (⟨S1024x256x64, .f32⟩ : BufTy).Contents (Elt F) → (⟨S1024x256x64, .f32⟩ : BufTy).Contents (Elt F) → (⟨S1024x256x256, .f32⟩ : BufTy).Contents (Elt F)),
    binary main_v162 main_arg1 main_v163 (mulf : (⟨S1024x256x256, .f32⟩ : BufTy).Contents (Elt F) → (⟨S1024x256x256, .f32⟩ : BufTy).Contents (Elt F) → (⟨S1024x256x256, .f32⟩ : BufTy).Contents (Elt F)),
    unary main_arg11 main_v164 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v164 main_v165 rfl shapeCasts_S1x64x64_S64x64,
    binary main_v143 main_v165 main_v166 ((fun l r => Host.dotGeneral dot_S1024x256x64_S64x64_S1024x256x64_2_1_01_0_n_n none l r) : (⟨S1024x256x64, .f32⟩ : BufTy).Contents (Elt F) → (⟨S64x64, .f32⟩ : BufTy).Contents (Elt F) → (⟨S1024x256x64, .f32⟩ : BufTy).Contents (Elt F)),
    unary main_arg12 main_v167 ((extractStridedSlice S1x64 ![2, 0] · slices_S3x64_S1x64_2_0) : (⟨S3x64, .f32⟩ : BufTy).Contents (Elt F) → (⟨S1x64, .f32⟩ : BufTy).Contents (Elt F)),
    reshape main_v167 main_v168 rfl shapeCasts_S1x64_S64,
    unary main_v168 main_v169 (broadcastInDim S1x1x64 ![2] bcast_S64_S1x1x64_2 : (⟨S64, .f32⟩ : BufTy).Contents (Elt F) → (⟨S1x1x64, .f32⟩ : BufTy).Contents (Elt F)),
    unary main_v169 main_v170 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v166 main_v170 main_v171 (addf : (⟨S1024x256x64, .f32⟩ : BufTy).Contents (Elt F) → (⟨S1024x256x64, .f32⟩ : BufTy).Contents (Elt F) → (⟨S1024x256x64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S1024x256x64, .f32⟩) main_call8_v0) (broadcastInDim S1024x256x64 ![] bcast_S_S1024x256x64),
    TRef.binary (TRef.of (T := ⟨S1024x256x64, .f32⟩) main_v171) (TRef.of (T := ⟨S1024x256x64, .f32⟩) main_call8_v0) (TRef.of (T := ⟨S1024x256x64, .f32⟩) main_v172) maximumf,
    binary main_v163 main_v172 main_v173 ((fun l r => Host.dotGeneral dot_S1024x256x256_S1024x256x64_S1024x256x64_2_1_1_2_0_0 none l r) : (⟨S1024x256x256, .f32⟩ : BufTy).Contents (Elt F) → (⟨S1024x256x64, .f32⟩ : BufTy).Contents (Elt F) → (⟨S1024x256x64, .f32⟩ : BufTy).Contents (Elt F)),
    nullary main_cst_15 (constant S_ .f32 0x00000000#32),
    binary main_v173 main_cst_15 main_v174 ((fun x v => Host.reduceAdd x v reducesTo_S1024x256x64_S1024x256_d2 h_S_) : (⟨S1024x256x64, .f32⟩ : BufTy).Contents (Elt F) → (⟨S_, .f32⟩ : BufTy).Contents (Elt F) → (⟨S1024x256, .f32⟩ : BufTy).Contents (Elt F)),
    unary main_v174 main_v175 (broadcastInDim S1024x256x1 ![0, 1] bcast_S1024x256_S1024x256x1_0_1 : (⟨S1024x256, .f32⟩ : BufTy).Contents (Elt F) → (⟨S1024x256x1, .f32⟩ : BufTy).Contents (Elt F)),
    nullary main_cst_16 (constant S_ .f32 0x42800000#32),
    unary main_cst_16 main_v176 (broadcastInDim S1024x256x1 ![] bcast_S_S1024x256x1 : (⟨S_, .f32⟩ : BufTy).Contents (Elt F) → (⟨S1024x256x1, .f32⟩ : BufTy).Contents (Elt F)),
    binary main_v175 main_v176 main_v177 (Host.divf : (⟨S1024x256x1, .f32⟩ : BufTy).Contents (Elt F) → (⟨S1024x256x1, .f32⟩ : BufTy).Contents (Elt F) → (⟨S1024x256x1, .f32⟩ : BufTy).Contents (Elt F)),
    unary main_v177 main_v178 (broadcastInDim S1024x256x64 ![0, 1, 2] bcast_S1024x256x1_S1024x256x64_0_1_2 : (⟨S1024x256x1, .f32⟩ : BufTy).Contents (Elt F) → (⟨S1024x256x64, .f32⟩ : BufTy).Contents (Elt F)),
    binary main_v173 main_v178 main_v179 (subf : (⟨S1024x256x64, .f32⟩ : BufTy).Contents (Elt F) → (⟨S1024x256x64, .f32⟩ : BufTy).Contents (Elt F) → (⟨S1024x256x64, .f32⟩ : BufTy).Contents (Elt F)),
    binary main_v179 main_v179 main_v180 (mulf : (⟨S1024x256x64, .f32⟩ : BufTy).Contents (Elt F) → (⟨S1024x256x64, .f32⟩ : BufTy).Contents (Elt F) → (⟨S1024x256x64, .f32⟩ : BufTy).Contents (Elt F)),
    nullary main_cst_17 (constant S_ .f32 0x00000000#32),
    binary main_v180 main_cst_17 main_v181 ((fun x v => Host.reduceAdd x v reducesTo_S1024x256x64_S1024x256_d2 h_S_) : (⟨S1024x256x64, .f32⟩ : BufTy).Contents (Elt F) → (⟨S_, .f32⟩ : BufTy).Contents (Elt F) → (⟨S1024x256, .f32⟩ : BufTy).Contents (Elt F)),
    unary main_v181 main_v182 (broadcastInDim S1024x256x1 ![0, 1] bcast_S1024x256_S1024x256x1_0_1 : (⟨S1024x256, .f32⟩ : BufTy).Contents (Elt F) → (⟨S1024x256x1, .f32⟩ : BufTy).Contents (Elt F)),
    nullary main_cst_18 (constant S_ .f32 0x42800000#32),
    unary main_cst_18 main_v183 (broadcastInDim S1024x256x1 ![] bcast_S_S1024x256x1 : (⟨S_, .f32⟩ : BufTy).Contents (Elt F) → (⟨S1024x256x1, .f32⟩ : BufTy).Contents (Elt F)),
    binary main_v182 main_v183 main_v184 (Host.divf : (⟨S1024x256x1, .f32⟩ : BufTy).Contents (Elt F) → (⟨S1024x256x1, .f32⟩ : BufTy).Contents (Elt F) → (⟨S1024x256x1, .f32⟩ : BufTy).Contents (Elt F)),
    unary main_v177 main_v185 (broadcastInDim S1024x256x64 ![0, 1, 2] bcast_S1024x256x1_S1024x256x64_0_1_2 : (⟨S1024x256x1, .f32⟩ : BufTy).Contents (Elt F) → (⟨S1024x256x64, .f32⟩ : BufTy).Contents (Elt F)),
    binary main_v173 main_v185 main_v186 (subf : (⟨S1024x256x64, .f32⟩ : BufTy).Contents (Elt F) → (⟨S1024x256x64, .f32⟩ : BufTy).Contents (Elt F) → (⟨S1024x256x64, .f32⟩ : BufTy).Contents (Elt F)),
    nullary main_cst_19 (constant S_ .f32 0x358637BD#32),
    unary main_cst_19 main_v187 (broadcastInDim S1024x256x1 ![] bcast_S_S1024x256x1 : (⟨S_, .f32⟩ : BufTy).Contents (Elt F) → (⟨S1024x256x1, .f32⟩ : BufTy).Contents (Elt F)),
    binary main_v184 main_v187 main_v188 (addf : (⟨S1024x256x1, .f32⟩ : BufTy).Contents (Elt F) → (⟨S1024x256x1, .f32⟩ : BufTy).Contents (Elt F) → (⟨S1024x256x1, .f32⟩ : BufTy).Contents (Elt F)),
    unary main_v188 main_v189 (Host.rsqrt : (⟨S1024x256x1, .f32⟩ : BufTy).Contents (Elt F) → (⟨S1024x256x1, .f32⟩ : BufTy).Contents (Elt F)),
    unary main_v189 main_v190 (broadcastInDim S1024x256x64 ![0, 1, 2] bcast_S1024x256x1_S1024x256x64_0_1_2 : (⟨S1024x256x1, .f32⟩ : BufTy).Contents (Elt F) → (⟨S1024x256x64, .f32⟩ : BufTy).Contents (Elt F)),
    binary main_v186 main_v190 main_v191 (mulf : (⟨S1024x256x64, .f32⟩ : BufTy).Contents (Elt F) → (⟨S1024x256x64, .f32⟩ : BufTy).Contents (Elt F) → (⟨S1024x256x64, .f32⟩ : BufTy).Contents (Elt F)),
    unary main_arg13 main_v192 (broadcastInDim S1x1x64 ![2] bcast_S64_S1x1x64_2 : (⟨S64, .f32⟩ : BufTy).Contents (Elt F) → (⟨S1x1x64, .f32⟩ : BufTy).Contents (Elt F)),
    unary main_v192 main_v193 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v191 main_v193 main_v194 (mulf : (⟨S1024x256x64, .f32⟩ : BufTy).Contents (Elt F) → (⟨S1024x256x64, .f32⟩ : BufTy).Contents (Elt F) → (⟨S1024x256x64, .f32⟩ : BufTy).Contents (Elt F)),
    unary main_arg14 main_v195 (broadcastInDim S1x1x64 ![2] bcast_S64_S1x1x64_2 : (⟨S64, .f32⟩ : BufTy).Contents (Elt F) → (⟨S1x1x64, .f32⟩ : BufTy).Contents (Elt F)),
    unary main_v195 main_v196 (broadcastInDim S1024x256x64 ![0, 1, 2] bcast_S1x1x64_S1024x256x64_0_1_2 : (⟨S1x1x64, .f32⟩ : BufTy).Contents (Elt F) → (⟨S1024x256x64, .f32⟩ : BufTy).Contents (Elt F)),
    binary main_v194 main_v196 main_v197 (addf : (⟨S1024x256x64, .f32⟩ : BufTy).Contents (Elt F) → (⟨S1024x256x64, .f32⟩ : BufTy).Contents (Elt F) → (⟨S1024x256x64, .f32⟩ : BufTy).Contents (Elt F)),
    binary main_v143 main_v197 main_v198 (addf : (⟨S1024x256x64, .f32⟩ : BufTy).Contents (Elt F) → (⟨S1024x256x64, .f32⟩ : BufTy).Contents (Elt F) → (⟨S1024x256x64, .f32⟩ : BufTy).Contents (Elt F)) ]

theorem ops_split : (ops : List (HloOp τ sig (Elt F))) = opsEmbed ++ (opsLayer0 ++ (opsLayer1 ++ opsLayer2)) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub ..⟩

/-- The fold over a concatenation is the fold over the second part of the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## No window writes an argument -/

theorem keep_opsEmbed_arg0 (V : Valuation τ sig (Elt Ideal)) : after opsEmbed V (Proc.devRef .tc main_arg0) = V (Proc.devRef .tc main_arg0) := by
  after_results_simp <;> rfl
theorem keep_opsEmbed_arg1 (V : Valuation τ sig (Elt Ideal)) : after opsEmbed V (Proc.devRef .tc main_arg1) = V (Proc.devRef .tc main_arg1) := by
  after_results_simp <;> rfl
theorem keep_opsEmbed_arg2 (V : Valuation τ sig (Elt Ideal)) : after opsEmbed V (Proc.devRef .tc main_arg2) = V (Proc.devRef .tc main_arg2) := by
  after_results_simp <;> rfl
theorem keep_opsEmbed_arg3 (V : Valuation τ sig (Elt Ideal)) : after opsEmbed V (Proc.devRef .tc main_arg3) = V (Proc.devRef .tc main_arg3) := by
  after_results_simp <;> rfl
theorem keep_opsEmbed_arg4 (V : Valuation τ sig (Elt Ideal)) : after opsEmbed V (Proc.devRef .tc main_arg4) = V (Proc.devRef .tc main_arg4) := by
  after_results_simp <;> rfl
theorem keep_opsEmbed_arg5 (V : Valuation τ sig (Elt Ideal)) : after opsEmbed V (Proc.devRef .tc main_arg5) = V (Proc.devRef .tc main_arg5) := by
  after_results_simp <;> rfl
theorem keep_opsEmbed_arg6 (V : Valuation τ sig (Elt Ideal)) : after opsEmbed V (Proc.devRef .tc main_arg6) = V (Proc.devRef .tc main_arg6) := by
  after_results_simp <;> rfl
theorem keep_opsEmbed_arg7 (V : Valuation τ sig (Elt Ideal)) : after opsEmbed V (Proc.devRef .tc main_arg7) = V (Proc.devRef .tc main_arg7) := by
  after_results_simp <;> rfl
theorem keep_opsEmbed_arg8 (V : Valuation τ sig (Elt Ideal)) : after opsEmbed V (Proc.devRef .tc main_arg8) = V (Proc.devRef .tc main_arg8) := by
  after_results_simp <;> rfl
theorem keep_opsEmbed_arg9 (V : Valuation τ sig (Elt Ideal)) : after opsEmbed V (Proc.devRef .tc main_arg9) = V (Proc.devRef .tc main_arg9) := by
  after_results_simp <;> rfl
theorem keep_opsEmbed_arg10 (V : Valuation τ sig (Elt Ideal)) : after opsEmbed V (Proc.devRef .tc main_arg10) = V (Proc.devRef .tc main_arg10) := by
  after_results_simp <;> rfl
theorem keep_opsEmbed_arg11 (V : Valuation τ sig (Elt Ideal)) : after opsEmbed V (Proc.devRef .tc main_arg11) = V (Proc.devRef .tc main_arg11) := by
  after_results_simp <;> rfl
theorem keep_opsEmbed_arg12 (V : Valuation τ sig (Elt Ideal)) : after opsEmbed V (Proc.devRef .tc main_arg12) = V (Proc.devRef .tc main_arg12) := by
  after_results_simp <;> rfl
theorem keep_opsEmbed_arg13 (V : Valuation τ sig (Elt Ideal)) : after opsEmbed V (Proc.devRef .tc main_arg13) = V (Proc.devRef .tc main_arg13) := by
  after_results_simp <;> rfl
theorem keep_opsEmbed_arg14 (V : Valuation τ sig (Elt Ideal)) : after opsEmbed V (Proc.devRef .tc main_arg14) = V (Proc.devRef .tc main_arg14) := by
  after_results_simp <;> rfl
theorem keep_opsLayer0_arg0 (V : Valuation τ sig (Elt Ideal)) : after opsLayer0 V (Proc.devRef .tc main_arg0) = V (Proc.devRef .tc main_arg0) := by
  after_results_simp <;> rfl
theorem keep_opsLayer0_arg1 (V : Valuation τ sig (Elt Ideal)) : after opsLayer0 V (Proc.devRef .tc main_arg1) = V (Proc.devRef .tc main_arg1) := by
  after_results_simp <;> rfl
theorem keep_opsLayer0_arg2 (V : Valuation τ sig (Elt Ideal)) : after opsLayer0 V (Proc.devRef .tc main_arg2) = V (Proc.devRef .tc main_arg2) := by
  after_results_simp <;> rfl
theorem keep_opsLayer0_arg3 (V : Valuation τ sig (Elt Ideal)) : after opsLayer0 V (Proc.devRef .tc main_arg3) = V (Proc.devRef .tc main_arg3) := by
  after_results_simp <;> rfl
theorem keep_opsLayer0_arg4 (V : Valuation τ sig (Elt Ideal)) : after opsLayer0 V (Proc.devRef .tc main_arg4) = V (Proc.devRef .tc main_arg4) := by
  after_results_simp <;> rfl
theorem keep_opsLayer0_arg5 (V : Valuation τ sig (Elt Ideal)) : after opsLayer0 V (Proc.devRef .tc main_arg5) = V (Proc.devRef .tc main_arg5) := by
  after_results_simp <;> rfl
theorem keep_opsLayer0_arg6 (V : Valuation τ sig (Elt Ideal)) : after opsLayer0 V (Proc.devRef .tc main_arg6) = V (Proc.devRef .tc main_arg6) := by
  after_results_simp <;> rfl
theorem keep_opsLayer0_arg7 (V : Valuation τ sig (Elt Ideal)) : after opsLayer0 V (Proc.devRef .tc main_arg7) = V (Proc.devRef .tc main_arg7) := by
  after_results_simp <;> rfl
theorem keep_opsLayer0_arg8 (V : Valuation τ sig (Elt Ideal)) : after opsLayer0 V (Proc.devRef .tc main_arg8) = V (Proc.devRef .tc main_arg8) := by
  after_results_simp <;> rfl
theorem keep_opsLayer0_arg9 (V : Valuation τ sig (Elt Ideal)) : after opsLayer0 V (Proc.devRef .tc main_arg9) = V (Proc.devRef .tc main_arg9) := by
  after_results_simp <;> rfl
theorem keep_opsLayer0_arg10 (V : Valuation τ sig (Elt Ideal)) : after opsLayer0 V (Proc.devRef .tc main_arg10) = V (Proc.devRef .tc main_arg10) := by
  after_results_simp <;> rfl
theorem keep_opsLayer0_arg11 (V : Valuation τ sig (Elt Ideal)) : after opsLayer0 V (Proc.devRef .tc main_arg11) = V (Proc.devRef .tc main_arg11) := by
  after_results_simp <;> rfl
theorem keep_opsLayer0_arg12 (V : Valuation τ sig (Elt Ideal)) : after opsLayer0 V (Proc.devRef .tc main_arg12) = V (Proc.devRef .tc main_arg12) := by
  after_results_simp <;> rfl
theorem keep_opsLayer0_arg13 (V : Valuation τ sig (Elt Ideal)) : after opsLayer0 V (Proc.devRef .tc main_arg13) = V (Proc.devRef .tc main_arg13) := by
  after_results_simp <;> rfl
theorem keep_opsLayer0_arg14 (V : Valuation τ sig (Elt Ideal)) : after opsLayer0 V (Proc.devRef .tc main_arg14) = V (Proc.devRef .tc main_arg14) := by
  after_results_simp <;> rfl
theorem keep_opsLayer1_arg0 (V : Valuation τ sig (Elt Ideal)) : after opsLayer1 V (Proc.devRef .tc main_arg0) = V (Proc.devRef .tc main_arg0) := by
  after_results_simp <;> rfl
theorem keep_opsLayer1_arg1 (V : Valuation τ sig (Elt Ideal)) : after opsLayer1 V (Proc.devRef .tc main_arg1) = V (Proc.devRef .tc main_arg1) := by
  after_results_simp <;> rfl
theorem keep_opsLayer1_arg2 (V : Valuation τ sig (Elt Ideal)) : after opsLayer1 V (Proc.devRef .tc main_arg2) = V (Proc.devRef .tc main_arg2) := by
  after_results_simp <;> rfl
theorem keep_opsLayer1_arg3 (V : Valuation τ sig (Elt Ideal)) : after opsLayer1 V (Proc.devRef .tc main_arg3) = V (Proc.devRef .tc main_arg3) := by
  after_results_simp <;> rfl
theorem keep_opsLayer1_arg4 (V : Valuation τ sig (Elt Ideal)) : after opsLayer1 V (Proc.devRef .tc main_arg4) = V (Proc.devRef .tc main_arg4) := by
  after_results_simp <;> rfl
theorem keep_opsLayer1_arg5 (V : Valuation τ sig (Elt Ideal)) : after opsLayer1 V (Proc.devRef .tc main_arg5) = V (Proc.devRef .tc main_arg5) := by
  after_results_simp <;> rfl
theorem keep_opsLayer1_arg6 (V : Valuation τ sig (Elt Ideal)) : after opsLayer1 V (Proc.devRef .tc main_arg6) = V (Proc.devRef .tc main_arg6) := by
  after_results_simp <;> rfl
theorem keep_opsLayer1_arg7 (V : Valuation τ sig (Elt Ideal)) : after opsLayer1 V (Proc.devRef .tc main_arg7) = V (Proc.devRef .tc main_arg7) := by
  after_results_simp <;> rfl
theorem keep_opsLayer1_arg8 (V : Valuation τ sig (Elt Ideal)) : after opsLayer1 V (Proc.devRef .tc main_arg8) = V (Proc.devRef .tc main_arg8) := by
  after_results_simp <;> rfl
theorem keep_opsLayer1_arg9 (V : Valuation τ sig (Elt Ideal)) : after opsLayer1 V (Proc.devRef .tc main_arg9) = V (Proc.devRef .tc main_arg9) := by
  after_results_simp <;> rfl
theorem keep_opsLayer1_arg10 (V : Valuation τ sig (Elt Ideal)) : after opsLayer1 V (Proc.devRef .tc main_arg10) = V (Proc.devRef .tc main_arg10) := by
  after_results_simp <;> rfl
theorem keep_opsLayer1_arg11 (V : Valuation τ sig (Elt Ideal)) : after opsLayer1 V (Proc.devRef .tc main_arg11) = V (Proc.devRef .tc main_arg11) := by
  after_results_simp <;> rfl
theorem keep_opsLayer1_arg12 (V : Valuation τ sig (Elt Ideal)) : after opsLayer1 V (Proc.devRef .tc main_arg12) = V (Proc.devRef .tc main_arg12) := by
  after_results_simp <;> rfl
theorem keep_opsLayer1_arg13 (V : Valuation τ sig (Elt Ideal)) : after opsLayer1 V (Proc.devRef .tc main_arg13) = V (Proc.devRef .tc main_arg13) := by
  after_results_simp <;> rfl
theorem keep_opsLayer1_arg14 (V : Valuation τ sig (Elt Ideal)) : after opsLayer1 V (Proc.devRef .tc main_arg14) = V (Proc.devRef .tc main_arg14) := by
  after_results_simp <;> rfl
theorem keep_opsLayer2_arg0 (V : Valuation τ sig (Elt Ideal)) : after opsLayer2 V (Proc.devRef .tc main_arg0) = V (Proc.devRef .tc main_arg0) := by
  after_results_simp <;> rfl
theorem keep_opsLayer2_arg1 (V : Valuation τ sig (Elt Ideal)) : after opsLayer2 V (Proc.devRef .tc main_arg1) = V (Proc.devRef .tc main_arg1) := by
  after_results_simp <;> rfl
theorem keep_opsLayer2_arg2 (V : Valuation τ sig (Elt Ideal)) : after opsLayer2 V (Proc.devRef .tc main_arg2) = V (Proc.devRef .tc main_arg2) := by
  after_results_simp <;> rfl
theorem keep_opsLayer2_arg3 (V : Valuation τ sig (Elt Ideal)) : after opsLayer2 V (Proc.devRef .tc main_arg3) = V (Proc.devRef .tc main_arg3) := by
  after_results_simp <;> rfl
theorem keep_opsLayer2_arg4 (V : Valuation τ sig (Elt Ideal)) : after opsLayer2 V (Proc.devRef .tc main_arg4) = V (Proc.devRef .tc main_arg4) := by
  after_results_simp <;> rfl
theorem keep_opsLayer2_arg5 (V : Valuation τ sig (Elt Ideal)) : after opsLayer2 V (Proc.devRef .tc main_arg5) = V (Proc.devRef .tc main_arg5) := by
  after_results_simp <;> rfl
theorem keep_opsLayer2_arg6 (V : Valuation τ sig (Elt Ideal)) : after opsLayer2 V (Proc.devRef .tc main_arg6) = V (Proc.devRef .tc main_arg6) := by
  after_results_simp <;> rfl
theorem keep_opsLayer2_arg7 (V : Valuation τ sig (Elt Ideal)) : after opsLayer2 V (Proc.devRef .tc main_arg7) = V (Proc.devRef .tc main_arg7) := by
  after_results_simp <;> rfl
theorem keep_opsLayer2_arg8 (V : Valuation τ sig (Elt Ideal)) : after opsLayer2 V (Proc.devRef .tc main_arg8) = V (Proc.devRef .tc main_arg8) := by
  after_results_simp <;> rfl
theorem keep_opsLayer2_arg9 (V : Valuation τ sig (Elt Ideal)) : after opsLayer2 V (Proc.devRef .tc main_arg9) = V (Proc.devRef .tc main_arg9) := by
  after_results_simp <;> rfl
theorem keep_opsLayer2_arg10 (V : Valuation τ sig (Elt Ideal)) : after opsLayer2 V (Proc.devRef .tc main_arg10) = V (Proc.devRef .tc main_arg10) := by
  after_results_simp <;> rfl
theorem keep_opsLayer2_arg11 (V : Valuation τ sig (Elt Ideal)) : after opsLayer2 V (Proc.devRef .tc main_arg11) = V (Proc.devRef .tc main_arg11) := by
  after_results_simp <;> rfl
theorem keep_opsLayer2_arg12 (V : Valuation τ sig (Elt Ideal)) : after opsLayer2 V (Proc.devRef .tc main_arg12) = V (Proc.devRef .tc main_arg12) := by
  after_results_simp <;> rfl
theorem keep_opsLayer2_arg13 (V : Valuation τ sig (Elt Ideal)) : after opsLayer2 V (Proc.devRef .tc main_arg13) = V (Proc.devRef .tc main_arg13) := by
  after_results_simp <;> rfl
theorem keep_opsLayer2_arg14 (V : Valuation τ sig (Elt Ideal)) : after opsLayer2 V (Proc.devRef .tc main_arg14) = V (Proc.devRef .tc main_arg14) := by
  after_results_simp <;> rfl

/-! ## Each window's last buffer is the next stage -/

variable (x0 : (⟨S1024x256, .i32⟩ : BufTy).Contents (Elt Ideal)) (x1 : (⟨S1024x256x256, .f32⟩ : BufTy).Contents (Elt Ideal))
  (x3 : (⟨S10000x64, .f32⟩ : BufTy).Contents (Elt Ideal)) (x4 : (⟨S256x64, .f32⟩ : BufTy).Contents (Elt Ideal))
  (x5 x6 : (⟨S64, .f32⟩ : BufTy).Contents (Elt Ideal))
  (x7 : (⟨S3x64x64, .f32⟩ : BufTy).Contents (Elt Ideal)) (x8 : (⟨S3x64, .f32⟩ : BufTy).Contents (Elt Ideal))
  (x9 : (⟨S3x64x64, .f32⟩ : BufTy).Contents (Elt Ideal)) (x10 : (⟨S3x64, .f32⟩ : BufTy).Contents (Elt Ideal))
  (x11 : (⟨S3x64x64, .f32⟩ : BufTy).Contents (Elt Ideal)) (x12 : (⟨S3x64, .f32⟩ : BufTy).Contents (Elt Ideal))
  (x13 x14 : (⟨S64, .f32⟩ : BufTy).Contents (Elt Ideal))

/-- The embedding stage's window: from any contents, the stream before the first layer, of the arguments' contents. -/
theorem window_embed (V : Valuation τ sig (Elt Ideal)) :
    after opsEmbed V (Proc.devRef .tc main_v33) = val_main_v33 (F := Ideal) (V (Proc.devRef .tc main_arg0)) (V (Proc.devRef .tc main_arg3)) (V (Proc.devRef .tc main_arg4)) (V (Proc.devRef .tc main_arg5)) (V (Proc.devRef .tc main_arg6)) := by
  after_results_simp <;> rfl

/-- Layer 0's window: from buffers holding the stream before it and the arguments, the stream after it. -/
theorem window_layer0 (W : Valuation τ sig (Elt Ideal))
    (hX : W (Proc.devRef .tc main_v33) = val_main_v33 (F := Ideal) x0 x3 x4 x5 x6) (h1 : W (Proc.devRef .tc main_arg1) = x1) (h7 : W (Proc.devRef .tc main_arg7) = x7) (h8 : W (Proc.devRef .tc main_arg8) = x8) (h9 : W (Proc.devRef .tc main_arg9) = x9) (h10 : W (Proc.devRef .tc main_arg10) = x10) (h11 : W (Proc.devRef .tc main_arg11) = x11) (h12 : W (Proc.devRef .tc main_arg12) = x12) (h13 : W (Proc.devRef .tc main_arg13) = x13) (h14 : W (Proc.devRef .tc main_arg14) = x14) :
    after opsLayer0 W (Proc.devRef .tc main_v88) = val_main_v88 (F := Ideal) x0 x1 x3 x4 x5 x6 x7 x8 x9 x10 x11 x12 x13 x14 := by
  after_results_simp
  rw [hX, h1, h7, h8, h9, h10, h11, h12, h13, h14]
  rfl

/-- Layer 1's window: from buffers holding the stream before it and the arguments, the stream after it. -/
theorem window_layer1 (W : Valuation τ sig (Elt Ideal))
    (hX : W (Proc.devRef .tc main_v88) = val_main_v88 (F := Ideal) x0 x1 x3 x4 x5 x6 x7 x8 x9 x10 x11 x12 x13 x14) (h1 : W (Proc.devRef .tc main_arg1) = x1) (h7 : W (Proc.devRef .tc main_arg7) = x7) (h8 : W (Proc.devRef .tc main_arg8) = x8) (h9 : W (Proc.devRef .tc main_arg9) = x9) (h10 : W (Proc.devRef .tc main_arg10) = x10) (h11 : W (Proc.devRef .tc main_arg11) = x11) (h12 : W (Proc.devRef .tc main_arg12) = x12) (h13 : W (Proc.devRef .tc main_arg13) = x13) (h14 : W (Proc.devRef .tc main_arg14) = x14) :
    after opsLayer1 W (Proc.devRef .tc main_v143) = val_main_v143 (F := Ideal) x0 x1 x3 x4 x5 x6 x7 x8 x9 x10 x11 x12 x13 x14 := by
  after_results_simp
  rw [hX, h1, h7, h8, h9, h10, h11, h12, h13, h14]
  rfl

/-- Layer 2's window: from buffers holding the stream before it and the arguments, the stream after it. -/
theorem window_layer2 (W : Valuation τ sig (Elt Ideal))
    (hX : W (Proc.devRef .tc main_v143) = val_main_v143 (F := Ideal) x0 x1 x3 x4 x5 x6 x7 x8 x9 x10 x11 x12 x13 x14) (h1 : W (Proc.devRef .tc main_arg1) = x1) (h7 : W (Proc.devRef .tc main_arg7) = x7) (h8 : W (Proc.devRef .tc main_arg8) = x8) (h9 : W (Proc.devRef .tc main_arg9) = x9) (h10 : W (Proc.devRef .tc main_arg10) = x10) (h11 : W (Proc.devRef .tc main_arg11) = x11) (h12 : W (Proc.devRef .tc main_arg12) = x12) (h13 : W (Proc.devRef .tc main_arg13) = x13) (h14 : W (Proc.devRef .tc main_arg14) = x14) :
    after opsLayer2 W (Proc.devRef .tc main_v198) = val_main_v198 (F := Ideal) x0 x1 x3 x4 x5 x6 x7 x8 x9 x10 x11 x12 x13 x14 := by
  after_results_simp
  rw [hX, h1, h7, h8, h9, h10, h11, h12, h13, h14]
  rfl

/-- After all 239 operations the result buffer holds the last stage of the arguments' contents. -/
theorem result_stage (V : Valuation τ sig (Elt Ideal)) :
    after ops V (Proc.devRef .tc main_v198) = val_main_v198 (F := Ideal) (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  rw [ops_split, after_append, after_append, after_append]
  refine window_layer2 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) _ ?_ ?_ ?_ ?_ ?_ ?_ ?_ ?_ ?_ ?_
  · refine window_layer1 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) _ ?_ ?_ ?_ ?_ ?_ ?_ ?_ ?_ ?_ ?_
    · refine window_layer0 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) _ (window_embed V) (keep_opsEmbed_arg1 V) (keep_opsEmbed_arg7 V) (keep_opsEmbed_arg8 V) (keep_opsEmbed_arg9 V) (keep_opsEmbed_arg10 V) (keep_opsEmbed_arg11 V) (keep_opsEmbed_arg12 V) (keep_opsEmbed_arg13 V) (keep_opsEmbed_arg14 V)
    · rw [keep_opsLayer0_arg1, keep_opsEmbed_arg1]
    · rw [keep_opsLayer0_arg7, keep_opsEmbed_arg7]
    · rw [keep_opsLayer0_arg8, keep_opsEmbed_arg8]
    · rw [keep_opsLayer0_arg9, keep_opsEmbed_arg9]
    · rw [keep_opsLayer0_arg10, keep_opsEmbed_arg10]
    · rw [keep_opsLayer0_arg11, keep_opsEmbed_arg11]
    · rw [keep_opsLayer0_arg12, keep_opsEmbed_arg12]
    · rw [keep_opsLayer0_arg13, keep_opsEmbed_arg13]
    · rw [keep_opsLayer0_arg14, keep_opsEmbed_arg14]
  · rw [keep_opsLayer1_arg1, keep_opsLayer0_arg1, keep_opsEmbed_arg1]
  · rw [keep_opsLayer1_arg7, keep_opsLayer0_arg7, keep_opsEmbed_arg7]
  · rw [keep_opsLayer1_arg8, keep_opsLayer0_arg8, keep_opsEmbed_arg8]
  · rw [keep_opsLayer1_arg9, keep_opsLayer0_arg9, keep_opsEmbed_arg9]
  · rw [keep_opsLayer1_arg10, keep_opsLayer0_arg10, keep_opsEmbed_arg10]
  · rw [keep_opsLayer1_arg11, keep_opsLayer0_arg11, keep_opsEmbed_arg11]
  · rw [keep_opsLayer1_arg12, keep_opsLayer0_arg12, keep_opsEmbed_arg12]
  · rw [keep_opsLayer1_arg13, keep_opsLayer0_arg13, keep_opsEmbed_arg13]
  · rw [keep_opsLayer1_arg14, keep_opsLayer0_arg14, keep_opsEmbed_arg14]

theorem keep_arg0 (V : Valuation τ sig (Elt Ideal)) : after ops V (Proc.devRef .tc main_arg0) = V (Proc.devRef .tc main_arg0) := by
  rw [ops_split, after_append, after_append, after_append, keep_opsLayer2_arg0, keep_opsLayer1_arg0, keep_opsLayer0_arg0, keep_opsEmbed_arg0]
theorem keep_arg1 (V : Valuation τ sig (Elt Ideal)) : after ops V (Proc.devRef .tc main_arg1) = V (Proc.devRef .tc main_arg1) := by
  rw [ops_split, after_append, after_append, after_append, keep_opsLayer2_arg1, keep_opsLayer1_arg1, keep_opsLayer0_arg1, keep_opsEmbed_arg1]
theorem keep_arg2 (V : Valuation τ sig (Elt Ideal)) : after ops V (Proc.devRef .tc main_arg2) = V (Proc.devRef .tc main_arg2) := by
  rw [ops_split, after_append, after_append, after_append, keep_opsLayer2_arg2, keep_opsLayer1_arg2, keep_opsLayer0_arg2, keep_opsEmbed_arg2]
theorem keep_arg3 (V : Valuation τ sig (Elt Ideal)) : after ops V (Proc.devRef .tc main_arg3) = V (Proc.devRef .tc main_arg3) := by
  rw [ops_split, after_append, after_append, after_append, keep_opsLayer2_arg3, keep_opsLayer1_arg3, keep_opsLayer0_arg3, keep_opsEmbed_arg3]
theorem keep_arg4 (V : Valuation τ sig (Elt Ideal)) : after ops V (Proc.devRef .tc main_arg4) = V (Proc.devRef .tc main_arg4) := by
  rw [ops_split, after_append, after_append, after_append, keep_opsLayer2_arg4, keep_opsLayer1_arg4, keep_opsLayer0_arg4, keep_opsEmbed_arg4]
theorem keep_arg5 (V : Valuation τ sig (Elt Ideal)) : after ops V (Proc.devRef .tc main_arg5) = V (Proc.devRef .tc main_arg5) := by
  rw [ops_split, after_append, after_append, after_append, keep_opsLayer2_arg5, keep_opsLayer1_arg5, keep_opsLayer0_arg5, keep_opsEmbed_arg5]
theorem keep_arg6 (V : Valuation τ sig (Elt Ideal)) : after ops V (Proc.devRef .tc main_arg6) = V (Proc.devRef .tc main_arg6) := by
  rw [ops_split, after_append, after_append, after_append, keep_opsLayer2_arg6, keep_opsLayer1_arg6, keep_opsLayer0_arg6, keep_opsEmbed_arg6]
theorem keep_arg7 (V : Valuation τ sig (Elt Ideal)) : after ops V (Proc.devRef .tc main_arg7) = V (Proc.devRef .tc main_arg7) := by
  rw [ops_split, after_append, after_append, after_append, keep_opsLayer2_arg7, keep_opsLayer1_arg7, keep_opsLayer0_arg7, keep_opsEmbed_arg7]
theorem keep_arg8 (V : Valuation τ sig (Elt Ideal)) : after ops V (Proc.devRef .tc main_arg8) = V (Proc.devRef .tc main_arg8) := by
  rw [ops_split, after_append, after_append, after_append, keep_opsLayer2_arg8, keep_opsLayer1_arg8, keep_opsLayer0_arg8, keep_opsEmbed_arg8]
theorem keep_arg9 (V : Valuation τ sig (Elt Ideal)) : after ops V (Proc.devRef .tc main_arg9) = V (Proc.devRef .tc main_arg9) := by
  rw [ops_split, after_append, after_append, after_append, keep_opsLayer2_arg9, keep_opsLayer1_arg9, keep_opsLayer0_arg9, keep_opsEmbed_arg9]
theorem keep_arg10 (V : Valuation τ sig (Elt Ideal)) : after ops V (Proc.devRef .tc main_arg10) = V (Proc.devRef .tc main_arg10) := by
  rw [ops_split, after_append, after_append, after_append, keep_opsLayer2_arg10, keep_opsLayer1_arg10, keep_opsLayer0_arg10, keep_opsEmbed_arg10]
theorem keep_arg11 (V : Valuation τ sig (Elt Ideal)) : after ops V (Proc.devRef .tc main_arg11) = V (Proc.devRef .tc main_arg11) := by
  rw [ops_split, after_append, after_append, after_append, keep_opsLayer2_arg11, keep_opsLayer1_arg11, keep_opsLayer0_arg11, keep_opsEmbed_arg11]
theorem keep_arg12 (V : Valuation τ sig (Elt Ideal)) : after ops V (Proc.devRef .tc main_arg12) = V (Proc.devRef .tc main_arg12) := by
  rw [ops_split, after_append, after_append, after_append, keep_opsLayer2_arg12, keep_opsLayer1_arg12, keep_opsLayer0_arg12, keep_opsEmbed_arg12]
theorem keep_arg13 (V : Valuation τ sig (Elt Ideal)) : after ops V (Proc.devRef .tc main_arg13) = V (Proc.devRef .tc main_arg13) := by
  rw [ops_split, after_append, after_append, after_append, keep_opsLayer2_arg13, keep_opsLayer1_arg13, keep_opsLayer0_arg13, keep_opsEmbed_arg13]
theorem keep_arg14 (V : Valuation τ sig (Elt Ideal)) : after ops V (Proc.devRef .tc main_arg14) = V (Proc.devRef .tc main_arg14) := by
  rw [ops_split, after_append, after_append, after_append, keep_opsLayer2_arg14, keep_opsLayer1_arg14, keep_opsLayer0_arg14, keep_opsEmbed_arg14]

/-! ## The run -/

set_option maxRecDepth 8192 in
/-- Every weakly fair execution of the reference terminates with the result buffer at the last stage of the arguments'
    launch contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v198) = val_main_v198 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v198).trans (result_stage (launchContents m c)),
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c)),
      (h c main_arg5).trans (keep_arg5 (launchContents m c)),
      (h c main_arg6).trans (keep_arg6 (launchContents m c)),
      (h c main_arg7).trans (keep_arg7 (launchContents m c)),
      (h c main_arg8).trans (keep_arg8 (launchContents m c)),
      (h c main_arg9).trans (keep_arg9 (launchContents m c)),
      (h c main_arg10).trans (keep_arg10 (launchContents m c)),
      (h c main_arg11).trans (keep_arg11 (launchContents m c)),
      (h c main_arg12).trans (keep_arg12 (launchContents m c)),
      (h c main_arg13).trans (keep_arg13 (launchContents m c)),
      (h c main_arg14).trans (keep_arg14 (launchContents m c))⟩)
    (run_seq scopedRefs_eq scopedSems_eq defs main (fun _ => ops) main_eq (fun _ => ops_sub) m ρ)

end Cert.ReferenceIdeal.HandRun

end
-- ==== Proof.BitsRun.lean ====
/-
  The run of the fused three-layer graph kernel through its pipeline, at any float instance.

  The program is: host operations (the embedding gather with its negative-index wrap, the position term, the cast to
  bf16; the three projection weights transposed and laid side by side, each in a 128-lane slot padded with zeros; the
  three biases laid out the same way), then ONE region over 64 grid points. At point t the body reads block t of the
  embeddings (16 batch rows) and block t of the adjacency, the two embedding-normalisation vectors, the whole padded
  weight and bias tables, the two layer-normalisation vectors, and stores ONE whole 16×256×64 block of the result. It
  keeps nothing between points. So what its output buffer holds after the body is a pure function of the eight input
  blocks (`blockOut`), every input buffer is left as found, and the library's frame run gives: the result array is the
  blocks written back, every other unscoped buffer is as the region found it, and the fifteen arguments are untouched
  by the host operations before the region.
-/
import proofs.«161215_j83726092468549_2_alg».proof.Proof.Gen.Kernel.Launch
import proofs.«161215_j83726092468549_2_alg».proof.Proof.Gen.Kernel.Skeleton
import proofs.«161215_j83726092468549_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the host operations. -/
abbrev V (c : Dev nD) (b : Ref sig .tc) : Buf (Elt F) ((c : Thread nD τ).loc b) := StableHlo.after hostOps0 (fun b => m (c, b)) b

/-- Every host operation writes a buffer that already exists. -/
theorem hostOps0_fresh : (hostOps0 : List (HloOp τ sig (Elt F))).Forall fun op => op.fresh = ∅ := by
  simp only [List.Forall]; repeat' constructor

/-- @main is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the pipeline fetched it there or
    kept it from the point before (then the block index has not moved), for any proof data over `V` whose body leaves
    the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## What a run to the library's frame post says of the result and of the arguments -/

/-- From a frame run: the result array is the proof data's final array, and each argument is as launched — an argument
    a window stages by the library's reading of an input window's array, the others because no window stages them. -/
theorem post_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_v18) = (dats 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c).1 8,
      ((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 2).trans (((dats 0 c).arrAt_in 2 rfl _).trans ((hA c 2).trans (V_main_arg5 m c))),
      ((h c).1 3).trans (((dats 0 c).arrAt_in 3 rfl _).trans ((hA c 3).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).1 6).trans (((dats 0 c).arrAt_in 6 rfl _).trans ((hA c 6).trans (V_main_arg13 m c))),
      ((h c).1 7).trans (((dats 0 c).arrAt_in 7 rfl _).trans ((hA c 7).trans (V_main_arg14 m c)))⟩) h

/-! ## The body's accesses -/

abbrev rEmb : Rect S16x256x64 := Rect.unit (s := S16x256x64) ![0, 0, 0] S16x256x64.size inb_S16x256x64_S16x256x64_0_0_0
abbrev rAdj : Rect S16x256x256 := Rect.unit (s := S16x256x256) ![0, 0, 0] S16x256x256.size inb_S16x256x256_S16x256x256_0_0_0
abbrev rVec : Rect S64 := Rect.unit (s := S64) ![0] S64.size inb_S64_S64_0
abbrev rW0 : Rect S3x64x384 := Rect.unit (s := S3x64x384) ![0, 0, 0] S1x64x384.size inb_S3x64x384_S1x64x384_0_0_0
abbrev rW1 : Rect S3x64x384 := Rect.unit (s := S3x64x384) ![1, 0, 0] S1x64x384.size inb_S3x64x384_S1x64x384_1_0_0
abbrev rW2 : Rect S3x64x384 := Rect.unit (s := S3x64x384) ![2, 0, 0] S1x64x384.size inb_S3x64x384_S1x64x384_2_0_0
abbrev rB0 : Rect S3x384 := Rect.unit (s := S3x384) ![0, 0] S1x384.size inb_S3x384_S1x384_0_0
abbrev rB1 : Rect S3x384 := Rect.unit (s := S3x384) ![1, 0] S1x384.size inb_S3x384_S1x384_1_0
abbrev rB2 : Rect S3x384 := Rect.unit (s := S3x384) ![2, 0] S1x384.size inb_S3x384_S1x384_2_0

/-! ## What the body computes -/

/-- The normalised embeddings: the residual stream before the first layer. -/
def stream0 (x0 : Vec F S16x256x64 .bf16) (x2 x3 : Vec F S64 .f32) : FVec F S16x256x64 .f32 :=
  k0_pay2 (View.ld x0 rEmb) (View.ld x2 rVec) (View.ld x3 rVec)

/-- The residual stream after the first layer. -/
def stream1 (x0 : Vec F S16x256x64 .bf16) (x1 : Vec F S16x256x256 .f32) (x2 : Vec F S64 .f32) (x3 : Vec F S64 .f32) (x4 : Vec F S3x64x384 .f32) (x5 : Vec F S3x384 .f32) (x6 : Vec F S64 .f32) (x7 : Vec F S64 .f32) : FVec F S16x256x64 .f32 :=
  k0_pay5 (stream0 x0 x2 x3) (View.ld x6 rVec) (View.ld x7 rVec)
    (k0_pay3 (View.ld x0 rEmb) (View.ld x2 rVec) (View.ld x3 rVec) (View.ld x4 rW0)) (k0_pay4 (View.ld x5 rB0)) (View.ld x1 rAdj)

/-- The residual stream after the second layer. -/
def stream2 (x0 : Vec F S16x256x64 .bf16) (x1 : Vec F S16x256x256 .f32) (x2 : Vec F S64 .f32) (x3 : Vec F S64 .f32) (x4 : Vec F S3x64x384 .f32) (x5 : Vec F S3x384 .f32) (x6 : Vec F S64 .f32) (x7 : Vec F S64 .f32) : FVec F S16x256x64 .f32 :=
  k0_pay8 (View.ld x6 rVec) (View.ld x7 rVec) (stream1 x0 x1 x2 x3 x4 x5 x6 x7) (k0_pay6 (View.ld x4 rW1)) (k0_pay7 (View.ld x5 rB1)) (View.ld x1 rAdj)

/-- The value the body stores: the residual stream after the third layer. -/
def stream3 (x0 : Vec F S16x256x64 .bf16) (x1 : Vec F S16x256x256 .f32) (x2 : Vec F S64 .f32) (x3 : Vec F S64 .f32) (x4 : Vec F S3x64x384 .f32) (x5 : Vec F S3x384 .f32) (x6 : Vec F S64 .f32) (x7 : Vec F S64 .f32) : FVec F S16x256x64 .f32 :=
  k0_pay1 (View.ld x7 rVec) (stream2 x0 x1 x2 x3 x4 x5 x6 x7)
    (k0_pay9 (stream2 x0 x1 x2 x3 x4 x5 x6 x7) (View.ld x4 rW2) (View.ld x5 rB2) (View.ld x1 rAdj)) (k0_pay10 (View.ld x6 rVec))

/-- The output window's staging buffer after the body: its one store, of the whole block. -/
def blockOut (x0 : Vec F S16x256x64 .bf16) (x1 : Vec F S16x256x256 .f32) (x2 : Vec F S64 .f32) (x3 : Vec F S64 .f32) (x4 : Vec F S3x64x384 .f32) (x5 : Vec F S3x384 .f32) (x6 : Vec F S64 .f32) (x7 : Vec F S64 .f32) : Vec F S16x256x64 .f32 :=
  View.canon [⟨rEmb, stream3 x0 x1 x2 x3 x4 x5 x6 x7⟩]

/-- The one store covers the buffer. -/
theorem cover_out (p0 : Vec F S16x256x64 .f32) (y : S16x256x64.Idx) :
    ∃ pc ∈ ([⟨rEmb, p0⟩] : List (View.Piece (Elt F) S16x256x64 .f32)), y ∈ pc.1.set :=
  View.cover_of_tiled [⟨rEmb, p0⟩] S16x256x64.size (by rfl) y

/-! ## The body's triple -/

set_option maxHeartbeats 4000000 in
/-- On whole staging memrefs, the inputs' at contents `x·` and the output's at anything, the body runs to a state
    holding the inputs' as they were and the output's at `blockOut` of the inputs'. -/
theorem sound_kernel (c : Dev nD) (E : Set ℕ) (i : grid0.Coords) (arg1 : Memref sig .tc .vmem S16x256x64 .bf16) (harg1 : arg1.IsWhole) (arg2 : Memref sig .tc .vmem S16x256x256 .f32) (harg2 : arg2.IsWhole) (arg3 : Memref sig .tc .vmem S64 .f32) (harg3 : arg3.IsWhole) (arg4 : Memref sig .tc .vmem S64 .f32) (harg4 : arg4.IsWhole) (arg5 : Memref sig .tc .vmem S3x64x384 .f32) (harg5 : arg5.IsWhole) (arg6 : Memref sig .tc .vmem S3x384 .f32) (harg6 : arg6.IsWhole) (arg7 : Memref sig .tc .vmem S64 .f32) (harg7 : arg7.IsWhole) (arg8 : Memref sig .tc .vmem S64 .f32) (harg8 : arg8.IsWhole) (arg9 : Memref sig .tc .vmem S16x256x64 .f32) (harg9 : arg9.IsWhole)
    (x0 : Vec F S16x256x64 .bf16) (x1 : Vec F S16x256x256 .f32) (x2 : Vec F S64 .f32) (x3 : Vec F S64 .f32) (x4 : Vec F S3x64x384 .f32) (x5 : Vec F S3x384 .f32) (x6 : Vec F S64 .f32) (x7 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (blockOut x0 x1 x2 x3 x4 x5 x6 x7)) -∗ K ⟨⟩))
      ⊢ wp frame (wpE (defs₀ (F := F)) Variants.none c none) E (cc0__gnn_kernel i arg1 harg1 arg2 harg2 arg3 harg3 arg4 harg4 arg5 harg5 arg6 harg6 arg7 harg7 arg8 harg8 arg9 harg9) K := by
  simp only [cc0__gnn_kernel_eq_skeleton]; unfold cc0__gnn_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover_out _)

/-! ## The pipeline's proof data -/

/-- On core `c`: the arrays as the region finds them; after the body at point `t` each input's buffer at its block and
    the output's at `blockOut` of the input blocks; the invariant the scoped rest and the generator register, untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => blockOut (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_out (c : Dev nD) (t : Fin cfg0.N) : (dats m 0 c).after 8 t = blockOut (iblk m c 0 t) (iblk m c 1 t) (iblk m c 2 t) (iblk m c 3 t) (iblk m c 4 t) (iblk m c 5 t) (iblk m c 6 t) (iblk m c 7 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d
theorem before_in7 (c : Dev nD) (t : Fin cfg0.N) (d) : (dats m 0 c).before 7 t d = iblk m c 7 t :=
  before_in7_of m (dats m 0 c) (A_eq m c 7) (after_in7 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- The body at any point: the inputs' memrefs hold their blocks, so `sound_kernel` applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with the result array named and the fifteen arguments kept. -/
theorem run_named : θ_run defs (onTc (τ := τ) (main (F := F))) ⟨m, fun _ => 0, ρ⟩ (fun r => ∀ c : Dev nD,
      r.2.mem ((c.tc : Thread nD τ).loc main_v18) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  post_of m ρ (dats m) (A_eq m) (run_main m ρ)

/-- The frame: every execution terminates without a fault and the fifteen arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (run_named m ρ)

end Cert.Kernel.Run

end
-- ==== Proof.LayerSpec.lean ====
/-
  One graph layer on one molecule, as a function of extended reals.

  A molecule is 256 atoms with 64 features each: `X n k`. A layer forms three hidden projections of the atoms,
  `h_j n e = max (Σ_k X n k · W_j e k + c_j e) 0` (j = 1, 2, 3), the masked affinities
  `(Σ_k h_1 n k · h_2 m k) · A n m` of atoms n and m, mixes the third projection by them,
  `Σ_m affinity n m · h_3 m d`, normalises each atom's row of 64 mixed features (subtract the row mean, scale by
  `rsqrt (row variance + ε)`, then gain and bias per feature), and adds the result to `X`. The embedding stage before the
  first layer is the same row normalisation applied to the embeddings themselves. The two float literals are kept as the
  binary words both programs print: 64 (the row length) and ε.
-/
import Idealize.ShloMosaic.PureOps.Ideal
import Idealize.ShloMosaic.PureOps.Ideal.Laws

noncomputable section

namespace Cert.GraphSpec

open Idealize.ShloMosaic

/-- The row length as both programs print it. -/
abbrev len64 : EReal := Ideal.ofBits .f32 0x42800000#32
/-- The variance offset as both programs print it. -/
abbrev varEps : EReal := Ideal.ofBits .f32 0x358637BD#32

/-- The mean of a row. -/
def rowMean (v : Fin 64 → EReal) : EReal := Ideal.div (∑ k, v k) len64

/-- The variance of a row about its mean. -/
def rowVar (v : Fin 64 → EReal) : EReal := Ideal.div (∑ k, (v k - rowMean v) * (v k - rowMean v)) len64

/-- A row normalised, with gain `g` and bias `b` per feature. -/
def rowNorm (v g b : Fin 64 → EReal) (d : Fin 64) : EReal :=
  (v d - rowMean v) * Ideal.rsqrt (rowVar v + varEps) * g d + b d

/-- A hidden projection of the atoms, cut off below at zero. -/
def hidden (X : Fin 256 → Fin 64 → EReal) (W : Fin 64 → Fin 64 → EReal) (c : Fin 64 → EReal) (n : Fin 256) (e : Fin 64) : EReal :=
  max (∑ k, X n k * W e k + c e) 0

/-- The third projection mixed by the masked affinities of the first two. -/
def mixed (X : Fin 256 → Fin 64 → EReal) (A : Fin 256 → Fin 256 → EReal)
    (W1 : Fin 64 → Fin 64 → EReal) (c1 : Fin 64 → EReal) (W2 : Fin 64 → Fin 64 → EReal) (c2 : Fin 64 → EReal)
    (W3 : Fin 64 → Fin 64 → EReal) (c3 : Fin 64 → EReal) (n : Fin 256) (d : Fin 64) : EReal :=
  ∑ m, ((∑ k, hidden X W1 c1 n k * hidden X W2 c2 m k) * A n m) * hidden X W3 c3 m d

/-- One layer: the atoms plus their normalised mixture. -/
def layer (X : Fin 256 → Fin 64 → EReal) (A : Fin 256 → Fin 256 → EReal)
    (W1 : Fin 64 → Fin 64 → EReal) (c1 : Fin 64 → EReal) (W2 : Fin 64 → Fin 64 → EReal) (c2 : Fin 64 → EReal)
    (W3 : Fin 64 → Fin 64 → EReal) (c3 : Fin 64 → EReal) (g b : Fin 64 → EReal) (n : Fin 256) (d : Fin 64) : EReal :=
  X n d + rowNorm (mixed X A W1 c1 W2 c2 W3 c3 n) g b d

/-- The embedding stage: each atom's embedding row normalised. -/
def embed (E : Fin 256 → Fin 64 → EReal) (g b : Fin 64 → EReal) (n : Fin 256) (d : Fin 64) : EReal :=
  rowNorm (E n) g b d

end Cert.GraphSpec

end
-- ==== Proof.LibKeepdims3.lean ====
/-
  Rank-3 vectors [a, b, c] with a kept unit last axis, read at an index: the cast of an [a, b] vector to [a, b, 1], the
  broadcast of an [a, b, 1] vector along the last axis of [a, b, c], a length-c vector cast to [1, 1, c] and broadcast
  to [a, b, c], the sum over the last axis over the extended reals, and the reshapes between [a, b, c] and [a·b, c]
  that flatten and restore the two leading axes. Each says which operand entry (or entries) a result entry reads.
-/
import Idealize.ShloMosaic.Lib.Pipeline.Value
import Idealize.ShloMosaic.Lib.ValueIdx
import Idealize.ShloMosaic.PureOps.Ideal.Laws

noncomputable section

namespace Cert.LibKeepdims3

open Idealize.ShloMosaic Idealize.ShloMosaic.ValueIdx

variable {α : Type} {a b c : ℕ}

/-- Entry `(p, n, 0)` of the cast of an [a, b] vector to [a, b, 1] is the vector's entry `(p, n)`: the same row-major
    position. -/
theorem shapeCast_keep_apply (x : (⟨2, ![a, b]⟩ : Shape).Idx → α) (h : (⟨2, ![a, b]⟩ : Shape).ShapeCasts ⟨3, ![a, b, 1]⟩)
    (p : Fin a) (n : Fin b) : shapeCast ⟨3, ![a, b, 1]⟩ x h (ix3 p n (0 : Fin 1)) = x (ix2 p n) :=
  shapeCast_apply x h (ix3 p n (0 : Fin 1)) (ix2 p n) (by
    rw [Shape.rowMajor_val_two, Shape.rowMajor_val_three]
    show p.val * b + n.val = (p.val * b + n.val) * 1 + 0
    omega)

/-- Entry `(p, n, d)` of an [a, b, 1] vector broadcast along the last axis is its entry `(p, n, 0)`. -/
theorem broadcastTo_lane_apply (x : (⟨3, ![a, b, 1]⟩ : Shape).Idx → α) (h : (⟨3, ![a, b, 1]⟩ : Shape).Broadcasts ⟨3, ![a, b, c]⟩)
    (p : Fin a) (n : Fin b) (d : Fin c) : broadcastTo ⟨3, ![a, b, c]⟩ x h (ix3 p n d) = x (ix3 p n (0 : Fin 1)) :=
  broadcastTo_apply x h (ix3 p n d) (ix3 p n (0 : Fin 1)) (fun k => by
    match k with
    | ⟨0, _⟩ =>
      show p.val = if a = 1 then 0 else p.val
      have := p.isLt
      split <;> omega
    | ⟨1, _⟩ =>
      show n.val = if b = 1 then 0 else n.val
      have := n.isLt
      split <;> omega
    | ⟨2, _⟩ => rfl)

/-- Entry `(0, 0, d)` of the cast of a length-c vector to [1, 1, c] is the vector's entry `d`. -/
theorem shapeCast_feat_apply (x : (⟨1, ![c]⟩ : Shape).Idx → α) (h : (⟨1, ![c]⟩ : Shape).ShapeCasts ⟨3, ![1, 1, c]⟩) (d : Fin c) :
    shapeCast ⟨3, ![1, 1, c]⟩ x h (ix3 (0 : Fin 1) (0 : Fin 1) d) = x (ix1 d) :=
  shapeCast_apply x h (ix3 (0 : Fin 1) (0 : Fin 1) d) (ix1 d) (by
    rw [Shape.rowMajor_val_one, Shape.rowMajor_val_three]
    show d.val = (0 * 1 + 0) * c + d.val
    omega)

/-- Entry `(p, n, d)` of a [1, 1, c] vector broadcast to [a, b, c] is its entry `(0, 0, d)`. -/
theorem broadcastTo_feat_apply (x : (⟨3, ![1, 1, c]⟩ : Shape).Idx → α) (h : (⟨3, ![1, 1, c]⟩ : Shape).Broadcasts ⟨3, ![a, b, c]⟩)
    (p : Fin a) (n : Fin b) (d : Fin c) : broadcastTo ⟨3, ![a, b, c]⟩ x h (ix3 p n d) = x (ix3 (0 : Fin 1) (0 : Fin 1) d) :=
  broadcastTo_apply x h (ix3 p n d) (ix3 (0 : Fin 1) (0 : Fin 1) d) (fun k => by
    match k with
    | ⟨0, _⟩ => rfl
    | ⟨1, _⟩ => rfl
    | ⟨2, _⟩ =>
      show d.val = if c = 1 then 0 else d.val
      have := d.isLt
      split <;> omega)

/-- The reduced index `(p, n)` of a reduction over the last axis with the coordinate `k` put back is `(p, n, k)`. -/
theorem lift_lane (h : (⟨3, ![a, b, c]⟩ : Shape).Reduces [2] ⟨2, ![a, b]⟩) (p : Fin a) (n : Fin b) (k : Fin c) :
    h.lift (ix2 p n) k = ix3 p n k := by
  funext e; apply Fin.ext
  fin_cases e <;> rfl

variable {φ : FTy}

/-- A sum over the last axis at `(p, n)` is the sum of the entries `(p, n, k)`. -/
theorem lanesum_apply (src : FVec Ideal ⟨3, ![a, b, c]⟩ φ) (acc : BitVec φ.bits) (h : (⟨3, ![a, b, c]⟩ : Shape).Reduces [2] ⟨2, ![a, b]⟩)
    (hφ : FKind.Formats φ) (hacc : acc = FKind.add.neutral φ hφ) (p : Fin a) (n : Fin b) :
    multiReduction .add [2] ⟨2, ![a, b]⟩ src acc h hφ hacc (ix2 p n) = ∑ k : Fin c, src (ix3 p n k) :=
  (Ideal.multiReduction_add_single src acc h hφ hacc (ix2 p n)).trans
    (Finset.sum_congr rfl fun k _ => congrArg src (lift_lane h p n k))

/-- Row `q`, column `k` of an [a, b, c] vector flattened to [m, c] (m = a·b) is its entry `(p, n, k)` when `q = p·b + n`. -/
theorem shapeCast_flat_apply {m : ℕ} (x : (⟨3, ![a, b, c]⟩ : Shape).Idx → α) (h : (⟨3, ![a, b, c]⟩ : Shape).ShapeCasts ⟨2, ![m, c]⟩)
    (p : Fin a) (n : Fin b) (k : Fin c) (q : Fin m) (hq : q.val = p.val * b + n.val) :
    shapeCast ⟨2, ![m, c]⟩ x h (ix2 q k) = x (ix3 p n k) :=
  shapeCast_apply x h (ix2 q k) (ix3 p n k) (by
    rw [Shape.rowMajor_val_two, Shape.rowMajor_val_three]
    show (p.val * b + n.val) * c + k.val = q.val * c + k.val
    rw [hq])

/-- Entry `(p, n, k)` of an [m, c] vector restored to [a, b, c] (m = a·b) is its row `q = p·b + n`, column `k`. -/
theorem shapeCast_unflat_apply {m : ℕ} (x : (⟨2, ![m, c]⟩ : Shape).Idx → α) (h : (⟨2, ![m, c]⟩ : Shape).ShapeCasts ⟨3, ![a, b, c]⟩)
    (p : Fin a) (n : Fin b) (k : Fin c) (q : Fin m) (hq : q.val = p.val * b + n.val) :
    shapeCast ⟨3, ![a, b, c]⟩ x h (ix3 p n k) = x (ix2 q k) :=
  shapeCast_apply x h (ix3 p n k) (ix2 q k) (by
    rw [Shape.rowMajor_val_two, Shape.rowMajor_val_three]
    show q.val * c + k.val = (p.val * b + n.val) * c + k.val
    rw [hq])

end Cert.LibKeepdims3

end
-- ==== Proof.KernelLayer.lean ====
/-
  One layer of the kernel on a 16×256×64 block, read at an index, at the extended reals.

  ROW NORMALISATION. The body normalises each of the block's 16·256 rows of 64 numbers: the row mean is the lane sum
  divided by 64, kept as a unit last axis and broadcast back along the row; the variance is the mean of the squared
  differences; the row is scaled by rsqrt(variance + ε), then by a per-feature gain, and a per-feature bias is added.
  THE LAYER. The three projections are ONE product of the block, flattened to 4096 rows, with a 64×384 table holding the
  three 64×64 weight matrices transposed, each in a 128-column slot (columns 0–63, 128–191, 256–319; the rest zero),
  plus a 384-long bias laid out the same way, cut off below at zero; the three hidden blocks are the column slices at 0,
  128 and 256. The affinities are the batched product of the first two hidden blocks over the feature axis, masked by
  the adjacency block; the mixture is the batched product of the masked affinities with the third hidden block over the
  atom axis; its rows are normalised and added to the block. Every one of these vector operations reads one entry, or
  one row of entries, of its operands, every sum is a plain finite sum and every format change the identity, so the
  layer at (p, n, d) is the scalar layer of molecule p of the block.
-/
import proofs.«161215_j83726092468549_2_alg».proof.Proof.Gen.KernelIdeal.Skeleton
import proofs.«161215_j83726092468549_2_alg».proof.Proof.LayerSpec
import proofs.«161215_j83726092468549_2_alg».proof.Proof.LibKeepdims3
import Idealize.ShloMosaic.Lib.ValueIdx
import Idealize.ShloMosaic.Lib.Pipeline.Value
import Idealize.ShloMosaic.PureOps.Ideal.Laws

set_option maxRecDepth 16384

noncomputable section

namespace Cert.KernelIdeal.Block

open Cert.KernelIdeal Cert.KernelIdeal.Facts₀
open Idealize.ShloMosaic Idealize.ShloMosaic.ValueIdx Cert.GraphSpec Cert.LibKeepdims3

/-! ## Row normalisation -/

/-- The mean of each row, as a column with a unit last axis. -/
def meanCol (v : FVec Ideal S16x256x64 .f32) : FVec Ideal S16x256x1 .f32 :=
  divf (shapeCast S16x256x1 (multiReduction .add [2] S16x256 v 0x00000000#32 reduces_S16x256x64_S16x256 (.inl rfl) rfl) shapeCasts_S16x256_S16x256x1)
    (broadcast S16x256x1 (Scalar.ofBits .f32 0x42800000#32))

/-- Each row less its mean. -/
def centred (v : FVec Ideal S16x256x64 .f32) : FVec Ideal S16x256x64 .f32 :=
  subf v (broadcastTo S16x256x64 (meanCol v) broadcasts_S16x256x1_S16x256x64)

/-- A length-64 vector laid along every row of the block. -/
def alongRows (g : Vec Ideal S64 .f32) : FVec Ideal S16x256x64 .f32 :=
  broadcastTo S16x256x64 (shapeCast S1x1x64 g shapeCasts_S64_S1x1x64) broadcasts_S1x1x64_S16x256x64

/-- The rows of a block normalised, with gain `g` and bias `b`. -/
def normRows (v : FVec Ideal S16x256x64 .f32) (g b : Vec Ideal S64 .f32) : FVec Ideal S16x256x64 .f32 :=
  addf (mulf (mulf (centred v)
      (broadcastTo S16x256x64 (rsqrt (addf (meanCol (mulf (centred v) (centred v))) (broadcast S16x256x1 (Scalar.ofBits .f32 0x358637BD#32))))
        broadcasts_S16x256x1_S16x256x64))
    (alongRows g)) (alongRows b)

theorem meanCol_apply (v : FVec Ideal S16x256x64 .f32) (p : Fin 16) (n : Fin 256) :
    meanCol v (ix3 p n (0 : Fin 1)) = rowMean (fun k => v (ix3 p n k)) := by
  unfold meanCol rowMean
  refine (divf_apply _ _ _).trans ?_
  refine congrArg₂ Ideal.div ?_ rfl
  refine (shapeCast_keep_apply _ _ p n).trans ?_
  exact lanesum_apply v _ _ _ _ p n

theorem centred_apply (v : FVec Ideal S16x256x64 .f32) (p : Fin 16) (n : Fin 256) (d : Fin 64) :
    centred v (ix3 p n d) = v (ix3 p n d) - rowMean (fun k => v (ix3 p n k)) := by
  unfold centred
  refine (subf_apply _ _ _).trans ?_
  refine congrArg (v (ix3 p n d) - ·) ?_
  exact (broadcastTo_lane_apply _ _ p n d).trans (meanCol_apply v p n)

theorem alongRows_apply (g : Vec Ideal S64 .f32) (p : Fin 16) (n : Fin 256) (d : Fin 64) :
    alongRows g (ix3 p n d) = g (ix1 d) := by
  unfold alongRows
  exact (broadcastTo_feat_apply _ _ p n d).trans (shapeCast_feat_apply _ _ d)

/-- The block's normalised rows at `(p, n, d)`: the scalar row normalisation of row `(p, n)` at feature `d`. -/
theorem normRows_apply (v : FVec Ideal S16x256x64 .f32) (g b : Vec Ideal S64 .f32) (p : Fin 16) (n : Fin 256) (d : Fin 64) :
    normRows v g b (ix3 p n d) = rowNorm (fun k => v (ix3 p n k)) (fun k => g (ix1 k)) (fun k => b (ix1 k)) d := by
  have hsq : ∀ k : Fin 64, (mulf (centred v) (centred v)) (ix3 p n k)
      = (v (ix3 p n k) - rowMean (fun k => v (ix3 p n k))) * (v (ix3 p n k) - rowMean (fun k => v (ix3 p n k))) := fun k => by
    refine (mulf_apply _ _ _).trans ?_
    rw [centred_apply]
  have hvar : meanCol (mulf (centred v) (centred v)) (ix3 p n (0 : Fin 1)) = rowVar (fun k => v (ix3 p n k)) := by
    refine (meanCol_apply _ p n).trans ?_
    unfold rowVar rowMean
    exact congrArg (fun f : Fin 64 → EReal => Ideal.div (∑ k, f k) len64) (funext hsq)
  unfold normRows rowNorm
  refine (addf_apply _ _ _).trans ?_
  refine congrArg₂ (· + ·) ?_ (alongRows_apply b p n d)
  refine (mulf_apply _ _ _).trans ?_
  refine congrArg₂ (· * ·) ?_ (alongRows_apply g p n d)
  refine (mulf_apply _ _ _).trans ?_
  refine congrArg₂ (· * ·) (centred_apply v p n d) ?_
  refine (broadcastTo_lane_apply _ _ p n d).trans ?_
  show Ideal.rsqrt ((meanCol (mulf (centred v) (centred v))) (ix3 p n (0 : Fin 1)) + varEps) = _
  rw [hvar]

/-! ## Which operand entries the three products read -/

theorem lhs_proj_0 (i : S4096x384.Idx) (q : dot_S4096x64_S64x384_S4096x384_1_0_0_1_n_n.contr.Idx) :
    (dot_S4096x64_S64x384_S4096x384_1_0_0_1_n_n.lhsIdx i q 0).val = (i 0).val := by
  unfold DotDims.lhsIdx
  rw [dif_neg (show ¬(0 : Fin S4096x64.rank) ∈ dot_S4096x64_S64x384_S4096x384_1_0_0_1_n_n.lhsBatch by decide), dif_pos (show (0 : Fin S4096x64.rank) ∈ dot_S4096x64_S64x384_S4096x384_1_0_0_1_n_n.lhsNonContracting by decide)]
  rfl
theorem lhs_proj_1 (i : S4096x384.Idx) (q : dot_S4096x64_S64x384_S4096x384_1_0_0_1_n_n.contr.Idx) :
    (dot_S4096x64_S64x384_S4096x384_1_0_0_1_n_n.lhsIdx i q 1).val = (q ⟨0, by decide⟩).val :=
  dot_S4096x64_S64x384_S4096x384_1_0_0_1_n_n.lhsIdx_val_of_single rfl i q
theorem rhs_proj_0 (i : S4096x384.Idx) (q : dot_S4096x64_S64x384_S4096x384_1_0_0_1_n_n.contr.Idx) :
    (dot_S4096x64_S64x384_S4096x384_1_0_0_1_n_n.rhsIdx i q 0).val = (q ⟨0, by decide⟩).val :=
  dot_S4096x64_S64x384_S4096x384_1_0_0_1_n_n.rhsIdx_val_of_single rfl i q
theorem rhs_proj_1 (i : S4096x384.Idx) (q : dot_S4096x64_S64x384_S4096x384_1_0_0_1_n_n.contr.Idx) :
    (dot_S4096x64_S64x384_S4096x384_1_0_0_1_n_n.rhsIdx i q 1).val = (i 1).val := by
  unfold DotDims.rhsIdx
  rw [dif_neg (show ¬(1 : Fin S64x384.rank) ∈ dot_S4096x64_S64x384_S4096x384_1_0_0_1_n_n.rhsBatch by decide), dif_pos (show (1 : Fin S64x384.rank) ∈ dot_S4096x64_S64x384_S4096x384_1_0_0_1_n_n.rhsNonContracting by decide)]
  rfl
theorem lhs_aff_0 (i : S16x256x256.Idx) (q : dot_S16x256x64_S16x256x64_S16x256x256_2_2_1_1_0_0.contr.Idx) :
    (dot_S16x256x64_S16x256x64_S16x256x256_2_2_1_1_0_0.lhsIdx i q 0).val = (i 0).val := by
  unfold DotDims.lhsIdx
  rw [dif_pos (show (0 : Fin S16x256x64.rank) ∈ dot_S16x256x64_S16x256x64_S16x256x256_2_2_1_1_0_0.lhsBatch by decide)]
  rfl
theorem lhs_aff_1 (i : S16x256x256.Idx) (q : dot_S16x256x64_S16x256x64_S16x256x256_2_2_1_1_0_0.contr.Idx) :
    (dot_S16x256x64_S16x256x64_S16x256x256_2_2_1_1_0_0.lhsIdx i q 1).val = (i 1).val := by
  unfold DotDims.lhsIdx
  rw [dif_neg (show ¬(1 : Fin S16x256x64.rank) ∈ dot_S16x256x64_S16x256x64_S16x256x256_2_2_1_1_0_0.lhsBatch by decide), dif_pos (show (1 : Fin S16x256x64.rank) ∈ dot_S16x256x64_S16x256x64_S16x256x256_2_2_1_1_0_0.lhsNonContracting by decide)]
  rfl
theorem lhs_aff_2 (i : S16x256x256.Idx) (q : dot_S16x256x64_S16x256x64_S16x256x256_2_2_1_1_0_0.contr.Idx) :
    (dot_S16x256x64_S16x256x64_S16x256x256_2_2_1_1_0_0.lhsIdx i q 2).val = (q ⟨0, by decide⟩).val :=
  dot_S16x256x64_S16x256x64_S16x256x256_2_2_1_1_0_0.lhsIdx_val_of_single rfl i q
theorem rhs_aff_0 (i : S16x256x256.Idx) (q : dot_S16x256x64_S16x256x64_S16x256x256_2_2_1_1_0_0.contr.Idx) :
    (dot_S16x256x64_S16x256x64_S16x256x256_2_2_1_1_0_0.rhsIdx i q 0).val = (i 0).val := by
  unfold DotDims.rhsIdx
  rw [dif_pos (show (0 : Fin S16x256x64.rank) ∈ dot_S16x256x64_S16x256x64_S16x256x256_2_2_1_1_0_0.rhsBatch by decide)]
  rfl
theorem rhs_aff_1 (i : S16x256x256.Idx) (q : dot_S16x256x64_S16x256x64_S16x256x256_2_2_1_1_0_0.contr.Idx) :
    (dot_S16x256x64_S16x256x64_S16x256x256_2_2_1_1_0_0.rhsIdx i q 1).val = (i 2).val := by
  unfold DotDims.rhsIdx
  rw [dif_neg (show ¬(1 : Fin S16x256x64.rank) ∈ dot_S16x256x64_S16x256x64_S16x256x256_2_2_1_1_0_0.rhsBatch by decide), dif_pos (show (1 : Fin S16x256x64.rank) ∈ dot_S16x256x64_S16x256x64_S16x256x256_2_2_1_1_0_0.rhsNonContracting by decide)]
  rfl
theorem rhs_aff_2 (i : S16x256x256.Idx) (q : dot_S16x256x64_S16x256x64_S16x256x256_2_2_1_1_0_0.contr.Idx) :
    (dot_S16x256x64_S16x256x64_S16x256x256_2_2_1_1_0_0.rhsIdx i q 2).val = (q ⟨0, by decide⟩).val :=
  dot_S16x256x64_S16x256x64_S16x256x256_2_2_1_1_0_0.rhsIdx_val_of_single rfl i q
theorem lhs_mix_0 (i : S16x256x64.Idx) (q : dot_S16x256x256_S16x256x64_S16x256x64_2_1_1_2_0_0.contr.Idx) :
    (dot_S16x256x256_S16x256x64_S16x256x64_2_1_1_2_0_0.lhsIdx i q 0).val = (i 0).val := by
  unfold DotDims.lhsIdx
  rw [dif_pos (show (0 : Fin S16x256x256.rank) ∈ dot_S16x256x256_S16x256x64_S16x256x64_2_1_1_2_0_0.lhsBatch by decide)]
  rfl
theorem lhs_mix_1 (i : S16x256x64.Idx) (q : dot_S16x256x256_S16x256x64_S16x256x64_2_1_1_2_0_0.contr.Idx) :
    (dot_S16x256x256_S16x256x64_S16x256x64_2_1_1_2_0_0.lhsIdx i q 1).val = (i 1).val := by
  unfold DotDims.lhsIdx
  rw [dif_neg (show ¬(1 : Fin S16x256x256.rank) ∈ dot_S16x256x256_S16x256x64_S16x256x64_2_1_1_2_0_0.lhsBatch by decide), dif_pos (show (1 : Fin S16x256x256.rank) ∈ dot_S16x256x256_S16x256x64_S16x256x64_2_1_1_2_0_0.lhsNonContracting by decide)]
  rfl
theorem lhs_mix_2 (i : S16x256x64.Idx) (q : dot_S16x256x256_S16x256x64_S16x256x64_2_1_1_2_0_0.contr.Idx) :
    (dot_S16x256x256_S16x256x64_S16x256x64_2_1_1_2_0_0.lhsIdx i q 2).val = (q ⟨0, by decide⟩).val :=
  dot_S16x256x256_S16x256x64_S16x256x64_2_1_1_2_0_0.lhsIdx_val_of_single rfl i q
theorem rhs_mix_0 (i : S16x256x64.Idx) (q : dot_S16x256x256_S16x256x64_S16x256x64_2_1_1_2_0_0.contr.Idx) :
    (dot_S16x256x256_S16x256x64_S16x256x64_2_1_1_2_0_0.rhsIdx i q 0).val = (i 0).val := by
  unfold DotDims.rhsIdx
  rw [dif_pos (show (0 : Fin S16x256x64.rank) ∈ dot_S16x256x256_S16x256x64_S16x256x64_2_1_1_2_0_0.rhsBatch by decide)]
  rfl
theorem rhs_mix_1 (i : S16x256x64.Idx) (q : dot_S16x256x256_S16x256x64_S16x256x64_2_1_1_2_0_0.contr.Idx) :
    (dot_S16x256x256_S16x256x64_S16x256x64_2_1_1_2_0_0.rhsIdx i q 1).val = (q ⟨0, by decide⟩).val :=
  dot_S16x256x256_S16x256x64_S16x256x64_2_1_1_2_0_0.rhsIdx_val_of_single rfl i q
theorem rhs_mix_2 (i : S16x256x64.Idx) (q : dot_S16x256x256_S16x256x64_S16x256x64_2_1_1_2_0_0.contr.Idx) :
    (dot_S16x256x256_S16x256x64_S16x256x64_2_1_1_2_0_0.rhsIdx i q 2).val = (i 2).val := by
  unfold DotDims.rhsIdx
  rw [dif_neg (show ¬(2 : Fin S16x256x64.rank) ∈ dot_S16x256x256_S16x256x64_S16x256x64_2_1_1_2_0_0.rhsBatch by decide), dif_pos (show (2 : Fin S16x256x64.rank) ∈ dot_S16x256x256_S16x256x64_S16x256x64_2_1_1_2_0_0.rhsNonContracting by decide)]
  rfl

/-! ## The vector-level layer -/

/-- The block times the padded weight table: all three projections at once. -/
def projBlock (X : FVec Ideal S16x256x64 .f32) (W : FVec Ideal S64x384 .f32) : FVec Ideal S16x256x384 .f32 :=
  shapeCast S16x256x384 (matmul dot_S4096x64_S64x384_S4096x384_1_0_0_1_n_n none
    (shapeCast S4096x64 (truncf .bf16 X bitsLt_bf16_f32) shapeCasts_S16x256x64_S4096x64) (truncf .bf16 W bitsLt_bf16_f32)
    (constant S4096x384 .f32 0x00000000#32)) shapeCasts_S4096x384_S16x256x384

/-- The projections with their bias, cut off below at zero. -/
def hiddenAll (Pj : FVec Ideal S16x256x384 .f32) (c : FVec Ideal S1x1x384 .f32) : FVec Ideal S16x256x384 .f32 :=
  maximumf (addf Pj (broadcastTo S16x256x384 c broadcasts_S1x1x384_S16x256x384)) (broadcast S16x256x384 (Scalar.ofBits .f32 0x00000000#32))

/-- The third hidden block mixed by the masked affinities of the first two. -/
def mixBlock (Pj : FVec Ideal S16x256x384 .f32) (c : FVec Ideal S1x1x384 .f32) (adj : Vec Ideal S16x256x256 .f32) : FVec Ideal S16x256x64 .f32 :=
  matmul dot_S16x256x256_S16x256x64_S16x256x64_2_1_1_2_0_0 none
    (truncf .bf16 (mulf (matmul dot_S16x256x64_S16x256x64_S16x256x256_2_2_1_1_0_0 none
        (truncf .bf16 (extractStridedSlice S16x256x64 ![0, 0, 0] (hiddenAll Pj c) slices_S16x256x384_o0_0_0_S16x256x64) bitsLt_bf16_f32)
        (truncf .bf16 (extractStridedSlice S16x256x64 ![0, 0, 128] (hiddenAll Pj c) slices_S16x256x384_o0_0_128_S16x256x64) bitsLt_bf16_f32)
        (constant S16x256x256 .f32 0x00000000#32)) adj) bitsLt_bf16_f32)
    (truncf .bf16 (extractStridedSlice S16x256x64 ![0, 0, 256] (hiddenAll Pj c) slices_S16x256x384_o0_0_256_S16x256x64) bitsLt_bf16_f32)
    (constant S16x256x64 .f32 0x00000000#32)

/-- One layer on a block: the block plus its normalised mixture. -/
def layerBlock (X : FVec Ideal S16x256x64 .f32) (W : FVec Ideal S64x384 .f32) (c : FVec Ideal S1x1x384 .f32)
    (adj : Vec Ideal S16x256x256 .f32) (g b : Vec Ideal S64 .f32) : FVec Ideal S16x256x64 .f32 :=
  addf X (normRows (mixBlock (projBlock X W) c adj) g b)

/-! ## The three column slots of the padded tables -/

/-- Column `e` of slot `j` of a 384-wide table. -/
def slot (j : Fin 3) (e : Fin 64) : Fin 384 := ⟨128 * j.val + e.val, by have := j.isLt; have := e.isLt; omega⟩

/-! ## Reading the pieces at an index -/

theorem projBlock_apply (X : FVec Ideal S16x256x64 .f32) (W : FVec Ideal S64x384 .f32) (p : Fin 16) (n : Fin 256) (e : Fin 384) :
    projBlock X W (ix3 p n e) = ∑ k : Fin 64, X (ix3 p n k) * W (ix2 k e) := by
  unfold projBlock
  have hq : (⟨p.val * 256 + n.val, by have := p.isLt; have := n.isLt; omega⟩ : Fin 4096).val = p.val * 256 + n.val := rfl
  refine (shapeCast_unflat_apply _ _ p n e ⟨p.val * 256 + n.val, by have := p.isLt; have := n.isLt; omega⟩ hq).trans ?_
  refine (Ideal.matmul_constant_zero_apply dot_S4096x64_S64x384_S4096x384_1_0_0_1_n_n none _ _ _).trans ?_
  rw [← Equiv.sum_comp (contrEquiv1 dot_S4096x64_S64x384_S4096x384_1_0_0_1_n_n 64 rfl rfl).symm]
  refine Finset.sum_congr rfl fun k _ => ?_
  have hk := contrEquiv1_symm_val dot_S4096x64_S64x384_S4096x384_1_0_0_1_n_n 64 rfl rfl k
  have el : dot_S4096x64_S64x384_S4096x384_1_0_0_1_n_n.lhsIdx (ix2 (⟨p.val * 256 + n.val, by have := p.isLt; have := n.isLt; omega⟩ : Fin 4096) e) ((contrEquiv1 dot_S4096x64_S64x384_S4096x384_1_0_0_1_n_n 64 rfl rfl).symm k)
      = ix2 (⟨p.val * 256 + n.val, by have := p.isLt; have := n.isLt; omega⟩ : Fin 4096) k := funext fun a => Fin.ext (by
    match a with
    | ⟨0, _⟩ => exact lhs_proj_0 _ _
    | ⟨1, _⟩ => exact (lhs_proj_1 _ _).trans hk)
  have er : dot_S4096x64_S64x384_S4096x384_1_0_0_1_n_n.rhsIdx (ix2 (⟨p.val * 256 + n.val, by have := p.isLt; have := n.isLt; omega⟩ : Fin 4096) e) ((contrEquiv1 dot_S4096x64_S64x384_S4096x384_1_0_0_1_n_n 64 rfl rfl).symm k)
      = ix2 k e := funext fun a => Fin.ext (by
    match a with
    | ⟨0, _⟩ => exact (rhs_proj_0 _ _).trans hk
    | ⟨1, _⟩ => exact rhs_proj_1 _ _)
  rw [el, er]
  refine congrArg₂ (· * ·) ?_ rfl
  exact shapeCast_flat_apply (truncf .bf16 X bitsLt_bf16_f32) _ p n k _ hq

theorem hiddenAll_apply (Pj : FVec Ideal S16x256x384 .f32) (c : FVec Ideal S1x1x384 .f32) (p : Fin 16) (n : Fin 256) (e : Fin 384) :
    hiddenAll Pj c (ix3 p n e) = max (Pj (ix3 p n e) + c (ix3 (0 : Fin 1) (0 : Fin 1) e)) 0 := by
  unfold hiddenAll
  refine (maximumf_apply _ _ _).trans ?_
  refine congrArg₂ max ?_ Ideal.ofBits_zero_f32
  refine (addf_apply _ _ _).trans ?_
  exact congrArg (Pj (ix3 p n e) + ·) (broadcastTo_feat_apply c _ p n e)

/-- Column `e` of the slice at column offset 0 is column `slot 0 e` of the sliced block. -/
theorem slice0_apply (H : FVec Ideal S16x256x384 .f32) (p : Fin 16) (n : Fin 256) (e : Fin 64) :
    extractStridedSlice S16x256x64 ![0, 0, 0] H slices_S16x256x384_o0_0_0_S16x256x64 (ix3 p n e) = H (ix3 p n (slot 0 e)) :=
  extractStridedSlice_apply _ H slices_S16x256x384_o0_0_0_S16x256x64 (ix3 p n e) (ix3 p n (slot 0 e)) (fun a => by
    match a with
    | ⟨0, _⟩ => show p.val = 0 + p.val; omega
    | ⟨1, _⟩ => show n.val = 0 + n.val; omega
    | ⟨2, _⟩ => rfl)

/-- The hidden block of slot 0 at `(p, n, e)`: the scalar hidden projection of molecule `p` with the slot's columns of the
    padded tables. -/
theorem hiddenSlot0_apply (X : FVec Ideal S16x256x64 .f32) (W : FVec Ideal S64x384 .f32) (c : FVec Ideal S1x1x384 .f32)
    (p : Fin 16) (n : Fin 256) (e : Fin 64) :
    extractStridedSlice S16x256x64 ![0, 0, 0] (hiddenAll (projBlock X W) c) slices_S16x256x384_o0_0_0_S16x256x64 (ix3 p n e)
      = Cert.GraphSpec.hidden (fun n k => X (ix3 p n k)) (fun e k => W (ix2 k (slot 0 e))) (fun e => c (ix3 (0 : Fin 1) (0 : Fin 1) (slot 0 e))) n e := by
  unfold Cert.GraphSpec.hidden
  refine (slice0_apply _ p n e).trans ?_
  refine (hiddenAll_apply _ c p n _).trans ?_
  exact congrArg₂ max (congrArg (· + c (ix3 (0 : Fin 1) (0 : Fin 1) (slot 0 e))) (projBlock_apply X W p n (slot 0 e))) rfl

/-- Column `e` of the slice at column offset 128 is column `slot 1 e` of the sliced block. -/
theorem slice1_apply (H : FVec Ideal S16x256x384 .f32) (p : Fin 16) (n : Fin 256) (e : Fin 64) :
    extractStridedSlice S16x256x64 ![0, 0, 128] H slices_S16x256x384_o0_0_128_S16x256x64 (ix3 p n e) = H (ix3 p n (slot 1 e)) :=
  extractStridedSlice_apply _ H slices_S16x256x384_o0_0_128_S16x256x64 (ix3 p n e) (ix3 p n (slot 1 e)) (fun a => by
    match a with
    | ⟨0, _⟩ => show p.val = 0 + p.val; omega
    | ⟨1, _⟩ => show n.val = 0 + n.val; omega
    | ⟨2, _⟩ => rfl)

/-- The hidden block of slot 1 at `(p, n, e)`: the scalar hidden projection of molecule `p` with the slot's columns of the
    padded tables. -/
theorem hiddenSlot1_apply (X : FVec Ideal S16x256x64 .f32) (W : FVec Ideal S64x384 .f32) (c : FVec Ideal S1x1x384 .f32)
    (p : Fin 16) (n : Fin 256) (e : Fin 64) :
    extractStridedSlice S16x256x64 ![0, 0, 128] (hiddenAll (projBlock X W) c) slices_S16x256x384_o0_0_128_S16x256x64 (ix3 p n e)
      = Cert.GraphSpec.hidden (fun n k => X (ix3 p n k)) (fun e k => W (ix2 k (slot 1 e))) (fun e => c (ix3 (0 : Fin 1) (0 : Fin 1) (slot 1 e))) n e := by
  unfold Cert.GraphSpec.hidden
  refine (slice1_apply _ p n e).trans ?_
  refine (hiddenAll_apply _ c p n _).trans ?_
  exact congrArg₂ max (congrArg (· + c (ix3 (0 : Fin 1) (0 : Fin 1) (slot 1 e))) (projBlock_apply X W p n (slot 1 e))) rfl

/-- Column `e` of the slice at column offset 256 is column `slot 2 e` of the sliced block. -/
theorem slice2_apply (H : FVec Ideal S16x256x384 .f32) (p : Fin 16) (n : Fin 256) (e : Fin 64) :
    extractStridedSlice S16x256x64 ![0, 0, 256] H slices_S16x256x384_o0_0_256_S16x256x64 (ix3 p n e) = H (ix3 p n (slot 2 e)) :=
  extractStridedSlice_apply _ H slices_S16x256x384_o0_0_256_S16x256x64 (ix3 p n e) (ix3 p n (slot 2 e)) (fun a => by
    match a with
    | ⟨0, _⟩ => show p.val = 0 + p.val; omega
    | ⟨1, _⟩ => show n.val = 0 + n.val; omega
    | ⟨2, _⟩ => rfl)

/-- The hidden block of slot 2 at `(p, n, e)`: the scalar hidden projection of molecule `p` with the slot's columns of the
    padded tables. -/
theorem hiddenSlot2_apply (X : FVec Ideal S16x256x64 .f32) (W : FVec Ideal S64x384 .f32) (c : FVec Ideal S1x1x384 .f32)
    (p : Fin 16) (n : Fin 256) (e : Fin 64) :
    extractStridedSlice S16x256x64 ![0, 0, 256] (hiddenAll (projBlock X W) c) slices_S16x256x384_o0_0_256_S16x256x64 (ix3 p n e)
      = Cert.GraphSpec.hidden (fun n k => X (ix3 p n k)) (fun e k => W (ix2 k (slot 2 e))) (fun e => c (ix3 (0 : Fin 1) (0 : Fin 1) (slot 2 e))) n e := by
  unfold Cert.GraphSpec.hidden
  refine (slice2_apply _ p n e).trans ?_
  refine (hiddenAll_apply _ c p n _).trans ?_
  exact congrArg₂ max (congrArg (· + c (ix3 (0 : Fin 1) (0 : Fin 1) (slot 2 e))) (projBlock_apply X W p n (slot 2 e))) rfl

/-- The mixture at `(p, n, d)`: the scalar mixture of molecule `p`. -/
theorem mixBlock_apply (X : FVec Ideal S16x256x64 .f32) (W : FVec Ideal S64x384 .f32) (c : FVec Ideal S1x1x384 .f32)
    (adj : Vec Ideal S16x256x256 .f32) (p : Fin 16) (n : Fin 256) (d : Fin 64) :
    mixBlock (projBlock X W) c adj (ix3 p n d)
      = mixed (fun n k => X (ix3 p n k)) (fun n m => adj (ix3 p n m)) (fun e k => W (ix2 k (slot 0 e))) (fun e => c (ix3 (0 : Fin 1) (0 : Fin 1) (slot 0 e))) (fun e k => W (ix2 k (slot 1 e))) (fun e => c (ix3 (0 : Fin 1) (0 : Fin 1) (slot 1 e))) (fun e k => W (ix2 k (slot 2 e))) (fun e => c (ix3 (0 : Fin 1) (0 : Fin 1) (slot 2 e))) n d := by
  unfold mixBlock mixed
  refine (Ideal.matmul_constant_zero_apply dot_S16x256x256_S16x256x64_S16x256x64_2_1_1_2_0_0 none _ _ _).trans ?_
  rw [← Equiv.sum_comp (contrEquiv1 dot_S16x256x256_S16x256x64_S16x256x64_2_1_1_2_0_0 256 rfl rfl).symm]
  refine Finset.sum_congr rfl fun m _ => ?_
  have hm := contrEquiv1_symm_val dot_S16x256x256_S16x256x64_S16x256x64_2_1_1_2_0_0 256 rfl rfl m
  have el : dot_S16x256x256_S16x256x64_S16x256x64_2_1_1_2_0_0.lhsIdx (ix3 p n d) ((contrEquiv1 dot_S16x256x256_S16x256x64_S16x256x64_2_1_1_2_0_0 256 rfl rfl).symm m) = ix3 p n m := funext fun a => Fin.ext (by
    match a with
    | ⟨0, _⟩ => exact lhs_mix_0 _ _
    | ⟨1, _⟩ => exact lhs_mix_1 _ _
    | ⟨2, _⟩ => exact (lhs_mix_2 _ _).trans hm)
  have er : dot_S16x256x256_S16x256x64_S16x256x64_2_1_1_2_0_0.rhsIdx (ix3 p n d) ((contrEquiv1 dot_S16x256x256_S16x256x64_S16x256x64_2_1_1_2_0_0 256 rfl rfl).symm m) = ix3 p m d := funext fun a => Fin.ext (by
    match a with
    | ⟨0, _⟩ => exact rhs_mix_0 _ _
    | ⟨1, _⟩ => exact (rhs_mix_1 _ _).trans hm
    | ⟨2, _⟩ => exact rhs_mix_2 _ _)
  rw [el, er]
  refine congrArg₂ (· * ·) ?_ (hiddenSlot2_apply X W c p m d)
  refine (mulf_apply _ _ _).trans ?_
  refine congrArg₂ (· * ·) ?_ rfl
  refine (Ideal.matmul_constant_zero_apply dot_S16x256x64_S16x256x64_S16x256x256_2_2_1_1_0_0 none _ _ _).trans ?_
  rw [← Equiv.sum_comp (contrEquiv1 dot_S16x256x64_S16x256x64_S16x256x256_2_2_1_1_0_0 64 rfl rfl).symm]
  refine Finset.sum_congr rfl fun k _ => ?_
  have hk := contrEquiv1_symm_val dot_S16x256x64_S16x256x64_S16x256x256_2_2_1_1_0_0 64 rfl rfl k
  have el' : dot_S16x256x64_S16x256x64_S16x256x256_2_2_1_1_0_0.lhsIdx (ix3 p n m) ((contrEquiv1 dot_S16x256x64_S16x256x64_S16x256x256_2_2_1_1_0_0 64 rfl rfl).symm k) = ix3 p n k := funext fun a => Fin.ext (by
    match a with
    | ⟨0, _⟩ => exact lhs_aff_0 _ _
    | ⟨1, _⟩ => exact lhs_aff_1 _ _
    | ⟨2, _⟩ => exact (lhs_aff_2 _ _).trans hk)
  have er' : dot_S16x256x64_S16x256x64_S16x256x256_2_2_1_1_0_0.rhsIdx (ix3 p n m) ((contrEquiv1 dot_S16x256x64_S16x256x64_S16x256x256_2_2_1_1_0_0 64 rfl rfl).symm k) = ix3 p m k := funext fun a => Fin.ext (by
    match a with
    | ⟨0, _⟩ => exact rhs_aff_0 _ _
    | ⟨1, _⟩ => exact rhs_aff_1 _ _
    | ⟨2, _⟩ => exact (rhs_aff_2 _ _).trans hk)
  rw [el', er']
  exact congrArg₂ (· * ·) (hiddenSlot0_apply X W c p n k) (hiddenSlot1_apply X W c p m k)

/-- One layer on a block at `(p, n, d)`: the scalar layer of molecule `p` of the block. -/
theorem layerBlock_apply (X : FVec Ideal S16x256x64 .f32) (W : FVec Ideal S64x384 .f32) (c : FVec Ideal S1x1x384 .f32)
    (adj : Vec Ideal S16x256x256 .f32) (g b : Vec Ideal S64 .f32) (p : Fin 16) (n : Fin 256) (d : Fin 64) :
    layerBlock X W c adj g b (ix3 p n d)
      = layer (fun n k => X (ix3 p n k)) (fun n m => adj (ix3 p n m)) (fun e k => W (ix2 k (slot 0 e))) (fun e => c (ix3 (0 : Fin 1) (0 : Fin 1) (slot 0 e))) (fun e k => W (ix2 k (slot 1 e))) (fun e => c (ix3 (0 : Fin 1) (0 : Fin 1) (slot 1 e))) (fun e k => W (ix2 k (slot 2 e))) (fun e => c (ix3 (0 : Fin 1) (0 : Fin 1) (slot 2 e))) (fun k => g (ix1 k)) (fun k => b (ix1 k)) n d := by
  unfold layerBlock layer
  refine (addf_apply _ _ _).trans ?_
  refine congrArg (X (ix3 p n d) + ·) ?_
  refine (normRows_apply _ g b p n d).trans ?_
  exact congrArg (fun r : Fin 64 → EReal => rowNorm r (fun k => g (ix1 k)) (fun k => b (ix1 k)) d)
    (funext fun k => mixBlock_apply X W c adj p n k)

end Cert.KernelIdeal.Block

end
-- ==== Proof.IdealRun.lean ====
/-
  The run of the fused three-layer graph kernel through its pipeline, at any float instance.

  The program is: host operations (the embedding gather with its negative-index wrap, the position term, the cast to
  bf16; the three projection weights transposed and laid side by side, each in a 128-lane slot padded with zeros; the
  three biases laid out the same way), then ONE region over 64 grid points. At point t the body reads block t of the
  embeddings (16 batch rows) and block t of the adjacency, the two embedding-normalisation vectors, the whole padded
  weight and bias tables, the two layer-normalisation vectors, and stores ONE whole 16×256×64 block of the result. It
  keeps nothing between points. So what its output buffer holds after the body is a pure function of the eight input
  blocks (`blockOut`), every input buffer is left as found, and the library's frame run gives: the result array is the
  blocks written back, every other unscoped buffer is as the region found it, and the fifteen arguments are untouched
  by the host operations before the region.
-/
import proofs.«161215_j83726092468549_2_alg».proof.Proof.Gen.KernelIdeal.Launch
import proofs.«161215_j83726092468549_2_alg».proof.Proof.Gen.KernelIdeal.Skeleton
import proofs.«161215_j83726092468549_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the host operations. -/
abbrev V (c : Dev nD) (b : Ref sig .tc) : Buf (Elt F) ((c : Thread nD τ).loc b) := StableHlo.after hostOps0 (fun b => m (c, b)) b

/-- Every host operation writes a buffer that already exists. -/
theorem hostOps0_fresh : (hostOps0 : List (HloOp τ sig (Elt F))).Forall fun op => op.fresh = ∅ := by
  simp only [List.Forall]; repeat' constructor

/-- @main is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the pipeline fetched it there or
    kept it from the point before (then the block index has not moved), for any proof data over `V` whose body leaves
    the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## What a run to the library's frame post says of the result and of the arguments -/

/-- From a frame run: the result array is the proof data's final array, and each argument is as launched — an argument
    a window stages by the library's reading of an input window's array, the others because no window stages them. -/
theorem post_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_v18) = (dats 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c).1 8,
      ((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 2).trans (((dats 0 c).arrAt_in 2 rfl _).trans ((hA c 2).trans (V_main_arg5 m c))),
      ((h c).1 3).trans (((dats 0 c).arrAt_in 3 rfl _).trans ((hA c 3).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).1 6).trans (((dats 0 c).arrAt_in 6 rfl _).trans ((hA c 6).trans (V_main_arg13 m c))),
      ((h c).1 7).trans (((dats 0 c).arrAt_in 7 rfl _).trans ((hA c 7).trans (V_main_arg14 m c)))⟩) h

/-! ## The body's accesses -/

abbrev rEmb : Rect S16x256x64 := Rect.unit (s := S16x256x64) ![0, 0, 0] S16x256x64.size inb_S16x256x64_S16x256x64_0_0_0
abbrev rAdj : Rect S16x256x256 := Rect.unit (s := S16x256x256) ![0, 0, 0] S16x256x256.size inb_S16x256x256_S16x256x256_0_0_0
abbrev rVec : Rect S64 := Rect.unit (s := S64) ![0] S64.size inb_S64_S64_0
abbrev rW0 : Rect S3x64x384 := Rect.unit (s := S3x64x384) ![0, 0, 0] S1x64x384.size inb_S3x64x384_S1x64x384_0_0_0
abbrev rW1 : Rect S3x64x384 := Rect.unit (s := S3x64x384) ![1, 0, 0] S1x64x384.size inb_S3x64x384_S1x64x384_1_0_0
abbrev rW2 : Rect S3x64x384 := Rect.unit (s := S3x64x384) ![2, 0, 0] S1x64x384.size inb_S3x64x384_S1x64x384_2_0_0
abbrev rB0 : Rect S3x384 := Rect.unit (s := S3x384) ![0, 0] S1x384.size inb_S3x384_S1x384_0_0
abbrev rB1 : Rect S3x384 := Rect.unit (s := S3x384) ![1, 0] S1x384.size inb_S3x384_S1x384_1_0
abbrev rB2 : Rect S3x384 := Rect.unit (s := S3x384) ![2, 0] S1x384.size inb_S3x384_S1x384_2_0

/-! ## What the body computes -/

/-- The normalised embeddings: the residual stream before the first layer. -/
def stream0 (x0 : Vec F S16x256x64 .bf16) (x2 x3 : Vec F S64 .f32) : FVec F S16x256x64 .f32 :=
  k0_pay2 (View.ld x0 rEmb) (View.ld x2 rVec) (View.ld x3 rVec)

/-- The residual stream after the first layer. -/
def stream1 (x0 : Vec F S16x256x64 .bf16) (x1 : Vec F S16x256x256 .f32) (x2 : Vec F S64 .f32) (x3 : Vec F S64 .f32) (x4 : Vec F S3x64x384 .f32) (x5 : Vec F S3x384 .f32) (x6 : Vec F S64 .f32) (x7 : Vec F S64 .f32) : FVec F S16x256x64 .f32 :=
  k0_pay5 (stream0 x0 x2 x3) (View.ld x6 rVec) (View.ld x7 rVec)
    (k0_pay3 (View.ld x0 rEmb) (View.ld x2 rVec) (View.ld x3 rVec) (View.ld x4 rW0)) (k0_pay4 (View.ld x5 rB0)) (View.ld x1 rAdj)

/-- The residual stream after the second layer. -/
def stream2 (x0 : Vec F S16x256x64 .bf16) (x1 : Vec F S16x256x256 .f32) (x2 : Vec F S64 .f32) (x3 : Vec F S64 .f32) (x4 : Vec F S3x64x384 .f32) (x5 : Vec F S3x384 .f32) (x6 : Vec F S64 .f32) (x7 : Vec F S64 .f32) : FVec F S16x256x64 .f32 :=
  k0_pay8 (View.ld x6 rVec) (View.ld x7 rVec) (stream1 x0 x1 x2 x3 x4 x5 x6 x7) (k0_pay6 (View.ld x4 rW1)) (k0_pay7 (View.ld x5 rB1)) (View.ld x1 rAdj)

/-- The value the body stores: the residual stream after the third layer. -/
def stream3 (x0 : Vec F S16x256x64 .bf16) (x1 : Vec F S16x256x256 .f32) (x2 : Vec F S64 .f32) (x3 : Vec F S64 .f32) (x4 : Vec F S3x64x384 .f32) (x5 : Vec F S3x384 .f32) (x6 : Vec F S64 .f32) (x7 : Vec F S64 .f32) : FVec F S16x256x64 .f32 :=
  k0_pay1 (View.ld x7 rVec) (stream2 x0 x1 x2 x3 x4 x5 x6 x7)
    (k0_pay9 (stream2 x0 x1 x2 x3 x4 x5 x6 x7) (View.ld x4 rW2) (View.ld x5 rB2) (View.ld x1 rAdj)) (k0_pay10 (View.ld x6 rVec))

/-- The output window's staging buffer after the body: its one store, of the whole block. -/
def blockOut (x0 : Vec F S16x256x64 .bf16) (x1 : Vec F S16x256x256 .f32) (x2 : Vec F S64 .f32) (x3 : Vec F S64 .f32) (x4 : Vec F S3x64x384 .f32) (x5 : Vec F S3x384 .f32) (x6 : Vec F S64 .f32) (x7 : Vec F S64 .f32) : Vec F S16x256x64 .f32 :=
  View.canon [⟨rEmb, stream3 x0 x1 x2 x3 x4 x5 x6 x7⟩]

/-- The one store covers the buffer. -/
theorem cover_out (p0 : Vec F S16x256x64 .f32) (y : S16x256x64.Idx) :
    ∃ pc ∈ ([⟨rEmb, p0⟩] : List (View.Piece (Elt F) S16x256x64 .f32)), y ∈ pc.1.set :=
  View.cover_of_tiled [⟨rEmb, p0⟩] S16x256x64.size (by rfl) y

/-! ## The body's triple -/

set_option maxHeartbeats 4000000 in
/-- On whole staging memrefs, the inputs' at contents `x·` and the output's at anything, the body runs to a state
    holding the inputs' as they were and the output's at `blockOut` of the inputs'. -/
theorem sound_kernel (c : Dev nD) (E : Set ℕ) (i : grid0.Coords) (arg1 : Memref sig .tc .vmem S16x256x64 .bf16) (harg1 : arg1.IsWhole) (arg2 : Memref sig .tc .vmem S16x256x256 .f32) (harg2 : arg2.IsWhole) (arg3 : Memref sig .tc .vmem S64 .f32) (harg3 : arg3.IsWhole) (arg4 : Memref sig .tc .vmem S64 .f32) (harg4 : arg4.IsWhole) (arg5 : Memref sig .tc .vmem S3x64x384 .f32) (harg5 : arg5.IsWhole) (arg6 : Memref sig .tc .vmem S3x384 .f32) (harg6 : arg6.IsWhole) (arg7 : Memref sig .tc .vmem S64 .f32) (harg7 : arg7.IsWhole) (arg8 : Memref sig .tc .vmem S64 .f32) (harg8 : arg8.IsWhole) (arg9 : Memref sig .tc .vmem S16x256x64 .f32) (harg9 : arg9.IsWhole)
    (x0 : Vec F S16x256x64 .bf16) (x1 : Vec F S16x256x256 .f32) (x2 : Vec F S64 .f32) (x3 : Vec F S64 .f32) (x4 : Vec F S3x64x384 .f32) (x5 : Vec F S3x384 .f32) (x6 : Vec F S64 .f32) (x7 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (blockOut x0 x1 x2 x3 x4 x5 x6 x7)) -∗ K ⟨⟩))
      ⊢ wp frame (wpE (defs₀ (F := F)) Variants.none c none) E (cc0__gnn_kernel i arg1 harg1 arg2 harg2 arg3 harg3 arg4 harg4 arg5 harg5 arg6 harg6 arg7 harg7 arg8 harg8 arg9 harg9) K := by
  simp only [cc0__gnn_kernel_eq_skeleton]; unfold cc0__gnn_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover_out _)

/-! ## The pipeline's proof data -/

/-- On core `c`: the arrays as the region finds them; after the body at point `t` each input's buffer at its block and
    the output's at `blockOut` of the input blocks; the invariant the scoped rest and the generator register, untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => blockOut (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_out (c : Dev nD) (t : Fin cfg0.N) : (dats m 0 c).after 8 t = blockOut (iblk m c 0 t) (iblk m c 1 t) (iblk m c 2 t) (iblk m c 3 t) (iblk m c 4 t) (iblk m c 5 t) (iblk m c 6 t) (iblk m c 7 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d
theorem before_in7 (c : Dev nD) (t : Fin cfg0.N) (d) : (dats m 0 c).before 7 t d = iblk m c 7 t :=
  before_in7_of m (dats m 0 c) (A_eq m c 7) (after_in7 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- The body at any point: the inputs' memrefs hold their blocks, so `sound_kernel` applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with the result array named and the fifteen arguments kept. -/
theorem run_named : θ_run defs (onTc (τ := τ) (main (F := F))) ⟨m, fun _ => 0, ρ⟩ (fun r => ∀ c : Dev nD,
      r.2.mem ((c.tc : Thread nD τ).loc main_v18) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  post_of m ρ (dats m) (A_eq m) (run_main m ρ)

/-- The frame: every execution terminates without a fault and the fifteen arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2) (run_named m ρ)

end Cert.KernelIdeal.Run

end
-- ==== Proof.KernelValue.lean ====
/-
  The kernel's result array as one function of the arrays its region finds.

  The payload streams of the body are the generic block layer applied to the normalised embeddings three times, with
  rows 0, 1, 2 of the padded weight and bias tables. A load through the whole-buffer rectangle reads the buffer; a load of
  row l of a table reads that row. So the block the body stores, at (p, n, d), is the scalar stream of molecule r(p) after
  three layers, whenever each input block agrees with its whole array at the corresponding places. The pipeline hands
  the body, at grid point t, rows 16t … 16t+15 of the embeddings and of the adjacency and the whole of every other
  array (the index maps, decided over the 64 points), writes the stored block back to rows 16t … 16t+15 of the result,
  and the 64 blocks tile the 1024 molecules: the result array after the run is the whole-array function.
-/
import proofs.«161215_j83726092468549_2_alg».proof.Proof.KernelLayer
import proofs.«161215_j83726092468549_2_alg».proof.Proof.IdealRun
import Idealize.ShloMosaic.Lib.ValueLayout

set_option maxRecDepth 16384

noncomputable section

namespace Cert.KernelIdeal.Block

open Cert.KernelIdeal Cert.KernelIdeal.Facts₀ Cert.KernelIdeal.Run
open Idealize.ShloMosaic Idealize.ShloMosaic.ValueIdx Cert.GraphSpec Cert.LibKeepdims3

/-! ## The payload streams are the generic layer applied three times -/

section Streams

variable (x0 : Vec Ideal S16x256x64 .bf16) (x1 : Vec Ideal S16x256x256 .f32) (x2 x3 : Vec Ideal S64 .f32)
    (x4 : Vec Ideal S3x64x384 .f32) (x5 : Vec Ideal S3x384 .f32) (x6 x7 : Vec Ideal S64 .f32)

/-- A loaded row of the weight table, its unit axis dropped. -/
def tableOf (w : Vec Ideal S1x64x384 .f32) : FVec Ideal S64x384 .f32 := shapeCast S64x384 w shapeCasts_S1x64x384_S64x384
/-- A loaded row of the bias table, as a [1, 1, 384] vector. -/
def biasOf (v : Vec Ideal S1x384 .f32) : FVec Ideal S1x1x384 .f32 :=
  shapeCast S1x1x384 (shapeCast S384 v shapeCasts_S1x384_S384) shapeCasts_S384_S1x1x384
/-- The loaded bf16 embeddings widened. -/
def widen (x : Vec Ideal S16x256x64 .bf16) : FVec Ideal S16x256x64 .f32 :=
  extf .f32 (shapeCast S16x256x64 x shapeCasts_S16x256x64_S16x256x64) bitsLt_bf16_f32

theorem widen_apply (x : Vec Ideal S16x256x64 .bf16) (i : S16x256x64.Idx) : widen x i = x i := by
  unfold widen; rw [shapeCast_self]; rfl

theorem stream0_eq : stream0 x0 x2 x3 = normRows (widen (View.ld x0 rEmb)) (View.ld x2 rVec) (View.ld x3 rVec) := rfl
theorem stream1_eq : stream1 x0 x1 x2 x3 x4 x5 x6 x7
    = layerBlock (stream0 x0 x2 x3) (tableOf (View.ld x4 rW0)) (biasOf (View.ld x5 rB0)) (View.ld x1 rAdj) (View.ld x6 rVec) (View.ld x7 rVec) := rfl
theorem stream2_eq : stream2 x0 x1 x2 x3 x4 x5 x6 x7
    = layerBlock (stream1 x0 x1 x2 x3 x4 x5 x6 x7) (tableOf (View.ld x4 rW1)) (biasOf (View.ld x5 rB1)) (View.ld x1 rAdj) (View.ld x6 rVec) (View.ld x7 rVec) := rfl
theorem stream3_eq : stream3 x0 x1 x2 x3 x4 x5 x6 x7
    = layerBlock (stream2 x0 x1 x2 x3 x4 x5 x6 x7) (tableOf (View.ld x4 rW2)) (biasOf (View.ld x5 rB2)) (View.ld x1 rAdj) (View.ld x6 rVec) (View.ld x7 rVec) := rfl

/-! ## What the loads read -/

theorem zeros3 : (![0, 0, 0] : Fin 3 → Nat) = fun _ => 0 := funext fun a => by fin_cases a <;> rfl
theorem zeros1 : (![0] : Fin 1 → Nat) = fun _ => 0 := funext fun a => by fin_cases a <;> rfl

theorem ld_emb : View.ld x0 rEmb = x0 := View.ld_unit_zero (S := S16x256x64) zeros3 _ x0
theorem ld_adj : View.ld x1 rAdj = x1 := View.ld_unit_zero (S := S16x256x256) zeros3 _ x1
theorem ld_vec (v : Vec Ideal S64 .f32) : View.ld v rVec = v := View.ld_unit_zero (S := S64) zeros1 _ v

/-- Entry `(k, e)` of the loaded row 0 of the weight table is the table's entry `(0, k, e)`. -/
theorem table0_at (k : Fin 64) (e : Fin 384) : tableOf (View.ld x4 rW0) (ix2 k e) = x4 (ix3 (0 : Fin 3) k e) := by
  unfold tableOf
  refine (shapeCast_1ab_ab_apply _ _ k e).trans ?_
  show x4 (rW0.emb (ix3 (0 : Fin 1) k e)) = _
  refine congrArg x4 (funext fun a => Fin.ext ?_)
  match a with
  | ⟨0, _⟩ => rfl
  | ⟨1, _⟩ => show 0 + 1 * k.val = k.val; omega
  | ⟨2, _⟩ => show 0 + 1 * e.val = e.val; omega

/-- Entry `e` of the loaded row 0 of the bias table is the table's entry `(0, e)`. -/
theorem bias0_at (e : Fin 384) : biasOf (View.ld x5 rB0) (ix3 (0 : Fin 1) (0 : Fin 1) e) = x5 (ix2 (0 : Fin 3) e) := by
  unfold biasOf
  refine (shapeCast_feat_apply _ _ e).trans ?_
  refine (shapeCast_1a_a_apply _ _ e).trans ?_
  show x5 (rB0.emb (ix2 (0 : Fin 1) e)) = _
  refine congrArg x5 (funext fun a => Fin.ext ?_)
  match a with
  | ⟨0, _⟩ => rfl
  | ⟨1, _⟩ => show 0 + 1 * e.val = e.val; omega

/-- Entry `(k, e)` of the loaded row 1 of the weight table is the table's entry `(1, k, e)`. -/
theorem table1_at (k : Fin 64) (e : Fin 384) : tableOf (View.ld x4 rW1) (ix2 k e) = x4 (ix3 (1 : Fin 3) k e) := by
  unfold tableOf
  refine (shapeCast_1ab_ab_apply _ _ k e).trans ?_
  show x4 (rW1.emb (ix3 (0 : Fin 1) k e)) = _
  refine congrArg x4 (funext fun a => Fin.ext ?_)
  match a with
  | ⟨0, _⟩ => rfl
  | ⟨1, _⟩ => show 0 + 1 * k.val = k.val; omega
  | ⟨2, _⟩ => show 0 + 1 * e.val = e.val; omega

/-- Entry `e` of the loaded row 1 of the bias table is the table's entry `(1, e)`. -/
theorem bias1_at (e : Fin 384) : biasOf (View.ld x5 rB1) (ix3 (0 : Fin 1) (0 : Fin 1) e) = x5 (ix2 (1 : Fin 3) e) := by
  unfold biasOf
  refine (shapeCast_feat_apply _ _ e).trans ?_
  refine (shapeCast_1a_a_apply _ _ e).trans ?_
  show x5 (rB1.emb (ix2 (0 : Fin 1) e)) = _
  refine congrArg x5 (funext fun a => Fin.ext ?_)
  match a with
  | ⟨0, _⟩ => rfl
  | ⟨1, _⟩ => show 0 + 1 * e.val = e.val; omega

/-- Entry `(k, e)` of the loaded row 2 of the weight table is the table's entry `(2, k, e)`. -/
theorem table2_at (k : Fin 64) (e : Fin 384) : tableOf (View.ld x4 rW2) (ix2 k e) = x4 (ix3 (2 : Fin 3) k e) := by
  unfold tableOf
  refine (shapeCast_1ab_ab_apply _ _ k e).trans ?_
  show x4 (rW2.emb (ix3 (0 : Fin 1) k e)) = _
  refine congrArg x4 (funext fun a => Fin.ext ?_)
  match a with
  | ⟨0, _⟩ => rfl
  | ⟨1, _⟩ => show 0 + 1 * k.val = k.val; omega
  | ⟨2, _⟩ => show 0 + 1 * e.val = e.val; omega

/-- Entry `e` of the loaded row 2 of the bias table is the table's entry `(2, e)`. -/
theorem bias2_at (e : Fin 384) : biasOf (View.ld x5 rB2) (ix3 (0 : Fin 1) (0 : Fin 1) e) = x5 (ix2 (2 : Fin 3) e) := by
  unfold biasOf
  refine (shapeCast_feat_apply _ _ e).trans ?_
  refine (shapeCast_1a_a_apply _ _ e).trans ?_
  show x5 (rB2.emb (ix2 (0 : Fin 1) e)) = _
  refine congrArg x5 (funext fun a => Fin.ext ?_)
  match a with
  | ⟨0, _⟩ => rfl
  | ⟨1, _⟩ => show 0 + 1 * e.val = e.val; omega

end Streams

/-! ## The scalar streams of the whole arrays -/

/-- Molecule `r`'s stream before the first layer: its embedding rows normalised. -/
def wholeStream0 (E : FVec Ideal S1024x256x64 .bf16) (g0 b0 : Vec Ideal S64 .f32) (r : Fin 1024) : Fin 256 → Fin 64 → EReal :=
  embed (fun n k => E (ix3 r n k)) (fun k => g0 (ix1 k)) (fun k => b0 (ix1 k))

/-- Molecule `r`'s stream after layer `l`, from its stream `S r` before it: the padded tables' three slots of row `l` are the
    layer's three weight matrices (transposed in the table) and biases. -/
def wholeLayer (l : Fin 3) (S : Fin 1024 → Fin 256 → Fin 64 → EReal) (A : Vec Ideal S1024x256x256 .f32)
    (Wt : Vec Ideal S3x64x384 .f32) (ct : Vec Ideal S3x384 .f32) (g b : Vec Ideal S64 .f32) (r : Fin 1024) : Fin 256 → Fin 64 → EReal :=
  layer (S r) (fun n m => A (ix3 r n m))
    (fun e k => Wt (ix3 l k (slot 0 e))) (fun e => ct (ix2 l (slot 0 e)))
    (fun e k => Wt (ix3 l k (slot 1 e))) (fun e => ct (ix2 l (slot 1 e)))
    (fun e k => Wt (ix3 l k (slot 2 e))) (fun e => ct (ix2 l (slot 2 e)))
    (fun k => g (ix1 k)) (fun k => b (ix1 k))

def wholeStream1 (E : FVec Ideal S1024x256x64 .bf16) (A : Vec Ideal S1024x256x256 .f32) (g0 b0 : Vec Ideal S64 .f32)
    (Wt : Vec Ideal S3x64x384 .f32) (ct : Vec Ideal S3x384 .f32) (g b : Vec Ideal S64 .f32) : Fin 1024 → Fin 256 → Fin 64 → EReal := wholeLayer 0 (wholeStream0 E g0 b0) A Wt ct g b
def wholeStream2 (E : FVec Ideal S1024x256x64 .bf16) (A : Vec Ideal S1024x256x256 .f32) (g0 b0 : Vec Ideal S64 .f32)
    (Wt : Vec Ideal S3x64x384 .f32) (ct : Vec Ideal S3x384 .f32) (g b : Vec Ideal S64 .f32) : Fin 1024 → Fin 256 → Fin 64 → EReal := wholeLayer 1 (wholeStream1 E A g0 b0 Wt ct g b) A Wt ct g b
def wholeStream3 (E : FVec Ideal S1024x256x64 .bf16) (A : Vec Ideal S1024x256x256 .f32) (g0 b0 : Vec Ideal S64 .f32)
    (Wt : Vec Ideal S3x64x384 .f32) (ct : Vec Ideal S3x384 .f32) (g b : Vec Ideal S64 .f32) : Fin 1024 → Fin 256 → Fin 64 → EReal := wholeLayer 2 (wholeStream2 E A g0 b0 Wt ct g b) A Wt ct g b

/-- The result array as a function of the arrays the region finds. -/
def wholeResult (E : FVec Ideal S1024x256x64 .bf16) (A : Vec Ideal S1024x256x256 .f32) (g0 b0 : Vec Ideal S64 .f32)
    (Wt : Vec Ideal S3x64x384 .f32) (ct : Vec Ideal S3x384 .f32) (g b : Vec Ideal S64 .f32) : S1024x256x64.Idx → EReal :=
  fun i => wholeStream3 E A g0 b0 Wt ct g b (i 0) (i 1) (i 2)

/-! ## One block's result -/

section Block

variable (x0 : Vec Ideal S16x256x64 .bf16) (x1 : Vec Ideal S16x256x256 .f32) (x2 x3 : Vec Ideal S64 .f32)
    (x4 : Vec Ideal S3x64x384 .f32) (x5 : Vec Ideal S3x384 .f32) (x6 x7 : Vec Ideal S64 .f32) (E : FVec Ideal S1024x256x64 .bf16) (A : Vec Ideal S1024x256x256 .f32) (g0 b0 : Vec Ideal S64 .f32)
    (Wt : Vec Ideal S3x64x384 .f32) (ct : Vec Ideal S3x384 .f32) (g b : Vec Ideal S64 .f32) (r : Fin 16 → Fin 1024)
  (hE : ∀ p n k, x0 (ix3 p n k) = E (ix3 (r p) n k)) (hA : ∀ p n m, x1 (ix3 p n m) = A (ix3 (r p) n m))
  (hg0 : ∀ k, x2 (ix1 k) = g0 (ix1 k)) (hb0 : ∀ k, x3 (ix1 k) = b0 (ix1 k))
  (hW : ∀ l k e, x4 (ix3 l k e) = Wt (ix3 l k e)) (hc : ∀ l e, x5 (ix2 l e) = ct (ix2 l e))
  (hg : ∀ k, x6 (ix1 k) = g (ix1 k)) (hb : ∀ k, x7 (ix1 k) = b (ix1 k))

include hE hg0 hb0 in
theorem block_stream0 (p : Fin 16) (n : Fin 256) (d : Fin 64) :
    stream0 x0 x2 x3 (ix3 p n d) = wholeStream0 E g0 b0 (r p) n d := by
  rw [stream0_eq, normRows_apply, ld_emb, ld_vec, ld_vec]
  unfold wholeStream0 embed
  have e1 : (fun k => widen x0 (ix3 p n k)) = (fun k => E (ix3 (r p) n k)) := funext fun k => (widen_apply x0 _).trans (hE p n k)
  rw [e1, funext hg0, funext hb0]

include hE hA hg0 hb0 hW hc hg hb in
theorem block_stream1 (p : Fin 16) (n : Fin 256) (d : Fin 64) :
    stream1 x0 x1 x2 x3 x4 x5 x6 x7 (ix3 p n d) = wholeStream1 E A g0 b0 Wt ct g b (r p) n d := by
  rw [stream1_eq, layerBlock_apply, ld_adj, ld_vec, ld_vec]
  unfold wholeStream1 wholeLayer
  simp only [block_stream0 x0 x2 x3 E g0 b0 r hE hg0 hb0, table0_at, bias0_at, hA, hW, hc, hg, hb]

include hE hA hg0 hb0 hW hc hg hb in
theorem block_stream2 (p : Fin 16) (n : Fin 256) (d : Fin 64) :
    stream2 x0 x1 x2 x3 x4 x5 x6 x7 (ix3 p n d) = wholeStream2 E A g0 b0 Wt ct g b (r p) n d := by
  rw [stream2_eq, layerBlock_apply, ld_adj, ld_vec, ld_vec]
  unfold wholeStream2 wholeLayer
  simp only [block_stream1 x0 x1 x2 x3 x4 x5 x6 x7 E A g0 b0 Wt ct g b r hE hA hg0 hb0 hW hc hg hb, table1_at, bias1_at, hA, hW, hc, hg, hb]

include hE hA hg0 hb0 hW hc hg hb in
/-- The block the body stores, at `(p, n, d)`: the whole-array result at molecule `r p`. -/
theorem block_stream3 (p : Fin 16) (n : Fin 256) (d : Fin 64) :
    stream3 x0 x1 x2 x3 x4 x5 x6 x7 (ix3 p n d) = wholeStream3 E A g0 b0 Wt ct g b (r p) n d := by
  rw [stream3_eq, layerBlock_apply, ld_adj, ld_vec, ld_vec]
  unfold wholeStream3 wholeLayer
  simp only [block_stream2 x0 x1 x2 x3 x4 x5 x6 x7 E A g0 b0 Wt ct g b r hE hA hg0 hb0 hW hc hg hb, table2_at, bias2_at, hA, hW, hc, hg, hb]

end Block

/-! ## The blocks of the arrays at a grid point -/

section Pipeline

variable (m : (ℓ : Loc nD τ sig) → Buf (Elt Ideal) ℓ) (ρ : Dev nD → PrngReg)

/-- The printed index maps, decided over the grid: the embeddings, the adjacency and the result move one block of 16
    molecules per point along the first axis; every other window stays at its whole array. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 1) = 0 ∧ win0_3.index t (0 : Fin 1) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 1) = 0 ∧ win0_7.index t (0 : Fin 1) = 0
    ∧ win0_8.index t (0 : Fin 3) = t.val ∧ win0_8.index t (1 : Fin 3) = 0 ∧ win0_8.index t (2 : Fin 3) = 0 :=
  (by decide +kernel : ∀ t : Fin grid0.N, _)

/-- The molecule that row `p` of point `t`'s block is. -/
def rowOf (t : Fin cfg0.N) (p : Fin 16) : Fin 1024 :=
  ⟨16 * t.val + p.val, by have ht : t.val < 64 := lt_of_lt_of_eq t.isLt Gen.N_0; have := p.isLt; omega⟩

theorem blk0_at (c : Dev nD) (t : Fin cfg0.N) (p : Fin 16) (n : Fin 256) (k : Fin 64) :
    iblk m c 0 t (ix3 p n k) = V m c main_v10 (ix3 (rowOf t p) n k) := by
  show V m c main_v10 (((cfg0.win 0).blk t).view.emb (ix3 p n k)) = _
  refine congrArg (V m c main_v10) (funext fun a => Fin.ext ?_)
  obtain ⟨e0, e1, e2, -⟩ := index_facts t
  match a with
  | ⟨0, _⟩ => show win0_0.index t (0 : Fin 3) * 16 + 1 * p.val = 16 * t.val + p.val; omega
  | ⟨1, _⟩ => show win0_0.index t (1 : Fin 3) * 256 + 1 * n.val = n.val; omega
  | ⟨2, _⟩ => show win0_0.index t (2 : Fin 3) * 64 + 1 * k.val = k.val; omega

theorem blk1_at (c : Dev nD) (t : Fin cfg0.N) (p : Fin 16) (n : Fin 256) (k : Fin 256) :
    iblk m c 1 t (ix3 p n k) = V m c main_arg1 (ix3 (rowOf t p) n k) := by
  show V m c main_arg1 (((cfg0.win 1).blk t).view.emb (ix3 p n k)) = _
  refine congrArg (V m c main_arg1) (funext fun a => Fin.ext ?_)
  obtain ⟨-, -, -, e0, e1, e2, -⟩ := index_facts t
  match a with
  | ⟨0, _⟩ => show win0_1.index t (0 : Fin 3) * 16 + 1 * p.val = 16 * t.val + p.val; omega
  | ⟨1, _⟩ => show win0_1.index t (1 : Fin 3) * 256 + 1 * n.val = n.val; omega
  | ⟨2, _⟩ => show win0_1.index t (2 : Fin 3) * 256 + 1 * k.val = k.val; omega

theorem blk2_at (c : Dev nD) (t : Fin cfg0.N) (k : Fin 64) : iblk m c 2 t (ix1 k) = V m c main_arg5 (ix1 k) := by
  show V m c main_arg5 (((cfg0.win 2).blk t).view.emb (ix1 k)) = _
  refine congrArg (V m c main_arg5) (funext fun a => Fin.ext ?_)
  have e0 := (index_facts t).2.2.2.2.2.2.1
  match a with
  | ⟨0, _⟩ => show win0_2.index t (0 : Fin 1) * 64 + 1 * k.val = k.val; omega

theorem blk3_at (c : Dev nD) (t : Fin cfg0.N) (k : Fin 64) : iblk m c 3 t (ix1 k) = V m c main_arg6 (ix1 k) := by
  show V m c main_arg6 (((cfg0.win 3).blk t).view.emb (ix1 k)) = _
  refine congrArg (V m c main_arg6) (funext fun a => Fin.ext ?_)
  have e0 := (index_facts t).2.2.2.2.2.2.2.1
  match a with
  | ⟨0, _⟩ => show win0_3.index t (0 : Fin 1) * 64 + 1 * k.val = k.val; omega

theorem blk6_at (c : Dev nD) (t : Fin cfg0.N) (k : Fin 64) : iblk m c 6 t (ix1 k) = V m c main_arg13 (ix1 k) := by
  show V m c main_arg13 (((cfg0.win 6).blk t).view.emb (ix1 k)) = _
  refine congrArg (V m c main_arg13) (funext fun a => Fin.ext ?_)
  have e0 := (index_facts t).2.2.2.2.2.2.2.2.2.2.2.2.2.1
  match a with
  | ⟨0, _⟩ => show win0_6.index t (0 : Fin 1) * 64 + 1 * k.val = k.val; omega

theorem blk7_at (c : Dev nD) (t : Fin cfg0.N) (k : Fin 64) : iblk m c 7 t (ix1 k) = V m c main_arg14 (ix1 k) := by
  show V m c main_arg14 (((cfg0.win 7).blk t).view.emb (ix1 k)) = _
  refine congrArg (V m c main_arg14) (funext fun a => Fin.ext ?_)
  have e0 := (index_facts t).2.2.2.2.2.2.2.2.2.2.2.2.2.2.1
  match a with
  | ⟨0, _⟩ => show win0_7.index t (0 : Fin 1) * 64 + 1 * k.val = k.val; omega

theorem blk4_at (c : Dev nD) (t : Fin cfg0.N) (l : Fin 3) (k : Fin 64) (e : Fin 384) :
    iblk m c 4 t (ix3 l k e) = V m c main_v15 (ix3 l k e) := by
  show V m c main_v15 (((cfg0.win 4).blk t).view.emb (ix3 l k e)) = _
  refine congrArg (V m c main_v15) (funext fun a => Fin.ext ?_)
  obtain ⟨-, -, -, -, -, -, -, -, e0, e1, e2, -⟩ := index_facts t
  match a with
  | ⟨0, _⟩ => show win0_4.index t (0 : Fin 3) * 3 + 1 * l.val = l.val; omega
  | ⟨1, _⟩ => show win0_4.index t (1 : Fin 3) * 64 + 1 * k.val = k.val; omega
  | ⟨2, _⟩ => show win0_4.index t (2 : Fin 3) * 384 + 1 * e.val = e.val; omega

theorem blk5_at (c : Dev nD) (t : Fin cfg0.N) (l : Fin 3) (e : Fin 384) :
    iblk m c 5 t (ix2 l e) = V m c main_v17 (ix2 l e) := by
  show V m c main_v17 (((cfg0.win 5).blk t).view.emb (ix2 l e)) = _
  refine congrArg (V m c main_v17) (funext fun a => Fin.ext ?_)
  obtain ⟨-, -, -, -, -, -, -, -, -, -, -, e0, e1, -⟩ := index_facts t
  match a with
  | ⟨0, _⟩ => show win0_5.index t (0 : Fin 2) * 3 + 1 * l.val = l.val; omega
  | ⟨1, _⟩ => show win0_5.index t (1 : Fin 2) * 384 + 1 * e.val = e.val; omega

/-- WHAT POINT `t` WRITES BACK is block `t` of the whole-array result of the arrays as the region finds them. -/
theorem flushed_eq (c : Dev nD) (t : Fin cfg0.N) :
    (dats m 0 c).flushed 8 t = ((cfg0.win 8).blk t).view.read (Elt Ideal) (wholeResult (V m c main_v10) (V m c main_arg1) (V m c main_arg5) (V m c main_arg6) (V m c main_v15) (V m c main_v17) (V m c main_arg13) (V m c main_arg14)) := by
  show (cfg0.win 8).cut (grid0.coords t) ((dats m 0 c).after 8 t) = _
  rw [after_out]
  unfold blockOut
  rw [View.canon_unit_zero zeros3]
  funext j
  obtain ⟨p, n, d, rfl⟩ : ∃ (p : Fin 16) (n : Fin 256) (d : Fin 64), j = ix3 p n d := ⟨j 0, j 1, j 2, eq_ix3 j⟩
  refine (block_stream3 (iblk m c 0 t) (iblk m c 1 t) (iblk m c 2 t) (iblk m c 3 t) (iblk m c 4 t) (iblk m c 5 t) (iblk m c 6 t) (iblk m c 7 t)
    (V m c main_v10) (V m c main_arg1) (V m c main_arg5) (V m c main_arg6) (V m c main_v15) (V m c main_v17) (V m c main_arg13) (V m c main_arg14) (rowOf t)
    (blk0_at m c t) (blk1_at m c t) (blk2_at m c t) (blk3_at m c t) (blk4_at m c t) (blk5_at m c t) (blk6_at m c t) (blk7_at m c t) p n d).trans ?_
  show _ = wholeResult (V m c main_v10) (V m c main_arg1) (V m c main_arg5) (V m c main_arg6) (V m c main_v15) (V m c main_v17) (V m c main_arg13) (V m c main_arg14) (((cfg0.win 8).blk t).view.emb (ix3 p n d))
  unfold wholeResult
  obtain ⟨-, -, -, -, -, -, -, -, -, -, -, -, -, -, -, e0, e1, e2⟩ := index_facts t
  have h0 : (((cfg0.win 8).blk t).view.emb (ix3 p n d)) 0 = rowOf t p := Fin.ext (by
    show win0_8.index t (0 : Fin 3) * 16 + 1 * p.val = 16 * t.val + p.val; omega)
  have h1 : (((cfg0.win 8).blk t).view.emb (ix3 p n d)) 1 = n := Fin.ext (by
    show win0_8.index t (1 : Fin 3) * 256 + 1 * n.val = n.val; omega)
  have h2 : (((cfg0.win 8).blk t).view.emb (ix3 p n d)) 2 = d := Fin.ext (by
    show win0_8.index t (2 : Fin 3) * 64 + 1 * d.val = d.val; omega)
  rw [h0, h1, h2]

/-- An index of the result array is in point `t`'s block iff each coordinate is in the block's range on its axis. -/
theorem mem_blk8 (t : Fin cfg0.N) (i : S1024x256x64.Idx) :
    i ∈ ((cfg0.win 8).blk t).view.set ↔ ∀ a : Fin 3, win0_8.index t a * S16x256x64.size a ≤ (i a).val ∧ (i a).val < win0_8.index t a * S16x256x64.size a + S16x256x64.size a := by
  show i ∈ ((View.whole main_v18).slice (win0_8.rect t)).set ↔ _
  rw [View.set_slice_whole, Rect.mem_set_unit]
  exact Iff.rfl

/-- The 64 blocks of 16 molecules tile the 1024: molecule `r` is in the block of point `r / 16`. -/
theorem cover8 (i : S1024x256x64.Idx) :
    ∃ t : Fin cfg0.N, (cfg0.win 8).flush t = true ∧ i ∈ ((cfg0.win 8).blk t).view.set := by
  have hi0 : (i 0).val < 1024 := (i 0).isLt
  have hi1 : (i 1).val < 256 := (i 1).isLt
  have hi2 : (i 2).val < 64 := (i 2).isLt
  have hN : cfg0.N = 64 := Gen.N_0
  refine ⟨⟨(i 0).val / 16, by rw [hN]; omega⟩, Gen.flush0_8 _, ?_⟩
  rw [mem_blk8]
  obtain ⟨-, -, -, -, -, -, -, -, -, -, -, -, -, -, -, e0, e1, e2⟩ := index_facts ⟨(i 0).val / 16, by rw [hN]; omega⟩
  intro a
  match a with
  | ⟨0, _⟩ => show win0_8.index _ (0 : Fin 3) * 16 ≤ (i 0).val ∧ (i 0).val < win0_8.index _ (0 : Fin 3) * 16 + 16; rw [e0]; show (i 0).val / 16 * 16 ≤ (i 0).val ∧ (i 0).val < (i 0).val / 16 * 16 + 16; omega
  | ⟨1, _⟩ => show win0_8.index _ (1 : Fin 3) * 256 ≤ (i 1).val ∧ (i 1).val < win0_8.index _ (1 : Fin 3) * 256 + 256; rw [e1]; omega
  | ⟨2, _⟩ => show win0_8.index _ (2 : Fin 3) * 64 ≤ (i 2).val ∧ (i 2).val < win0_8.index _ (2 : Fin 3) * 64 + 64; rw [e2]; omega

/-- THE RESULT ARRAY after the run: the whole-array result of the arrays as the region finds them. -/
theorem final (c : Dev nD) : (dats m 0 c).arrAt 8 cfg0.N = wholeResult (V m c main_v10) (V m c main_arg1) (V m c main_arg5) (V m c main_arg6) (V m c main_v15) (V m c main_v17) (V m c main_arg13) (V m c main_arg14) :=
  (dats m 0 c).arrAt_eq_of_cover 8 _ (fun t _ => flushed_eq m c t) cover8

end Pipeline

end Cert.KernelIdeal.Block

end
-- ==== Proof.KernelHost.lean ====
/-
  The arrays the host operations write before the region, as terms of the arguments, at the extended reals.

  The embeddings: each index word is wrapped if negative (plus 10000), the word-embedding table is gathered at it, the
  position embedding is added along the molecules, and the sum is narrowed to bf16 (the identity here). The weight
  table: each stacked 3×64×64 weight argument is transposed in its last two axes and the three are laid side by side
  along the last axis, each followed by a 64-column block of zeros, so slot j (columns 128j … 128j+63) of row l holds the
  transpose of weight matrix j of layer l. The bias table is laid out the same way along its last axis.
-/
import proofs.«161215_j83726092468549_2_alg».proof.Proof.IdealRun
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.HostArrays

open Cert.KernelIdeal Cert.KernelIdeal.Facts₀ Cert.KernelIdeal.Run
open Idealize.ShloMosaic Idealize.ShloMosaic.ValueIdx Idealize.ShloMosaic.TcCoe Idealize.SL.Sem Idealize.ShloMosaic.StableHlo

/-- The bf16 embeddings the host operations compute from the index words, the word table and the position table. -/
def embArr (a0 : IVec S1024x256 32) (a3 : FVec Ideal S10000x64 .f32) (a4 : FVec Ideal S256x64 .f32) : FVec Ideal S1024x256x64 .bf16 :=
  truncf .bf16 (addf
    (Host.gather gather_S10000x64_S1024x256x1_S1024x256x64_2_0_n_n_0_2_164 a3
      (broadcastInDim S1024x256x1 ![0, 1] bcast_S1024x256_S1024x256x1_0_1
        (select (cmpi .slt a0 (broadcastInDim S1024x256 ![] bcast_S_S1024x256 (constantI S_ 32 0#32)))
          (addi a0 (broadcastInDim S1024x256 ![] bcast_S_S1024x256 (constantI S_ 32 10000#32))) a0)))
    (broadcastInDim S1024x256x64 ![0, 1, 2] bcast_S1x256x64_S1024x256x64_0_1_2
      (broadcastInDim S1x256x64 ![1, 2] bcast_S256x64_S1x256x64_1_2 a4))) bitsLt_bf16_f32

/-- A stack of three 64×64 blocks of zeros. -/
def zeroW : FVec Ideal S3x64x64 .f32 :=
  broadcastInDim S3x64x64 ![] bcast_S_S3x64x64 (constant (F := Ideal) S_ .f32 0x00000000#32)
/-- Three 64-long rows of zeros. -/
def zeroC : FVec Ideal S3x64 .f32 :=
  broadcastInDim S3x64 ![] bcast_S_S3x64 (constant (F := Ideal) S_ .f32 0x00000000#32)

/-- The stacked weights transposed in their last two axes. -/
def transposed (a : FVec Ideal S3x64x64 .f32) : FVec Ideal S3x64x64 .f32 :=
  transpose S3x64x64 [0, 2, 1] a transposes_S3x64x64_S3x64x64_0_2_1

/-- The six pieces of the weight table, left to right. -/
def wPieces (a7 a9 a11 : FVec Ideal S3x64x64 .f32) : List ((s : Shape) × (s.Idx → EReal)) :=
  [⟨S3x64x64, transposed a7⟩, ⟨S3x64x64, zeroW⟩, ⟨S3x64x64, transposed a9⟩, ⟨S3x64x64, zeroW⟩, ⟨S3x64x64, transposed a11⟩, ⟨S3x64x64, zeroW⟩]

/-- The padded weight table. -/
def wTable (a7 a9 a11 : FVec Ideal S3x64x64 .f32) : FVec Ideal S3x64x384 .f32 :=
  concatenate S3x64x384 2 (wPieces a7 a9 a11) concatenates_S3x64x64_S3x64x64_S3x64x64_S3x64x64_S3x64x64_S3x64x64_S3x64x384_d2

/-- The six pieces of the bias table, left to right. -/
def cPieces (a8 a10 a12 : FVec Ideal S3x64 .f32) : List ((s : Shape) × (s.Idx → EReal)) :=
  [⟨S3x64, a8⟩, ⟨S3x64, zeroC⟩, ⟨S3x64, a10⟩, ⟨S3x64, zeroC⟩, ⟨S3x64, a12⟩, ⟨S3x64, zeroC⟩]

/-- The padded bias table. -/
def cTable (a8 a10 a12 : FVec Ideal S3x64 .f32) : FVec Ideal S3x384 .f32 :=
  concatenate S3x384 1 (cPieces a8 a10 a12) concatenates_S3x64_S3x64_S3x64_S3x64_S3x64_S3x64_S3x384_d1

/-! ## The tables read at their slots -/

/-- Column `q` in slot 0 of row `l` of the weight table is entry `(l, e, k)` of weight argument 1: the transposed matrix. -/
theorem wTable_slot0 (a7 a9 a11 : FVec Ideal S3x64x64 .f32) (l : Fin 3) (k e : Fin 64) (q : Fin 384) (hq : q.val = e.val) :
    wTable a7 a9 a11 (ix3 l k q) = a7 (ix3 l e k) := by
  unfold wTable
  refine (concatenate_apply_piece (t := S3x64x384) (2 : Fin 3) (wPieces a7 a9 a11) concatenates_S3x64x64_S3x64x64_S3x64x64_S3x64x64_S3x64x64_S3x64x64_S3x64x384_d2 (ix3 l k q) 0 (by show (0 : Nat) < 6; omega) S3x64x64 (transposed a7) rfl rfl 0 rfl (ix3 l k e)
    (fun b hb => ?_) ?_).trans ?_
  · match b with
    | ⟨0, _⟩ => rfl
    | ⟨1, _⟩ => rfl
    | ⟨2, _⟩ => exact absurd rfl hb
  · show 0 + e.val = q.val; omega
  · exact transpose_ix3_021_apply a7 _ l k e

/-- Column `q` in slot 1 of row `l` of the weight table is entry `(l, e, k)` of weight argument 2: the transposed matrix. -/
theorem wTable_slot1 (a7 a9 a11 : FVec Ideal S3x64x64 .f32) (l : Fin 3) (k e : Fin 64) (q : Fin 384) (hq : q.val = 128 + e.val) :
    wTable a7 a9 a11 (ix3 l k q) = a9 (ix3 l e k) := by
  unfold wTable
  refine (concatenate_apply_piece (t := S3x64x384) (2 : Fin 3) (wPieces a7 a9 a11) concatenates_S3x64x64_S3x64x64_S3x64x64_S3x64x64_S3x64x64_S3x64x64_S3x64x384_d2 (ix3 l k q) 2 (by show (2 : Nat) < 6; omega) S3x64x64 (transposed a9) rfl rfl 128 rfl (ix3 l k e)
    (fun b hb => ?_) ?_).trans ?_
  · match b with
    | ⟨0, _⟩ => rfl
    | ⟨1, _⟩ => rfl
    | ⟨2, _⟩ => exact absurd rfl hb
  · show 128 + e.val = q.val; omega
  · exact transpose_ix3_021_apply a9 _ l k e

/-- Column `q` in slot 2 of row `l` of the weight table is entry `(l, e, k)` of weight argument 3: the transposed matrix. -/
theorem wTable_slot2 (a7 a9 a11 : FVec Ideal S3x64x64 .f32) (l : Fin 3) (k e : Fin 64) (q : Fin 384) (hq : q.val = 256 + e.val) :
    wTable a7 a9 a11 (ix3 l k q) = a11 (ix3 l e k) := by
  unfold wTable
  refine (concatenate_apply_piece (t := S3x64x384) (2 : Fin 3) (wPieces a7 a9 a11) concatenates_S3x64x64_S3x64x64_S3x64x64_S3x64x64_S3x64x64_S3x64x64_S3x64x384_d2 (ix3 l k q) 4 (by show (4 : Nat) < 6; omega) S3x64x64 (transposed a11) rfl rfl 256 rfl (ix3 l k e)
    (fun b hb => ?_) ?_).trans ?_
  · match b with
    | ⟨0, _⟩ => rfl
    | ⟨1, _⟩ => rfl
    | ⟨2, _⟩ => exact absurd rfl hb
  · show 256 + e.val = q.val; omega
  · exact transpose_ix3_021_apply a11 _ l k e

/-- Column `q` in slot 0 of row `l` of the bias table is entry `(l, e)` of bias argument 1. -/
theorem cTable_slot0 (a8 a10 a12 : FVec Ideal S3x64 .f32) (l : Fin 3) (e : Fin 64) (q : Fin 384) (hq : q.val = e.val) :
    cTable a8 a10 a12 (ix2 l q) = a8 (ix2 l e) := by
  unfold cTable
  refine concatenate_apply_piece (t := S3x384) (1 : Fin 2) (cPieces a8 a10 a12) concatenates_S3x64_S3x64_S3x64_S3x64_S3x64_S3x64_S3x384_d1 (ix2 l q) 0 (by show (0 : Nat) < 6; omega) S3x64 a8 rfl rfl 0 rfl (ix2 l e)
    (fun b hb => ?_) ?_
  · match b with
    | ⟨0, _⟩ => rfl
    | ⟨1, _⟩ => exact absurd rfl hb
  · show 0 + e.val = q.val; omega

/-- Column `q` in slot 1 of row `l` of the bias table is entry `(l, e)` of bias argument 2. -/
theorem cTable_slot1 (a8 a10 a12 : FVec Ideal S3x64 .f32) (l : Fin 3) (e : Fin 64) (q : Fin 384) (hq : q.val = 128 + e.val) :
    cTable a8 a10 a12 (ix2 l q) = a10 (ix2 l e) := by
  unfold cTable
  refine concatenate_apply_piece (t := S3x384) (1 : Fin 2) (cPieces a8 a10 a12) concatenates_S3x64_S3x64_S3x64_S3x64_S3x64_S3x64_S3x384_d1 (ix2 l q) 2 (by show (2 : Nat) < 6; omega) S3x64 a10 rfl rfl 128 rfl (ix2 l e)
    (fun b hb => ?_) ?_
  · match b with
    | ⟨0, _⟩ => rfl
    | ⟨1, _⟩ => exact absurd rfl hb
  · show 128 + e.val = q.val; omega

/-- Column `q` in slot 2 of row `l` of the bias table is entry `(l, e)` of bias argument 3. -/
theorem cTable_slot2 (a8 a10 a12 : FVec Ideal S3x64 .f32) (l : Fin 3) (e : Fin 64) (q : Fin 384) (hq : q.val = 256 + e.val) :
    cTable a8 a10 a12 (ix2 l q) = a12 (ix2 l e) := by
  unfold cTable
  refine concatenate_apply_piece (t := S3x384) (1 : Fin 2) (cPieces a8 a10 a12) concatenates_S3x64_S3x64_S3x64_S3x64_S3x64_S3x64_S3x384_d1 (ix2 l q) 4 (by show (4 : Nat) < 6; omega) S3x64 a12 rfl rfl 256 rfl (ix2 l e)
    (fun b hb => ?_) ?_
  · match b with
    | ⟨0, _⟩ => rfl
    | ⟨1, _⟩ => exact absurd rfl hb
  · show 256 + e.val = q.val; omega

variable (m : (ℓ : Loc nD τ sig) → Buf (Elt Ideal) ℓ)

/-- The region finds the embeddings the host operations computed. -/
theorem V_emb (c : Dev nD) : V m c main_v10 = embArr (m ((c : Thread nD τ).loc main_arg0)) (m ((c : Thread nD τ).loc main_arg3)) (m ((c : Thread nD τ).loc main_arg4)) := by
  dsimp only [V, Gen.hostOps0]; after_results; rfl

/-- The region finds the padded weight table. -/
theorem V_wTable (c : Dev nD) : V m c main_v15 = wTable (m ((c : Thread nD τ).loc main_arg7)) (m ((c : Thread nD τ).loc main_arg9)) (m ((c : Thread nD τ).loc main_arg11)) := by
  dsimp only [V, Gen.hostOps0]; after_results; rfl

/-- The region finds the padded bias table. -/
theorem V_cTable (c : Dev nD) : V m c main_v17 = cTable (m ((c : Thread nD τ).loc main_arg8)) (m ((c : Thread nD τ).loc main_arg10)) (m ((c : Thread nD τ).loc main_arg12)) := by
  dsimp only [V, Gen.hostOps0]; after_results; rfl

end Cert.KernelIdeal.HostArrays

end
-- ==== Proof.KernelResult.lean ====
/-
  The idealized kernel's run with its result array named by the arguments.

  The region finds the embeddings, the padded weight table and the padded bias table as the host operations computed
  them from the arguments, and every other array it stages as launched; the result array after the run is therefore
  the whole-array function of those: molecule by molecule, the normalised embeddings passed through three layers.
-/
import proofs.«161215_j83726092468549_2_alg».proof.Proof.KernelValue
import proofs.«161215_j83726092468549_2_alg».proof.Proof.KernelHost

set_option maxRecDepth 16384

noncomputable section

namespace Cert.KernelIdeal.Block

open Cert.KernelIdeal Cert.KernelIdeal.Run Cert.KernelIdeal.HostArrays
open Idealize.ShloMosaic Idealize.ShloMosaic.TcCoe Idealize.SL.Sem

variable (m : (ℓ : Loc nD τ sig) → Buf (Elt Ideal) ℓ) (ρ : Dev nD → PrngReg)

/-- The result array as a function of the launch contents of the arguments. -/
def resultOf (c : Dev nD) : S1024x256x64.Idx → EReal :=
  wholeResult (embArr (m ((c : Thread nD τ).loc main_arg0)) (m ((c : Thread nD τ).loc main_arg3)) (m ((c : Thread nD τ).loc main_arg4))) (m ((c : Thread nD τ).loc main_arg1)) (m ((c : Thread nD τ).loc main_arg5)) (m ((c : Thread nD τ).loc main_arg6))
    (wTable (m ((c : Thread nD τ).loc main_arg7)) (m ((c : Thread nD τ).loc main_arg9)) (m ((c : Thread nD τ).loc main_arg11))) (cTable (m ((c : Thread nD τ).loc main_arg8)) (m ((c : Thread nD τ).loc main_arg10)) (m ((c : Thread nD τ).loc main_arg12))) (m ((c : Thread nD τ).loc main_arg13)) (m ((c : Thread nD τ).loc main_arg14))

theorem final_args (c : Dev nD) : (dats m 0 c).arrAt 8 cfg0.N = resultOf m c := by
  rw [final, V_emb, V_wTable, V_cTable, V_main_arg1, V_main_arg5, V_main_arg6, V_main_arg13, V_main_arg14]
  rfl

/-- Every weakly fair execution of the idealized kernel terminates with the result array at `resultOf` and the
    arguments unchanged. -/
theorem run_value : θ_run defs (onTc (τ := τ) (main (F := Ideal))) ⟨m, fun _ => 0, ρ⟩ (fun r => ∀ c : Dev nD,
      r.2.mem ((c.tc : Thread nD τ).loc main_v18) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h c).1).trans (final_args m c), (h c).2⟩) (run_named m ρ)

end Cert.KernelIdeal.Block

end
-- ==== Proof.RefEmbed.lean ====
/-
  The reference's embedding stage read at an index: the row normalisation of the embedding rows (the gathered word
  embedding plus the position embedding, kept here as the array the host operations compute), with the embedding gain
  and bias. Each printed stage is read at coordinates; the result at (b, n, d) is the scalar row normalisation of row
  (b, n) of the embeddings at feature d.
-/
import proofs.«161215_j83726092468549_2_alg».proof.Proof.RefReadPatched
import proofs.«161215_j83726092468549_2_alg».proof.Proof.LayerSpec
import Idealize.ShloMosaic.Lib.ValueIdx
import Idealize.ShloMosaic.PureOps.Ideal.Laws

set_option maxRecDepth 16384

noncomputable section

namespace Cert.ReferenceIdeal.Stages

open Cert.ReferenceIdeal Cert.ReferenceIdeal.Read Idealize.ShloMosaic Idealize.ShloMosaic.ValueIdx Cert.GraphSpec

/-- Two indices with the same coordinates are equal: coordinate by coordinate, each by computation. -/
local macro "ixeq" : tactic => `(tactic| (funext a; apply Fin.ext; fin_cases a <;> rfl))

variable (x0 : (⟨S1024x256, .i32⟩ : BufTy).Contents (Elt Ideal)) (x1 : (⟨S1024x256x256, .f32⟩ : BufTy).Contents (Elt Ideal))
  (x3 : (⟨S10000x64, .f32⟩ : BufTy).Contents (Elt Ideal)) (x4 : (⟨S256x64, .f32⟩ : BufTy).Contents (Elt Ideal))
  (x5 x6 : (⟨S64, .f32⟩ : BufTy).Contents (Elt Ideal))
  (x7 : (⟨S3x64x64, .f32⟩ : BufTy).Contents (Elt Ideal)) (x8 : (⟨S3x64, .f32⟩ : BufTy).Contents (Elt Ideal))
  (x9 : (⟨S3x64x64, .f32⟩ : BufTy).Contents (Elt Ideal)) (x10 : (⟨S3x64, .f32⟩ : BufTy).Contents (Elt Ideal))
  (x11 : (⟨S3x64x64, .f32⟩ : BufTy).Contents (Elt Ideal)) (x12 : (⟨S3x64, .f32⟩ : BufTy).Contents (Elt Ideal))
  (x13 x14 : (⟨S64, .f32⟩ : BufTy).Contents (Elt Ideal))

/-- The row mean, kept as a unit last axis. -/
theorem emb_mean_at (b : Fin 1024) (n : Fin 256) :
    val_main_v13 (F := Ideal) x0 x3 x4 (ix3 b n (0 : Fin 1)) = rowMean (fun k => val_main_v9 (F := Ideal) x0 x3 x4 (ix3 b n k)) := by
  unfold rowMean
  refine (val_main_v13_apply x0 x3 x4 _).trans ?_
  refine congrArg₂ Ideal.div ?_ ?_
  · refine (val_main_v11_apply x0 x3 x4 _).trans ?_
    refine (congrArg (val_main_v10 (F := Ideal) x0 x3 x4) (show idx_main_v11 (ix3 b n (0 : Fin 1)) = ix2 b n from by ixeq)).trans ?_
    refine (val_main_v10_apply x0 x3 x4 (ix2 b n)).trans ?_
    refine (congrArg₂ (· + ·) (Ideal.ofBits_zero_f32) (Finset.sum_congr rfl fun k _ =>
      congrArg (val_main_v9 (F := Ideal) x0 x3 x4) (show idx_main_v10 (ix2 b n) k = ix3 b n k from by ixeq))).trans (zero_add _)
  · exact (val_main_v12_apply _).trans rfl

/-- A row entry less the row mean (both printed copies of the difference). -/
theorem emb_cen_at (b : Fin 1024) (n : Fin 256) (d : Fin 64) :
    val_main_v15 (F := Ideal) x0 x3 x4 (ix3 b n d) = val_main_v9 (F := Ideal) x0 x3 x4 (ix3 b n d) - rowMean (fun k => val_main_v9 (F := Ideal) x0 x3 x4 (ix3 b n k)) := by
  refine (val_main_v15_apply x0 x3 x4 _).trans ?_
  refine congrArg (val_main_v9 (F := Ideal) x0 x3 x4 (ix3 b n d) - ·) ?_
  refine (val_main_v14_apply x0 x3 x4 _).trans ?_
  exact (congrArg (val_main_v13 (F := Ideal) x0 x3 x4) (show idx_main_v14 (ix3 b n d) = ix3 b n (0 : Fin 1) from by ixeq)).trans (emb_mean_at x0 x3 x4 b n)

theorem emb_cen2_at (b : Fin 1024) (n : Fin 256) (d : Fin 64) :
    val_main_v22 (F := Ideal) x0 x3 x4 (ix3 b n d) = val_main_v9 (F := Ideal) x0 x3 x4 (ix3 b n d) - rowMean (fun k => val_main_v9 (F := Ideal) x0 x3 x4 (ix3 b n k)) := by
  refine (val_main_v22_apply x0 x3 x4 _).trans ?_
  refine congrArg (val_main_v9 (F := Ideal) x0 x3 x4 (ix3 b n d) - ·) ?_
  refine (val_main_v21_apply x0 x3 x4 _).trans ?_
  exact (congrArg (val_main_v13 (F := Ideal) x0 x3 x4) (show idx_main_v21 (ix3 b n d) = ix3 b n (0 : Fin 1) from by ixeq)).trans (emb_mean_at x0 x3 x4 b n)

/-- The row variance, kept as a unit last axis. -/
theorem emb_var_at (b : Fin 1024) (n : Fin 256) :
    val_main_v20 (F := Ideal) x0 x3 x4 (ix3 b n (0 : Fin 1)) = rowVar (fun k => val_main_v9 (F := Ideal) x0 x3 x4 (ix3 b n k)) := by
  unfold rowVar
  refine (val_main_v20_apply x0 x3 x4 _).trans ?_
  refine congrArg₂ Ideal.div ?_ ?_
  · refine (val_main_v18_apply x0 x3 x4 _).trans ?_
    refine (congrArg (val_main_v17 (F := Ideal) x0 x3 x4) (show idx_main_v18 (ix3 b n (0 : Fin 1)) = ix2 b n from by ixeq)).trans ?_
    refine (val_main_v17_apply x0 x3 x4 (ix2 b n)).trans ?_
    refine (congrArg₂ (· + ·) (Ideal.ofBits_zero_f32) (Finset.sum_congr rfl fun k _ => ?_)).trans (zero_add _)
    refine (congrArg (val_main_v16 (F := Ideal) x0 x3 x4) (show idx_main_v17 (ix2 b n) k = ix3 b n k from by ixeq)).trans ?_
    refine (val_main_v16_apply x0 x3 x4 _).trans ?_
    exact congrArg₂ (· * ·) (emb_cen_at x0 x3 x4 b n k) (emb_cen_at x0 x3 x4 b n k)
  · exact (val_main_v19_apply _).trans rfl

/-- The normalised row with gain and bias. -/
theorem emb_norm_at (b : Fin 1024) (n : Fin 256) (d : Fin 64) :
    val_main_v33 (F := Ideal) x0 x3 x4 x5 x6 (ix3 b n d) = rowNorm (fun k => val_main_v9 (F := Ideal) x0 x3 x4 (ix3 b n k)) (fun k => x5 (ix1 k)) (fun k => x6 (ix1 k)) d := by
  unfold rowNorm
  refine (val_main_v33_apply x0 x3 x4 x5 x6 _).trans ?_
  refine congrArg₂ (· + ·) ?_ ?_
  · refine (val_main_v30_apply x0 x3 x4 x5 _).trans ?_
    refine congrArg₂ (· * ·) ?_ ?_
    · refine (val_main_v27_apply x0 x3 x4 _).trans ?_
      refine congrArg₂ (· * ·) (emb_cen2_at x0 x3 x4 b n d) ?_
      refine (val_main_v26_apply x0 x3 x4 _).trans ?_
      refine (congrArg (val_main_v25 (F := Ideal) x0 x3 x4) (show idx_main_v26 (ix3 b n d) = ix3 b n (0 : Fin 1) from by ixeq)).trans ?_
      refine (val_main_v25_apply x0 x3 x4 _).trans ?_
      refine congrArg Ideal.rsqrt ?_
      refine (val_main_v24_apply x0 x3 x4 _).trans ?_
      refine congrArg₂ (· + ·) (emb_var_at x0 x3 x4 b n) ?_
      exact (val_main_v23_apply _).trans rfl
    · refine (val_main_v29_apply x5 _).trans ?_
      refine (congrArg (val_main_v28 (F := Ideal) x5) (show idx_main_v29 (ix3 b n d) = ix3 (0 : Fin 1) (0 : Fin 1) d from by ixeq)).trans ?_
      refine (val_main_v28_apply x5 _).trans ?_
      exact congrArg x5 (show idx_main_v28 (ix3 (0 : Fin 1) (0 : Fin 1) d) = ix1 d from by ixeq)
  · refine (val_main_v32_apply x6 _).trans ?_
    refine (congrArg (val_main_v31 (F := Ideal) x6) (show idx_main_v32 (ix3 b n d) = ix3 (0 : Fin 1) (0 : Fin 1) d from by ixeq)).trans ?_
    refine (val_main_v31_apply x6 _).trans ?_
    exact congrArg x6 (show idx_main_v31 (ix3 (0 : Fin 1) (0 : Fin 1) d) = ix1 d from by ixeq)

/-- The stream before the first layer at `(b, n, d)`. -/
theorem stream0_at (b : Fin 1024) (n : Fin 256) (d : Fin 64) :
    val_main_v33 (F := Ideal) x0 x3 x4 x5 x6 (ix3 b n d) = embed (fun n k => val_main_v9 (F := Ideal) x0 x3 x4 (ix3 b n k)) (fun k => x5 (ix1 k)) (fun k => x6 (ix1 k)) n d :=
  emb_norm_at x0 x3 x4 x5 x6 b n d

end Cert.ReferenceIdeal.Stages

end
-- ==== Proof.RefLayer0.lean ====
/-
  The reference's layer 0 read at an index: each printed stage of the layer at coordinates, ending in the scalar layer
  of molecule b applied to the stream before it. The layer's three weight matrices and biases are row 0 of the stacked
  arguments; the stream before it is the printed stage the layer reads.
-/
import proofs.«161215_j83726092468549_2_alg».proof.Proof.RefReadPatched
import proofs.«161215_j83726092468549_2_alg».proof.Proof.LayerSpec
import Idealize.ShloMosaic.Lib.ValueIdx
import Idealize.ShloMosaic.PureOps.Ideal.Laws

set_option maxRecDepth 16384

noncomputable section

namespace Cert.ReferenceIdeal.Layer0

open Cert.ReferenceIdeal Cert.ReferenceIdeal.Read Idealize.ShloMosaic Idealize.ShloMosaic.ValueIdx Cert.GraphSpec

/-- Two indices with the same coordinates are equal: coordinate by coordinate, each by computation. -/
local macro "ixeq" : tactic => `(tactic| (funext a; apply Fin.ext; fin_cases a <;> rfl))

variable (x0 : (⟨S1024x256, .i32⟩ : BufTy).Contents (Elt Ideal)) (x1 : (⟨S1024x256x256, .f32⟩ : BufTy).Contents (Elt Ideal))
  (x3 : (⟨S10000x64, .f32⟩ : BufTy).Contents (Elt Ideal)) (x4 : (⟨S256x64, .f32⟩ : BufTy).Contents (Elt Ideal))
  (x5 x6 : (⟨S64, .f32⟩ : BufTy).Contents (Elt Ideal))
  (x7 : (⟨S3x64x64, .f32⟩ : BufTy).Contents (Elt Ideal)) (x8 : (⟨S3x64, .f32⟩ : BufTy).Contents (Elt Ideal))
  (x9 : (⟨S3x64x64, .f32⟩ : BufTy).Contents (Elt Ideal)) (x10 : (⟨S3x64, .f32⟩ : BufTy).Contents (Elt Ideal))
  (x11 : (⟨S3x64x64, .f32⟩ : BufTy).Contents (Elt Ideal)) (x12 : (⟨S3x64, .f32⟩ : BufTy).Contents (Elt Ideal))
  (x13 x14 : (⟨S64, .f32⟩ : BufTy).Contents (Elt Ideal))

/-- Entry `(e, k)` of the layer's 1 weight matrix: the slice of the stacked weights at this layer, its unit axis dropped. -/
theorem W1_at (e k : Fin 64) : val_main_v35 (F := Ideal) x7 (ix2 e k) = x7 (ix3 (0 : Fin 3) e k) := by
  refine (val_main_v35_apply x7 _).trans ((val_main_v34_apply x7 _).trans (congrArg x7 ?_))
  funext a; apply Fin.ext
  have he := e.isLt; have hk := k.isLt
  fin_cases a
  · rfl
  · show (e.val * 64 + k.val) / 64 % 64 = e.val; omega
  · show (e.val * 64 + k.val) % 64 = k.val; omega
/-- Entry `(b, n, e)` of the layer's 1 bias laid along every row: the bias's entry `e`. -/
theorem c1_at (b : Fin 1024) (n : Fin 256) (e : Fin 64) : val_main_v40 (F := Ideal) x8 (ix3 b n e) = x8 (ix2 (0 : Fin 3) e) := by
  refine (val_main_v40_apply x8 _).trans ((val_main_v39_apply x8 _).trans ((val_main_v38_apply x8 _).trans ((val_main_v37_apply x8 _).trans (congrArg x8 ?_))))
  funext a; apply Fin.ext
  have he := e.isLt
  fin_cases a
  · rfl
  · show e.val % 64 = e.val; omega
/-- Entry `(e, k)` of the layer's 2 weight matrix: the slice of the stacked weights at this layer, its unit axis dropped. -/
theorem W2_at (e k : Fin 64) : val_main_v44 (F := Ideal) x9 (ix2 e k) = x9 (ix3 (0 : Fin 3) e k) := by
  refine (val_main_v44_apply x9 _).trans ((val_main_v43_apply x9 _).trans (congrArg x9 ?_))
  funext a; apply Fin.ext
  have he := e.isLt; have hk := k.isLt
  fin_cases a
  · rfl
  · show (e.val * 64 + k.val) / 64 % 64 = e.val; omega
  · show (e.val * 64 + k.val) % 64 = k.val; omega
/-- Entry `(b, n, e)` of the layer's 2 bias laid along every row: the bias's entry `e`. -/
theorem c2_at (b : Fin 1024) (n : Fin 256) (e : Fin 64) : val_main_v49 (F := Ideal) x10 (ix3 b n e) = x10 (ix2 (0 : Fin 3) e) := by
  refine (val_main_v49_apply x10 _).trans ((val_main_v48_apply x10 _).trans ((val_main_v47_apply x10 _).trans ((val_main_v46_apply x10 _).trans (congrArg x10 ?_))))
  funext a; apply Fin.ext
  have he := e.isLt
  fin_cases a
  · rfl
  · show e.val % 64 = e.val; omega
/-- Entry `(e, k)` of the layer's 3 weight matrix: the slice of the stacked weights at this layer, its unit axis dropped. -/
theorem W3_at (e k : Fin 64) : val_main_v55 (F := Ideal) x11 (ix2 e k) = x11 (ix3 (0 : Fin 3) e k) := by
  refine (val_main_v55_apply x11 _).trans ((val_main_v54_apply x11 _).trans (congrArg x11 ?_))
  funext a; apply Fin.ext
  have he := e.isLt; have hk := k.isLt
  fin_cases a
  · rfl
  · show (e.val * 64 + k.val) / 64 % 64 = e.val; omega
  · show (e.val * 64 + k.val) % 64 = k.val; omega
/-- Entry `(b, n, e)` of the layer's 3 bias laid along every row: the bias's entry `e`. -/
theorem c3_at (b : Fin 1024) (n : Fin 256) (e : Fin 64) : val_main_v60 (F := Ideal) x12 (ix3 b n e) = x12 (ix2 (0 : Fin 3) e) := by
  refine (val_main_v60_apply x12 _).trans ((val_main_v59_apply x12 _).trans ((val_main_v58_apply x12 _).trans ((val_main_v57_apply x12 _).trans (congrArg x12 ?_))))
  funext a; apply Fin.ext
  have he := e.isLt
  fin_cases a
  · rfl
  · show e.val % 64 = e.val; omega
/-- The 1 hidden projection at `(b, n, e)`. -/
theorem h1_at (b : Fin 1024) (n : Fin 256) (e : Fin 64) :
    val_main_v42 (F := Ideal) x0 x3 x4 x5 x6 x7 x8 (ix3 b n e) = Cert.GraphSpec.hidden (fun n k => val_main_v33 (F := Ideal) x0 x3 x4 x5 x6 (ix3 b n k)) (fun e k => x7 (ix3 (0 : Fin 3) e k)) (fun e => x8 (ix2 (0 : Fin 3) e)) n e := by
  unfold Cert.GraphSpec.hidden
  refine (val_main_v42_apply x0 x3 x4 x5 x6 x7 x8 _).trans ?_
  refine congrArg₂ max ?_ ((val_main_call0_v0_apply _).trans Ideal.ofBits_zero_f32)
  refine (val_main_v41_apply x0 x3 x4 x5 x6 x7 x8 _).trans ?_
  refine congrArg₂ (· + ·) ?_ (c1_at x8 b n e)
  refine (val_main_v36_apply x0 x3 x4 x5 x6 x7 (ix3 b n e)).trans ?_
  refine Finset.sum_congr rfl fun k _ => ?_
  exact congrArg₂ (· * ·) (congrArg (val_main_v33 (F := Ideal) x0 x3 x4 x5 x6) (show lidx_main_v36 (ix3 b n e) k = ix3 b n k from by ixeq))
    ((congrArg (val_main_v35 (F := Ideal) x7) (show ridx_main_v36 (ix3 b n e) k = ix2 e k from by ixeq)).trans (W1_at x7 e k))
/-- The 2 hidden projection at `(b, n, e)`. -/
theorem h2_at (b : Fin 1024) (n : Fin 256) (e : Fin 64) :
    val_main_v51 (F := Ideal) x0 x3 x4 x5 x6 x9 x10 (ix3 b n e) = Cert.GraphSpec.hidden (fun n k => val_main_v33 (F := Ideal) x0 x3 x4 x5 x6 (ix3 b n k)) (fun e k => x9 (ix3 (0 : Fin 3) e k)) (fun e => x10 (ix2 (0 : Fin 3) e)) n e := by
  unfold Cert.GraphSpec.hidden
  refine (val_main_v51_apply x0 x3 x4 x5 x6 x9 x10 _).trans ?_
  refine congrArg₂ max ?_ ((val_main_call1_v0_apply _).trans Ideal.ofBits_zero_f32)
  refine (val_main_v50_apply x0 x3 x4 x5 x6 x9 x10 _).trans ?_
  refine congrArg₂ (· + ·) ?_ (c2_at x10 b n e)
  refine (val_main_v45_apply x0 x3 x4 x5 x6 x9 (ix3 b n e)).trans ?_
  refine Finset.sum_congr rfl fun k _ => ?_
  exact congrArg₂ (· * ·) (congrArg (val_main_v33 (F := Ideal) x0 x3 x4 x5 x6) (show lidx_main_v45 (ix3 b n e) k = ix3 b n k from by ixeq))
    ((congrArg (val_main_v44 (F := Ideal) x9) (show ridx_main_v45 (ix3 b n e) k = ix2 e k from by ixeq)).trans (W2_at x9 e k))
/-- The 3 hidden projection at `(b, n, e)`. -/
theorem h3_at (b : Fin 1024) (n : Fin 256) (e : Fin 64) :
    val_main_v62 (F := Ideal) x0 x3 x4 x5 x6 x11 x12 (ix3 b n e) = Cert.GraphSpec.hidden (fun n k => val_main_v33 (F := Ideal) x0 x3 x4 x5 x6 (ix3 b n k)) (fun e k => x11 (ix3 (0 : Fin 3) e k)) (fun e => x12 (ix2 (0 : Fin 3) e)) n e := by
  unfold Cert.GraphSpec.hidden
  refine (val_main_v62_apply x0 x3 x4 x5 x6 x11 x12 _).trans ?_
  refine congrArg₂ max ?_ ((val_main_call2_v0_apply _).trans Ideal.ofBits_zero_f32)
  refine (val_main_v61_apply x0 x3 x4 x5 x6 x11 x12 _).trans ?_
  refine congrArg₂ (· + ·) ?_ (c3_at x12 b n e)
  refine (val_main_v56_apply x0 x3 x4 x5 x6 x11 (ix3 b n e)).trans ?_
  refine Finset.sum_congr rfl fun k _ => ?_
  exact congrArg₂ (· * ·) (congrArg (val_main_v33 (F := Ideal) x0 x3 x4 x5 x6) (show lidx_main_v56 (ix3 b n e) k = ix3 b n k from by ixeq))
    ((congrArg (val_main_v55 (F := Ideal) x11) (show ridx_main_v56 (ix3 b n e) k = ix2 e k from by ixeq)).trans (W3_at x11 e k))

/-- The masked affinity of atoms `n` and `m` of molecule `b`. -/
theorem aff_at (b : Fin 1024) (n m : Fin 256) :
    val_main_v53 (F := Ideal) x0 x1 x3 x4 x5 x6 x7 x8 x9 x10 (ix3 b n m) = (∑ k, Cert.GraphSpec.hidden (fun n k => val_main_v33 (F := Ideal) x0 x3 x4 x5 x6 (ix3 b n k)) (fun e k => x7 (ix3 (0 : Fin 3) e k)) (fun e => x8 (ix2 (0 : Fin 3) e)) n k * Cert.GraphSpec.hidden (fun n k => val_main_v33 (F := Ideal) x0 x3 x4 x5 x6 (ix3 b n k)) (fun e k => x9 (ix3 (0 : Fin 3) e k)) (fun e => x10 (ix2 (0 : Fin 3) e)) m k) * x1 (ix3 b n m) := by
  refine (val_main_v53_apply x0 x1 x3 x4 x5 x6 x7 x8 x9 x10 _).trans ?_
  refine congrArg₂ (· * ·) ?_ rfl
  refine (val_main_v52_apply x0 x3 x4 x5 x6 x7 x8 x9 x10 (ix3 b n m)).trans ?_
  refine Finset.sum_congr rfl fun k _ => ?_
  exact congrArg₂ (· * ·)
    ((congrArg (val_main_v42 (F := Ideal) x0 x3 x4 x5 x6 x7 x8) (show lidx_main_v52 (ix3 b n m) k = ix3 b n k from by ixeq)).trans (h1_at x0 x3 x4 x5 x6 x7 x8 b n k))
    ((congrArg (val_main_v51 (F := Ideal) x0 x3 x4 x5 x6 x9 x10) (show ridx_main_v52 (ix3 b n m) k = ix3 b m k from by ixeq)).trans (h2_at x0 x3 x4 x5 x6 x9 x10 b m k))

/-- The mixture at `(b, n, d)`. -/
theorem mix_at (b : Fin 1024) (n : Fin 256) (d : Fin 64) :
    val_main_v63 (F := Ideal) x0 x1 x3 x4 x5 x6 x7 x8 x9 x10 x11 x12 (ix3 b n d) = mixed (fun n k => val_main_v33 (F := Ideal) x0 x3 x4 x5 x6 (ix3 b n k)) (fun n m => x1 (ix3 b n m)) (fun e k => x7 (ix3 (0 : Fin 3) e k)) (fun e => x8 (ix2 (0 : Fin 3) e)) (fun e k => x9 (ix3 (0 : Fin 3) e k)) (fun e => x10 (ix2 (0 : Fin 3) e)) (fun e k => x11 (ix3 (0 : Fin 3) e k)) (fun e => x12 (ix2 (0 : Fin 3) e)) n d := by
  unfold mixed
  refine (val_main_v63_apply x0 x1 x3 x4 x5 x6 x7 x8 x9 x10 x11 x12 (ix3 b n d)).trans ?_
  refine Finset.sum_congr rfl fun m _ => ?_
  exact congrArg₂ (· * ·)
    ((congrArg (val_main_v53 (F := Ideal) x0 x1 x3 x4 x5 x6 x7 x8 x9 x10) (show lidx_main_v63 (ix3 b n d) m = ix3 b n m from by ixeq)).trans (aff_at x0 x1 x3 x4 x5 x6 x7 x8 x9 x10 b n m))
    ((congrArg (val_main_v62 (F := Ideal) x0 x3 x4 x5 x6 x11 x12) (show ridx_main_v63 (ix3 b n d) m = ix3 b m d from by ixeq)).trans (h3_at x0 x3 x4 x5 x6 x11 x12 b m d))

/-- The row mean, kept as a unit last axis. -/
theorem ln_mean_at (b : Fin 1024) (n : Fin 256) :
    val_main_v67 (F := Ideal) x0 x1 x3 x4 x5 x6 x7 x8 x9 x10 x11 x12 (ix3 b n (0 : Fin 1)) = rowMean (fun k => val_main_v63 (F := Ideal) x0 x1 x3 x4 x5 x6 x7 x8 x9 x10 x11 x12 (ix3 b n k)) := by
  unfold rowMean
  refine (val_main_v67_apply x0 x1 x3 x4 x5 x6 x7 x8 x9 x10 x11 x12 _).trans ?_
  refine congrArg₂ Ideal.div ?_ ?_
  · refine (val_main_v65_apply x0 x1 x3 x4 x5 x6 x7 x8 x9 x10 x11 x12 _).trans ?_
    refine (congrArg (val_main_v64 (F := Ideal) x0 x1 x3 x4 x5 x6 x7 x8 x9 x10 x11 x12) (show idx_main_v65 (ix3 b n (0 : Fin 1)) = ix2 b n from by ixeq)).trans ?_
    refine (val_main_v64_apply x0 x1 x3 x4 x5 x6 x7 x8 x9 x10 x11 x12 (ix2 b n)).trans ?_
    refine (congrArg₂ (· + ·) (Ideal.ofBits_zero_f32) (Finset.sum_congr rfl fun k _ =>
      congrArg (val_main_v63 (F := Ideal) x0 x1 x3 x4 x5 x6 x7 x8 x9 x10 x11 x12) (show idx_main_v64 (ix2 b n) k = ix3 b n k from by ixeq))).trans (zero_add _)
  · exact (val_main_v66_apply _).trans rfl

/-- A row entry less the row mean (both printed copies of the difference). -/
theorem ln_cen_at (b : Fin 1024) (n : Fin 256) (d : Fin 64) :
    val_main_v69 (F := Ideal) x0 x1 x3 x4 x5 x6 x7 x8 x9 x10 x11 x12 (ix3 b n d) = val_main_v63 (F := Ideal) x0 x1 x3 x4 x5 x6 x7 x8 x9 x10 x11 x12 (ix3 b n d) - rowMean (fun k => val_main_v63 (F := Ideal) x0 x1 x3 x4 x5 x6 x7 x8 x9 x10 x11 x12 (ix3 b n k)) := by
  refine (val_main_v69_apply x0 x1 x3 x4 x5 x6 x7 x8 x9 x10 x11 x12 _).trans ?_
  refine congrArg (val_main_v63 (F := Ideal) x0 x1 x3 x4 x5 x6 x7 x8 x9 x10 x11 x12 (ix3 b n d) - ·) ?_
  refine (val_main_v68_apply x0 x1 x3 x4 x5 x6 x7 x8 x9 x10 x11 x12 _).trans ?_
  exact (congrArg (val_main_v67 (F := Ideal) x0 x1 x3 x4 x5 x6 x7 x8 x9 x10 x11 x12) (show idx_main_v68 (ix3 b n d) = ix3 b n (0 : Fin 1) from by ixeq)).trans (ln_mean_at x0 x1 x3 x4 x5 x6 x7 x8 x9 x10 x11 x12 b n)

theorem ln_cen2_at (b : Fin 1024) (n : Fin 256) (d : Fin 64) :
    val_main_v76 (F := Ideal) x0 x1 x3 x4 x5 x6 x7 x8 x9 x10 x11 x12 (ix3 b n d) = val_main_v63 (F := Ideal) x0 x1 x3 x4 x5 x6 x7 x8 x9 x10 x11 x12 (ix3 b n d) - rowMean (fun k => val_main_v63 (F := Ideal) x0 x1 x3 x4 x5 x6 x7 x8 x9 x10 x11 x12 (ix3 b n k)) := by
  refine (val_main_v76_apply x0 x1 x3 x4 x5 x6 x7 x8 x9 x10 x11 x12 _).trans ?_
  refine congrArg (val_main_v63 (F := Ideal) x0 x1 x3 x4 x5 x6 x7 x8 x9 x10 x11 x12 (ix3 b n d) - ·) ?_
  refine (val_main_v75_apply x0 x1 x3 x4 x5 x6 x7 x8 x9 x10 x11 x12 _).trans ?_
  exact (congrArg (val_main_v67 (F := Ideal) x0 x1 x3 x4 x5 x6 x7 x8 x9 x10 x11 x12) (show idx_main_v75 (ix3 b n d) = ix3 b n (0 : Fin 1) from by ixeq)).trans (ln_mean_at x0 x1 x3 x4 x5 x6 x7 x8 x9 x10 x11 x12 b n)

/-- The row variance, kept as a unit last axis. -/
theorem ln_var_at (b : Fin 1024) (n : Fin 256) :
    val_main_v74 (F := Ideal) x0 x1 x3 x4 x5 x6 x7 x8 x9 x10 x11 x12 (ix3 b n (0 : Fin 1)) = rowVar (fun k => val_main_v63 (F := Ideal) x0 x1 x3 x4 x5 x6 x7 x8 x9 x10 x11 x12 (ix3 b n k)) := by
  unfold rowVar
  refine (val_main_v74_apply x0 x1 x3 x4 x5 x6 x7 x8 x9 x10 x11 x12 _).trans ?_
  refine congrArg₂ Ideal.div ?_ ?_
  · refine (val_main_v72_apply x0 x1 x3 x4 x5 x6 x7 x8 x9 x10 x11 x12 _).trans ?_
    refine (congrArg (val_main_v71 (F := Ideal) x0 x1 x3 x4 x5 x6 x7 x8 x9 x10 x11 x12) (show idx_main_v72 (ix3 b n (0 : Fin 1)) = ix2 b n from by ixeq)).trans ?_
    refine (val_main_v71_apply x0 x1 x3 x4 x5 x6 x7 x8 x9 x10 x11 x12 (ix2 b n)).trans ?_
    refine (congrArg₂ (· + ·) (Ideal.ofBits_zero_f32) (Finset.sum_congr rfl fun k _ => ?_)).trans (zero_add _)
    refine (congrArg (val_main_v70 (F := Ideal) x0 x1 x3 x4 x5 x6 x7 x8 x9 x10 x11 x12) (show idx_main_v71 (ix2 b n) k = ix3 b n k from by ixeq)).trans ?_
    refine (val_main_v70_apply x0 x1 x3 x4 x5 x6 x7 x8 x9 x10 x11 x12 _).trans ?_
    exact congrArg₂ (· * ·) (ln_cen_at x0 x1 x3 x4 x5 x6 x7 x8 x9 x10 x11 x12 b n k) (ln_cen_at x0 x1 x3 x4 x5 x6 x7 x8 x9 x10 x11 x12 b n k)
  · exact (val_main_v73_apply _).trans rfl

/-- The normalised row with gain and bias. -/
theorem ln_norm_at (b : Fin 1024) (n : Fin 256) (d : Fin 64) :
    val_main_v87 (F := Ideal) x0 x1 x3 x4 x5 x6 x7 x8 x9 x10 x11 x12 x13 x14 (ix3 b n d) = rowNorm (fun k => val_main_v63 (F := Ideal) x0 x1 x3 x4 x5 x6 x7 x8 x9 x10 x11 x12 (ix3 b n k)) (fun k => x13 (ix1 k)) (fun k => x14 (ix1 k)) d := by
  unfold rowNorm
  refine (val_main_v87_apply x0 x1 x3 x4 x5 x6 x7 x8 x9 x10 x11 x12 x13 x14 _).trans ?_
  refine congrArg₂ (· + ·) ?_ ?_
  · refine (val_main_v84_apply x0 x1 x3 x4 x5 x6 x7 x8 x9 x10 x11 x12 x13 _).trans ?_
    refine congrArg₂ (· * ·) ?_ ?_
    · refine (val_main_v81_apply x0 x1 x3 x4 x5 x6 x7 x8 x9 x10 x11 x12 _).trans ?_
      refine congrArg₂ (· * ·) (ln_cen2_at x0 x1 x3 x4 x5 x6 x7 x8 x9 x10 x11 x12 b n d) ?_
      refine (val_main_v80_apply x0 x1 x3 x4 x5 x6 x7 x8 x9 x10 x11 x12 _).trans ?_
      refine (congrArg (val_main_v79 (F := Ideal) x0 x1 x3 x4 x5 x6 x7 x8 x9 x10 x11 x12) (show idx_main_v80 (ix3 b n d) = ix3 b n (0 : Fin 1) from by ixeq)).trans ?_
      refine (val_main_v79_apply x0 x1 x3 x4 x5 x6 x7 x8 x9 x10 x11 x12 _).trans ?_
      refine congrArg Ideal.rsqrt ?_
      refine (val_main_v78_apply x0 x1 x3 x4 x5 x6 x7 x8 x9 x10 x11 x12 _).trans ?_
      refine congrArg₂ (· + ·) (ln_var_at x0 x1 x3 x4 x5 x6 x7 x8 x9 x10 x11 x12 b n) ?_
      exact (val_main_v77_apply _).trans rfl
    · refine (val_main_v83_apply x13 _).trans ?_
      refine (congrArg (val_main_v82 (F := Ideal) x13) (show idx_main_v83 (ix3 b n d) = ix3 (0 : Fin 1) (0 : Fin 1) d from by ixeq)).trans ?_
      refine (val_main_v82_apply x13 _).trans ?_
      exact congrArg x13 (show idx_main_v82 (ix3 (0 : Fin 1) (0 : Fin 1) d) = ix1 d from by ixeq)
  · refine (val_main_v86_apply x14 _).trans ?_
    refine (congrArg (val_main_v85 (F := Ideal) x14) (show idx_main_v86 (ix3 b n d) = ix3 (0 : Fin 1) (0 : Fin 1) d from by ixeq)).trans ?_
    refine (val_main_v85_apply x14 _).trans ?_
    exact congrArg x14 (show idx_main_v85 (ix3 (0 : Fin 1) (0 : Fin 1) d) = ix1 d from by ixeq)

/-- The stream after the layer at `(b, n, d)`: the scalar layer of molecule `b` on the stream before it. -/
theorem stream_at (b : Fin 1024) (n : Fin 256) (d : Fin 64) :
    val_main_v88 (F := Ideal) x0 x1 x3 x4 x5 x6 x7 x8 x9 x10 x11 x12 x13 x14 (ix3 b n d) = layer (fun n k => val_main_v33 (F := Ideal) x0 x3 x4 x5 x6 (ix3 b n k)) (fun n m => x1 (ix3 b n m)) (fun e k => x7 (ix3 (0 : Fin 3) e k)) (fun e => x8 (ix2 (0 : Fin 3) e)) (fun e k => x9 (ix3 (0 : Fin 3) e k)) (fun e => x10 (ix2 (0 : Fin 3) e)) (fun e k => x11 (ix3 (0 : Fin 3) e k)) (fun e => x12 (ix2 (0 : Fin 3) e))
      (fun k => x13 (ix1 k)) (fun k => x14 (ix1 k)) n d := by
  unfold layer
  refine (val_main_v88_apply x0 x1 x3 x4 x5 x6 x7 x8 x9 x10 x11 x12 x13 x14 _).trans ?_
  refine congrArg (val_main_v33 (F := Ideal) x0 x3 x4 x5 x6 (ix3 b n d) + ·) ?_
  refine (ln_norm_at x0 x1 x3 x4 x5 x6 x7 x8 x9 x10 x11 x12 x13 x14 b n d).trans ?_
  exact congrArg (fun r : Fin 64 → EReal => rowNorm r (fun k => x13 (ix1 k)) (fun k => x14 (ix1 k)) d)
    (funext fun k => mix_at x0 x1 x3 x4 x5 x6 x7 x8 x9 x10 x11 x12 b n k)

end Cert.ReferenceIdeal.Layer0

end
-- ==== Proof.RefLayer1.lean ====
/-
  The reference's layer 1 read at an index: each printed stage of the layer at coordinates, ending in the scalar layer
  of molecule b applied to the stream before it. The layer's three weight matrices and biases are row 1 of the stacked
  arguments; the stream before it is the printed stage the layer reads.
-/
import proofs.«161215_j83726092468549_2_alg».proof.Proof.RefReadPatched
import proofs.«161215_j83726092468549_2_alg».proof.Proof.LayerSpec
import Idealize.ShloMosaic.Lib.ValueIdx
import Idealize.ShloMosaic.PureOps.Ideal.Laws

set_option maxRecDepth 16384

noncomputable section

namespace Cert.ReferenceIdeal.Layer1

open Cert.ReferenceIdeal Cert.ReferenceIdeal.Read Idealize.ShloMosaic Idealize.ShloMosaic.ValueIdx Cert.GraphSpec

/-- Two indices with the same coordinates are equal: coordinate by coordinate, each by computation. -/
local macro "ixeq" : tactic => `(tactic| (funext a; apply Fin.ext; fin_cases a <;> rfl))

variable (x0 : (⟨S1024x256, .i32⟩ : BufTy).Contents (Elt Ideal)) (x1 : (⟨S1024x256x256, .f32⟩ : BufTy).Contents (Elt Ideal))
  (x3 : (⟨S10000x64, .f32⟩ : BufTy).Contents (Elt Ideal)) (x4 : (⟨S256x64, .f32⟩ : BufTy).Contents (Elt Ideal))
  (x5 x6 : (⟨S64, .f32⟩ : BufTy).Contents (Elt Ideal))
  (x7 : (⟨S3x64x64, .f32⟩ : BufTy).Contents (Elt Ideal)) (x8 : (⟨S3x64, .f32⟩ : BufTy).Contents (Elt Ideal))
  (x9 : (⟨S3x64x64, .f32⟩ : BufTy).Contents (Elt Ideal)) (x10 : (⟨S3x64, .f32⟩ : BufTy).Contents (Elt Ideal))
  (x11 : (⟨S3x64x64, .f32⟩ : BufTy).Contents (Elt Ideal)) (x12 : (⟨S3x64, .f32⟩ : BufTy).Contents (Elt Ideal))
  (x13 x14 : (⟨S64, .f32⟩ : BufTy).Contents (Elt Ideal))

/-- Entry `(e, k)` of the layer's 1 weight matrix: the slice of the stacked weights at this layer, its unit axis dropped. -/
theorem W1_at (e k : Fin 64) : val_main_v90 (F := Ideal) x7 (ix2 e k) = x7 (ix3 (1 : Fin 3) e k) := by
  refine (val_main_v90_apply x7 _).trans ((val_main_v89_apply x7 _).trans (congrArg x7 ?_))
  funext a; apply Fin.ext
  have he := e.isLt; have hk := k.isLt
  fin_cases a
  · rfl
  · show (e.val * 64 + k.val) / 64 % 64 = e.val; omega
  · show (e.val * 64 + k.val) % 64 = k.val; omega
/-- Entry `(b, n, e)` of the layer's 1 bias laid along every row: the bias's entry `e`. -/
theorem c1_at (b : Fin 1024) (n : Fin 256) (e : Fin 64) : val_main_v95 (F := Ideal) x8 (ix3 b n e) = x8 (ix2 (1 : Fin 3) e) := by
  refine (val_main_v95_apply x8 _).trans ((val_main_v94_apply x8 _).trans ((val_main_v93_apply x8 _).trans ((val_main_v92_apply x8 _).trans (congrArg x8 ?_))))
  funext a; apply Fin.ext
  have he := e.isLt
  fin_cases a
  · rfl
  · show e.val % 64 = e.val; omega
/-- Entry `(e, k)` of the layer's 2 weight matrix: the slice of the stacked weights at this layer, its unit axis dropped. -/
theorem W2_at (e k : Fin 64) : val_main_v99 (F := Ideal) x9 (ix2 e k) = x9 (ix3 (1 : Fin 3) e k) := by
  refine (val_main_v99_apply x9 _).trans ((val_main_v98_apply x9 _).trans (congrArg x9 ?_))
  funext a; apply Fin.ext
  have he := e.isLt; have hk := k.isLt
  fin_cases a
  · rfl
  · show (e.val * 64 + k.val) / 64 % 64 = e.val; omega
  · show (e.val * 64 + k.val) % 64 = k.val; omega
/-- Entry `(b, n, e)` of the layer's 2 bias laid along every row: the bias's entry `e`. -/
theorem c2_at (b : Fin 1024) (n : Fin 256) (e : Fin 64) : val_main_v104 (F := Ideal) x10 (ix3 b n e) = x10 (ix2 (1 : Fin 3) e) := by
  refine (val_main_v104_apply x10 _).trans ((val_main_v103_apply x10 _).trans ((val_main_v102_apply x10 _).trans ((val_main_v101_apply x10 _).trans (congrArg x10 ?_))))
  funext a; apply Fin.ext
  have he := e.isLt
  fin_cases a
  · rfl
  · show e.val % 64 = e.val; omega
/-- Entry `(e, k)` of the layer's 3 weight matrix: the slice of the stacked weights at this layer, its unit axis dropped. -/
theorem W3_at (e k : Fin 64) : val_main_v110 (F := Ideal) x11 (ix2 e k) = x11 (ix3 (1 : Fin 3) e k) := by
  refine (val_main_v110_apply x11 _).trans ((val_main_v109_apply x11 _).trans (congrArg x11 ?_))
  funext a; apply Fin.ext
  have he := e.isLt; have hk := k.isLt
  fin_cases a
  · rfl
  · show (e.val * 64 + k.val) / 64 % 64 = e.val; omega
  · show (e.val * 64 + k.val) % 64 = k.val; omega
/-- Entry `(b, n, e)` of the layer's 3 bias laid along every row: the bias's entry `e`. -/
theorem c3_at (b : Fin 1024) (n : Fin 256) (e : Fin 64) : val_main_v115 (F := Ideal) x12 (ix3 b n e) = x12 (ix2 (1 : Fin 3) e) := by
  refine (val_main_v115_apply x12 _).trans ((val_main_v114_apply x12 _).trans ((val_main_v113_apply x12 _).trans ((val_main_v112_apply x12 _).trans (congrArg x12 ?_))))
  funext a; apply Fin.ext
  have he := e.isLt
  fin_cases a
  · rfl
  · show e.val % 64 = e.val; omega
/-- The 1 hidden projection at `(b, n, e)`. -/
theorem h1_at (b : Fin 1024) (n : Fin 256) (e : Fin 64) :
    val_main_v97 (F := Ideal) x0 x1 x3 x4 x5 x6 x7 x8 x9 x10 x11 x12 x13 x14 (ix3 b n e) = Cert.GraphSpec.hidden (fun n k => val_main_v88 (F := Ideal) x0 x1 x3 x4 x5 x6 x7 x8 x9 x10 x11 x12 x13 x14 (ix3 b n k)) (fun e k => x7 (ix3 (1 : Fin 3) e k)) (fun e => x8 (ix2 (1 : Fin 3) e)) n e := by
  unfold Cert.GraphSpec.hidden
  refine (val_main_v97_apply x0 x1 x3 x4 x5 x6 x7 x8 x9 x10 x11 x12 x13 x14 _).trans ?_
  refine congrArg₂ max ?_ ((val_main_call3_v0_apply _).trans Ideal.ofBits_zero_f32)
  refine (val_main_v96_apply x0 x1 x3 x4 x5 x6 x7 x8 x9 x10 x11 x12 x13 x14 _).trans ?_
  refine congrArg₂ (· + ·) ?_ (c1_at x8 b n e)
  refine (val_main_v91_apply x0 x1 x3 x4 x5 x6 x7 x8 x9 x10 x11 x12 x13 x14 (ix3 b n e)).trans ?_
  refine Finset.sum_congr rfl fun k _ => ?_
  exact congrArg₂ (· * ·) (congrArg (val_main_v88 (F := Ideal) x0 x1 x3 x4 x5 x6 x7 x8 x9 x10 x11 x12 x13 x14) (show lidx_main_v91 (ix3 b n e) k = ix3 b n k from by ixeq))
    ((congrArg (val_main_v90 (F := Ideal) x7) (show ridx_main_v91 (ix3 b n e) k = ix2 e k from by ixeq)).trans (W1_at x7 e k))
/-- The 2 hidden projection at `(b, n, e)`. -/
theorem h2_at (b : Fin 1024) (n : Fin 256) (e : Fin 64) :
    val_main_v106 (F := Ideal) x0 x1 x3 x4 x5 x6 x7 x8 x9 x10 x11 x12 x13 x14 (ix3 b n e) = Cert.GraphSpec.hidden (fun n k => val_main_v88 (F := Ideal) x0 x1 x3 x4 x5 x6 x7 x8 x9 x10 x11 x12 x13 x14 (ix3 b n k)) (fun e k => x9 (ix3 (1 : Fin 3) e k)) (fun e => x10 (ix2 (1 : Fin 3) e)) n e := by
  unfold Cert.GraphSpec.hidden
  refine (val_main_v106_apply x0 x1 x3 x4 x5 x6 x7 x8 x9 x10 x11 x12 x13 x14 _).trans ?_
  refine congrArg₂ max ?_ ((val_main_call4_v0_apply _).trans Ideal.ofBits_zero_f32)
  refine (val_main_v105_apply x0 x1 x3 x4 x5 x6 x7 x8 x9 x10 x11 x12 x13 x14 _).trans ?_
  refine congrArg₂ (· + ·) ?_ (c2_at x10 b n e)
  refine (val_main_v100_apply x0 x1 x3 x4 x5 x6 x7 x8 x9 x10 x11 x12 x13 x14 (ix3 b n e)).trans ?_
  refine Finset.sum_congr rfl fun k _ => ?_
  exact congrArg₂ (· * ·) (congrArg (val_main_v88 (F := Ideal) x0 x1 x3 x4 x5 x6 x7 x8 x9 x10 x11 x12 x13 x14) (show lidx_main_v100 (ix3 b n e) k = ix3 b n k from by ixeq))
    ((congrArg (val_main_v99 (F := Ideal) x9) (show ridx_main_v100 (ix3 b n e) k = ix2 e k from by ixeq)).trans (W2_at x9 e k))
/-- The 3 hidden projection at `(b, n, e)`. -/
theorem h3_at (b : Fin 1024) (n : Fin 256) (e : Fin 64) :
    val_main_v117 (F := Ideal) x0 x1 x3 x4 x5 x6 x7 x8 x9 x10 x11 x12 x13 x14 (ix3 b n e) = Cert.GraphSpec.hidden (fun n k => val_main_v88 (F := Ideal) x0 x1 x3 x4 x5 x6 x7 x8 x9 x10 x11 x12 x13 x14 (ix3 b n k)) (fun e k => x11 (ix3 (1 : Fin 3) e k)) (fun e => x12 (ix2 (1 : Fin 3) e)) n e := by
  unfold Cert.GraphSpec.hidden
  refine (val_main_v117_apply x0 x1 x3 x4 x5 x6 x7 x8 x9 x10 x11 x12 x13 x14 _).trans ?_
  refine congrArg₂ max ?_ ((val_main_call5_v0_apply _).trans Ideal.ofBits_zero_f32)
  refine (val_main_v116_apply x0 x1 x3 x4 x5 x6 x7 x8 x9 x10 x11 x12 x13 x14 _).trans ?_
  refine congrArg₂ (· + ·) ?_ (c3_at x12 b n e)
  refine (val_main_v111_apply x0 x1 x3 x4 x5 x6 x7 x8 x9 x10 x11 x12 x13 x14 (ix3 b n e)).trans ?_
  refine Finset.sum_congr rfl fun k _ => ?_
  exact congrArg₂ (· * ·) (congrArg (val_main_v88 (F := Ideal) x0 x1 x3 x4 x5 x6 x7 x8 x9 x10 x11 x12 x13 x14) (show lidx_main_v111 (ix3 b n e) k = ix3 b n k from by ixeq))
    ((congrArg (val_main_v110 (F := Ideal) x11) (show ridx_main_v111 (ix3 b n e) k = ix2 e k from by ixeq)).trans (W3_at x11 e k))

/-- The masked affinity of atoms `n` and `m` of molecule `b`. -/
theorem aff_at (b : Fin 1024) (n m : Fin 256) :
    val_main_v108 (F := Ideal) x0 x1 x3 x4 x5 x6 x7 x8 x9 x10 x11 x12 x13 x14 (ix3 b n m) = (∑ k, Cert.GraphSpec.hidden (fun n k => val_main_v88 (F := Ideal) x0 x1 x3 x4 x5 x6 x7 x8 x9 x10 x11 x12 x13 x14 (ix3 b n k)) (fun e k => x7 (ix3 (1 : Fin 3) e k)) (fun e => x8 (ix2 (1 : Fin 3) e)) n k * Cert.GraphSpec.hidden (fun n k => val_main_v88 (F := Ideal) x0 x1 x3 x4 x5 x6 x7 x8 x9 x10 x11 x12 x13 x14 (ix3 b n k)) (fun e k => x9 (ix3 (1 : Fin 3) e k)) (fun e => x10 (ix2 (1 : Fin 3) e)) m k) * x1 (ix3 b n m) := by
  refine (val_main_v108_apply x0 x1 x3 x4 x5 x6 x7 x8 x9 x10 x11 x12 x13 x14 _).trans ?_
  refine congrArg₂ (· * ·) ?_ rfl
  refine (val_main_v107_apply x0 x1 x3 x4 x5 x6 x7 x8 x9 x10 x11 x12 x13 x14 (ix3 b n m)).trans ?_
  refine Finset.sum_congr rfl fun k _ => ?_
  exact congrArg₂ (· * ·)
    ((congrArg (val_main_v97 (F := Ideal) x0 x1 x3 x4 x5 x6 x7 x8 x9 x10 x11 x12 x13 x14) (show lidx_main_v107 (ix3 b n m) k = ix3 b n k from by ixeq)).trans (h1_at x0 x1 x3 x4 x5 x6 x7 x8 x9 x10 x11 x12 x13 x14 b n k))
    ((congrArg (val_main_v106 (F := Ideal) x0 x1 x3 x4 x5 x6 x7 x8 x9 x10 x11 x12 x13 x14) (show ridx_main_v107 (ix3 b n m) k = ix3 b m k from by ixeq)).trans (h2_at x0 x1 x3 x4 x5 x6 x7 x8 x9 x10 x11 x12 x13 x14 b m k))

/-- The mixture at `(b, n, d)`. -/
theorem mix_at (b : Fin 1024) (n : Fin 256) (d : Fin 64) :
    val_main_v118 (F := Ideal) x0 x1 x3 x4 x5 x6 x7 x8 x9 x10 x11 x12 x13 x14 (ix3 b n d) = mixed (fun n k => val_main_v88 (F := Ideal) x0 x1 x3 x4 x5 x6 x7 x8 x9 x10 x11 x12 x13 x14 (ix3 b n k)) (fun n m => x1 (ix3 b n m)) (fun e k => x7 (ix3 (1 : Fin 3) e k)) (fun e => x8 (ix2 (1 : Fin 3) e)) (fun e k => x9 (ix3 (1 : Fin 3) e k)) (fun e => x10 (ix2 (1 : Fin 3) e)) (fun e k => x11 (ix3 (1 : Fin 3) e k)) (fun e => x12 (ix2 (1 : Fin 3) e)) n d := by
  unfold mixed
  refine (val_main_v118_apply x0 x1 x3 x4 x5 x6 x7 x8 x9 x10 x11 x12 x13 x14 (ix3 b n d)).trans ?_
  refine Finset.sum_congr rfl fun m _ => ?_
  exact congrArg₂ (· * ·)
    ((congrArg (val_main_v108 (F := Ideal) x0 x1 x3 x4 x5 x6 x7 x8 x9 x10 x11 x12 x13 x14) (show lidx_main_v118 (ix3 b n d) m = ix3 b n m from by ixeq)).trans (aff_at x0 x1 x3 x4 x5 x6 x7 x8 x9 x10 x11 x12 x13 x14 b n m))
    ((congrArg (val_main_v117 (F := Ideal) x0 x1 x3 x4 x5 x6 x7 x8 x9 x10 x11 x12 x13 x14) (show ridx_main_v118 (ix3 b n d) m = ix3 b m d from by ixeq)).trans (h3_at x0 x1 x3 x4 x5 x6 x7 x8 x9 x10 x11 x12 x13 x14 b m d))

/-- The row mean, kept as a unit last axis. -/
theorem ln_mean_at (b : Fin 1024) (n : Fin 256) :
    val_main_v122 (F := Ideal) x0 x1 x3 x4 x5 x6 x7 x8 x9 x10 x11 x12 x13 x14 (ix3 b n (0 : Fin 1)) = rowMean (fun k => val_main_v118 (F := Ideal) x0 x1 x3 x4 x5 x6 x7 x8 x9 x10 x11 x12 x13 x14 (ix3 b n k)) := by
  unfold rowMean
  refine (val_main_v122_apply x0 x1 x3 x4 x5 x6 x7 x8 x9 x10 x11 x12 x13 x14 _).trans ?_
  refine congrArg₂ Ideal.div ?_ ?_
  · refine (val_main_v120_apply x0 x1 x3 x4 x5 x6 x7 x8 x9 x10 x11 x12 x13 x14 _).trans ?_
    refine (congrArg (val_main_v119 (F := Ideal) x0 x1 x3 x4 x5 x6 x7 x8 x9 x10 x11 x12 x13 x14) (show idx_main_v120 (ix3 b n (0 : Fin 1)) = ix2 b n from by ixeq)).trans ?_
    refine (val_main_v119_apply x0 x1 x3 x4 x5 x6 x7 x8 x9 x10 x11 x12 x13 x14 (ix2 b n)).trans ?_
    refine (congrArg₂ (· + ·) (Ideal.ofBits_zero_f32) (Finset.sum_congr rfl fun k _ =>
      congrArg (val_main_v118 (F := Ideal) x0 x1 x3 x4 x5 x6 x7 x8 x9 x10 x11 x12 x13 x14) (show idx_main_v119 (ix2 b n) k = ix3 b n k from by ixeq))).trans (zero_add _)
  · exact (val_main_v121_apply _).trans rfl

/-- A row entry less the row mean (both printed copies of the difference). -/
theorem ln_cen_at (b : Fin 1024) (n : Fin 256) (d : Fin 64) :
    val_main_v124 (F := Ideal) x0 x1 x3 x4 x5 x6 x7 x8 x9 x10 x11 x12 x13 x14 (ix3 b n d) = val_main_v118 (F := Ideal) x0 x1 x3 x4 x5 x6 x7 x8 x9 x10 x11 x12 x13 x14 (ix3 b n d) - rowMean (fun k => val_main_v118 (F := Ideal) x0 x1 x3 x4 x5 x6 x7 x8 x9 x10 x11 x12 x13 x14 (ix3 b n k)) := by
  refine (val_main_v124_apply x0 x1 x3 x4 x5 x6 x7 x8 x9 x10 x11 x12 x13 x14 _).trans ?_
  refine congrArg (val_main_v118 (F := Ideal) x0 x1 x3 x4 x5 x6 x7 x8 x9 x10 x11 x12 x13 x14 (ix3 b n d) - ·) ?_
  refine (val_main_v123_apply x0 x1 x3 x4 x5 x6 x7 x8 x9 x10 x11 x12 x13 x14 _).trans ?_
  exact (congrArg (val_main_v122 (F := Ideal) x0 x1 x3 x4 x5 x6 x7 x8 x9 x10 x11 x12 x13 x14) (show idx_main_v123 (ix3 b n d) = ix3 b n (0 : Fin 1) from by ixeq)).trans (ln_mean_at x0 x1 x3 x4 x5 x6 x7 x8 x9 x10 x11 x12 x13 x14 b n)

theorem ln_cen2_at (b : Fin 1024) (n : Fin 256) (d : Fin 64) :
    val_main_v131 (F := Ideal) x0 x1 x3 x4 x5 x6 x7 x8 x9 x10 x11 x12 x13 x14 (ix3 b n d) = val_main_v118 (F := Ideal) x0 x1 x3 x4 x5 x6 x7 x8 x9 x10 x11 x12 x13 x14 (ix3 b n d) - rowMean (fun k => val_main_v118 (F := Ideal) x0 x1 x3 x4 x5 x6 x7 x8 x9 x10 x11 x12 x13 x14 (ix3 b n k)) := by
  refine (val_main_v131_apply x0 x1 x3 x4 x5 x6 x7 x8 x9 x10 x11 x12 x13 x14 _).trans ?_
  refine congrArg (val_main_v118 (F := Ideal) x0 x1 x3 x4 x5 x6 x7 x8 x9 x10 x11 x12 x13 x14 (ix3 b n d) - ·) ?_
  refine (val_main_v130_apply x0 x1 x3 x4 x5 x6 x7 x8 x9 x10 x11 x12 x13 x14 _).trans ?_
  exact (congrArg (val_main_v122 (F := Ideal) x0 x1 x3 x4 x5 x6 x7 x8 x9 x10 x11 x12 x13 x14) (show idx_main_v130 (ix3 b n d) = ix3 b n (0 : Fin 1) from by ixeq)).trans (ln_mean_at x0 x1 x3 x4 x5 x6 x7 x8 x9 x10 x11 x12 x13 x14 b n)

/-- The row variance, kept as a unit last axis. -/
theorem ln_var_at (b : Fin 1024) (n : Fin 256) :
    val_main_v129 (F := Ideal) x0 x1 x3 x4 x5 x6 x7 x8 x9 x10 x11 x12 x13 x14 (ix3 b n (0 : Fin 1)) = rowVar (fun k => val_main_v118 (F := Ideal) x0 x1 x3 x4 x5 x6 x7 x8 x9 x10 x11 x12 x13 x14 (ix3 b n k)) := by
  unfold rowVar
  refine (val_main_v129_apply x0 x1 x3 x4 x5 x6 x7 x8 x9 x10 x11 x12 x13 x14 _).trans ?_
  refine congrArg₂ Ideal.div ?_ ?_
  · refine (val_main_v127_apply x0 x1 x3 x4 x5 x6 x7 x8 x9 x10 x11 x12 x13 x14 _).trans ?_
    refine (congrArg (val_main_v126 (F := Ideal) x0 x1 x3 x4 x5 x6 x7 x8 x9 x10 x11 x12 x13 x14) (show idx_main_v127 (ix3 b n (0 : Fin 1)) = ix2 b n from by ixeq)).trans ?_
    refine (val_main_v126_apply x0 x1 x3 x4 x5 x6 x7 x8 x9 x10 x11 x12 x13 x14 (ix2 b n)).trans ?_
    refine (congrArg₂ (· + ·) (Ideal.ofBits_zero_f32) (Finset.sum_congr rfl fun k _ => ?_)).trans (zero_add _)
    refine (congrArg (val_main_v125 (F := Ideal) x0 x1 x3 x4 x5 x6 x7 x8 x9 x10 x11 x12 x13 x14) (show idx_main_v126 (ix2 b n) k = ix3 b n k from by ixeq)).trans ?_
    refine (val_main_v125_apply x0 x1 x3 x4 x5 x6 x7 x8 x9 x10 x11 x12 x13 x14 _).trans ?_
    exact congrArg₂ (· * ·) (ln_cen_at x0 x1 x3 x4 x5 x6 x7 x8 x9 x10 x11 x12 x13 x14 b n k) (ln_cen_at x0 x1 x3 x4 x5 x6 x7 x8 x9 x10 x11 x12 x13 x14 b n k)
  · exact (val_main_v128_apply _).trans rfl

/-- The normalised row with gain and bias. -/
theorem ln_norm_at (b : Fin 1024) (n : Fin 256) (d : Fin 64) :
    val_main_v142 (F := Ideal) x0 x1 x3 x4 x5 x6 x7 x8 x9 x10 x11 x12 x13 x14 (ix3 b n d) = rowNorm (fun k => val_main_v118 (F := Ideal) x0 x1 x3 x4 x5 x6 x7 x8 x9 x10 x11 x12 x13 x14 (ix3 b n k)) (fun k => x13 (ix1 k)) (fun k => x14 (ix1 k)) d := by
  unfold rowNorm
  refine (val_main_v142_apply x0 x1 x3 x4 x5 x6 x7 x8 x9 x10 x11 x12 x13 x14 _).trans ?_
  refine congrArg₂ (· + ·) ?_ ?_
  · refine (val_main_v139_apply x0 x1 x3 x4 x5 x6 x7 x8 x9 x10 x11 x12 x13 x14 _).trans ?_
    refine congrArg₂ (· * ·) ?_ ?_
    · refine (val_main_v136_apply x0 x1 x3 x4 x5 x6 x7 x8 x9 x10 x11 x12 x13 x14 _).trans ?_
      refine congrArg₂ (· * ·) (ln_cen2_at x0 x1 x3 x4 x5 x6 x7 x8 x9 x10 x11 x12 x13 x14 b n d) ?_
      refine (val_main_v135_apply x0 x1 x3 x4 x5 x6 x7 x8 x9 x10 x11 x12 x13 x14 _).trans ?_
      refine (congrArg (val_main_v134 (F := Ideal) x0 x1 x3 x4 x5 x6 x7 x8 x9 x10 x11 x12 x13 x14) (show idx_main_v135 (ix3 b n d) = ix3 b n (0 : Fin 1) from by ixeq)).trans ?_
      refine (val_main_v134_apply x0 x1 x3 x4 x5 x6 x7 x8 x9 x10 x11 x12 x13 x14 _).trans ?_
      refine congrArg Ideal.rsqrt ?_
      refine (val_main_v133_apply x0 x1 x3 x4 x5 x6 x7 x8 x9 x10 x11 x12 x13 x14 _).trans ?_
      refine congrArg₂ (· + ·) (ln_var_at x0 x1 x3 x4 x5 x6 x7 x8 x9 x10 x11 x12 x13 x14 b n) ?_
      exact (val_main_v132_apply _).trans rfl
    · refine (val_main_v138_apply x13 _).trans ?_
      refine (congrArg (val_main_v137 (F := Ideal) x13) (show idx_main_v138 (ix3 b n d) = ix3 (0 : Fin 1) (0 : Fin 1) d from by ixeq)).trans ?_
      refine (val_main_v137_apply x13 _).trans ?_
      exact congrArg x13 (show idx_main_v137 (ix3 (0 : Fin 1) (0 : Fin 1) d) = ix1 d from by ixeq)
  · refine (val_main_v141_apply x14 _).trans ?_
    refine (congrArg (val_main_v140 (F := Ideal) x14) (show idx_main_v141 (ix3 b n d) = ix3 (0 : Fin 1) (0 : Fin 1) d from by ixeq)).trans ?_
    refine (val_main_v140_apply x14 _).trans ?_
    exact congrArg x14 (show idx_main_v140 (ix3 (0 : Fin 1) (0 : Fin 1) d) = ix1 d from by ixeq)

/-- The stream after the layer at `(b, n, d)`: the scalar layer of molecule `b` on the stream before it. -/
theorem stream_at (b : Fin 1024) (n : Fin 256) (d : Fin 64) :
    val_main_v143 (F := Ideal) x0 x1 x3 x4 x5 x6 x7 x8 x9 x10 x11 x12 x13 x14 (ix3 b n d) = layer (fun n k => val_main_v88 (F := Ideal) x0 x1 x3 x4 x5 x6 x7 x8 x9 x10 x11 x12 x13 x14 (ix3 b n k)) (fun n m => x1 (ix3 b n m)) (fun e k => x7 (ix3 (1 : Fin 3) e k)) (fun e => x8 (ix2 (1 : Fin 3) e)) (fun e k => x9 (ix3 (1 : Fin 3) e k)) (fun e => x10 (ix2 (1 : Fin 3) e)) (fun e k => x11 (ix3 (1 : Fin 3) e k)) (fun e => x12 (ix2 (1 : Fin 3) e))
      (fun k => x13 (ix1 k)) (fun k => x14 (ix1 k)) n d := by
  unfold layer
  refine (val_main_v143_apply x0 x1 x3 x4 x5 x6 x7 x8 x9 x10 x11 x12 x13 x14 _).trans ?_
  refine congrArg (val_main_v88 (F := Ideal) x0 x1 x3 x4 x5 x6 x7 x8 x9 x10 x11 x12 x13 x14 (ix3 b n d) + ·) ?_
  refine (ln_norm_at x0 x1 x3 x4 x5 x6 x7 x8 x9 x10 x11 x12 x13 x14 b n d).trans ?_
  exact congrArg (fun r : Fin 64 → EReal => rowNorm r (fun k => x13 (ix1 k)) (fun k => x14 (ix1 k)) d)
    (funext fun k => mix_at x0 x1 x3 x4 x5 x6 x7 x8 x9 x10 x11 x12 x13 x14 b n k)

end Cert.ReferenceIdeal.Layer1

end
-- ==== Proof.RefLayer2.lean ====
/-
  The reference's layer 2 read at an index: each printed stage of the layer at coordinates, ending in the scalar layer
  of molecule b applied to the stream before it. The layer's three weight matrices and biases are row 2 of the stacked
  arguments; the stream before it is the printed stage the layer reads.
-/
import proofs.«161215_j83726092468549_2_alg».proof.Proof.RefReadPatched
import proofs.«161215_j83726092468549_2_alg».proof.Proof.LayerSpec
import Idealize.ShloMosaic.Lib.ValueIdx
import Idealize.ShloMosaic.PureOps.Ideal.Laws

set_option maxRecDepth 16384

noncomputable section

namespace Cert.ReferenceIdeal.Layer2

open Cert.ReferenceIdeal Cert.ReferenceIdeal.Read Idealize.ShloMosaic Idealize.ShloMosaic.ValueIdx Cert.GraphSpec

/-- Two indices with the same coordinates are equal: coordinate by coordinate, each by computation. -/
local macro "ixeq" : tactic => `(tactic| (funext a; apply Fin.ext; fin_cases a <;> rfl))

variable (x0 : (⟨S1024x256, .i32⟩ : BufTy).Contents (Elt Ideal)) (x1 : (⟨S1024x256x256, .f32⟩ : BufTy).Contents (Elt Ideal))
  (x3 : (⟨S10000x64, .f32⟩ : BufTy).Contents (Elt Ideal)) (x4 : (⟨S256x64, .f32⟩ : BufTy).Contents (Elt Ideal))
  (x5 x6 : (⟨S64, .f32⟩ : BufTy).Contents (Elt Ideal))
  (x7 : (⟨S3x64x64, .f32⟩ : BufTy).Contents (Elt Ideal)) (x8 : (⟨S3x64, .f32⟩ : BufTy).Contents (Elt Ideal))
  (x9 : (⟨S3x64x64, .f32⟩ : BufTy).Contents (Elt Ideal)) (x10 : (⟨S3x64, .f32⟩ : BufTy).Contents (Elt Ideal))
  (x11 : (⟨S3x64x64, .f32⟩ : BufTy).Contents (Elt Ideal)) (x12 : (⟨S3x64, .f32⟩ : BufTy).Contents (Elt Ideal))
  (x13 x14 : (⟨S64, .f32⟩ : BufTy).Contents (Elt Ideal))

/-- Entry `(e, k)` of the layer's 1 weight matrix: the slice of the stacked weights at this layer, its unit axis dropped. -/
theorem W1_at (e k : Fin 64) : val_main_v145 (F := Ideal) x7 (ix2 e k) = x7 (ix3 (2 : Fin 3) e k) := by
  refine (val_main_v145_apply x7 _).trans ((val_main_v144_apply x7 _).trans (congrArg x7 ?_))
  funext a; apply Fin.ext
  have he := e.isLt; have hk := k.isLt
  fin_cases a
  · rfl
  · show (e.val * 64 + k.val) / 64 % 64 = e.val; omega
  · show (e.val * 64 + k.val) % 64 = k.val; omega
/-- Entry `(b, n, e)` of the layer's 1 bias laid along every row: the bias's entry `e`. -/
theorem c1_at (b : Fin 1024) (n : Fin 256) (e : Fin 64) : val_main_v150 (F := Ideal) x8 (ix3 b n e) = x8 (ix2 (2 : Fin 3) e) := by
  refine (val_main_v150_apply x8 _).trans ((val_main_v149_apply x8 _).trans ((val_main_v148_apply x8 _).trans ((val_main_v147_apply x8 _).trans (congrArg x8 ?_))))
  funext a; apply Fin.ext
  have he := e.isLt
  fin_cases a
  · rfl
  · show e.val % 64 = e.val; omega
/-- Entry `(e, k)` of the layer's 2 weight matrix: the slice of the stacked weights at this layer, its unit axis dropped. -/
theorem W2_at (e k : Fin 64) : val_main_v154 (F := Ideal) x9 (ix2 e k) = x9 (ix3 (2 : Fin 3) e k) := by
  refine (val_main_v154_apply x9 _).trans ((val_main_v153_apply x9 _).trans (congrArg x9 ?_))
  funext a; apply Fin.ext
  have he := e.isLt; have hk := k.isLt
  fin_cases a
  · rfl
  · show (e.val * 64 + k.val) / 64 % 64 = e.val; omega
  · show (e.val * 64 + k.val) % 64 = k.val; omega
/-- Entry `(b, n, e)` of the layer's 2 bias laid along every row: the bias's entry `e`. -/
theorem c2_at (b : Fin 1024) (n : Fin 256) (e : Fin 64) : val_main_v159 (F := Ideal) x10 (ix3 b n e) = x10 (ix2 (2 : Fin 3) e) := by
  refine (val_main_v159_apply x10 _).trans ((val_main_v158_apply x10 _).trans ((val_main_v157_apply x10 _).trans ((val_main_v156_apply x10 _).trans (congrArg x10 ?_))))
  funext a; apply Fin.ext
  have he := e.isLt
  fin_cases a
  · rfl
  · show e.val % 64 = e.val; omega
/-- Entry `(e, k)` of the layer's 3 weight matrix: the slice of the stacked weights at this layer, its unit axis dropped. -/
theorem W3_at (e k : Fin 64) : val_main_v165 (F := Ideal) x11 (ix2 e k) = x11 (ix3 (2 : Fin 3) e k) := by
  refine (val_main_v165_apply x11 _).trans ((val_main_v164_apply x11 _).trans (congrArg x11 ?_))
  funext a; apply Fin.ext
  have he := e.isLt; have hk := k.isLt
  fin_cases a
  · rfl
  · show (e.val * 64 + k.val) / 64 % 64 = e.val; omega
  · show (e.val * 64 + k.val) % 64 = k.val; omega
/-- Entry `(b, n, e)` of the layer's 3 bias laid along every row: the bias's entry `e`. -/
theorem c3_at (b : Fin 1024) (n : Fin 256) (e : Fin 64) : val_main_v170 (F := Ideal) x12 (ix3 b n e) = x12 (ix2 (2 : Fin 3) e) := by
  refine (val_main_v170_apply x12 _).trans ((val_main_v169_apply x12 _).trans ((val_main_v168_apply x12 _).trans ((val_main_v167_apply x12 _).trans (congrArg x12 ?_))))
  funext a; apply Fin.ext
  have he := e.isLt
  fin_cases a
  · rfl
  · show e.val % 64 = e.val; omega
/-- The 1 hidden projection at `(b, n, e)`. -/
theorem h1_at (b : Fin 1024) (n : Fin 256) (e : Fin 64) :
    val_main_v152 (F := Ideal) x0 x1 x3 x4 x5 x6 x7 x8 x9 x10 x11 x12 x13 x14 (ix3 b n e) = Cert.GraphSpec.hidden (fun n k => val_main_v143 (F := Ideal) x0 x1 x3 x4 x5 x6 x7 x8 x9 x10 x11 x12 x13 x14 (ix3 b n k)) (fun e k => x7 (ix3 (2 : Fin 3) e k)) (fun e => x8 (ix2 (2 : Fin 3) e)) n e := by
  unfold Cert.GraphSpec.hidden
  refine (val_main_v152_apply x0 x1 x3 x4 x5 x6 x7 x8 x9 x10 x11 x12 x13 x14 _).trans ?_
  refine congrArg₂ max ?_ ((val_main_call6_v0_apply _).trans Ideal.ofBits_zero_f32)
  refine (val_main_v151_apply x0 x1 x3 x4 x5 x6 x7 x8 x9 x10 x11 x12 x13 x14 _).trans ?_
  refine congrArg₂ (· + ·) ?_ (c1_at x8 b n e)
  refine (val_main_v146_apply x0 x1 x3 x4 x5 x6 x7 x8 x9 x10 x11 x12 x13 x14 (ix3 b n e)).trans ?_
  refine Finset.sum_congr rfl fun k _ => ?_
  exact congrArg₂ (· * ·) (congrArg (val_main_v143 (F := Ideal) x0 x1 x3 x4 x5 x6 x7 x8 x9 x10 x11 x12 x13 x14) (show lidx_main_v146 (ix3 b n e) k = ix3 b n k from by ixeq))
    ((congrArg (val_main_v145 (F := Ideal) x7) (show ridx_main_v146 (ix3 b n e) k = ix2 e k from by ixeq)).trans (W1_at x7 e k))
/-- The 2 hidden projection at `(b, n, e)`. -/
theorem h2_at (b : Fin 1024) (n : Fin 256) (e : Fin 64) :
    val_main_v161 (F := Ideal) x0 x1 x3 x4 x5 x6 x7 x8 x9 x10 x11 x12 x13 x14 (ix3 b n e) = Cert.GraphSpec.hidden (fun n k => val_main_v143 (F := Ideal) x0 x1 x3 x4 x5 x6 x7 x8 x9 x10 x11 x12 x13 x14 (ix3 b n k)) (fun e k => x9 (ix3 (2 : Fin 3) e k)) (fun e => x10 (ix2 (2 : Fin 3) e)) n e := by
  unfold Cert.GraphSpec.hidden
  refine (val_main_v161_apply x0 x1 x3 x4 x5 x6 x7 x8 x9 x10 x11 x12 x13 x14 _).trans ?_
  refine congrArg₂ max ?_ ((val_main_call7_v0_apply _).trans Ideal.ofBits_zero_f32)
  refine (val_main_v160_apply x0 x1 x3 x4 x5 x6 x7 x8 x9 x10 x11 x12 x13 x14 _).trans ?_
  refine congrArg₂ (· + ·) ?_ (c2_at x10 b n e)
  refine (val_main_v155_apply x0 x1 x3 x4 x5 x6 x7 x8 x9 x10 x11 x12 x13 x14 (ix3 b n e)).trans ?_
  refine Finset.sum_congr rfl fun k _ => ?_
  exact congrArg₂ (· * ·) (congrArg (val_main_v143 (F := Ideal) x0 x1 x3 x4 x5 x6 x7 x8 x9 x10 x11 x12 x13 x14) (show lidx_main_v155 (ix3 b n e) k = ix3 b n k from by ixeq))
    ((congrArg (val_main_v154 (F := Ideal) x9) (show ridx_main_v155 (ix3 b n e) k = ix2 e k from by ixeq)).trans (W2_at x9 e k))
/-- The 3 hidden projection at `(b, n, e)`. -/
theorem h3_at (b : Fin 1024) (n : Fin 256) (e : Fin 64) :
    val_main_v172 (F := Ideal) x0 x1 x3 x4 x5 x6 x7 x8 x9 x10 x11 x12 x13 x14 (ix3 b n e) = Cert.GraphSpec.hidden (fun n k => val_main_v143 (F := Ideal) x0 x1 x3 x4 x5 x6 x7 x8 x9 x10 x11 x12 x13 x14 (ix3 b n k)) (fun e k => x11 (ix3 (2 : Fin 3) e k)) (fun e => x12 (ix2 (2 : Fin 3) e)) n e := by
  unfold Cert.GraphSpec.hidden
  refine (val_main_v172_apply x0 x1 x3 x4 x5 x6 x7 x8 x9 x10 x11 x12 x13 x14 _).trans ?_
  refine congrArg₂ max ?_ ((val_main_call8_v0_apply _).trans Ideal.ofBits_zero_f32)
  refine (val_main_v171_apply x0 x1 x3 x4 x5 x6 x7 x8 x9 x10 x11 x12 x13 x14 _).trans ?_
  refine congrArg₂ (· + ·) ?_ (c3_at x12 b n e)
  refine (val_main_v166_apply x0 x1 x3 x4 x5 x6 x7 x8 x9 x10 x11 x12 x13 x14 (ix3 b n e)).trans ?_
  refine Finset.sum_congr rfl fun k _ => ?_
  exact congrArg₂ (· * ·) (congrArg (val_main_v143 (F := Ideal) x0 x1 x3 x4 x5 x6 x7 x8 x9 x10 x11 x12 x13 x14) (show lidx_main_v166 (ix3 b n e) k = ix3 b n k from by ixeq))
    ((congrArg (val_main_v165 (F := Ideal) x11) (show ridx_main_v166 (ix3 b n e) k = ix2 e k from by ixeq)).trans (W3_at x11 e k))

/-- The masked affinity of atoms `n` and `m` of molecule `b`. -/
theorem aff_at (b : Fin 1024) (n m : Fin 256) :
    val_main_v163 (F := Ideal) x0 x1 x3 x4 x5 x6 x7 x8 x9 x10 x11 x12 x13 x14 (ix3 b n m) = (∑ k, Cert.GraphSpec.hidden (fun n k => val_main_v143 (F := Ideal) x0 x1 x3 x4 x5 x6 x7 x8 x9 x10 x11 x12 x13 x14 (ix3 b n k)) (fun e k => x7 (ix3 (2 : Fin 3) e k)) (fun e => x8 (ix2 (2 : Fin 3) e)) n k * Cert.GraphSpec.hidden (fun n k => val_main_v143 (F := Ideal) x0 x1 x3 x4 x5 x6 x7 x8 x9 x10 x11 x12 x13 x14 (ix3 b n k)) (fun e k => x9 (ix3 (2 : Fin 3) e k)) (fun e => x10 (ix2 (2 : Fin 3) e)) m k) * x1 (ix3 b n m) := by
  refine (val_main_v163_apply x0 x1 x3 x4 x5 x6 x7 x8 x9 x10 x11 x12 x13 x14 _).trans ?_
  refine congrArg₂ (· * ·) ?_ rfl
  refine (val_main_v162_apply x0 x1 x3 x4 x5 x6 x7 x8 x9 x10 x11 x12 x13 x14 (ix3 b n m)).trans ?_
  refine Finset.sum_congr rfl fun k _ => ?_
  exact congrArg₂ (· * ·)
    ((congrArg (val_main_v152 (F := Ideal) x0 x1 x3 x4 x5 x6 x7 x8 x9 x10 x11 x12 x13 x14) (show lidx_main_v162 (ix3 b n m) k = ix3 b n k from by ixeq)).trans (h1_at x0 x1 x3 x4 x5 x6 x7 x8 x9 x10 x11 x12 x13 x14 b n k))
    ((congrArg (val_main_v161 (F := Ideal) x0 x1 x3 x4 x5 x6 x7 x8 x9 x10 x11 x12 x13 x14) (show ridx_main_v162 (ix3 b n m) k = ix3 b m k from by ixeq)).trans (h2_at x0 x1 x3 x4 x5 x6 x7 x8 x9 x10 x11 x12 x13 x14 b m k))

/-- The mixture at `(b, n, d)`. -/
theorem mix_at (b : Fin 1024) (n : Fin 256) (d : Fin 64) :
    val_main_v173 (F := Ideal) x0 x1 x3 x4 x5 x6 x7 x8 x9 x10 x11 x12 x13 x14 (ix3 b n d) = mixed (fun n k => val_main_v143 (F := Ideal) x0 x1 x3 x4 x5 x6 x7 x8 x9 x10 x11 x12 x13 x14 (ix3 b n k)) (fun n m => x1 (ix3 b n m)) (fun e k => x7 (ix3 (2 : Fin 3) e k)) (fun e => x8 (ix2 (2 : Fin 3) e)) (fun e k => x9 (ix3 (2 : Fin 3) e k)) (fun e => x10 (ix2 (2 : Fin 3) e)) (fun e k => x11 (ix3 (2 : Fin 3) e k)) (fun e => x12 (ix2 (2 : Fin 3) e)) n d := by
  unfold mixed
  refine (val_main_v173_apply x0 x1 x3 x4 x5 x6 x7 x8 x9 x10 x11 x12 x13 x14 (ix3 b n d)).trans ?_
  refine Finset.sum_congr rfl fun m _ => ?_
  exact congrArg₂ (· * ·)
    ((congrArg (val_main_v163 (F := Ideal) x0 x1 x3 x4 x5 x6 x7 x8 x9 x10 x11 x12 x13 x14) (show lidx_main_v173 (ix3 b n d) m = ix3 b n m from by ixeq)).trans (aff_at x0 x1 x3 x4 x5 x6 x7 x8 x9 x10 x11 x12 x13 x14 b n m))
    ((congrArg (val_main_v172 (F := Ideal) x0 x1 x3 x4 x5 x6 x7 x8 x9 x10 x11 x12 x13 x14) (show ridx_main_v173 (ix3 b n d) m = ix3 b m d from by ixeq)).trans (h3_at x0 x1 x3 x4 x5 x6 x7 x8 x9 x10 x11 x12 x13 x14 b m d))

/-- The row mean, kept as a unit last axis. -/
theorem ln_mean_at (b : Fin 1024) (n : Fin 256) :
    val_main_v177 (F := Ideal) x0 x1 x3 x4 x5 x6 x7 x8 x9 x10 x11 x12 x13 x14 (ix3 b n (0 : Fin 1)) = rowMean (fun k => val_main_v173 (F := Ideal) x0 x1 x3 x4 x5 x6 x7 x8 x9 x10 x11 x12 x13 x14 (ix3 b n k)) := by
  unfold rowMean
  refine (val_main_v177_apply x0 x1 x3 x4 x5 x6 x7 x8 x9 x10 x11 x12 x13 x14 _).trans ?_
  refine congrArg₂ Ideal.div ?_ ?_
  · refine (val_main_v175_apply x0 x1 x3 x4 x5 x6 x7 x8 x9 x10 x11 x12 x13 x14 _).trans ?_
    refine (congrArg (val_main_v174 (F := Ideal) x0 x1 x3 x4 x5 x6 x7 x8 x9 x10 x11 x12 x13 x14) (show idx_main_v175 (ix3 b n (0 : Fin 1)) = ix2 b n from by ixeq)).trans ?_
    refine (val_main_v174_apply x0 x1 x3 x4 x5 x6 x7 x8 x9 x10 x11 x12 x13 x14 (ix2 b n)).trans ?_
    refine (congrArg₂ (· + ·) (Ideal.ofBits_zero_f32) (Finset.sum_congr rfl fun k _ =>
      congrArg (val_main_v173 (F := Ideal) x0 x1 x3 x4 x5 x6 x7 x8 x9 x10 x11 x12 x13 x14) (show idx_main_v174 (ix2 b n) k = ix3 b n k from by ixeq))).trans (zero_add _)
  · exact (val_main_v176_apply _).trans rfl

/-- A row entry less the row mean (both printed copies of the difference). -/
theorem ln_cen_at (b : Fin 1024) (n : Fin 256) (d : Fin 64) :
    val_main_v179 (F := Ideal) x0 x1 x3 x4 x5 x6 x7 x8 x9 x10 x11 x12 x13 x14 (ix3 b n d) = val_main_v173 (F := Ideal) x0 x1 x3 x4 x5 x6 x7 x8 x9 x10 x11 x12 x13 x14 (ix3 b n d) - rowMean (fun k => val_main_v173 (F := Ideal) x0 x1 x3 x4 x5 x6 x7 x8 x9 x10 x11 x12 x13 x14 (ix3 b n k)) := by
  refine (val_main_v179_apply x0 x1 x3 x4 x5 x6 x7 x8 x9 x10 x11 x12 x13 x14 _).trans ?_
  refine congrArg (val_main_v173 (F := Ideal) x0 x1 x3 x4 x5 x6 x7 x8 x9 x10 x11 x12 x13 x14 (ix3 b n d) - ·) ?_
  refine (val_main_v178_apply x0 x1 x3 x4 x5 x6 x7 x8 x9 x10 x11 x12 x13 x14 _).trans ?_
  exact (congrArg (val_main_v177 (F := Ideal) x0 x1 x3 x4 x5 x6 x7 x8 x9 x10 x11 x12 x13 x14) (show idx_main_v178 (ix3 b n d) = ix3 b n (0 : Fin 1) from by ixeq)).trans (ln_mean_at x0 x1 x3 x4 x5 x6 x7 x8 x9 x10 x11 x12 x13 x14 b n)

theorem ln_cen2_at (b : Fin 1024) (n : Fin 256) (d : Fin 64) :
    val_main_v186 (F := Ideal) x0 x1 x3 x4 x5 x6 x7 x8 x9 x10 x11 x12 x13 x14 (ix3 b n d) = val_main_v173 (F := Ideal) x0 x1 x3 x4 x5 x6 x7 x8 x9 x10 x11 x12 x13 x14 (ix3 b n d) - rowMean (fun k => val_main_v173 (F := Ideal) x0 x1 x3 x4 x5 x6 x7 x8 x9 x10 x11 x12 x13 x14 (ix3 b n k)) := by
  refine (val_main_v186_apply x0 x1 x3 x4 x5 x6 x7 x8 x9 x10 x11 x12 x13 x14 _).trans ?_
  refine congrArg (val_main_v173 (F := Ideal) x0 x1 x3 x4 x5 x6 x7 x8 x9 x10 x11 x12 x13 x14 (ix3 b n d) - ·) ?_
  refine (val_main_v185_apply x0 x1 x3 x4 x5 x6 x7 x8 x9 x10 x11 x12 x13 x14 _).trans ?_
  exact (congrArg (val_main_v177 (F := Ideal) x0 x1 x3 x4 x5 x6 x7 x8 x9 x10 x11 x12 x13 x14) (show idx_main_v185 (ix3 b n d) = ix3 b n (0 : Fin 1) from by ixeq)).trans (ln_mean_at x0 x1 x3 x4 x5 x6 x7 x8 x9 x10 x11 x12 x13 x14 b n)

/-- The row variance, kept as a unit last axis. -/
theorem ln_var_at (b : Fin 1024) (n : Fin 256) :
    val_main_v184 (F := Ideal) x0 x1 x3 x4 x5 x6 x7 x8 x9 x10 x11 x12 x13 x14 (ix3 b n (0 : Fin 1)) = rowVar (fun k => val_main_v173 (F := Ideal) x0 x1 x3 x4 x5 x6 x7 x8 x9 x10 x11 x12 x13 x14 (ix3 b n k)) := by
  unfold rowVar
  refine (val_main_v184_apply x0 x1 x3 x4 x5 x6 x7 x8 x9 x10 x11 x12 x13 x14 _).trans ?_
  refine congrArg₂ Ideal.div ?_ ?_
  · refine (val_main_v182_apply x0 x1 x3 x4 x5 x6 x7 x8 x9 x10 x11 x12 x13 x14 _).trans ?_
    refine (congrArg (val_main_v181 (F := Ideal) x0 x1 x3 x4 x5 x6 x7 x8 x9 x10 x11 x12 x13 x14) (show idx_main_v182 (ix3 b n (0 : Fin 1)) = ix2 b n from by ixeq)).trans ?_
    refine (val_main_v181_apply x0 x1 x3 x4 x5 x6 x7 x8 x9 x10 x11 x12 x13 x14 (ix2 b n)).trans ?_
    refine (congrArg₂ (· + ·) (Ideal.ofBits_zero_f32) (Finset.sum_congr rfl fun k _ => ?_)).trans (zero_add _)
    refine (congrArg (val_main_v180 (F := Ideal) x0 x1 x3 x4 x5 x6 x7 x8 x9 x10 x11 x12 x13 x14) (show idx_main_v181 (ix2 b n) k = ix3 b n k from by ixeq)).trans ?_
    refine (val_main_v180_apply x0 x1 x3 x4 x5 x6 x7 x8 x9 x10 x11 x12 x13 x14 _).trans ?_
    exact congrArg₂ (· * ·) (ln_cen_at x0 x1 x3 x4 x5 x6 x7 x8 x9 x10 x11 x12 x13 x14 b n k) (ln_cen_at x0 x1 x3 x4 x5 x6 x7 x8 x9 x10 x11 x12 x13 x14 b n k)
  · exact (val_main_v183_apply _).trans rfl

/-- The normalised row with gain and bias. -/
theorem ln_norm_at (b : Fin 1024) (n : Fin 256) (d : Fin 64) :
    val_main_v197 (F := Ideal) x0 x1 x3 x4 x5 x6 x7 x8 x9 x10 x11 x12 x13 x14 (ix3 b n d) = rowNorm (fun k => val_main_v173 (F := Ideal) x0 x1 x3 x4 x5 x6 x7 x8 x9 x10 x11 x12 x13 x14 (ix3 b n k)) (fun k => x13 (ix1 k)) (fun k => x14 (ix1 k)) d := by
  unfold rowNorm
  refine (val_main_v197_apply x0 x1 x3 x4 x5 x6 x7 x8 x9 x10 x11 x12 x13 x14 _).trans ?_
  refine congrArg₂ (· + ·) ?_ ?_
  · refine (val_main_v194_apply x0 x1 x3 x4 x5 x6 x7 x8 x9 x10 x11 x12 x13 x14 _).trans ?_
    refine congrArg₂ (· * ·) ?_ ?_
    · refine (val_main_v191_apply x0 x1 x3 x4 x5 x6 x7 x8 x9 x10 x11 x12 x13 x14 _).trans ?_
      refine congrArg₂ (· * ·) (ln_cen2_at x0 x1 x3 x4 x5 x6 x7 x8 x9 x10 x11 x12 x13 x14 b n d) ?_
      refine (val_main_v190_apply x0 x1 x3 x4 x5 x6 x7 x8 x9 x10 x11 x12 x13 x14 _).trans ?_
      refine (congrArg (val_main_v189 (F := Ideal) x0 x1 x3 x4 x5 x6 x7 x8 x9 x10 x11 x12 x13 x14) (show idx_main_v190 (ix3 b n d) = ix3 b n (0 : Fin 1) from by ixeq)).trans ?_
      refine (val_main_v189_apply x0 x1 x3 x4 x5 x6 x7 x8 x9 x10 x11 x12 x13 x14 _).trans ?_
      refine congrArg Ideal.rsqrt ?_
      refine (val_main_v188_apply x0 x1 x3 x4 x5 x6 x7 x8 x9 x10 x11 x12 x13 x14 _).trans ?_
      refine congrArg₂ (· + ·) (ln_var_at x0 x1 x3 x4 x5 x6 x7 x8 x9 x10 x11 x12 x13 x14 b n) ?_
      exact (val_main_v187_apply _).trans rfl
    · refine (val_main_v193_apply x13 _).trans ?_
      refine (congrArg (val_main_v192 (F := Ideal) x13) (show idx_main_v193 (ix3 b n d) = ix3 (0 : Fin 1) (0 : Fin 1) d from by ixeq)).trans ?_
      refine (val_main_v192_apply x13 _).trans ?_
      exact congrArg x13 (show idx_main_v192 (ix3 (0 : Fin 1) (0 : Fin 1) d) = ix1 d from by ixeq)
  · refine (val_main_v196_apply x14 _).trans ?_
    refine (congrArg (val_main_v195 (F := Ideal) x14) (show idx_main_v196 (ix3 b n d) = ix3 (0 : Fin 1) (0 : Fin 1) d from by ixeq)).trans ?_
    refine (val_main_v195_apply x14 _).trans ?_
    exact congrArg x14 (show idx_main_v195 (ix3 (0 : Fin 1) (0 : Fin 1) d) = ix1 d from by ixeq)

/-- The stream after the layer at `(b, n, d)`: the scalar layer of molecule `b` on the stream before it. -/
theorem stream_at (b : Fin 1024) (n : Fin 256) (d : Fin 64) :
    val_main_v198 (F := Ideal) x0 x1 x3 x4 x5 x6 x7 x8 x9 x10 x11 x12 x13 x14 (ix3 b n d) = layer (fun n k => val_main_v143 (F := Ideal) x0 x1 x3 x4 x5 x6 x7 x8 x9 x10 x11 x12 x13 x14 (ix3 b n k)) (fun n m => x1 (ix3 b n m)) (fun e k => x7 (ix3 (2 : Fin 3) e k)) (fun e => x8 (ix2 (2 : Fin 3) e)) (fun e k => x9 (ix3 (2 : Fin 3) e k)) (fun e => x10 (ix2 (2 : Fin 3) e)) (fun e k => x11 (ix3 (2 : Fin 3) e k)) (fun e => x12 (ix2 (2 : Fin 3) e))
      (fun k => x13 (ix1 k)) (fun k => x14 (ix1 k)) n d := by
  unfold layer
  refine (val_main_v198_apply x0 x1 x3 x4 x5 x6 x7 x8 x9 x10 x11 x12 x13 x14 _).trans ?_
  refine congrArg (val_main_v143 (F := Ideal) x0 x1 x3 x4 x5 x6 x7 x8 x9 x10 x11 x12 x13 x14 (ix3 b n d) + ·) ?_
  refine (ln_norm_at x0 x1 x3 x4 x5 x6 x7 x8 x9 x10 x11 x12 x13 x14 b n d).trans ?_
  exact congrArg (fun r : Fin 64 → EReal => rowNorm r (fun k => x13 (ix1 k)) (fun k => x14 (ix1 k)) d)
    (funext fun k => mix_at x0 x1 x3 x4 x5 x6 x7 x8 x9 x10 x11 x12 x13 x14 b n k)

end Cert.ReferenceIdeal.Layer2

end
-- ==== Proof.SameResult.lean ====
/-
  The two programs' results are one function of the arguments, at the extended reals.

  Molecule by molecule and layer by layer both are the scalar layer applied to the same stream: the reference reads
  weight matrix j of layer l at (e, k) from the stacked argument, the kernel reads column k, slot j of row l of its
  padded table, which holds the transposed matrix; the biases likewise; the embeddings are the same host operations on
  both sides (the kernel's narrowing to bf16 is the identity here); the adjacency and the normalisation vectors are the
  arguments themselves. No property of the extended reals is used beyond equality of equal terms: the kernel's tiling of
  the molecules and its fused, padded projection only rename where each number is read from.
-/
import proofs.«161215_j83726092468549_2_alg».proof.Proof.KernelValue
import proofs.«161215_j83726092468549_2_alg».proof.Proof.KernelHost
import proofs.«161215_j83726092468549_2_alg».proof.Proof.RefEmbed
import proofs.«161215_j83726092468549_2_alg».proof.Proof.RefLayer0
import proofs.«161215_j83726092468549_2_alg».proof.Proof.RefLayer1
import proofs.«161215_j83726092468549_2_alg».proof.Proof.RefLayer2

set_option maxRecDepth 16384

noncomputable section

namespace Cert.SameResult

open Cert.ReferenceIdeal Cert.ReferenceIdeal.Read Cert.KernelIdeal.Block Cert.KernelIdeal.HostArrays
open Idealize.ShloMosaic Idealize.ShloMosaic.ValueIdx Cert.GraphSpec

variable (x0 : (⟨S1024x256, .i32⟩ : BufTy).Contents (Elt Ideal)) (x1 : (⟨S1024x256x256, .f32⟩ : BufTy).Contents (Elt Ideal))
  (x3 : (⟨S10000x64, .f32⟩ : BufTy).Contents (Elt Ideal)) (x4 : (⟨S256x64, .f32⟩ : BufTy).Contents (Elt Ideal))
  (x5 x6 : (⟨S64, .f32⟩ : BufTy).Contents (Elt Ideal))
  (x7 : (⟨S3x64x64, .f32⟩ : BufTy).Contents (Elt Ideal)) (x8 : (⟨S3x64, .f32⟩ : BufTy).Contents (Elt Ideal))
  (x9 : (⟨S3x64x64, .f32⟩ : BufTy).Contents (Elt Ideal)) (x10 : (⟨S3x64, .f32⟩ : BufTy).Contents (Elt Ideal))
  (x11 : (⟨S3x64x64, .f32⟩ : BufTy).Contents (Elt Ideal)) (x12 : (⟨S3x64, .f32⟩ : BufTy).Contents (Elt Ideal))
  (x13 x14 : (⟨S64, .f32⟩ : BufTy).Contents (Elt Ideal))

theorem slot0_val (e : Fin 64) : (slot 0 e).val = e.val := by show 128 * 0 + e.val = e.val; omega
theorem slot1_val (e : Fin 64) : (slot 1 e).val = 128 + e.val := rfl
theorem slot2_val (e : Fin 64) : (slot 2 e).val = 256 + e.val := rfl

/-- The embeddings are the same host operations in both programs. -/
theorem emb_eq : (embArr x0 x3 x4 : Cert.ReferenceIdeal.S1024x256x64.Idx → EReal) = val_main_v9 (F := Ideal) x0 x3 x4 := rfl

/-- The streams before the first layer agree. -/
theorem level0 (b : Fin 1024) (n : Fin 256) (d : Fin 64) :
    val_main_v33 (F := Ideal) x0 x3 x4 x5 x6 (ix3 b n d) = wholeStream0 (embArr x0 x3 x4) x5 x6 b n d := by
  rw [Cert.ReferenceIdeal.Stages.stream0_at]
  unfold wholeStream0
  rw [emb_eq]

/-- The reference's stream after layer 0 is the kernel's whole-array stream after layer 0. -/
theorem level1 (b : Fin 1024) (n : Fin 256) (d : Fin 64) :
    val_main_v88 (F := Ideal) x0 x1 x3 x4 x5 x6 x7 x8 x9 x10 x11 x12 x13 x14 (ix3 b n d) = wholeStream1 (embArr x0 x3 x4) x1 x5 x6 (wTable x7 x9 x11) (cTable x8 x10 x12) x13 x14 b n d := by
  rw [Cert.ReferenceIdeal.Layer0.stream_at]
  unfold wholeStream1 wholeLayer
  have hX : (fun n k => val_main_v33 (F := Ideal) x0 x3 x4 x5 x6 (ix3 b n k)) = wholeStream0 (embArr x0 x3 x4) x5 x6 b :=
    funext fun n => funext fun k => level0 x0 x3 x4 x5 x6 b n k
  have hW1 : (fun e k => x7 (ix3 (0 : Fin 3) e k)) = (fun e k => wTable x7 x9 x11 (ix3 (0 : Fin 3) k (slot 0 e))) :=
    funext fun e => funext fun k => (wTable_slot0 x7 x9 x11 (0 : Fin 3) k e (slot 0 e) (slot0_val e)).symm
  have hW2 : (fun e k => x9 (ix3 (0 : Fin 3) e k)) = (fun e k => wTable x7 x9 x11 (ix3 (0 : Fin 3) k (slot 1 e))) :=
    funext fun e => funext fun k => (wTable_slot1 x7 x9 x11 (0 : Fin 3) k e (slot 1 e) (slot1_val e)).symm
  have hW3 : (fun e k => x11 (ix3 (0 : Fin 3) e k)) = (fun e k => wTable x7 x9 x11 (ix3 (0 : Fin 3) k (slot 2 e))) :=
    funext fun e => funext fun k => (wTable_slot2 x7 x9 x11 (0 : Fin 3) k e (slot 2 e) (slot2_val e)).symm
  have hc1 : (fun e => x8 (ix2 (0 : Fin 3) e)) = (fun e => cTable x8 x10 x12 (ix2 (0 : Fin 3) (slot 0 e))) :=
    funext fun e => (cTable_slot0 x8 x10 x12 (0 : Fin 3) e (slot 0 e) (slot0_val e)).symm
  have hc2 : (fun e => x10 (ix2 (0 : Fin 3) e)) = (fun e => cTable x8 x10 x12 (ix2 (0 : Fin 3) (slot 1 e))) :=
    funext fun e => (cTable_slot1 x8 x10 x12 (0 : Fin 3) e (slot 1 e) (slot1_val e)).symm
  have hc3 : (fun e => x12 (ix2 (0 : Fin 3) e)) = (fun e => cTable x8 x10 x12 (ix2 (0 : Fin 3) (slot 2 e))) :=
    funext fun e => (cTable_slot2 x8 x10 x12 (0 : Fin 3) e (slot 2 e) (slot2_val e)).symm
  rw [hX, hW1, hW2, hW3, hc1, hc2, hc3]

/-- The reference's stream after layer 1 is the kernel's whole-array stream after layer 1. -/
theorem level2 (b : Fin 1024) (n : Fin 256) (d : Fin 64) :
    val_main_v143 (F := Ideal) x0 x1 x3 x4 x5 x6 x7 x8 x9 x10 x11 x12 x13 x14 (ix3 b n d) = wholeStream2 (embArr x0 x3 x4) x1 x5 x6 (wTable x7 x9 x11) (cTable x8 x10 x12) x13 x14 b n d := by
  rw [Cert.ReferenceIdeal.Layer1.stream_at]
  unfold wholeStream2 wholeLayer
  have hX : (fun n k => val_main_v88 (F := Ideal) x0 x1 x3 x4 x5 x6 x7 x8 x9 x10 x11 x12 x13 x14 (ix3 b n k)) = wholeStream1 (embArr x0 x3 x4) x1 x5 x6 (wTable x7 x9 x11) (cTable x8 x10 x12) x13 x14 b :=
    funext fun n => funext fun k => level1 x0 x1 x3 x4 x5 x6 x7 x8 x9 x10 x11 x12 x13 x14 b n k
  have hW1 : (fun e k => x7 (ix3 (1 : Fin 3) e k)) = (fun e k => wTable x7 x9 x11 (ix3 (1 : Fin 3) k (slot 0 e))) :=
    funext fun e => funext fun k => (wTable_slot0 x7 x9 x11 (1 : Fin 3) k e (slot 0 e) (slot0_val e)).symm
  have hW2 : (fun e k => x9 (ix3 (1 : Fin 3) e k)) = (fun e k => wTable x7 x9 x11 (ix3 (1 : Fin 3) k (slot 1 e))) :=
    funext fun e => funext fun k => (wTable_slot1 x7 x9 x11 (1 : Fin 3) k e (slot 1 e) (slot1_val e)).symm
  have hW3 : (fun e k => x11 (ix3 (1 : Fin 3) e k)) = (fun e k => wTable x7 x9 x11 (ix3 (1 : Fin 3) k (slot 2 e))) :=
    funext fun e => funext fun k => (wTable_slot2 x7 x9 x11 (1 : Fin 3) k e (slot 2 e) (slot2_val e)).symm
  have hc1 : (fun e => x8 (ix2 (1 : Fin 3) e)) = (fun e => cTable x8 x10 x12 (ix2 (1 : Fin 3) (slot 0 e))) :=
    funext fun e => (cTable_slot0 x8 x10 x12 (1 : Fin 3) e (slot 0 e) (slot0_val e)).symm
  have hc2 : (fun e => x10 (ix2 (1 : Fin 3) e)) = (fun e => cTable x8 x10 x12 (ix2 (1 : Fin 3) (slot 1 e))) :=
    funext fun e => (cTable_slot1 x8 x10 x12 (1 : Fin 3) e (slot 1 e) (slot1_val e)).symm
  have hc3 : (fun e => x12 (ix2 (1 : Fin 3) e)) = (fun e => cTable x8 x10 x12 (ix2 (1 : Fin 3) (slot 2 e))) :=
    funext fun e => (cTable_slot2 x8 x10 x12 (1 : Fin 3) e (slot 2 e) (slot2_val e)).symm
  rw [hX, hW1, hW2, hW3, hc1, hc2, hc3]

/-- The reference's stream after layer 2 is the kernel's whole-array stream after layer 2. -/
theorem level3 (b : Fin 1024) (n : Fin 256) (d : Fin 64) :
    val_main_v198 (F := Ideal) x0 x1 x3 x4 x5 x6 x7 x8 x9 x10 x11 x12 x13 x14 (ix3 b n d) = wholeStream3 (embArr x0 x3 x4) x1 x5 x6 (wTable x7 x9 x11) (cTable x8 x10 x12) x13 x14 b n d := by
  rw [Cert.ReferenceIdeal.Layer2.stream_at]
  unfold wholeStream3 wholeLayer
  have hX : (fun n k => val_main_v143 (F := Ideal) x0 x1 x3 x4 x5 x6 x7 x8 x9 x10 x11 x12 x13 x14 (ix3 b n k)) = wholeStream2 (embArr x0 x3 x4) x1 x5 x6 (wTable x7 x9 x11) (cTable x8 x10 x12) x13 x14 b :=
    funext fun n => funext fun k => level2 x0 x1 x3 x4 x5 x6 x7 x8 x9 x10 x11 x12 x13 x14 b n k
  have hW1 : (fun e k => x7 (ix3 (2 : Fin 3) e k)) = (fun e k => wTable x7 x9 x11 (ix3 (2 : Fin 3) k (slot 0 e))) :=
    funext fun e => funext fun k => (wTable_slot0 x7 x9 x11 (2 : Fin 3) k e (slot 0 e) (slot0_val e)).symm
  have hW2 : (fun e k => x9 (ix3 (2 : Fin 3) e k)) = (fun e k => wTable x7 x9 x11 (ix3 (2 : Fin 3) k (slot 1 e))) :=
    funext fun e => funext fun k => (wTable_slot1 x7 x9 x11 (2 : Fin 3) k e (slot 1 e) (slot1_val e)).symm
  have hW3 : (fun e k => x11 (ix3 (2 : Fin 3) e k)) = (fun e k => wTable x7 x9 x11 (ix3 (2 : Fin 3) k (slot 2 e))) :=
    funext fun e => funext fun k => (wTable_slot2 x7 x9 x11 (2 : Fin 3) k e (slot 2 e) (slot2_val e)).symm
  have hc1 : (fun e => x8 (ix2 (2 : Fin 3) e)) = (fun e => cTable x8 x10 x12 (ix2 (2 : Fin 3) (slot 0 e))) :=
    funext fun e => (cTable_slot0 x8 x10 x12 (2 : Fin 3) e (slot 0 e) (slot0_val e)).symm
  have hc2 : (fun e => x10 (ix2 (2 : Fin 3) e)) = (fun e => cTable x8 x10 x12 (ix2 (2 : Fin 3) (slot 1 e))) :=
    funext fun e => (cTable_slot1 x8 x10 x12 (2 : Fin 3) e (slot 1 e) (slot1_val e)).symm
  have hc3 : (fun e => x12 (ix2 (2 : Fin 3) e)) = (fun e => cTable x8 x10 x12 (ix2 (2 : Fin 3) (slot 2 e))) :=
    funext fun e => (cTable_slot2 x8 x10 x12 (2 : Fin 3) e (slot 2 e) (slot2_val e)).symm
  rw [hX, hW1, hW2, hW3, hc1, hc2, hc3]

/-- The reference's result is the kernel's whole-array result of the same arguments. -/
theorem result_eq : val_main_v198 (F := Ideal) x0 x1 x3 x4 x5 x6 x7 x8 x9 x10 x11 x12 x13 x14 = wholeResult (embArr x0 x3 x4) x1 x5 x6 (wTable x7 x9 x11) (cTable x8 x10 x12) x13 x14 := by
  funext i
  obtain ⟨b, n, d, rfl⟩ : ∃ (b : Fin 1024) (n : Fin 256) (d : Fin 64), i = ix3 b n d := ⟨i 0, i 1, i 2, eq_ix3 i⟩
  exact level3 x0 x1 x3 x4 x5 x6 x7 x8 x9 x10 x11 x12 x13 x14 b n d

end Cert.SameResult

end
-- ==== Proof.lean ====
/-
  A fused three-layer graph network on 1024 molecules of 256 atoms and 64 features, against its plain reference.

  The kernel gathers the word embeddings on the host, adds the position embeddings, narrows to bf16, lays the three
  projection weights of each layer side by side (transposed, each in a 128-column slot padded with zeros) and the biases
  likewise, and runs ONE region over 64 grid points of 16 molecules each: normalise the embedding rows, then three times
  project (one wide product), cut off at zero, form the masked affinities, mix, normalise the rows and add. The reference
  does the same molecule by molecule with three separate projections per layer, in f32.

  THE FRAMES. The kernel's body is one straight sequence of whole-block loads and one whole-block store, so what its
  output buffer holds after the body is a pure function of the eight input blocks; the library's frame run then gives
  termination, no fault, the arguments unchanged, and the result array as the blocks written back — at the word level
  and at the extended reals alike. The reference is 239 host operations in a straight line; its run is read window by window (the embedding
  stage, then each layer), and its frame is that run with the result dropped.
  PRESERVES. The idealization rewrote no operation: nothing to show.
  ALGEBRAIC. At the extended reals every format change is the identity and every contraction a plain finite sum, so the
  kernel's block of 16 molecules is, molecule by molecule, the reference's computation with the same numbers read from
  other places: row 16t + p of the arrays instead of row p of block t, column 128j + e of row l of the padded table
  instead of entry (e, ·) of weight matrix j of layer l. No law of arithmetic is needed and the finiteness of the inputs is
  not used.
-/
import proofs.«161215_j83726092468549_2_alg».proof.Defs
import proofs.«161215_j83726092468549_2_alg».proof.Proof.Gen.Kernel
import proofs.«161215_j83726092468549_2_alg».proof.Proof.Gen.KernelIdeal
import proofs.«161215_j83726092468549_2_alg».proof.Proof.Gen.ReferenceIdeal
import proofs.«161215_j83726092468549_2_alg».proof.Proof.Gen.Pre_finite_inputs
import proofs.«161215_j83726092468549_2_alg».proof.Proof.RefRun
import proofs.«161215_j83726092468549_2_alg».proof.Proof.BitsRun
import proofs.«161215_j83726092468549_2_alg».proof.Proof.KernelResult
import proofs.«161215_j83726092468549_2_alg».proof.Proof.SameResult

set_option maxRecDepth 16384

noncomputable section

namespace Cert.Proof

open Idealize.ShloMosaic Idealize.SL.Sem

/-- The word-level kernel runs to the end, faults nowhere and leaves its arguments unchanged. -/
theorem frame_kernel : Cert.frame_Kernel := fun m ρ _ => Cert.Kernel.Run.frame m ρ

/-- So does the idealized kernel. -/
theorem frame_ideal : Cert.frame_KernelIdeal := fun m ρ _ => Cert.KernelIdeal.Run.frame m ρ

/-- So does the reference: its run, the result dropped. -/
theorem frame_reference : Cert.frame_ReferenceIdeal := fun m ρ _ =>
  (θ_run Cert.ReferenceIdeal.defs _ _).mono (fun _ h c => (h c).2) (Cert.ReferenceIdeal.HandRun.run m ρ)

/-- From memories agreeing on the arguments both idealized programs end with the same result array: the kernel's at its
    whole-array function of the arguments, the reference's at its composed term, which is that function. -/
theorem algebraic : Cert.algebraic_KernelIdeal_ReferenceIdeal := by
  intro m ρ m' ρ' _ hagree
  refine ⟨fun c => Cert.KernelIdeal.Block.resultOf m c, Cert.KernelIdeal.Block.run_value m ρ, ?_⟩
  refine (θ_run Cert.ReferenceIdeal.defs _ _).mono (fun _ h c => ⟨(h c).1.trans ?_, (h c).2⟩)
    (Cert.ReferenceIdeal.HandRun.run m' ρ')
  obtain ⟨h0, h1, h2, h3, h4, h5, h6, h7, h8, h9, h10, h11, h12, h13, h14⟩ := hagree c
  rw [Cert.SameResult.result_eq, h0, h1, h3, h4, h5, h6, h7, h8, h9, h10, h11, h12, h13, h14]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
